-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v191)) (v1 : (c : Dev Cert.KernelIdeal.nD) → Buf (Elt Ideal) ((c.tc : Thread Cert.KernelIdeal.nD Cert.KernelIdeal.τ).loc Cert.KernelIdeal.main_v383)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v191) = v0 c
          ∧ r.2.mem ((c.tc : Thread Cert.KernelIdeal.nD Cert.KernelIdeal.τ).loc Cert.KernelIdeal.main_v383) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v183) = v0 c
          ∧ r.2.mem ((c.tc : Thread Cert.ReferenceIdeal.nD Cert.ReferenceIdeal.τ).loc Cert.ReferenceIdeal.main_v367) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x768 : Shape := ⟨2, ![20000, 768]⟩
abbrev S20000x128 : Shape := ⟨2, ![20000, 128]⟩
abbrev S2x768x256 : Shape := ⟨3, ![2, 768, 256]⟩
abbrev S768x256 : Shape := ⟨2, ![768, 256]⟩
abbrev S256 : Shape := ⟨1, ![256]⟩
abbrev S2x256x128 : Shape := ⟨3, ![2, 256, 128]⟩
abbrev S256x128 : Shape := ⟨2, ![256, 128]⟩
abbrev S128 : Shape := ⟨1, ![128]⟩
abbrev S2x128x256 : Shape := ⟨3, ![2, 128, 256]⟩
abbrev S128x256 : Shape := ⟨2, ![128, 256]⟩
abbrev S2x320000 : Shape := ⟨2, ![2, 320000]⟩
abbrev S320000 : Shape := ⟨1, ![320000]⟩
abbrev S20000 : Shape := ⟨1, ![20000]⟩
abbrev S_ : Shape := ⟨0, ![]⟩

class Facts : Prop where
  bcast_S_S20000x768 : S_.BroadcastsInDim S20000x768 (![] : Fin 0 → Fin S20000x768.rank)
  reducesTo_S20000x768_S_d0_1 : S20000x768.ReducesTo [0, 1] S_
  h_S_ : 0 < S_.numel
  bcast_S_S20000x128 : S_.BroadcastsInDim S20000x128 (![] : Fin 0 → Fin S20000x128.rank)
  reducesTo_S20000x128_S_d0_1 : S20000x128.ReducesTo [0, 1] S_
  bcast_S_S2x768x256 : S_.BroadcastsInDim S2x768x256 (![] : Fin 0 → Fin S2x768x256.rank)
  reducesTo_S2x768x256_S_d0_1_2 : S2x768x256.ReducesTo [0, 1, 2] S_
  bcast_S_S768x256 : S_.BroadcastsInDim S768x256 (![] : Fin 0 → Fin S768x256.rank)
  reducesTo_S768x256_S_d0_1 : S768x256.ReducesTo [0, 1] S_
  bcast_S_S256 : S_.BroadcastsInDim S256 (![] : Fin 0 → Fin S256.rank)
  reducesTo_S256_S_d0 : S256.ReducesTo [0] S_
  bcast_S_S2x256x128 : S_.BroadcastsInDim S2x256x128 (![] : Fin 0 → Fin S2x256x128.rank)
  reducesTo_S2x256x128_S_d0_1_2 : S2x256x128.ReducesTo [0, 1, 2] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S2x128x256 : S_.BroadcastsInDim S2x128x256 (![] : Fin 0 → Fin S2x128x256.rank)
  reducesTo_S2x128x256_S_d0_1_2 : S2x128x256.ReducesTo [0, 1, 2] S_
  bcast_S_S128x256 : S_.BroadcastsInDim S128x256 (![] : Fin 0 → Fin S128x256.rank)
  reducesTo_S128x256_S_d0_1 : S128x256.ReducesTo [0, 1] S_

variable [Facts]

def fn_part6 {F : FTy → Type} [FloatOps F] (main_arg21 : FVec F S128 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128 .f32 := Host.absf main_arg21
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  main_v108

def fn_part5 {F : FTy → Type} [FloatOps F] (main_arg18 : FVec F S256 .f32) (main_arg19 : FVec F S256 .f32) (main_arg20 : FVec F S128 .f32) (main_arg21 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S256 .f32 := Host.absf main_arg18
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S256 .f32 := Host.absf main_arg19
  let main_cst_36 : FVec F S_ .f32 := constant S_ .f32 0x7F800000#32
  let main_v95 : FVec F S256 .f32 := broadcastInDim S256 ![] bcast_S_S256 main_cst_36
  let main_v96 : IVec S256 1 := cmpf .olt main_v94 main_v95
  let main_c_37 : IVec S_ 1 := constantI S_ 1 1#1
  let main_v97 : IVec S_ 1 := (fun x v => Host.reduce IntOp.andi x v reducesTo_S256_S_d0 h_S_) main_v96 main_c_37
  let main_v98 : IVec S_ 1 := andi main_v93 main_v97
  let main_v99 : FVec F S128 .f32 := Host.absf main_arg20
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg21 main_v98 main_v101 main_c_39

def fn_part4 {F : FTy → Type} [FloatOps F] (main_arg14 : FVec F S256 .f32) (main_arg15 : FVec F S256 .f32) (main_arg16 : FVec F S128 .f32) (main_arg17 : FVec F S128 .f32) (main_arg18 : FVec F S256 .f32) (main_arg19 : FVec F S256 .f32) (main_arg20 : FVec F S128 .f32) (main_arg21 : FVec F S128 .f32) (main_v63 : IVec S_ 1) (main_v67 : IVec S_ 1) : IVec S_ 1 :=
  let main_v68 : IVec S_ 1 := andi main_v63 main_v67
  let main_v69 : FVec F S256 .f32 := Host.absf main_arg14
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256 .f32 := Host.absf main_arg15
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S128 .f32 := Host.absf main_arg16
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg17
  let main_cst_32 : FVec F S_ .f32 := constant S_ .f32 0x7F800000#32
  fn_part5 (F := F) main_arg18 main_arg19 main_arg20 main_arg21 main_v83 main_v84 main_cst_32

def fn_part3 {F : FTy → Type} [FloatOps F] (main_arg11 : FVec F S2x256x128 .f32) (main_arg12 : FVec F S256x128 .f32) (main_arg13 : FVec F S128 .f32) (main_arg14 : FVec F S256 .f32) (main_arg15 : FVec F S256 .f32) (main_arg16 : FVec F S128 .f32) (main_arg17 : FVec F S128 .f32) (main_arg18 : FVec F S256 .f32) (main_arg19 : FVec F S256 .f32) (main_arg20 : FVec F S128 .f32) (main_arg21 : FVec F S128 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S2x256x128 .f32 := Host.absf main_arg11
  let main_cst_20 : FVec F S_ .f32 := constant S_ .f32 0x7F800000#32
  let main_v55 : FVec F S2x256x128 .f32 := broadcastInDim S2x256x128 ![] bcast_S_S2x256x128 main_cst_20
  let main_v56 : IVec S2x256x128 1 := cmpf .olt main_v54 main_v55
  let main_c_21 : IVec S_ 1 := constantI S_ 1 1#1
  let main_v57 : IVec S_ 1 := (fun x v => Host.reduce IntOp.andi x v reducesTo_S2x256x128_S_d0_1_2 h_S_) main_v56 main_c_21
  let main_v58 : IVec S_ 1 := andi main_v53 main_v57
  let main_v59 : FVec F S256x128 .f32 := Host.absf main_arg12
  let main_cst_22 : FVec F S_ .f32 := constant S_ .f32 0x7F800000#32
  let main_v60 : FVec F S256x128 .f32 := broadcastInDim S256x128 ![] bcast_S_S256x128 main_cst_22
  let main_v61 : IVec S256x128 1 := cmpf .olt main_v59 main_v60
  let main_c_23 : IVec S_ 1 := constantI S_ 1 1#1
  let main_v62 : IVec S_ 1 := (fun x v => Host.reduce IntOp.andi x v reducesTo_S256x128_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_arg16 main_arg17 main_arg18 main_arg19 main_arg20 main_arg21 main_v63 main_v67

def fn_part2 {F : FTy → Type} [FloatOps F] (main_arg7 : FVec F S128 .f32) (main_arg8 : FVec F S2x128x256 .f32) (main_arg9 : FVec F S128x256 .f32) (main_arg10 : FVec F S256 .f32) (main_arg11 : FVec F S2x256x128 .f32) (main_arg12 : FVec F S256x128 .f32) (main_arg13 : FVec F S128 .f32) (main_arg14 : FVec F S256 .f32) (main_arg15 : FVec F S256 .f32) (main_arg16 : FVec F S128 .f32) (main_arg17 : FVec F S128 .f32) (main_arg18 : FVec F S256 .f32) (main_arg19 : FVec F S256 .f32) (main_arg20 : FVec F S128 .f32) (main_arg21 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S2x128x256 .f32 := Host.absf main_arg8
  let main_cst_14 : FVec F S_ .f32 := constant S_ .f32 0x7F800000#32
  let main_v40 : FVec F S2x128x256 .f32 := broadcastInDim S2x128x256 ![] bcast_S_S2x128x256 main_cst_14
  let main_v41 : IVec S2x128x256 1 := cmpf .olt main_v39 main_v40
  let main_c_15 : IVec S_ 1 := constantI S_ 1 1#1
  let main_v42 : IVec S_ 1 := (fun x v => Host.reduce IntOp.andi x v reducesTo_S2x128x256_S_d0_1_2 h_S_) main_v41 main_c_15
  let main_v43 : IVec S_ 1 := andi main_v38 main_v42
  let main_v44 : FVec F S128x256 .f32 := Host.absf main_arg9
  let main_cst_16 : FVec F S_ .f32 := constant S_ .f32 0x7F800000#32
  let main_v45 : FVec F S128x256 .f32 := broadcastInDim S128x256 ![] bcast_S_S128x256 main_cst_16
  let main_v46 : IVec S128x256 1 := cmpf .olt main_v44 main_v45
  let main_c_17 : IVec S_ 1 := constantI S_ 1 1#1
  let main_v47 : IVec S_ 1 := (fun x v => Host.reduce IntOp.andi x v reducesTo_S128x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_arg14 main_arg15 main_arg16 main_arg17 main_arg18 main_arg19 main_arg20 main_arg21 main_v48 main_v49 main_v50

def fn_part1 {F : FTy → Type} [FloatOps F] (main_arg4 : FVec F S256 .f32) (main_arg5 : FVec F S2x256x128 .f32) (main_arg6 : FVec F S256x128 .f32) (main_arg7 : FVec F S128 .f32) (main_arg8 : FVec F S2x128x256 .f32) (main_arg9 : FVec F S128x256 .f32) (main_arg10 : FVec F S256 .f32) (main_arg11 : FVec F S2x256x128 .f32) (main_arg12 : FVec F S256x128 .f32) (main_arg13 : FVec F S128 .f32) (main_arg14 : FVec F S256 .f32) (main_arg15 : FVec F S256 .f32) (main_arg16 : FVec F S128 .f32) (main_arg17 : FVec F S128 .f32) (main_arg18 : FVec F S256 .f32) (main_arg19 : FVec F S256 .f32) (main_arg20 : FVec F S128 .f32) (main_arg21 : FVec F S128 .f32) (main_v13 : IVec S_ 1) (main_v16 : IVec S768x256 1) : IVec S_ 1 :=
  let main_c_5 : IVec S_ 1 := constantI S_ 1 1#1
  let main_v17 : IVec S_ 1 := (fun x v => Host.reduce IntOp.andi x v reducesTo_S768x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S2x256x128 .f32 := Host.absf main_arg5
  let main_cst_8 : FVec F S_ .f32 := constant S_ .f32 0x7F800000#32
  let main_v25 : FVec F S2x256x128 .f32 := broadcastInDim S2x256x128 ![] bcast_S_S2x256x128 main_cst_8
  let main_v26 : IVec S2x256x128 1 := cmpf .olt main_v24 main_v25
  let main_c_9 : IVec S_ 1 := constantI S_ 1 1#1
  let main_v27 : IVec S_ 1 := (fun x v => Host.reduce IntOp.andi x v reducesTo_S2x256x128_S_d0_1_2 h_S_) main_v26 main_c_9
  let main_v28 : IVec S_ 1 := andi main_v23 main_v27
  let main_v29 : FVec F S256x128 .f32 := Host.absf main_arg6
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_v33

def fn {F : FTy → Type} [FloatOps F] (main_arg0 : FVec F S20000x768 .f32) (main_arg1 : FVec F S20000x128 .f32) (main_arg2 : FVec F S2x768x256 .f32) (main_arg3 : FVec F S768x256 .f32) (main_arg4 : FVec F S256 .f32) (main_arg5 : FVec F S2x256x128 .f32) (main_arg6 : FVec F S256x128 .f32) (main_arg7 : FVec F S128 .f32) (main_arg8 : FVec F S2x128x256 .f32) (main_arg9 : FVec F S128x256 .f32) (main_arg10 : FVec F S256 .f32) (main_arg11 : FVec F S2x256x128 .f32) (main_arg12 : FVec F S256x128 .f32) (main_arg13 : FVec F S128 .f32) (main_arg14 : FVec F S256 .f32) (main_arg15 : FVec F S256 .f32) (main_arg16 : FVec F S128 .f32) (main_arg17 : FVec F S128 .f32) (main_arg18 : FVec F S256 .f32) (main_arg19 : FVec F S256 .f32) (main_arg20 : FVec F S128 .f32) (main_arg21 : FVec F S128 .f32) (main_arg22 : IVec S2x320000 32) (main_arg23 : IVec S320000 32) (main_arg24 : IVec S20000 32) (main_arg25 : IVec S2x320000 32) (main_arg26 : IVec S320000 32) (main_arg27 : IVec S20000 32) : IVec S_ 1 :=
  let main_v0 : FVec F S20000x768 .f32 := Host.absf main_arg0
  let main_cst : FVec F S_ .f32 := constant S_ .f32 0x7F800000#32
  let main_v1 : FVec F S20000x768 .f32 := broadcastInDim S20000x768 ![] bcast_S_S20000x768 main_cst
  let main_v2 : IVec S20000x768 1 := cmpf .olt main_v0 main_v1
  let main_c : IVec S_ 1 := constantI S_ 1 1#1
  let main_v3 : IVec S_ 1 := (fun x v => Host.reduce IntOp.andi x v reducesTo_S20000x768_S_d0_1 h_S_) main_v2 main_c
  let main_v4 : FVec F S20000x128 .f32 := Host.absf main_arg1
  let main_cst_0 : FVec F S_ .f32 := constant S_ .f32 0x7F800000#32
  let main_v5 : FVec F S20000x128 .f32 := broadcastInDim S20000x128 ![] bcast_S_S20000x128 main_cst_0
  let main_v6 : IVec S20000x128 1 := cmpf .olt main_v4 main_v5
  let main_c_1 : IVec S_ 1 := constantI S_ 1 1#1
  let main_v7 : IVec S_ 1 := (fun x v => Host.reduce IntOp.andi x v reducesTo_S20000x128_S_d0_1 h_S_) main_v6 main_c_1
  let main_v8 : IVec S_ 1 := andi main_v3 main_v7
  let main_v9 : FVec F S2x768x256 .f32 := Host.absf main_arg2
  let main_cst_2 : FVec F S_ .f32 := constant S_ .f32 0x7F800000#32
  let main_v10 : FVec F S2x768x256 .f32 := broadcastInDim S2x768x256 ![] bcast_S_S2x768x256 main_cst_2
  let main_v11 : IVec S2x768x256 1 := cmpf .olt main_v9 main_v10
  let main_c_3 : IVec S_ 1 := constantI S_ 1 1#1
  let main_v12 : IVec S_ 1 := (fun x v => Host.reduce IntOp.andi x v reducesTo_S2x768x256_S_d0_1_2 h_S_) main_v11 main_c_3
  let main_v13 : IVec S_ 1 := andi main_v8 main_v12
  let main_v14 : FVec F S768x256 .f32 := Host.absf main_arg3
  let main_cst_4 : FVec F S_ .f32 := constant S_ .f32 0x7F800000#32
  let main_v15 : FVec F S768x256 .f32 := broadcastInDim S768x256 ![] bcast_S_S768x256 main_cst_4
  let main_v16 : IVec S768x256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S20000x768 : Shape := ⟨2, ![20000, 768]⟩
abbrev S20000x128 : Shape := ⟨2, ![20000, 128]⟩
abbrev S2x768x256 : Shape := ⟨3, ![2, 768, 256]⟩
abbrev S768x256 : Shape := ⟨2, ![768, 256]⟩
abbrev S256 : Shape := ⟨1, ![256]⟩
abbrev S2x256x128 : Shape := ⟨3, ![2, 256, 128]⟩
abbrev S256x128 : Shape := ⟨2, ![256, 128]⟩
abbrev S128 : Shape := ⟨1, ![128]⟩
abbrev S2x128x256 : Shape := ⟨3, ![2, 128, 256]⟩
abbrev S128x256 : Shape := ⟨2, ![128, 256]⟩
abbrev S2x320000 : Shape := ⟨2, ![2, 320000]⟩
abbrev S320000 : Shape := ⟨1, ![320000]⟩
abbrev S20000 : Shape := ⟨1, ![20000]⟩
abbrev S1x768x256 : Shape := ⟨3, ![1, 768, 256]⟩
abbrev S768x768 : Shape := ⟨2, ![768, 768]⟩
abbrev S2000x768 : Shape := ⟨2, ![2000, 768]⟩
abbrev S1x320000 : Shape := ⟨2, ![1, 320000]⟩
abbrev S20000x256 : Shape := ⟨2, ![20000, 256]⟩
abbrev S1x256 : Shape := ⟨2, ![1, 256]⟩
abbrev S_ : Shape := ⟨0, ![]⟩
abbrev S320000x1 : Shape := ⟨2, ![320000, 1]⟩
abbrev S320000x256 : Shape := ⟨2, ![320000, 256]⟩
abbrev S20000x1 : Shape := ⟨2, ![20000, 1]⟩
abbrev S1x256x128 : Shape := ⟨3, ![1, 256, 128]⟩
abbrev S256x384 : Shape := ⟨2, ![256, 384]⟩
abbrev S20000x384 : Shape := ⟨2, ![20000, 384]⟩
abbrev S2000x256 : Shape := ⟨2, ![2000, 256]⟩
abbrev S2000x384 : Shape := ⟨2, ![2000, 384]⟩
abbrev S1x128 : Shape := ⟨2, ![1, 128]⟩
abbrev S320000x128 : Shape := ⟨2, ![320000, 128]⟩
abbrev S64x128 : Shape := ⟨2, ![64, 128]⟩
abbrev S64 : Shape := ⟨1, ![64]⟩
abbrev S64x1 : Shape := ⟨2, ![64, 1]⟩
abbrev S1x128x256 : Shape := ⟨3, ![1, 128, 256]⟩
abbrev S128x768 : Shape := ⟨2, ![128, 768]⟩
abbrev S2000x128 : Shape := ⟨2, ![2000, 128]⟩

abbrev nBuf : Space → Nat
  | .hbm => 608
  | .vmem => 20
  | .smem => 0
  | _ => 0

abbrev hbmTy0_0 (i : Nat) : BufTy := match i % 128 with
  | 0 => ⟨S20000x768, .f32⟩
  | 1 => ⟨S20000x128, .f32⟩
  | 2 => ⟨S2x768x256, .f32⟩
  | 3 => ⟨S768x256, .f32⟩
  | 4 => ⟨S256, .f32⟩
  | 5 => ⟨S2x256x128, .f32⟩
  | 6 => ⟨S256x128, .f32⟩
  | 7 => ⟨S128, .f32⟩
  | 8 => ⟨S2x128x256, .f32⟩
  | 9 => ⟨S128x256, .f32⟩
  | 10 => ⟨S256, .f32⟩
  | 11 => ⟨S2x256x128, .f32⟩
  | 12 => ⟨S256x128, .f32⟩
  | 13 => ⟨S128, .f32⟩
  | 14 => ⟨S256, .f32⟩
  | 15 => ⟨S256, .f32⟩
  | 16 => ⟨S128, .f32⟩
  | 17 => ⟨S128, .f32⟩
  | 18 => ⟨S256, .f32⟩
  | 19 => ⟨S256, .f32⟩
  | 20 => ⟨S128, .f32⟩
  | 21 => ⟨S128, .f32⟩
  | 22 => ⟨S2x320000, .i32⟩
  | 23 => ⟨S320000, .i32⟩
  | 24 => ⟨S20000, .i32⟩
  | 25 => ⟨S2x320000, .i32⟩
  | 26 => ⟨S320000, .i32⟩
  | 27 => ⟨S20000, .i32⟩
  | 28 => ⟨S1x768x256, .f32⟩
  | 29 => ⟨S768x256, .f32⟩
  | 30 => ⟨S1x768x256, .f32⟩
  | 31 => ⟨S768x256, .f32⟩
  | 32 => ⟨S768x768, .f32⟩
  | 33 => ⟨S20000x768, .bf16⟩
  | 34 => ⟨S768x768, .bf16⟩
  | 35 => ⟨S20000x768, .f32⟩
  | 36 => ⟨S1x320000, .i32⟩
  | 37 => ⟨S320000, .i32⟩
  | 38 => ⟨S1x320000, .i32⟩
  | 39 => ⟨S320000, .i32⟩
  | 40 => ⟨S20000x256, .f32⟩
  | 41 => ⟨S1x256, .f32⟩
  | 42 => ⟨S20000x256, .f32⟩
  | 43 => ⟨S20000x256, .f32⟩
  | 44 => ⟨S20000x256, .f32⟩
  | 45 => ⟨S_, .i32⟩
  | 46 => ⟨S320000, .i32⟩
  | 47 => ⟨S320000, .i1⟩
  | 48 => ⟨S320000x1, .i1⟩
  | 49 => ⟨S_, .i32⟩
  | 50 => ⟨S320000, .i32⟩
  | 51 => ⟨S320000, .i1⟩
  | 52 => ⟨S_, .i32⟩
  | 53 => ⟨S320000, .i32⟩
  | 54 => ⟨S320000, .i32⟩
  | 55 => ⟨S320000, .i32⟩
  | 56 => ⟨S320000x1, .i32⟩
  | 57 => ⟨S320000x256, .f32⟩
  | 58 => ⟨S_, .f32⟩
  | 59 => ⟨S_, .f32⟩
  | 60 => ⟨S320000x256, .i1⟩
  | 61 => ⟨S320000x256, .f32⟩
  | 62 => ⟨S320000x256, .f32⟩
  | 63 => ⟨S_, .f32⟩
  | 64 => ⟨S20000x256, .f32⟩
  | 65 => ⟨S320000x1, .i32⟩
  | 66 => ⟨S20000x256, .f32⟩
  | 67 => ⟨S320000, .f32⟩
  | 68 => ⟨S_, .f32⟩
  | 69 => ⟨S20000, .f32⟩
  | 70 => ⟨S320000x1, .i32⟩
  | 71 => ⟨S20000, .f32⟩
  | 72 => ⟨S_, .f32⟩
  | 73 => ⟨S20000, .f32⟩
  | 74 => ⟨S20000, .f32⟩
  | 75 => ⟨S20000x1, .f32⟩
  | 76 => ⟨S20000x256, .f32⟩
  | 77 => ⟨S20000x256, .f32⟩
  | 78 => ⟨S20000x256, .f32⟩
  | 79 => ⟨S20000x256, .f32⟩
  | 80 => ⟨S_, .i32⟩
  | 81 => ⟨S320000, .i32⟩
  | 82 => ⟨S320000, .i1⟩
  | 83 => ⟨S320000x1, .i1⟩
  | 84 => ⟨S_, .i32⟩
  | 85 => ⟨S320000, .i32⟩
  | 86 => ⟨S320000, .i1⟩
  | 87 => ⟨S_, .i32⟩
  | 88 => ⟨S320000, .i32⟩
  | 89 => ⟨S320000, .i32⟩
  | 90 => ⟨S320000, .i32⟩
  | 91 => ⟨S320000x1, .i32⟩
  | 92 => ⟨S320000x256, .f32⟩
  | 93 => ⟨S_, .f32⟩
  | 94 => ⟨S_, .f32⟩
  | 95 => ⟨S320000x256, .i1⟩
  | 96 => ⟨S320000x256, .f32⟩
  | 97 => ⟨S320000x256, .f32⟩
  | 98 => ⟨S_, .f32⟩
  | 99 => ⟨S20000x256, .f32⟩
  | 100 => ⟨S320000x1, .i32⟩
  | 101 => ⟨S20000x256, .f32⟩
  | 102 => ⟨S320000, .f32⟩
  | 103 => ⟨S_, .f32⟩
  | 104 => ⟨S20000, .f32⟩
  | 105 => ⟨S320000x1, .i32⟩
  | 106 => ⟨S20000, .f32⟩
  | 107 => ⟨S_, .f32⟩
  | 108 => ⟨S20000, .f32⟩
  | 109 => ⟨S20000, .f32⟩
  | 110 => ⟨S20000x1, .f32⟩
  | 111 => ⟨S20000x256, .f32⟩
  | 112 => ⟨S20000x256, .f32⟩
  | 113 => ⟨S20000x256, .f32⟩
  | 114 => ⟨S_, .f32⟩
  | 115 => ⟨S256, .f32⟩
  | 116 => ⟨S_, .f32⟩
  | 117 => ⟨S256, .f32⟩
  | 118 => ⟨S256, .f32⟩
  | 119 => ⟨S_, .i32⟩
  | 120 => ⟨S_, .f32⟩
  | 121 => ⟨S256, .f32⟩
  | 122 => ⟨S1x256, .f32⟩
  | 123 => ⟨S_, .f32⟩
  | 124 => ⟨S1x256, .f32⟩
  | 125 => ⟨S1x256, .f32⟩
  | 126 => ⟨S20000x256, .f32⟩
  | 127 => ⟨S20000x256, .f32⟩
  | _ => ⟨S20000x768, .f32⟩

abbrev hbmTy0_1 (i : Nat) : BufTy := match i % 128 with
  | 0 => ⟨S20000x256, .f32⟩
  | 1 => ⟨S_, .f32⟩
  | 2 => ⟨S_, .f32⟩
  | 3 => ⟨S_, .f32⟩
  | 4 => ⟨S_, .f32⟩
  | 5 => ⟨S256, .f32⟩
  | 6 => ⟨S256, .f32⟩
  | 7 => ⟨S256, .f32⟩
  | 8 => ⟨S_, .f32⟩
  | 9 => ⟨S_, .i1⟩
  | 10 => ⟨S_, .f32⟩
  | 11 => ⟨S_, .f32⟩
  | 12 => ⟨S256, .f32⟩
  | 13 => ⟨S256, .f32⟩
  | 14 => ⟨S1x256, .f32⟩
  | 15 => ⟨S20000x256, .f32⟩
  | 16 => ⟨S20000x256, .f32⟩
  | 17 => ⟨S_, .f32⟩
  | 18 => ⟨S256, .f32⟩
  | 19 => ⟨S256, .f32⟩
  | 20 => ⟨S256, .f32⟩
  | 21 => ⟨S1x256, .f32⟩
  | 22 => ⟨S20000x256, .f32⟩
  | 23 => ⟨S20000x256, .f32⟩
  | 24 => ⟨S1x256, .f32⟩
  | 25 => ⟨S20000x256, .f32⟩
  | 26 => ⟨S20000x256, .f32⟩
  | 27 => ⟨S1x256, .f32⟩
  | 28 => ⟨S20000x256, .f32⟩
  | 29 => ⟨S20000x256, .f32⟩
  | 30 => ⟨S_, .f32⟩
  | 31 => ⟨S20000x256, .f32⟩
  | 32 => ⟨S20000x256, .i1⟩
  | 33 => ⟨S_, .f32⟩
  | 34 => ⟨S20000x256, .f32⟩
  | 35 => ⟨S20000x256, .f32⟩
  | 36 => ⟨S20000x256, .f32⟩
  | 37 => ⟨S1x256x128, .f32⟩
  | 38 => ⟨S256x128, .f32⟩
  | 39 => ⟨S1x256x128, .f32⟩
  | 40 => ⟨S256x128, .f32⟩
  | 41 => ⟨S256x384, .f32⟩
  | 42 => ⟨S20000x256, .bf16⟩
  | 43 => ⟨S256x384, .bf16⟩
  | 44 => ⟨S20000x384, .f32⟩
  | 45 => ⟨S1x320000, .i32⟩
  | 46 => ⟨S320000, .i32⟩
  | 47 => ⟨S1x320000, .i32⟩
  | 48 => ⟨S320000, .i32⟩
  | 49 => ⟨S20000x128, .f32⟩
  | 50 => ⟨S1x128, .f32⟩
  | 51 => ⟨S20000x128, .f32⟩
  | 52 => ⟨S20000x128, .f32⟩
  | 53 => ⟨S20000x128, .f32⟩
  | 54 => ⟨S_, .i32⟩
  | 55 => ⟨S320000, .i32⟩
  | 56 => ⟨S320000, .i1⟩
  | 57 => ⟨S320000x1, .i1⟩
  | 58 => ⟨S_, .i32⟩
  | 59 => ⟨S320000, .i32⟩
  | 60 => ⟨S320000, .i1⟩
  | 61 => ⟨S_, .i32⟩
  | 62 => ⟨S320000, .i32⟩
  | 63 => ⟨S320000, .i32⟩
  | 64 => ⟨S320000, .i32⟩
  | 65 => ⟨S320000x1, .i32⟩
  | 66 => ⟨S320000x128, .f32⟩
  | 67 => ⟨S_, .f32⟩
  | 68 => ⟨S_, .f32⟩
  | 69 => ⟨S320000x128, .i1⟩
  | 70 => ⟨S320000x128, .f32⟩
  | 71 => ⟨S320000x128, .f32⟩
  | 72 => ⟨S_, .f32⟩
  | 73 => ⟨S20000x128, .f32⟩
  | 74 => ⟨S320000x1, .i32⟩
  | 75 => ⟨S20000x128, .f32⟩
  | 76 => ⟨S320000, .f32⟩
  | 77 => ⟨S_, .f32⟩
  | 78 => ⟨S20000, .f32⟩
  | 79 => ⟨S320000x1, .i32⟩
  | 80 => ⟨S20000, .f32⟩
  | 81 => ⟨S_, .f32⟩
  | 82 => ⟨S20000, .f32⟩
  | 83 => ⟨S20000, .f32⟩
  | 84 => ⟨S20000x1, .f32⟩
  | 85 => ⟨S20000x128, .f32⟩
  | 86 => ⟨S20000x128, .f32⟩
  | 87 => ⟨S20000x128, .f32⟩
  | 88 => ⟨S20000x128, .f32⟩
  | 89 => ⟨S_, .i32⟩
  | 90 => ⟨S320000, .i32⟩
  | 91 => ⟨S320000, .i1⟩
  | 92 => ⟨S320000x1, .i1⟩
  | 93 => ⟨S_, .i32⟩
  | 94 => ⟨S320000, .i32⟩
  | 95 => ⟨S320000, .i1⟩
  | 96 => ⟨S_, .i32⟩
  | 97 => ⟨S320000, .i32⟩
  | 98 => ⟨S320000, .i32⟩
  | 99 => ⟨S320000, .i32⟩
  | 100 => ⟨S320000x1, .i32⟩
  | 101 => ⟨S320000x128, .f32⟩
  | 102 => ⟨S_, .f32⟩
  | 103 => ⟨S_, .f32⟩
  | 104 => ⟨S320000x128, .i1⟩
  | 105 => ⟨S320000x128, .f32⟩
  | 106 => ⟨S320000x128, .f32⟩
  | 107 => ⟨S_, .f32⟩
  | 108 => ⟨S20000x128, .f32⟩
  | 109 => ⟨S320000x1, .i32⟩
  | 110 => ⟨S20000x128, .f32⟩
  | 111 => ⟨S320000, .f32⟩
  | 112 => ⟨S_, .f32⟩
  | 113 => ⟨S20000, .f32⟩
  | 114 => ⟨S320000x1, .i32⟩
  | 115 => ⟨S20000, .f32⟩
  | 116 => ⟨S_, .f32⟩
  | 117 => ⟨S20000, .f32⟩
  | 118 => ⟨S20000, .f32⟩
  | 119 => ⟨S20000x1, .f32⟩
  | 120 => ⟨S20000x128, .f32⟩
  | 121 => ⟨S20000x128, .f32⟩
  | 122 => ⟨S20000x128, .f32⟩
  | 123 => ⟨S_, .f32⟩
  | 124 => ⟨S128, .f32⟩
  | 125 => ⟨S_, .f32⟩
  | 126 => ⟨S128, .f32⟩
  | 127 => ⟨S128, .f32⟩
  | _ => ⟨S20000x768, .f32⟩

abbrev hbmTy0_2 (i : Nat) : BufTy := match i % 128 with
  | 0 => ⟨S_, .i32⟩
  | 1 => ⟨S_, .f32⟩
  | 2 => ⟨S128, .f32⟩
  | 3 => ⟨S1x128, .f32⟩
  | 4 => ⟨S_, .f32⟩
  | 5 => ⟨S1x128, .f32⟩
  | 6 => ⟨S1x128, .f32⟩
  | 7 => ⟨S20000x128, .f32⟩
  | 8 => ⟨S20000x128, .f32⟩
  | 9 => ⟨S20000x128, .f32⟩
  | 10 => ⟨S_, .f32⟩
  | 11 => ⟨S_, .f32⟩
  | 12 => ⟨S_, .f32⟩
  | 13 => ⟨S_, .f32⟩
  | 14 => ⟨S128, .f32⟩
  | 15 => ⟨S128, .f32⟩
  | 16 => ⟨S128, .f32⟩
  | 17 => ⟨S_, .f32⟩
  | 18 => ⟨S_, .i1⟩
  | 19 => ⟨S_, .f32⟩
  | 20 => ⟨S_, .f32⟩
  | 21 => ⟨S128, .f32⟩
  | 22 => ⟨S128, .f32⟩
  | 23 => ⟨S1x128, .f32⟩
  | 24 => ⟨S20000x128, .f32⟩
  | 25 => ⟨S20000x128, .f32⟩
  | 26 => ⟨S_, .f32⟩
  | 27 => ⟨S128, .f32⟩
  | 28 => ⟨S128, .f32⟩
  | 29 => ⟨S128, .f32⟩
  | 30 => ⟨S1x128, .f32⟩
  | 31 => ⟨S20000x128, .f32⟩
  | 32 => ⟨S20000x128, .f32⟩
  | 33 => ⟨S1x128, .f32⟩
  | 34 => ⟨S20000x128, .f32⟩
  | 35 => ⟨S20000x128, .f32⟩
  | 36 => ⟨S1x128, .f32⟩
  | 37 => ⟨S20000x128, .f32⟩
  | 38 => ⟨S20000x128, .f32⟩
  | 39 => ⟨S_, .f32⟩
  | 40 => ⟨S20000x128, .f32⟩
  | 41 => ⟨S20000x128, .i1⟩
  | 42 => ⟨S_, .f32⟩
  | 43 => ⟨S20000x128, .f32⟩
  | 44 => ⟨S20000x128, .f32⟩
  | 45 => ⟨S20000x128, .f32⟩
  | 46 => ⟨S_, .f32⟩
  | 47 => ⟨S64x128, .f32⟩
  | 48 => ⟨S20000x1, .i32⟩
  | 49 => ⟨S64x128, .f32⟩
  | 50 => ⟨S_, .f32⟩
  | 51 => ⟨S20000, .f32⟩
  | 52 => ⟨S_, .f32⟩
  | 53 => ⟨S64, .f32⟩
  | 54 => ⟨S20000x1, .i32⟩
  | 55 => ⟨S64, .f32⟩
  | 56 => ⟨S_, .f32⟩
  | 57 => ⟨S64, .f32⟩
  | 58 => ⟨S64, .f32⟩
  | 59 => ⟨S64x1, .f32⟩
  | 60 => ⟨S64x128, .f32⟩
  | 61 => ⟨S64x128, .f32⟩
  | 62 => ⟨S1x128x256, .f32⟩
  | 63 => ⟨S128x256, .f32⟩
  | 64 => ⟨S1x128x256, .f32⟩
  | 65 => ⟨S128x256, .f32⟩
  | 66 => ⟨S128x768, .f32⟩
  | 67 => ⟨S20000x128, .bf16⟩
  | 68 => ⟨S128x768, .bf16⟩
  | 69 => ⟨S20000x768, .f32⟩
  | 70 => ⟨S1x320000, .i32⟩
  | 71 => ⟨S320000, .i32⟩
  | 72 => ⟨S1x320000, .i32⟩
  | 73 => ⟨S320000, .i32⟩
  | 74 => ⟨S20000x256, .f32⟩
  | 75 => ⟨S1x256, .f32⟩
  | 76 => ⟨S20000x256, .f32⟩
  | 77 => ⟨S20000x256, .f32⟩
  | 78 => ⟨S20000x256, .f32⟩
  | 79 => ⟨S_, .i32⟩
  | 80 => ⟨S320000, .i32⟩
  | 81 => ⟨S320000, .i1⟩
  | 82 => ⟨S320000x1, .i1⟩
  | 83 => ⟨S_, .i32⟩
  | 84 => ⟨S320000, .i32⟩
  | 85 => ⟨S320000, .i1⟩
  | 86 => ⟨S_, .i32⟩
  | 87 => ⟨S320000, .i32⟩
  | 88 => ⟨S320000, .i32⟩
  | 89 => ⟨S320000, .i32⟩
  | 90 => ⟨S320000x1, .i32⟩
  | 91 => ⟨S320000x256, .f32⟩
  | 92 => ⟨S_, .f32⟩
  | 93 => ⟨S_, .f32⟩
  | 94 => ⟨S320000x256, .i1⟩
  | 95 => ⟨S320000x256, .f32⟩
  | 96 => ⟨S320000x256, .f32⟩
  | 97 => ⟨S_, .f32⟩
  | 98 => ⟨S20000x256, .f32⟩
  | 99 => ⟨S320000x1, .i32⟩
  | 100 => ⟨S20000x256, .f32⟩
  | 101 => ⟨S320000, .f32⟩
  | 102 => ⟨S_, .f32⟩
  | 103 => ⟨S20000, .f32⟩
  | 104 => ⟨S320000x1, .i32⟩
  | 105 => ⟨S20000, .f32⟩
  | 106 => ⟨S_, .f32⟩
  | 107 => ⟨S20000, .f32⟩
  | 108 => ⟨S20000, .f32⟩
  | 109 => ⟨S20000x1, .f32⟩
  | 110 => ⟨S20000x256, .f32⟩
  | 111 => ⟨S20000x256, .f32⟩
  | 112 => ⟨S20000x256, .f32⟩
  | 113 => ⟨S20000x256, .f32⟩
  | 114 => ⟨S_, .i32⟩
  | 115 => ⟨S320000, .i32⟩
  | 116 => ⟨S320000, .i1⟩
  | 117 => ⟨S320000x1, .i1⟩
  | 118 => ⟨S_, .i32⟩
  | 119 => ⟨S320000, .i32⟩
  | 120 => ⟨S320000, .i1⟩
  | 121 => ⟨S_, .i32⟩
  | 122 => ⟨S320000, .i32⟩
  | 123 => ⟨S320000, .i32⟩
  | 124 => ⟨S320000, .i32⟩
  | 125 => ⟨S320000x1, .i32⟩
  | 126 => ⟨S320000x256, .f32⟩
  | 127 => ⟨S_, .f32⟩
  | _ => ⟨S20000x768, .f32⟩

abbrev hbmTy0_3 (i : Nat) : BufTy := match i % 128 with
  | 0 => ⟨S_, .f32⟩
  | 1 => ⟨S320000x256, .i1⟩
  | 2 => ⟨S320000x256, .f32⟩
  | 3 => ⟨S320000x256, .f32⟩
  | 4 => ⟨S_, .f32⟩
  | 5 => ⟨S20000x256, .f32⟩
  | 6 => ⟨S320000x1, .i32⟩
  | 7 => ⟨S20000x256, .f32⟩
  | 8 => ⟨S320000, .f32⟩
  | 9 => ⟨S_, .f32⟩
  | 10 => ⟨S20000, .f32⟩
  | 11 => ⟨S320000x1, .i32⟩
  | 12 => ⟨S20000, .f32⟩
  | 13 => ⟨S_, .f32⟩
  | 14 => ⟨S20000, .f32⟩
  | 15 => ⟨S20000, .f32⟩
  | 16 => ⟨S20000x1, .f32⟩
  | 17 => ⟨S20000x256, .f32⟩
  | 18 => ⟨S20000x256, .f32⟩
  | 19 => ⟨S20000x256, .f32⟩
  | 20 => ⟨S_, .f32⟩
  | 21 => ⟨S256, .f32⟩
  | 22 => ⟨S_, .f32⟩
  | 23 => ⟨S256, .f32⟩
  | 24 => ⟨S256, .f32⟩
  | 25 => ⟨S_, .i32⟩
  | 26 => ⟨S_, .f32⟩
  | 27 => ⟨S256, .f32⟩
  | 28 => ⟨S1x256, .f32⟩
  | 29 => ⟨S_, .f32⟩
  | 30 => ⟨S1x256, .f32⟩
  | 31 => ⟨S1x256, .f32⟩
  | 32 => ⟨S20000x256, .f32⟩
  | 33 => ⟨S20000x256, .f32⟩
  | 34 => ⟨S20000x256, .f32⟩
  | 35 => ⟨S_, .f32⟩
  | 36 => ⟨S_, .f32⟩
  | 37 => ⟨S_, .f32⟩
  | 38 => ⟨S_, .f32⟩
  | 39 => ⟨S256, .f32⟩
  | 40 => ⟨S256, .f32⟩
  | 41 => ⟨S256, .f32⟩
  | 42 => ⟨S_, .f32⟩
  | 43 => ⟨S_, .i1⟩
  | 44 => ⟨S_, .f32⟩
  | 45 => ⟨S_, .f32⟩
  | 46 => ⟨S256, .f32⟩
  | 47 => ⟨S256, .f32⟩
  | 48 => ⟨S1x256, .f32⟩
  | 49 => ⟨S20000x256, .f32⟩
  | 50 => ⟨S20000x256, .f32⟩
  | 51 => ⟨S_, .f32⟩
  | 52 => ⟨S256, .f32⟩
  | 53 => ⟨S256, .f32⟩
  | 54 => ⟨S256, .f32⟩
  | 55 => ⟨S1x256, .f32⟩
  | 56 => ⟨S20000x256, .f32⟩
  | 57 => ⟨S20000x256, .f32⟩
  | 58 => ⟨S1x256, .f32⟩
  | 59 => ⟨S20000x256, .f32⟩
  | 60 => ⟨S20000x256, .f32⟩
  | 61 => ⟨S1x256, .f32⟩
  | 62 => ⟨S20000x256, .f32⟩
  | 63 => ⟨S20000x256, .f32⟩
  | 64 => ⟨S_, .f32⟩
  | 65 => ⟨S20000x256, .f32⟩
  | 66 => ⟨S20000x256, .i1⟩
  | 67 => ⟨S_, .f32⟩
  | 68 => ⟨S20000x256, .f32⟩
  | 69 => ⟨S20000x256, .f32⟩
  | 70 => ⟨S20000x256, .f32⟩
  | 71 => ⟨S1x256x128, .f32⟩
  | 72 => ⟨S256x128, .f32⟩
  | 73 => ⟨S1x256x128, .f32⟩
  | 74 => ⟨S256x128, .f32⟩
  | 75 => ⟨S256x384, .f32⟩
  | 76 => ⟨S20000x256, .bf16⟩
  | 77 => ⟨S256x384, .bf16⟩
  | 78 => ⟨S20000x384, .f32⟩
  | 79 => ⟨S1x320000, .i32⟩
  | 80 => ⟨S320000, .i32⟩
  | 81 => ⟨S1x320000, .i32⟩
  | 82 => ⟨S320000, .i32⟩
  | 83 => ⟨S20000x128, .f32⟩
  | 84 => ⟨S1x128, .f32⟩
  | 85 => ⟨S20000x128, .f32⟩
  | 86 => ⟨S20000x128, .f32⟩
  | 87 => ⟨S20000x128, .f32⟩
  | 88 => ⟨S_, .i32⟩
  | 89 => ⟨S320000, .i32⟩
  | 90 => ⟨S320000, .i1⟩
  | 91 => ⟨S320000x1, .i1⟩
  | 92 => ⟨S_, .i32⟩
  | 93 => ⟨S320000, .i32⟩
  | 94 => ⟨S320000, .i1⟩
  | 95 => ⟨S_, .i32⟩
  | 96 => ⟨S320000, .i32⟩
  | 97 => ⟨S320000, .i32⟩
  | 98 => ⟨S320000, .i32⟩
  | 99 => ⟨S320000x1, .i32⟩
  | 100 => ⟨S320000x128, .f32⟩
  | 101 => ⟨S_, .f32⟩
  | 102 => ⟨S_, .f32⟩
  | 103 => ⟨S320000x128, .i1⟩
  | 104 => ⟨S320000x128, .f32⟩
  | 105 => ⟨S320000x128, .f32⟩
  | 106 => ⟨S_, .f32⟩
  | 107 => ⟨S20000x128, .f32⟩
  | 108 => ⟨S320000x1, .i32⟩
  | 109 => ⟨S20000x128, .f32⟩
  | 110 => ⟨S320000, .f32⟩
  | 111 => ⟨S_, .f32⟩
  | 112 => ⟨S20000, .f32⟩
  | 113 => ⟨S320000x1, .i32⟩
  | 114 => ⟨S20000, .f32⟩
  | 115 => ⟨S_, .f32⟩
  | 116 => ⟨S20000, .f32⟩
  | 117 => ⟨S20000, .f32⟩
  | 118 => ⟨S20000x1, .f32⟩
  | 119 => ⟨S20000x128, .f32⟩
  | 120 => ⟨S20000x128, .f32⟩
  | 121 => ⟨S20000x128, .f32⟩
  | 122 => ⟨S20000x128, .f32⟩
  | 123 => ⟨S_, .i32⟩
  | 124 => ⟨S320000, .i32⟩
  | 125 => ⟨S320000, .i1⟩
  | 126 => ⟨S320000x1, .i1⟩
  | 127 => ⟨S_, .i32⟩
  | _ => ⟨S20000x768, .f32⟩

abbrev hbmTy0_4 (i : Nat) : BufTy := match i % 128 with
  | 0 => ⟨S320000, .i32⟩
  | 1 => ⟨S320000, .i1⟩
  | 2 => ⟨S_, .i32⟩
  | 3 => ⟨S320000, .i32⟩
  | 4 => ⟨S320000, .i32⟩
  | 5 => ⟨S320000, .i32⟩
  | 6 => ⟨S320000x1, .i32⟩
  | 7 => ⟨S320000x128, .f32⟩
  | 8 => ⟨S_, .f32⟩
  | 9 => ⟨S_, .f32⟩
  | 10 => ⟨S320000x128, .i1⟩
  | 11 => ⟨S320000x128, .f32⟩
  | 12 => ⟨S320000x128, .f32⟩
  | 13 => ⟨S_, .f32⟩
  | 14 => ⟨S20000x128, .f32⟩
  | 15 => ⟨S320000x1, .i32⟩
  | 16 => ⟨S20000x128, .f32⟩
  | 17 => ⟨S320000, .f32⟩
  | 18 => ⟨S_, .f32⟩
  | 19 => ⟨S20000, .f32⟩
  | 20 => ⟨S320000x1, .i32⟩
  | 21 => ⟨S20000, .f32⟩
  | 22 => ⟨S_, .f32⟩
  | 23 => ⟨S20000, .f32⟩
  | 24 => ⟨S20000, .f32⟩
  | 25 => ⟨S20000x1, .f32⟩
  | 26 => ⟨S20000x128, .f32⟩
  | 27 => ⟨S20000x128, .f32⟩
  | 28 => ⟨S20000x128, .f32⟩
  | 29 => ⟨S_, .f32⟩
  | 30 => ⟨S128, .f32⟩
  | 31 => ⟨S_, .f32⟩
  | 32 => ⟨S128, .f32⟩
  | 33 => ⟨S128, .f32⟩
  | 34 => ⟨S_, .i32⟩
  | 35 => ⟨S_, .f32⟩
  | 36 => ⟨S128, .f32⟩
  | 37 => ⟨S1x128, .f32⟩
  | 38 => ⟨S_, .f32⟩
  | 39 => ⟨S1x128, .f32⟩
  | 40 => ⟨S1x128, .f32⟩
  | 41 => ⟨S20000x128, .f32⟩
  | 42 => ⟨S20000x128, .f32⟩
  | 43 => ⟨S20000x128, .f32⟩
  | 44 => ⟨S_, .f32⟩
  | 45 => ⟨S_, .f32⟩
  | 46 => ⟨S_, .f32⟩
  | 47 => ⟨S_, .f32⟩
  | 48 => ⟨S128, .f32⟩
  | 49 => ⟨S128, .f32⟩
  | 50 => ⟨S128, .f32⟩
  | 51 => ⟨S_, .f32⟩
  | 52 => ⟨S_, .i1⟩
  | 53 => ⟨S_, .f32⟩
  | 54 => ⟨S_, .f32⟩
  | 55 => ⟨S128, .f32⟩
  | 56 => ⟨S128, .f32⟩
  | 57 => ⟨S1x128, .f32⟩
  | 58 => ⟨S20000x128, .f32⟩
  | 59 => ⟨S20000x128, .f32⟩
  | 60 => ⟨S_, .f32⟩
  | 61 => ⟨S128, .f32⟩
  | 62 => ⟨S128, .f32⟩
  | 63 => ⟨S128, .f32⟩
  | 64 => ⟨S1x128, .f32⟩
  | 65 => ⟨S20000x128, .f32⟩
  | 66 => ⟨S20000x128, .f32⟩
  | 67 => ⟨S1x128, .f32⟩
  | 68 => ⟨S20000x128, .f32⟩
  | 69 => ⟨S20000x128, .f32⟩
  | 70 => ⟨S1x128, .f32⟩
  | 71 => ⟨S20000x128, .f32⟩
  | 72 => ⟨S20000x128, .f32⟩
  | 73 => ⟨S_, .f32⟩
  | 74 => ⟨S20000x128, .f32⟩
  | 75 => ⟨S20000x128, .i1⟩
  | 76 => ⟨S_, .f32⟩
  | 77 => ⟨S20000x128, .f32⟩
  | 78 => ⟨S20000x128, .f32⟩
  | 79 => ⟨S20000x128, .f32⟩
  | 80 => ⟨S_, .f32⟩
  | 81 => ⟨S64x128, .f32⟩
  | 82 => ⟨S20000x1, .i32⟩
  | 83 => ⟨S64x128, .f32⟩
  | 84 => ⟨S_, .f32⟩
  | 85 => ⟨S20000, .f32⟩
  | 86 => ⟨S_, .f32⟩
  | 87 => ⟨S64, .f32⟩
  | 88 => ⟨S20000x1, .i32⟩
  | 89 => ⟨S64, .f32⟩
  | 90 => ⟨S_, .f32⟩
  | 91 => ⟨S64, .f32⟩
  | 92 => ⟨S64, .f32⟩
  | 93 => ⟨S64x1, .f32⟩
  | 94 => ⟨S64x128, .f32⟩
  | 95 => ⟨S64x128, .f32⟩
  | _ => ⟨S20000x768, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S20000x768, .f32⟩

abbrev bufTy : (tb : Table) → Fin (tcTables nBuf tb) → BufTy
  | .hbm, ⟨i, _⟩ => hbmTy i
  | .local _ .vmem, ⟨0, _⟩ => ⟨S2000x768, .bf16⟩
  | .local _ .vmem, ⟨1, _⟩ => ⟨S2000x768, .bf16⟩
  | .local _ .vmem, ⟨2, _⟩ => ⟨S768x768, .bf16⟩
  | .local _ .vmem, ⟨3, _⟩ => ⟨S2000x768, .f32⟩
  | .local _ .vmem, ⟨4, _⟩ => ⟨S2000x768, .f32⟩
  | .local _ .vmem, ⟨5, _⟩ => ⟨S2000x256, .bf16⟩
  | .local _ .vmem, ⟨6, _⟩ => ⟨S2000x256, .bf16⟩
  | .local _ .vmem, ⟨7, _⟩ => ⟨S256x384, .bf16⟩
  | .local _ .vmem, ⟨8, _⟩ => ⟨S2000x384, .f32⟩
  | .local _ .vmem, ⟨9, _⟩ => ⟨S2000x384, .f32⟩
  | .local _ .vmem, ⟨10, _⟩ => ⟨S2000x128, .bf16⟩
  | .local _ .vmem, ⟨11, _⟩ => ⟨S2000x128, .bf16⟩
  | .local _ .vmem, ⟨12, _⟩ => ⟨S128x768, .bf16⟩
  | .local _ .vmem, ⟨13, _⟩ => ⟨S2000x768, .f32⟩
  | .local _ .vmem, ⟨14, _⟩ => ⟨S2000x768, .f32⟩
  | .local _ .vmem, ⟨15, _⟩ => ⟨S2000x256, .bf16⟩
  | .local _ .vmem, ⟨16, _⟩ => ⟨S2000x256, .bf16⟩
  | .local _ .vmem, ⟨17, _⟩ => ⟨S256x384, .bf16⟩
  | .local _ .vmem, ⟨18, _⟩ => ⟨S2000x384, .f32⟩
  | .local _ .vmem, ⟨19, _⟩ => ⟨S2000x384, .f32⟩
  | _, _ => ⟨S20000x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_c : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_c_0 : Ref sig .tc := ⟨.hbm, 49, rfl⟩
abbrev main_v20 : Ref sig .tc := ⟨.hbm, 50, rfl⟩
abbrev main_v21 : Ref sig .tc := ⟨.hbm, 51, rfl⟩
abbrev main_c_1 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_cst : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_v27 : Ref sig .tc := ⟨.hbm, 62, rfl⟩
abbrev main_cst_2 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_3 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_cst_4 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_c_5 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_c_6 : Ref sig .tc := ⟨.hbm, 84, rfl⟩
abbrev main_v45 : Ref sig .tc := ⟨.hbm, 85, rfl⟩
abbrev main_v46 : Ref sig .tc := ⟨.hbm, 86, rfl⟩
abbrev main_c_7 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_cst_8 : Ref sig .tc := ⟨.hbm, 93, rfl⟩
abbrev main_call1_v0 : Ref sig .tc := ⟨.hbm, 94, rfl⟩
abbrev main_call1_v1 : Ref sig .tc := ⟨.hbm, 95, rfl⟩
abbrev main_call1_v2 : Ref sig .tc := ⟨.hbm, 96, rfl⟩
abbrev main_v52 : Ref sig .tc := ⟨.hbm, 97, rfl⟩
abbrev main_cst_9 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_cst_10 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_cst_11 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_cst_12 : Ref sig .tc := ⟨.hbm, 114, rfl⟩
abbrev main_v66 : Ref sig .tc := ⟨.hbm, 115, rfl⟩
abbrev main_cst_13 : Ref sig .tc := ⟨.hbm, 116, rfl⟩
abbrev main_v67 : Ref sig .tc := ⟨.hbm, 117, rfl⟩
abbrev main_v68 : Ref sig .tc := ⟨.hbm, 118, rfl⟩
abbrev main_c_14 : Ref sig .tc := ⟨.hbm, 119, rfl⟩
abbrev main_call2_cst : Ref sig .tc := ⟨.hbm, 120, rfl⟩
abbrev main_call2_v0 : Ref sig .tc := ⟨.hbm, 121, rfl⟩
abbrev main_call2_v1 : Ref sig .tc := ⟨.hbm, 122, rfl⟩
abbrev main_call2_cst_0 : Ref sig .tc := ⟨.hbm, 123, rfl⟩
abbrev main_call2_v2 : Ref sig .tc := ⟨.hbm, 124, rfl⟩
abbrev main_call2_v3 : Ref sig .tc := ⟨.hbm, 125, rfl⟩
abbrev main_call2_v4 : Ref sig .tc := ⟨.hbm, 126, rfl⟩
abbrev main_call2_v5 : Ref sig .tc := ⟨.hbm, 127, rfl⟩
abbrev main_call2_v6 : Ref sig .tc := ⟨.hbm, 128, rfl⟩
abbrev main_call2_v7 : Ref sig .tc := ⟨.hbm, 129, rfl⟩
abbrev main_call2_cst_1 : Ref sig .tc := ⟨.hbm, 130, rfl⟩
abbrev main_call2_v8 : Ref sig .tc := ⟨.hbm, 131, rfl⟩
abbrev main_call2_cst_2 : Ref sig .tc := ⟨.hbm, 132, rfl⟩
abbrev main_call2_v9 : Ref sig .tc := ⟨.hbm, 133, rfl⟩
abbrev main_call2_v10 : Ref sig .tc := ⟨.hbm, 134, rfl⟩
abbrev main_call2_v11 : Ref sig .tc := ⟨.hbm, 135, rfl⟩
abbrev main_call2_cst_3 : Ref sig .tc := ⟨.hbm, 136, rfl⟩
abbrev main_call2_v12 : Ref sig .tc := ⟨.hbm, 137, rfl⟩
abbrev main_call2_cst_4 : Ref sig .tc := ⟨.hbm, 138, rfl⟩
abbrev main_call2_call0_v0 : Ref sig .tc := ⟨.hbm, 139, rfl⟩
abbrev main_call2_call0_v1 : Ref sig .tc := ⟨.hbm, 140, rfl⟩
abbrev main_v69 : Ref sig .tc := ⟨.hbm, 141, rfl⟩
abbrev main_v70 : Ref sig .tc := ⟨.hbm, 142, rfl⟩
abbrev main_v71 : Ref sig .tc := ⟨.hbm, 143, rfl⟩
abbrev main_v72 : Ref sig .tc := ⟨.hbm, 144, rfl⟩
abbrev main_cst_15 : Ref sig .tc := ⟨.hbm, 145, rfl⟩
abbrev main_v73 : Ref sig .tc := ⟨.hbm, 146, rfl⟩
abbrev main_v74 : Ref sig .tc := ⟨.hbm, 147, rfl⟩
abbrev main_v75 : Ref sig .tc := ⟨.hbm, 148, rfl⟩
abbrev main_v76 : Ref sig .tc := ⟨.hbm, 149, rfl⟩
abbrev main_v77 : Ref sig .tc := ⟨.hbm, 150, rfl⟩
abbrev main_v78 : Ref sig .tc := ⟨.hbm, 151, rfl⟩
abbrev main_v79 : Ref sig .tc := ⟨.hbm, 152, rfl⟩
abbrev main_v80 : Ref sig .tc := ⟨.hbm, 153, rfl⟩
abbrev main_v81 : Ref sig .tc := ⟨.hbm, 154, rfl⟩
abbrev main_v82 : Ref sig .tc := ⟨.hbm, 155, rfl⟩
abbrev main_v83 : Ref sig .tc := ⟨.hbm, 156, rfl⟩
abbrev main_v84 : Ref sig .tc := ⟨.hbm, 157, rfl⟩
abbrev main_cst_16 : Ref sig .tc := ⟨.hbm, 158, rfl⟩
abbrev main_v85 : Ref sig .tc := ⟨.hbm, 159, rfl⟩
abbrev main_v86 : Ref sig .tc := ⟨.hbm, 160, rfl⟩
abbrev main_cst_17 : Ref sig .tc := ⟨.hbm, 161, rfl⟩
abbrev main_v87 : Ref sig .tc := ⟨.hbm, 162, rfl⟩
abbrev main_v88 : Ref sig .tc := ⟨.hbm, 163, rfl⟩
abbrev main_v89 : Ref sig .tc := ⟨.hbm, 164, rfl⟩
abbrev main_v90 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_v94 : Ref sig .tc := ⟨.hbm, 169, rfl⟩
abbrev main_v95 : Ref sig .tc := ⟨.hbm, 170, rfl⟩
abbrev main_v96 : Ref sig .tc := ⟨.hbm, 171, rfl⟩
abbrev main_v97 : Ref sig .tc := ⟨.hbm, 172, rfl⟩
abbrev main_v98 : Ref sig .tc := ⟨.hbm, 173, rfl⟩
abbrev main_v99 : Ref sig .tc := ⟨.hbm, 174, rfl⟩
abbrev main_v100 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_v104 : Ref sig .tc := ⟨.hbm, 179, rfl⟩
abbrev main_v105 : Ref sig .tc := ⟨.hbm, 180, rfl⟩
abbrev main_v106 : Ref sig .tc := ⟨.hbm, 181, rfl⟩
abbrev main_c_18 : Ref sig .tc := ⟨.hbm, 182, rfl⟩
abbrev main_v107 : Ref sig .tc := ⟨.hbm, 183, rfl⟩
abbrev main_v108 : Ref sig .tc := ⟨.hbm, 184, rfl⟩
abbrev main_v109 : Ref sig .tc := ⟨.hbm, 185, rfl⟩
abbrev main_c_19 : Ref sig .tc := ⟨.hbm, 186, rfl⟩
abbrev main_v110 : Ref sig .tc := ⟨.hbm, 187, rfl⟩
abbrev main_v111 : Ref sig .tc := ⟨.hbm, 188, rfl⟩
abbrev main_c_20 : Ref sig .tc := ⟨.hbm, 189, rfl⟩
abbrev main_v112 : Ref sig .tc := ⟨.hbm, 190, rfl⟩
abbrev main_v113 : Ref sig .tc := ⟨.hbm, 191, rfl⟩
abbrev main_v114 : Ref sig .tc := ⟨.hbm, 192, rfl⟩
abbrev main_v115 : Ref sig .tc := ⟨.hbm, 193, rfl⟩
abbrev main_v116 : Ref sig .tc := ⟨.hbm, 194, rfl⟩
abbrev main_cst_21 : Ref sig .tc := ⟨.hbm, 195, rfl⟩
abbrev main_call4_v0 : Ref sig .tc := ⟨.hbm, 196, rfl⟩
abbrev main_call4_v1 : Ref sig .tc := ⟨.hbm, 197, rfl⟩
abbrev main_call4_v2 : Ref sig .tc := ⟨.hbm, 198, rfl⟩
abbrev main_v117 : Ref sig .tc := ⟨.hbm, 199, rfl⟩
abbrev main_cst_22 : Ref sig .tc := ⟨.hbm, 200, rfl⟩
abbrev main_v118 : Ref sig .tc := ⟨.hbm, 201, rfl⟩
abbrev main_v119 : Ref sig .tc := ⟨.hbm, 202, rfl⟩
abbrev main_v120 : Ref sig .tc := ⟨.hbm, 203, rfl⟩
abbrev main_v121 : Ref sig .tc := ⟨.hbm, 204, rfl⟩
abbrev main_cst_23 : Ref sig .tc := ⟨.hbm, 205, rfl⟩
abbrev main_v122 : Ref sig .tc := ⟨.hbm, 206, rfl⟩
abbrev main_v123 : Ref sig .tc := ⟨.hbm, 207, rfl⟩
abbrev main_v124 : Ref sig .tc := ⟨.hbm, 208, rfl⟩
abbrev main_cst_24 : Ref sig .tc := ⟨.hbm, 209, rfl⟩
abbrev main_v125 : Ref sig .tc := ⟨.hbm, 210, rfl⟩
abbrev main_v126 : Ref sig .tc := ⟨.hbm, 211, rfl⟩
abbrev main_v127 : Ref sig .tc := ⟨.hbm, 212, rfl⟩
abbrev main_v128 : Ref sig .tc := ⟨.hbm, 213, rfl⟩
abbrev main_v129 : Ref sig .tc := ⟨.hbm, 214, rfl⟩
abbrev main_v130 : Ref sig .tc := ⟨.hbm, 215, rfl⟩
abbrev main_v131 : Ref sig .tc := ⟨.hbm, 216, rfl⟩
abbrev main_c_25 : Ref sig .tc := ⟨.hbm, 217, rfl⟩
abbrev main_v132 : Ref sig .tc := ⟨.hbm, 218, rfl⟩
abbrev main_v133 : Ref sig .tc := ⟨.hbm, 219, rfl⟩
abbrev main_v134 : Ref sig .tc := ⟨.hbm, 220, rfl⟩
abbrev main_c_26 : Ref sig .tc := ⟨.hbm, 221, rfl⟩
abbrev main_v135 : Ref sig .tc := ⟨.hbm, 222, rfl⟩
abbrev main_v136 : Ref sig .tc := ⟨.hbm, 223, rfl⟩
abbrev main_c_27 : Ref sig .tc := ⟨.hbm, 224, rfl⟩
abbrev main_v137 : Ref sig .tc := ⟨.hbm, 225, rfl⟩
abbrev main_v138 : Ref sig .tc := ⟨.hbm, 226, rfl⟩
abbrev main_v139 : Ref sig .tc := ⟨.hbm, 227, rfl⟩
abbrev main_v140 : Ref sig .tc := ⟨.hbm, 228, rfl⟩
abbrev main_v141 : Ref sig .tc := ⟨.hbm, 229, rfl⟩
abbrev main_cst_28 : Ref sig .tc := ⟨.hbm, 230, rfl⟩
abbrev main_call5_v0 : Ref sig .tc := ⟨.hbm, 231, rfl⟩
abbrev main_call5_v1 : Ref sig .tc := ⟨.hbm, 232, rfl⟩
abbrev main_call5_v2 : Ref sig .tc := ⟨.hbm, 233, rfl⟩
abbrev main_v142 : Ref sig .tc := ⟨.hbm, 234, rfl⟩
abbrev main_cst_29 : Ref sig .tc := ⟨.hbm, 235, rfl⟩
abbrev main_v143 : Ref sig .tc := ⟨.hbm, 236, rfl⟩
abbrev main_v144 : Ref sig .tc := ⟨.hbm, 237, rfl⟩
abbrev main_v145 : Ref sig .tc := ⟨.hbm, 238, rfl⟩
abbrev main_v146 : Ref sig .tc := ⟨.hbm, 239, rfl⟩
abbrev main_cst_30 : Ref sig .tc := ⟨.hbm, 240, rfl⟩
abbrev main_v147 : Ref sig .tc := ⟨.hbm, 241, rfl⟩
abbrev main_v148 : Ref sig .tc := ⟨.hbm, 242, rfl⟩
abbrev main_v149 : Ref sig .tc := ⟨.hbm, 243, rfl⟩
abbrev main_cst_31 : Ref sig .tc := ⟨.hbm, 244, rfl⟩
abbrev main_v150 : Ref sig .tc := ⟨.hbm, 245, rfl⟩
abbrev main_v151 : Ref sig .tc := ⟨.hbm, 246, rfl⟩
abbrev main_v152 : Ref sig .tc := ⟨.hbm, 247, rfl⟩
abbrev main_v153 : Ref sig .tc := ⟨.hbm, 248, rfl⟩
abbrev main_v154 : Ref sig .tc := ⟨.hbm, 249, rfl⟩
abbrev main_v155 : Ref sig .tc := ⟨.hbm, 250, rfl⟩
abbrev main_cst_32 : Ref sig .tc := ⟨.hbm, 251, rfl⟩
abbrev main_v156 : Ref sig .tc := ⟨.hbm, 252, rfl⟩
abbrev main_cst_33 : Ref sig .tc := ⟨.hbm, 253, rfl⟩
abbrev main_v157 : Ref sig .tc := ⟨.hbm, 254, rfl⟩
abbrev main_v158 : Ref sig .tc := ⟨.hbm, 255, rfl⟩
abbrev main_c_34 : Ref sig .tc := ⟨.hbm, 256, rfl⟩
abbrev main_call6_cst : Ref sig .tc := ⟨.hbm, 257, rfl⟩
abbrev main_call6_v0 : Ref sig .tc := ⟨.hbm, 258, rfl⟩
abbrev main_call6_v1 : Ref sig .tc := ⟨.hbm, 259, rfl⟩
abbrev main_call6_cst_0 : Ref sig .tc := ⟨.hbm, 260, rfl⟩
abbrev main_call6_v2 : Ref sig .tc := ⟨.hbm, 261, rfl⟩
abbrev main_call6_v3 : Ref sig .tc := ⟨.hbm, 262, rfl⟩
abbrev main_call6_v4 : Ref sig .tc := ⟨.hbm, 263, rfl⟩
abbrev main_call6_v5 : Ref sig .tc := ⟨.hbm, 264, rfl⟩
abbrev main_call6_v6 : Ref sig .tc := ⟨.hbm, 265, rfl⟩
abbrev main_call6_v7 : Ref sig .tc := ⟨.hbm, 266, rfl⟩
abbrev main_call6_cst_1 : Ref sig .tc := ⟨.hbm, 267, rfl⟩
abbrev main_call6_v8 : Ref sig .tc := ⟨.hbm, 268, rfl⟩
abbrev main_call6_cst_2 : Ref sig .tc := ⟨.hbm, 269, rfl⟩
abbrev main_call6_v9 : Ref sig .tc := ⟨.hbm, 270, rfl⟩
abbrev main_call6_v10 : Ref sig .tc := ⟨.hbm, 271, rfl⟩
abbrev main_call6_v11 : Ref sig .tc := ⟨.hbm, 272, rfl⟩
abbrev main_call6_cst_3 : Ref sig .tc := ⟨.hbm, 273, rfl⟩
abbrev main_call6_v12 : Ref sig .tc := ⟨.hbm, 274, rfl⟩
abbrev main_call6_cst_4 : Ref sig .tc := ⟨.hbm, 275, rfl⟩
abbrev main_call6_call0_v0 : Ref sig .tc := ⟨.hbm, 276, rfl⟩
abbrev main_call6_call0_v1 : Ref sig .tc := ⟨.hbm, 277, rfl⟩
abbrev main_v159 : Ref sig .tc := ⟨.hbm, 278, rfl⟩
abbrev main_v160 : Ref sig .tc := ⟨.hbm, 279, rfl⟩
abbrev main_v161 : Ref sig .tc := ⟨.hbm, 280, rfl⟩
abbrev main_v162 : Ref sig .tc := ⟨.hbm, 281, rfl⟩
abbrev main_cst_35 : Ref sig .tc := ⟨.hbm, 282, rfl⟩
abbrev main_v163 : Ref sig .tc := ⟨.hbm, 283, rfl⟩
abbrev main_v164 : Ref sig .tc := ⟨.hbm, 284, rfl⟩
abbrev main_v165 : Ref sig .tc := ⟨.hbm, 285, rfl⟩
abbrev main_v166 : Ref sig .tc := ⟨.hbm, 286, rfl⟩
abbrev main_v167 : Ref sig .tc := ⟨.hbm, 287, rfl⟩
abbrev main_v168 : Ref sig .tc := ⟨.hbm, 288, rfl⟩
abbrev main_v169 : Ref sig .tc := ⟨.hbm, 289, rfl⟩
abbrev main_v170 : Ref sig .tc := ⟨.hbm, 290, rfl⟩
abbrev main_v171 : Ref sig .tc := ⟨.hbm, 291, rfl⟩
abbrev main_v172 : Ref sig .tc := ⟨.hbm, 292, rfl⟩
abbrev main_v173 : Ref sig .tc := ⟨.hbm, 293, rfl⟩
abbrev main_v174 : Ref sig .tc := ⟨.hbm, 294, rfl⟩
abbrev main_cst_36 : Ref sig .tc := ⟨.hbm, 295, rfl⟩
abbrev main_v175 : Ref sig .tc := ⟨.hbm, 296, rfl⟩
abbrev main_v176 : Ref sig .tc := ⟨.hbm, 297, rfl⟩
abbrev main_cst_37 : Ref sig .tc := ⟨.hbm, 298, rfl⟩
abbrev main_v177 : Ref sig .tc := ⟨.hbm, 299, rfl⟩
abbrev main_v178 : Ref sig .tc := ⟨.hbm, 300, rfl⟩
abbrev main_v179 : Ref sig .tc := ⟨.hbm, 301, rfl⟩
abbrev main_cst_38 : Ref sig .tc := ⟨.hbm, 302, rfl⟩
abbrev main_v180 : Ref sig .tc := ⟨.hbm, 303, rfl⟩
abbrev main_v181 : Ref sig .tc := ⟨.hbm, 304, rfl⟩
abbrev main_v182 : Ref sig .tc := ⟨.hbm, 305, rfl⟩
abbrev main_cst_39 : Ref sig .tc := ⟨.hbm, 306, rfl⟩
abbrev main_v183 : Ref sig .tc := ⟨.hbm, 307, rfl⟩
abbrev main_cst_40 : Ref sig .tc := ⟨.hbm, 308, rfl⟩
abbrev main_v184 : Ref sig .tc := ⟨.hbm, 309, rfl⟩
abbrev main_v185 : Ref sig .tc := ⟨.hbm, 310, rfl⟩
abbrev main_v186 : Ref sig .tc := ⟨.hbm, 311, rfl⟩
abbrev main_cst_41 : Ref sig .tc := ⟨.hbm, 312, rfl⟩
abbrev main_v187 : Ref sig .tc := ⟨.hbm, 313, rfl⟩
abbrev main_v188 : Ref sig .tc := ⟨.hbm, 314, rfl⟩
abbrev main_v189 : Ref sig .tc := ⟨.hbm, 315, rfl⟩
abbrev main_v190 : Ref sig .tc := ⟨.hbm, 316, rfl⟩
abbrev main_v191 : Ref sig .tc := ⟨.hbm, 317, rfl⟩
abbrev main_v192 : Ref sig .tc := ⟨.hbm, 318, rfl⟩
abbrev main_v193 : Ref sig .tc := ⟨.hbm, 319, rfl⟩
abbrev main_v194 : Ref sig .tc := ⟨.hbm, 320, rfl⟩
abbrev main_v195 : Ref sig .tc := ⟨.hbm, 321, rfl⟩
abbrev main_v196 : Ref sig .tc := ⟨.hbm, 322, rfl⟩
abbrev main_v197 : Ref sig .tc := ⟨.hbm, 323, rfl⟩
abbrev main_v198 : Ref sig .tc := ⟨.hbm, 324, rfl⟩
abbrev main_v199 : Ref sig .tc := ⟨.hbm, 325, rfl⟩
abbrev main_v200 : Ref sig .tc := ⟨.hbm, 326, rfl⟩
abbrev main_v201 : Ref sig .tc := ⟨.hbm, 327, rfl⟩
abbrev main_v202 : Ref sig .tc := ⟨.hbm, 328, rfl⟩
abbrev main_v203 : Ref sig .tc := ⟨.hbm, 329, rfl⟩
abbrev main_v204 : Ref sig .tc := ⟨.hbm, 330, rfl⟩
abbrev main_v205 : Ref sig .tc := ⟨.hbm, 331, rfl⟩
abbrev main_v206 : Ref sig .tc := ⟨.hbm, 332, rfl⟩
abbrev main_v207 : Ref sig .tc := ⟨.hbm, 333, rfl⟩
abbrev main_v208 : Ref sig .tc := ⟨.hbm, 334, rfl⟩
abbrev main_c_42 : Ref sig .tc := ⟨.hbm, 335, rfl⟩
abbrev main_v209 : Ref sig .tc := ⟨.hbm, 336, rfl⟩
abbrev main_v210 : Ref sig .tc := ⟨.hbm, 337, rfl⟩
abbrev main_v211 : Ref sig .tc := ⟨.hbm, 338, rfl⟩
abbrev main_c_43 : Ref sig .tc := ⟨.hbm, 339, rfl⟩
abbrev main_v212 : Ref sig .tc := ⟨.hbm, 340, rfl⟩
abbrev main_v213 : Ref sig .tc := ⟨.hbm, 341, rfl⟩
abbrev main_c_44 : Ref sig .tc := ⟨.hbm, 342, rfl⟩
abbrev main_v214 : Ref sig .tc := ⟨.hbm, 343, rfl⟩
abbrev main_v215 : Ref sig .tc := ⟨.hbm, 344, rfl⟩
abbrev main_v216 : Ref sig .tc := ⟨.hbm, 345, rfl⟩
abbrev main_v217 : Ref sig .tc := ⟨.hbm, 346, rfl⟩
abbrev main_v218 : Ref sig .tc := ⟨.hbm, 347, rfl⟩
abbrev main_cst_45 : Ref sig .tc := ⟨.hbm, 348, rfl⟩
abbrev main_call8_v0 : Ref sig .tc := ⟨.hbm, 349, rfl⟩
abbrev main_call8_v1 : Ref sig .tc := ⟨.hbm, 350, rfl⟩
abbrev main_call8_v2 : Ref sig .tc := ⟨.hbm, 351, rfl⟩
abbrev main_v219 : Ref sig .tc := ⟨.hbm, 352, rfl⟩
abbrev main_cst_46 : Ref sig .tc := ⟨.hbm, 353, rfl⟩
abbrev main_v220 : Ref sig .tc := ⟨.hbm, 354, rfl⟩
abbrev main_v221 : Ref sig .tc := ⟨.hbm, 355, rfl⟩
abbrev main_v222 : Ref sig .tc := ⟨.hbm, 356, rfl⟩
abbrev main_v223 : Ref sig .tc := ⟨.hbm, 357, rfl⟩
abbrev main_cst_47 : Ref sig .tc := ⟨.hbm, 358, rfl⟩
abbrev main_v224 : Ref sig .tc := ⟨.hbm, 359, rfl⟩
abbrev main_v225 : Ref sig .tc := ⟨.hbm, 360, rfl⟩
abbrev main_v226 : Ref sig .tc := ⟨.hbm, 361, rfl⟩
abbrev main_cst_48 : Ref sig .tc := ⟨.hbm, 362, rfl⟩
abbrev main_v227 : Ref sig .tc := ⟨.hbm, 363, rfl⟩
abbrev main_v228 : Ref sig .tc := ⟨.hbm, 364, rfl⟩
abbrev main_v229 : Ref sig .tc := ⟨.hbm, 365, rfl⟩
abbrev main_v230 : Ref sig .tc := ⟨.hbm, 366, rfl⟩
abbrev main_v231 : Ref sig .tc := ⟨.hbm, 367, rfl⟩
abbrev main_v232 : Ref sig .tc := ⟨.hbm, 368, rfl⟩
abbrev main_v233 : Ref sig .tc := ⟨.hbm, 369, rfl⟩
abbrev main_c_49 : Ref sig .tc := ⟨.hbm, 370, rfl⟩
abbrev main_v234 : Ref sig .tc := ⟨.hbm, 371, rfl⟩
abbrev main_v235 : Ref sig .tc := ⟨.hbm, 372, rfl⟩
abbrev main_v236 : Ref sig .tc := ⟨.hbm, 373, rfl⟩
abbrev main_c_50 : Ref sig .tc := ⟨.hbm, 374, rfl⟩
abbrev main_v237 : Ref sig .tc := ⟨.hbm, 375, rfl⟩
abbrev main_v238 : Ref sig .tc := ⟨.hbm, 376, rfl⟩
abbrev main_c_51 : Ref sig .tc := ⟨.hbm, 377, rfl⟩
abbrev main_v239 : Ref sig .tc := ⟨.hbm, 378, rfl⟩
abbrev main_v240 : Ref sig .tc := ⟨.hbm, 379, rfl⟩
abbrev main_v241 : Ref sig .tc := ⟨.hbm, 380, rfl⟩
abbrev main_v242 : Ref sig .tc := ⟨.hbm, 381, rfl⟩
abbrev main_v243 : Ref sig .tc := ⟨.hbm, 382, rfl⟩
abbrev main_cst_52 : Ref sig .tc := ⟨.hbm, 383, rfl⟩
abbrev main_call9_v0 : Ref sig .tc := ⟨.hbm, 384, rfl⟩
abbrev main_call9_v1 : Ref sig .tc := ⟨.hbm, 385, rfl⟩
abbrev main_call9_v2 : Ref sig .tc := ⟨.hbm, 386, rfl⟩
abbrev main_v244 : Ref sig .tc := ⟨.hbm, 387, rfl⟩
abbrev main_cst_53 : Ref sig .tc := ⟨.hbm, 388, rfl⟩
abbrev main_v245 : Ref sig .tc := ⟨.hbm, 389, rfl⟩
abbrev main_v246 : Ref sig .tc := ⟨.hbm, 390, rfl⟩
abbrev main_v247 : Ref sig .tc := ⟨.hbm, 391, rfl⟩
abbrev main_v248 : Ref sig .tc := ⟨.hbm, 392, rfl⟩
abbrev main_cst_54 : Ref sig .tc := ⟨.hbm, 393, rfl⟩
abbrev main_v249 : Ref sig .tc := ⟨.hbm, 394, rfl⟩
abbrev main_v250 : Ref sig .tc := ⟨.hbm, 395, rfl⟩
abbrev main_v251 : Ref sig .tc := ⟨.hbm, 396, rfl⟩
abbrev main_cst_55 : Ref sig .tc := ⟨.hbm, 397, rfl⟩
abbrev main_v252 : Ref sig .tc := ⟨.hbm, 398, rfl⟩
abbrev main_v253 : Ref sig .tc := ⟨.hbm, 399, rfl⟩
abbrev main_v254 : Ref sig .tc := ⟨.hbm, 400, rfl⟩
abbrev main_v255 : Ref sig .tc := ⟨.hbm, 401, rfl⟩
abbrev main_v256 : Ref sig .tc := ⟨.hbm, 402, rfl⟩
abbrev main_v257 : Ref sig .tc := ⟨.hbm, 403, rfl⟩
abbrev main_cst_56 : Ref sig .tc := ⟨.hbm, 404, rfl⟩
abbrev main_v258 : Ref sig .tc := ⟨.hbm, 405, rfl⟩
abbrev main_cst_57 : Ref sig .tc := ⟨.hbm, 406, rfl⟩
abbrev main_v259 : Ref sig .tc := ⟨.hbm, 407, rfl⟩
abbrev main_v260 : Ref sig .tc := ⟨.hbm, 408, rfl⟩
abbrev main_c_58 : Ref sig .tc := ⟨.hbm, 409, rfl⟩
abbrev main_call10_cst : Ref sig .tc := ⟨.hbm, 410, rfl⟩
abbrev main_call10_v0 : Ref sig .tc := ⟨.hbm, 411, rfl⟩
abbrev main_call10_v1 : Ref sig .tc := ⟨.hbm, 412, rfl⟩
abbrev main_call10_cst_0 : Ref sig .tc := ⟨.hbm, 413, rfl⟩
abbrev main_call10_v2 : Ref sig .tc := ⟨.hbm, 414, rfl⟩
abbrev main_call10_v3 : Ref sig .tc := ⟨.hbm, 415, rfl⟩
abbrev main_call10_v4 : Ref sig .tc := ⟨.hbm, 416, rfl⟩
abbrev main_call10_v5 : Ref sig .tc := ⟨.hbm, 417, rfl⟩
abbrev main_call10_v6 : Ref sig .tc := ⟨.hbm, 418, rfl⟩
abbrev main_call10_v7 : Ref sig .tc := ⟨.hbm, 419, rfl⟩
abbrev main_call10_cst_1 : Ref sig .tc := ⟨.hbm, 420, rfl⟩
abbrev main_call10_v8 : Ref sig .tc := ⟨.hbm, 421, rfl⟩
abbrev main_call10_cst_2 : Ref sig .tc := ⟨.hbm, 422, rfl⟩
abbrev main_call10_v9 : Ref sig .tc := ⟨.hbm, 423, rfl⟩
abbrev main_call10_v10 : Ref sig .tc := ⟨.hbm, 424, rfl⟩
abbrev main_call10_v11 : Ref sig .tc := ⟨.hbm, 425, rfl⟩
abbrev main_call10_cst_3 : Ref sig .tc := ⟨.hbm, 426, rfl⟩
abbrev main_call10_v12 : Ref sig .tc := ⟨.hbm, 427, rfl⟩
abbrev main_call10_cst_4 : Ref sig .tc := ⟨.hbm, 428, rfl⟩
abbrev main_call10_call0_v0 : Ref sig .tc := ⟨.hbm, 429, rfl⟩
abbrev main_call10_call0_v1 : Ref sig .tc := ⟨.hbm, 430, rfl⟩
abbrev main_v261 : Ref sig .tc := ⟨.hbm, 431, rfl⟩
abbrev main_v262 : Ref sig .tc := ⟨.hbm, 432, rfl⟩
abbrev main_v263 : Ref sig .tc := ⟨.hbm, 433, rfl⟩
abbrev main_v264 : Ref sig .tc := ⟨.hbm, 434, rfl⟩
abbrev main_cst_59 : Ref sig .tc := ⟨.hbm, 435, rfl⟩
abbrev main_v265 : Ref sig .tc := ⟨.hbm, 436, rfl⟩
abbrev main_v266 : Ref sig .tc := ⟨.hbm, 437, rfl⟩
abbrev main_v267 : Ref sig .tc := ⟨.hbm, 438, rfl⟩
abbrev main_v268 : Ref sig .tc := ⟨.hbm, 439, rfl⟩
abbrev main_v269 : Ref sig .tc := ⟨.hbm, 440, rfl⟩
abbrev main_v270 : Ref sig .tc := ⟨.hbm, 441, rfl⟩
abbrev main_v271 : Ref sig .tc := ⟨.hbm, 442, rfl⟩
abbrev main_v272 : Ref sig .tc := ⟨.hbm, 443, rfl⟩
abbrev main_v273 : Ref sig .tc := ⟨.hbm, 444, rfl⟩
abbrev main_v274 : Ref sig .tc := ⟨.hbm, 445, rfl⟩
abbrev main_v275 : Ref sig .tc := ⟨.hbm, 446, rfl⟩
abbrev main_v276 : Ref sig .tc := ⟨.hbm, 447, rfl⟩
abbrev main_cst_60 : Ref sig .tc := ⟨.hbm, 448, rfl⟩
abbrev main_v277 : Ref sig .tc := ⟨.hbm, 449, rfl⟩
abbrev main_v278 : Ref sig .tc := ⟨.hbm, 450, rfl⟩
abbrev main_cst_61 : Ref sig .tc := ⟨.hbm, 451, rfl⟩
abbrev main_v279 : Ref sig .tc := ⟨.hbm, 452, rfl⟩
abbrev main_v280 : Ref sig .tc := ⟨.hbm, 453, rfl⟩
abbrev main_v281 : Ref sig .tc := ⟨.hbm, 454, rfl⟩
abbrev main_v282 : Ref sig .tc := ⟨.hbm, 455, rfl⟩
abbrev main_v283 : Ref sig .tc := ⟨.hbm, 456, rfl⟩
abbrev main_v284 : Ref sig .tc := ⟨.hbm, 457, rfl⟩
abbrev main_v285 : Ref sig .tc := ⟨.hbm, 458, rfl⟩
abbrev main_v286 : Ref sig .tc := ⟨.hbm, 459, rfl⟩
abbrev main_v287 : Ref sig .tc := ⟨.hbm, 460, rfl⟩
abbrev main_v288 : Ref sig .tc := ⟨.hbm, 461, rfl⟩
abbrev main_v289 : Ref sig .tc := ⟨.hbm, 462, rfl⟩
abbrev main_v290 : Ref sig .tc := ⟨.hbm, 463, rfl⟩
abbrev main_v291 : Ref sig .tc := ⟨.hbm, 464, rfl⟩
abbrev main_v292 : Ref sig .tc := ⟨.hbm, 465, rfl⟩
abbrev main_v293 : Ref sig .tc := ⟨.hbm, 466, rfl⟩
abbrev main_v294 : Ref sig .tc := ⟨.hbm, 467, rfl⟩
abbrev main_v295 : Ref sig .tc := ⟨.hbm, 468, rfl⟩
abbrev main_v296 : Ref sig .tc := ⟨.hbm, 469, rfl⟩
abbrev main_v297 : Ref sig .tc := ⟨.hbm, 470, rfl⟩
abbrev main_v298 : Ref sig .tc := ⟨.hbm, 471, rfl⟩
abbrev main_c_62 : Ref sig .tc := ⟨.hbm, 472, rfl⟩
abbrev main_v299 : Ref sig .tc := ⟨.hbm, 473, rfl⟩
abbrev main_v300 : Ref sig .tc := ⟨.hbm, 474, rfl⟩
abbrev main_v301 : Ref sig .tc := ⟨.hbm, 475, rfl⟩
abbrev main_c_63 : Ref sig .tc := ⟨.hbm, 476, rfl⟩
abbrev main_v302 : Ref sig .tc := ⟨.hbm, 477, rfl⟩
abbrev main_v303 : Ref sig .tc := ⟨.hbm, 478, rfl⟩
abbrev main_c_64 : Ref sig .tc := ⟨.hbm, 479, rfl⟩
abbrev main_v304 : Ref sig .tc := ⟨.hbm, 480, rfl⟩
abbrev main_v305 : Ref sig .tc := ⟨.hbm, 481, rfl⟩
abbrev main_v306 : Ref sig .tc := ⟨.hbm, 482, rfl⟩
abbrev main_v307 : Ref sig .tc := ⟨.hbm, 483, rfl⟩
abbrev main_v308 : Ref sig .tc := ⟨.hbm, 484, rfl⟩
abbrev main_cst_65 : Ref sig .tc := ⟨.hbm, 485, rfl⟩
abbrev main_call12_v0 : Ref sig .tc := ⟨.hbm, 486, rfl⟩
abbrev main_call12_v1 : Ref sig .tc := ⟨.hbm, 487, rfl⟩
abbrev main_call12_v2 : Ref sig .tc := ⟨.hbm, 488, rfl⟩
abbrev main_v309 : Ref sig .tc := ⟨.hbm, 489, rfl⟩
abbrev main_cst_66 : Ref sig .tc := ⟨.hbm, 490, rfl⟩
abbrev main_v310 : Ref sig .tc := ⟨.hbm, 491, rfl⟩
abbrev main_v311 : Ref sig .tc := ⟨.hbm, 492, rfl⟩
abbrev main_v312 : Ref sig .tc := ⟨.hbm, 493, rfl⟩
abbrev main_v313 : Ref sig .tc := ⟨.hbm, 494, rfl⟩
abbrev main_cst_67 : Ref sig .tc := ⟨.hbm, 495, rfl⟩
abbrev main_v314 : Ref sig .tc := ⟨.hbm, 496, rfl⟩
abbrev main_v315 : Ref sig .tc := ⟨.hbm, 497, rfl⟩
abbrev main_v316 : Ref sig .tc := ⟨.hbm, 498, rfl⟩
abbrev main_cst_68 : Ref sig .tc := ⟨.hbm, 499, rfl⟩
abbrev main_v317 : Ref sig .tc := ⟨.hbm, 500, rfl⟩
abbrev main_v318 : Ref sig .tc := ⟨.hbm, 501, rfl⟩
abbrev main_v319 : Ref sig .tc := ⟨.hbm, 502, rfl⟩
abbrev main_v320 : Ref sig .tc := ⟨.hbm, 503, rfl⟩
abbrev main_v321 : Ref sig .tc := ⟨.hbm, 504, rfl⟩
abbrev main_v322 : Ref sig .tc := ⟨.hbm, 505, rfl⟩
abbrev main_v323 : Ref sig .tc := ⟨.hbm, 506, rfl⟩
abbrev main_c_69 : Ref sig .tc := ⟨.hbm, 507, rfl⟩
abbrev main_v324 : Ref sig .tc := ⟨.hbm, 508, rfl⟩
abbrev main_v325 : Ref sig .tc := ⟨.hbm, 509, rfl⟩
abbrev main_v326 : Ref sig .tc := ⟨.hbm, 510, rfl⟩
abbrev main_c_70 : Ref sig .tc := ⟨.hbm, 511, rfl⟩
abbrev main_v327 : Ref sig .tc := ⟨.hbm, 512, rfl⟩
abbrev main_v328 : Ref sig .tc := ⟨.hbm, 513, rfl⟩
abbrev main_c_71 : Ref sig .tc := ⟨.hbm, 514, rfl⟩
abbrev main_v329 : Ref sig .tc := ⟨.hbm, 515, rfl⟩
abbrev main_v330 : Ref sig .tc := ⟨.hbm, 516, rfl⟩
abbrev main_v331 : Ref sig .tc := ⟨.hbm, 517, rfl⟩
abbrev main_v332 : Ref sig .tc := ⟨.hbm, 518, rfl⟩
abbrev main_v333 : Ref sig .tc := ⟨.hbm, 519, rfl⟩
abbrev main_cst_72 : Ref sig .tc := ⟨.hbm, 520, rfl⟩
abbrev main_call13_v0 : Ref sig .tc := ⟨.hbm, 521, rfl⟩
abbrev main_call13_v1 : Ref sig .tc := ⟨.hbm, 522, rfl⟩
abbrev main_call13_v2 : Ref sig .tc := ⟨.hbm, 523, rfl⟩
abbrev main_v334 : Ref sig .tc := ⟨.hbm, 524, rfl⟩
abbrev main_cst_73 : Ref sig .tc := ⟨.hbm, 525, rfl⟩
abbrev main_v335 : Ref sig .tc := ⟨.hbm, 526, rfl⟩
abbrev main_v336 : Ref sig .tc := ⟨.hbm, 527, rfl⟩
abbrev main_v337 : Ref sig .tc := ⟨.hbm, 528, rfl⟩
abbrev main_v338 : Ref sig .tc := ⟨.hbm, 529, rfl⟩
abbrev main_cst_74 : Ref sig .tc := ⟨.hbm, 530, rfl⟩
abbrev main_v339 : Ref sig .tc := ⟨.hbm, 531, rfl⟩
abbrev main_v340 : Ref sig .tc := ⟨.hbm, 532, rfl⟩
abbrev main_v341 : Ref sig .tc := ⟨.hbm, 533, rfl⟩
abbrev main_cst_75 : Ref sig .tc := ⟨.hbm, 534, rfl⟩
abbrev main_v342 : Ref sig .tc := ⟨.hbm, 535, rfl⟩
abbrev main_v343 : Ref sig .tc := ⟨.hbm, 536, rfl⟩
abbrev main_v344 : Ref sig .tc := ⟨.hbm, 537, rfl⟩
abbrev main_v345 : Ref sig .tc := ⟨.hbm, 538, rfl⟩
abbrev main_v346 : Ref sig .tc := ⟨.hbm, 539, rfl⟩
abbrev main_v347 : Ref sig .tc := ⟨.hbm, 540, rfl⟩
abbrev main_cst_76 : Ref sig .tc := ⟨.hbm, 541, rfl⟩
abbrev main_v348 : Ref sig .tc := ⟨.hbm, 542, rfl⟩
abbrev main_cst_77 : Ref sig .tc := ⟨.hbm, 543, rfl⟩
abbrev main_v349 : Ref sig .tc := ⟨.hbm, 544, rfl⟩
abbrev main_v350 : Ref sig .tc := ⟨.hbm, 545, rfl⟩
abbrev main_c_78 : Ref sig .tc := ⟨.hbm, 546, rfl⟩
abbrev main_call14_cst : Ref sig .tc := ⟨.hbm, 547, rfl⟩
abbrev main_call14_v0 : Ref sig .tc := ⟨.hbm, 548, rfl⟩
abbrev main_call14_v1 : Ref sig .tc := ⟨.hbm, 549, rfl⟩
abbrev main_call14_cst_0 : Ref sig .tc := ⟨.hbm, 550, rfl⟩
abbrev main_call14_v2 : Ref sig .tc := ⟨.hbm, 551, rfl⟩
abbrev main_call14_v3 : Ref sig .tc := ⟨.hbm, 552, rfl⟩
abbrev main_call14_v4 : Ref sig .tc := ⟨.hbm, 553, rfl⟩
abbrev main_call14_v5 : Ref sig .tc := ⟨.hbm, 554, rfl⟩
abbrev main_call14_v6 : Ref sig .tc := ⟨.hbm, 555, rfl⟩
abbrev main_call14_v7 : Ref sig .tc := ⟨.hbm, 556, rfl⟩
abbrev main_call14_cst_1 : Ref sig .tc := ⟨.hbm, 557, rfl⟩
abbrev main_call14_v8 : Ref sig .tc := ⟨.hbm, 558, rfl⟩
abbrev main_call14_cst_2 : Ref sig .tc := ⟨.hbm, 559, rfl⟩
abbrev main_call14_v9 : Ref sig .tc := ⟨.hbm, 560, rfl⟩
abbrev main_call14_v10 : Ref sig .tc := ⟨.hbm, 561, rfl⟩
abbrev main_call14_v11 : Ref sig .tc := ⟨.hbm, 562, rfl⟩
abbrev main_call14_cst_3 : Ref sig .tc := ⟨.hbm, 563, rfl⟩
abbrev main_call14_v12 : Ref sig .tc := ⟨.hbm, 564, rfl⟩
abbrev main_call14_cst_4 : Ref sig .tc := ⟨.hbm, 565, rfl⟩
abbrev main_call14_call0_v0 : Ref sig .tc := ⟨.hbm, 566, rfl⟩
abbrev main_call14_call0_v1 : Ref sig .tc := ⟨.hbm, 567, rfl⟩
abbrev main_v351 : Ref sig .tc := ⟨.hbm, 568, rfl⟩
abbrev main_v352 : Ref sig .tc := ⟨.hbm, 569, rfl⟩
abbrev main_v353 : Ref sig .tc := ⟨.hbm, 570, rfl⟩
abbrev main_v354 : Ref sig .tc := ⟨.hbm, 571, rfl⟩
abbrev main_cst_79 : Ref sig .tc := ⟨.hbm, 572, rfl⟩
abbrev main_v355 : Ref sig .tc := ⟨.hbm, 573, rfl⟩
abbrev main_v356 : Ref sig .tc := ⟨.hbm, 574, rfl⟩
abbrev main_v357 : Ref sig .tc := ⟨.hbm, 575, rfl⟩
abbrev main_v358 : Ref sig .tc := ⟨.hbm, 576, rfl⟩
abbrev main_v359 : Ref sig .tc := ⟨.hbm, 577, rfl⟩
abbrev main_v360 : Ref sig .tc := ⟨.hbm, 578, rfl⟩
abbrev main_v361 : Ref sig .tc := ⟨.hbm, 579, rfl⟩
abbrev main_v362 : Ref sig .tc := ⟨.hbm, 580, rfl⟩
abbrev main_v363 : Ref sig .tc := ⟨.hbm, 581, rfl⟩
abbrev main_v364 : Ref sig .tc := ⟨.hbm, 582, rfl⟩
abbrev main_v365 : Ref sig .tc := ⟨.hbm, 583, rfl⟩
abbrev main_v366 : Ref sig .tc := ⟨.hbm, 584, rfl⟩
abbrev main_cst_80 : Ref sig .tc := ⟨.hbm, 585, rfl⟩
abbrev main_v367 : Ref sig .tc := ⟨.hbm, 586, rfl⟩
abbrev main_v368 : Ref sig .tc := ⟨.hbm, 587, rfl⟩
abbrev main_cst_81 : Ref sig .tc := ⟨.hbm, 588, rfl⟩
abbrev main_v369 : Ref sig .tc := ⟨.hbm, 589, rfl⟩
abbrev main_v370 : Ref sig .tc := ⟨.hbm, 590, rfl⟩
abbrev main_v371 : Ref sig .tc := ⟨.hbm, 591, rfl⟩
abbrev main_cst_82 : Ref sig .tc := ⟨.hbm, 592, rfl⟩
abbrev main_v372 : Ref sig .tc := ⟨.hbm, 593, rfl⟩
abbrev main_v373 : Ref sig .tc := ⟨.hbm, 594, rfl⟩
abbrev main_v374 : Ref sig .tc := ⟨.hbm, 595, rfl⟩
abbrev main_cst_83 : Ref sig .tc := ⟨.hbm, 596, rfl⟩
abbrev main_v375 : Ref sig .tc := ⟨.hbm, 597, rfl⟩
abbrev main_cst_84 : Ref sig .tc := ⟨.hbm, 598, rfl⟩
abbrev main_v376 : Ref sig .tc := ⟨.hbm, 599, rfl⟩
abbrev main_v377 : Ref sig .tc := ⟨.hbm, 600, rfl⟩
abbrev main_v378 : Ref sig .tc := ⟨.hbm, 601, rfl⟩
abbrev main_cst_85 : Ref sig .tc := ⟨.hbm, 602, rfl⟩
abbrev main_v379 : Ref sig .tc := ⟨.hbm, 603, rfl⟩
abbrev main_v380 : Ref sig .tc := ⟨.hbm, 604, rfl⟩
abbrev main_v381 : Ref sig .tc := ⟨.hbm, 605, rfl⟩
abbrev main_v382 : Ref sig .tc := ⟨.hbm, 606, rfl⟩
abbrev main_v383 : Ref sig .tc := ⟨.hbm, 607, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x384 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x384 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x768 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x768 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x384 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x384 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x768x256_S1x768x256_0_0_0 : S2x768x256.Slices ![0, 0, 0] S1x768x256
  shapeCasts_S1x768x256_S768x256 : S1x768x256.ShapeCasts S768x256
  slices_S2x768x256_S1x768x256_1_0_0 : S2x768x256.Slices ![1, 0, 0] S1x768x256
  concatenates_S768x256_S768x256_S768x256_S768x768_d1 : Shape.Concatenates [S768x256, S768x256, S768x256] S768x768 1
  bitsLt_bf16_f32 : FTy.bits .bf16 < FTy.bits .f32
  inb_S2000x768_S2000x768_0_0 : ∀ a, (![0, 0] : Fin 2 → Nat) a + S2000x768.size a ≤ S2000x768.size a
  h_S2000x768 : 0 < S2000x768.numel
  shapeCasts_S2000x768_S2000x768 : S2000x768.ShapeCasts S2000x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  slices_S2x320000_S1x320000_0_0 : S2x320000.Slices ![0, 0] S1x320000
  shapeCasts_S1x320000_S320000 : S1x320000.ShapeCasts S320000
  slices_S2x320000_S1x320000_1_0 : S2x320000.Slices ![1, 0] S1x320000
  slices_S20000x768_S20000x256_0_0 : S20000x768.Slices ![0, 0] S20000x256
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  slices_S20000x768_S20000x256_0_256 : S20000x768.Slices ![0, 256] S20000x256
  bcast_S_S320000 : S_.BroadcastsInDim S320000 (![] : Fin 0 → Fin S320000.rank)
  bcast_S320000_S320000x1_0 : S320000.BroadcastsInDim S320000x1 (![0] : Fin 1 → Fin S320000x1.rank)
  bcast_S320000x1_S320000x256_0_1 : S320000x1.BroadcastsInDim S320000x256 (![0, 1] : Fin 2 → Fin S320000x256.rank)
  bcast_S_S320000x256 : S_.BroadcastsInDim S320000x256 (![] : Fin 0 → Fin S320000x256.rank)
  bcast_S_S20000x256 : S_.BroadcastsInDim S20000x256 (![] : Fin 0 → Fin S20000x256.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x256_0_1 : S20000x1.BroadcastsInDim S20000x256 (![0, 1] : Fin 2 → Fin S20000x256.rank)
  slices_S20000x768_S20000x256_0_512 : S20000x768.Slices ![0, 512] S20000x256
  reducesTo_S20000x256_S256_d0 : S20000x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  slices_S2x256x128_S1x256x128_0_0_0 : S2x256x128.Slices ![0, 0, 0] S1x256x128
  shapeCasts_S1x256x128_S256x128 : S1x256x128.ShapeCasts S256x128
  slices_S2x256x128_S1x256x128_1_0_0 : S2x256x128.Slices ![1, 0, 0] S1x256x128
  concatenates_S256x128_S256x128_S256x128_S256x384_d1 : Shape.Concatenates [S256x128, S256x128, S256x128] S256x384 1
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x384_S256x384_0_0 : ∀ a, (![0, 0] : Fin 2 → Nat) a + S256x384.size a ≤ S256x384.size a
  h_S256x384 : 0 < S256x384.numel
  shapeCasts_S256x384_S256x384 : S256x384.ShapeCasts S256x384
  inb_S2000x384_S2000x384_0_0 : ∀ a, (![0, 0] : Fin 2 → Nat) a + S2000x384.size a ≤ S2000x384.size a
  h_S2000x384 : 0 < S2000x384.numel
  slices_S20000x384_S20000x128_0_0 : S20000x384.Slices ![0, 0] S20000x128
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  slices_S20000x384_S20000x128_0_128 : S20000x384.Slices ![0, 128] S20000x128
  bcast_S320000x1_S320000x128_0_1 : S320000x1.BroadcastsInDim S320000x128 (![0, 1] : Fin 2 → Fin S320000x128.rank)
  bcast_S_S320000x128 : S_.BroadcastsInDim S320000x128 (![] : Fin 0 → Fin S320000x128.rank)
  bcast_S_S20000x128 : S_.BroadcastsInDim S20000x128 (![] : Fin 0 → Fin S20000x128.rank)
  bcast_S20000x1_S20000x128_0_1 : S20000x1.BroadcastsInDim S20000x128 (![0, 1] : Fin 2 → Fin S20000x128.rank)
  slices_S20000x384_S20000x128_0_256 : S20000x384.Slices ![0, 256] S20000x128
  reducesTo_S20000x128_S128_d0 : S20000x128.ReducesTo [0] S128
  bcast_S_S128 : S_.BroadcastsInDim S128 (![] : Fin 0 → Fin S128.rank)
  bcast_S_S1x128 : S_.BroadcastsInDim S1x128 (![] : Fin 0 → Fin S1x128.rank)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  slices_S2x128x256_S1x128x256_0_0_0 : S2x128x256.Slices ![0, 0, 0] S1x128x256
  shapeCasts_S1x128x256_S128x256 : S1x128x256.ShapeCasts S128x256
  slices_S2x128x256_S1x128x256_1_0_0 : S2x128x256.Slices ![1, 0, 0] S1x128x256
  concatenates_S128x256_S128x256_S128x256_S128x768_d1 : Shape.Concatenates [S128x256, S128x256, S128x256] S128x768 1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x768_S128x768_0_0 : ∀ a, (![0, 0] : Fin 2 → Nat) a + S128x768.size a ≤ S128x768.size a
  h_S128x768 : 0 < S128x768.numel
  shapeCasts_S128x768_S128x768 : S128x768.ShapeCasts S128x768
  dot_S2000x768_S768x768_S2000x768_1_0_0_1_n_n_wf : DotDims.WF S2000x768 S768x768 S2000x768 [1] [0] [0] [1] [] []
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  scatter_S20000_S320000x1_S320000_n_0_0_1_wf : ScatterDims.WF S20000 S320000x1 S320000 [] [0] [0] 1
  dot_S2000x256_S256x384_S2000x384_1_0_0_1_n_n_wf : DotDims.WF S2000x256 S256x384 S2000x384 [1] [0] [0] [1] [] []
  gather_S20000x128_S320000x1_S320000x128_1_0_n_n_0_1_1128_wf : GatherDims.WF S20000x128 S320000x1 S320000x128 [1] [0] [] [0] [] 1 ![1, 128]
  scatter_S20000x128_S320000x1_S320000x128_1_0_0_1_wf : ScatterDims.WF S20000x128 S320000x1 S320000x128 [1] [0] [0] 1
  scatter_S64x128_S20000x1_S20000x128_1_0_0_1_wf : ScatterDims.WF S64x128 S20000x1 S20000x128 [1] [0] [0] 1
  scatter_S64_S20000x1_S20000_n_0_0_1_wf : ScatterDims.WF S64 S20000x1 S20000 [] [0] [0] 1
  dot_S2000x128_S128x768_S2000x768_1_0_0_1_n_n_wf : DotDims.WF S2000x128 S128x768 S2000x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x768.size a ≤ S20000x768.size a
  hwx0_0 : ∀ i : grid0.Coords, EltTy.bits .bf16 = 32 ∨ (Rect.block (s := S20000x768) S2000x768.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .bf16 = 32 ∨ (Rect.block (s := S768x768) S768x768.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x768.size a ≤ S20000x768.size a
  hwx0_2 : ∀ i : grid0.Coords, EltTy.bits .f32 = 32 ∨ (Rect.block (s := S20000x768) S2000x768.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S20000x256.size a
  hwx1_0 : ∀ i : grid1.Coords, EltTy.bits .bf16 = 32 ∨ (Rect.block (s := S20000x256) S2000x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x384.size a ≤ S256x384.size a
  hwx1_1 : ∀ i : grid1.Coords, EltTy.bits .bf16 = 32 ∨ (Rect.block (s := S256x384) S256x384.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x384.size a ≤ S20000x384.size a
  hwx1_2 : ∀ i : grid1.Coords, EltTy.bits .f32 = 32 ∨ (Rect.block (s := S20000x384) S2000x384.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S20000x128.size a
  hwx2_0 : ∀ i : grid2.Coords, EltTy.bits .bf16 = 32 ∨ (Rect.block (s := S20000x128) S2000x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x768.size a ≤ S128x768.size a
  hwx2_1 : ∀ i : grid2.Coords, EltTy.bits .bf16 = 32 ∨ (Rect.block (s := S128x768) S128x768.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x768.size a ≤ S20000x768.size a
  hwx2_2 : ∀ i : grid2.Coords, EltTy.bits .f32 = 32 ∨ (Rect.block (s := S20000x768) S2000x768.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S20000x256.size a
  hwx3_0 : ∀ i : grid3.Coords, EltTy.bits .bf16 = 32 ∨ (Rect.block (s := S20000x256) S2000x256.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x384.size a ≤ S256x384.size a
  hwx3_1 : ∀ i : grid3.Coords, EltTy.bits .bf16 = 32 ∨ (Rect.block (s := S256x384) S256x384.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x384.size a ≤ S20000x384.size a
  hwx3_2 : ∀ i : grid3.Coords, EltTy.bits .f32 = 32 ∨ (Rect.block (s := S20000x384) S2000x384.size (cc3_transform_2 i) (hinb3_2 i)).WholeWords (EltTy.packing .f32)

variable [Facts₀]

def dot_S2000x768_S768x768_S2000x768_1_0_0_1_n_n : DotDims S2000x768 S768x768 S2000x768 where
  lhsContracting := [1]
  rhsContracting := [0]
  lhsNonContracting := [0]
  rhsNonContracting := [1]
  lhsBatch := []
  rhsBatch := []
  wf := dot_S2000x768_S768x768_S2000x768_1_0_0_1_n_n_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def scatter_S20000_S320000x1_S320000_n_0_0_1 : ScatterDims S20000 S320000x1 S320000 where
  updateWindowDims := []
  insertedWindowDims := [0]
  scatterDimsToOperandDims := [0]
  indexVectorDim := 1
  wf := scatter_S20000_S320000x1_S320000_n_0_0_1_wf
def dot_S2000x256_S256x384_S2000x384_1_0_0_1_n_n : DotDims S2000x256 S256x384 S2000x384 where
  lhsContracting := [1]
  rhsContracting := [0]
  lhsNonContracting := [0]
  rhsNonContracting := [1]
  lhsBatch := []
  rhsBatch := []
  wf := dot_S2000x256_S256x384_S2000x384_1_0_0_1_n_n_wf
def gather_S20000x128_S320000x1_S320000x128_1_0_n_n_0_1_1128 : GatherDims S20000x128 S320000x1 S320000x128 where
  offsetDims := [1]
  collapsedSliceDims := [0]
  operandBatchingDims := []
  startIndicesBatchingDims := []
  startIndexMap := [0]
  indexVectorDim := 1
  sliceSizes := ![1, 128]
  wf := gather_S20000x128_S320000x1_S320000x128_1_0_n_n_0_1_1128_wf
def scatter_S20000x128_S320000x1_S320000x128_1_0_0_1 : ScatterDims S20000x128 S320000x1 S320000x128 where
  updateWindowDims := [1]
  insertedWindowDims := [0]
  scatterDimsToOperandDims := [0]
  indexVectorDim := 1
  wf := scatter_S20000x128_S320000x1_S320000x128_1_0_0_1_wf
def scatter_S64x128_S20000x1_S20000x128_1_0_0_1 : ScatterDims S64x128 S20000x1 S20000x128 where
  updateWindowDims := [1]
  insertedWindowDims := [0]
  scatterDimsToOperandDims := [0]
  indexVectorDim := 1
  wf := scatter_S64x128_S20000x1_S20000x128_1_0_0_1_wf
def scatter_S64_S20000x1_S20000_n_0_0_1 : ScatterDims S64 S20000x1 S20000 where
  updateWindowDims := []
  insertedWindowDims := [0]
  scatterDimsToOperandDims := [0]
  indexVectorDim := 1
  wf := scatter_S64_S20000x1_S20000_n_0_0_1_wf
def dot_S2000x128_S128x768_S2000x768_1_0_0_1_n_n : DotDims S2000x128 S128x768 S2000x768 where
  lhsContracting := [1]
  rhsContracting := [0]
  lhsNonContracting := [0]
  rhsNonContracting := [1]
  lhsBatch := []
  rhsBatch := []
  wf := dot_S2000x128_S128x768_S2000x768_1_0_0_1_n_n_wf

abbrev win0_0 : Pipeline.Window sig grid0 :=
  Pipeline.Window.ofSpec (Memref.whole main_v5) S2000x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S2000x768.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v95) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v96) S256x384.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v97) S2000x384.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v197) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v198) S128x768.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v199) S2000x768.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v287) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v288) S256x384.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v289) S2000x384.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S20000x768 : Shape := ⟨2, ![20000, 768]⟩
abbrev S20000x128 : Shape := ⟨2, ![20000, 128]⟩
abbrev S2x768x256 : Shape := ⟨3, ![2, 768, 256]⟩
abbrev S768x256 : Shape := ⟨2, ![768, 256]⟩
abbrev S256 : Shape := ⟨1, ![256]⟩
abbrev S2x256x128 : Shape := ⟨3, ![2, 256, 128]⟩
abbrev S256x128 : Shape := ⟨2, ![256, 128]⟩
abbrev S128 : Shape := ⟨1, ![128]⟩
abbrev S2x128x256 : Shape := ⟨3, ![2, 128, 256]⟩
abbrev S128x256 : Shape := ⟨2, ![128, 256]⟩
abbrev S2x320000 : Shape := ⟨2, ![2, 320000]⟩
abbrev S320000 : Shape := ⟨1, ![320000]⟩
abbrev S20000 : Shape := ⟨1, ![20000]⟩
abbrev S1x320000 : Shape := ⟨2, ![1, 320000]⟩
abbrev S20000x256 : Shape := ⟨2, ![20000, 256]⟩
abbrev S1x256 : Shape := ⟨2, ![1, 256]⟩
abbrev S1x768x256 : Shape := ⟨3, ![1, 768, 256]⟩
abbrev S_ : Shape := ⟨0, ![]⟩
abbrev S320000x1 : Shape := ⟨2, ![320000, 1]⟩
abbrev S320000x256 : Shape := ⟨2, ![320000, 256]⟩
abbrev S20000x1 : Shape := ⟨2, ![20000, 1]⟩
abbrev S1x128 : Shape := ⟨2, ![1, 128]⟩
abbrev S1x256x128 : Shape := ⟨3, ![1, 256, 128]⟩
abbrev S320000x128 : Shape := ⟨2, ![320000, 128]⟩
abbrev S64x128 : Shape := ⟨2, ![64, 128]⟩
abbrev S64 : Shape := ⟨1, ![64]⟩
abbrev S64x1 : Shape := ⟨2, ![64, 1]⟩
abbrev S1x128x256 : Shape := ⟨3, ![1, 128, 256]⟩

abbrev nBuf : Space → Nat
  | .hbm => 592
  | .vmem => 0
  | .smem => 0
  | _ => 0

abbrev hbmTy0_0 (i : Nat) : BufTy := match i % 128 with
  | 0 => ⟨S20000x768, .f32⟩
  | 1 => ⟨S20000x128, .f32⟩
  | 2 => ⟨S2x768x256, .f32⟩
  | 3 => ⟨S768x256, .f32⟩
  | 4 => ⟨S256, .f32⟩
  | 5 => ⟨S2x256x128, .f32⟩
  | 6 => ⟨S256x128, .f32⟩
  | 7 => ⟨S128, .f32⟩
  | 8 => ⟨S2x128x256, .f32⟩
  | 9 => ⟨S128x256, .f32⟩
  | 10 => ⟨S256, .f32⟩
  | 11 => ⟨S2x256x128, .f32⟩
  | 12 => ⟨S256x128, .f32⟩
  | 13 => ⟨S128, .f32⟩
  | 14 => ⟨S256, .f32⟩
  | 15 => ⟨S256, .f32⟩
  | 16 => ⟨S128, .f32⟩
  | 17 => ⟨S128, .f32⟩
  | 18 => ⟨S256, .f32⟩
  | 19 => ⟨S256, .f32⟩
  | 20 => ⟨S128, .f32⟩
  | 21 => ⟨S128, .f32⟩
  | 22 => ⟨S2x320000, .i32⟩
  | 23 => ⟨S320000, .i32⟩
  | 24 => ⟨S20000, .i32⟩
  | 25 => ⟨S2x320000, .i32⟩
  | 26 => ⟨S320000, .i32⟩
  | 27 => ⟨S20000, .i32⟩
  | 28 => ⟨S1x320000, .i32⟩
  | 29 => ⟨S320000, .i32⟩
  | 30 => ⟨S1x320000, .i32⟩
  | 31 => ⟨S320000, .i32⟩
  | 32 => ⟨S20000x256, .f32⟩
  | 33 => ⟨S1x256, .f32⟩
  | 34 => ⟨S20000x256, .f32⟩
  | 35 => ⟨S20000x256, .f32⟩
  | 36 => ⟨S1x768x256, .f32⟩
  | 37 => ⟨S768x256, .f32⟩
  | 38 => ⟨S20000x256, .f32⟩
  | 39 => ⟨S_, .i32⟩
  | 40 => ⟨S320000, .i32⟩
  | 41 => ⟨S320000, .i1⟩
  | 42 => ⟨S320000x1, .i1⟩
  | 43 => ⟨S_, .i32⟩
  | 44 => ⟨S320000, .i32⟩
  | 45 => ⟨S320000, .i1⟩
  | 46 => ⟨S_, .i32⟩
  | 47 => ⟨S320000, .i32⟩
  | 48 => ⟨S320000, .i32⟩
  | 49 => ⟨S320000, .i32⟩
  | 50 => ⟨S320000x1, .i32⟩
  | 51 => ⟨S320000x256, .f32⟩
  | 52 => ⟨S_, .f32⟩
  | 53 => ⟨S_, .f32⟩
  | 54 => ⟨S320000x256, .i1⟩
  | 55 => ⟨S320000x256, .f32⟩
  | 56 => ⟨S320000x256, .f32⟩
  | 57 => ⟨S_, .f32⟩
  | 58 => ⟨S20000x256, .f32⟩
  | 59 => ⟨S320000x1, .i32⟩
  | 60 => ⟨S20000x256, .f32⟩
  | 61 => ⟨S320000, .f32⟩
  | 62 => ⟨S_, .f32⟩
  | 63 => ⟨S20000, .f32⟩
  | 64 => ⟨S320000x1, .i32⟩
  | 65 => ⟨S20000, .f32⟩
  | 66 => ⟨S_, .f32⟩
  | 67 => ⟨S20000, .f32⟩
  | 68 => ⟨S20000, .f32⟩
  | 69 => ⟨S20000x1, .f32⟩
  | 70 => ⟨S20000x256, .f32⟩
  | 71 => ⟨S20000x256, .f32⟩
  | 72 => ⟨S20000x256, .f32⟩
  | 73 => ⟨S1x768x256, .f32⟩
  | 74 => ⟨S768x256, .f32⟩
  | 75 => ⟨S20000x256, .f32⟩
  | 76 => ⟨S_, .i32⟩
  | 77 => ⟨S320000, .i32⟩
  | 78 => ⟨S320000, .i1⟩
  | 79 => ⟨S320000x1, .i1⟩
  | 80 => ⟨S_, .i32⟩
  | 81 => ⟨S320000, .i32⟩
  | 82 => ⟨S320000, .i1⟩
  | 83 => ⟨S_, .i32⟩
  | 84 => ⟨S320000, .i32⟩
  | 85 => ⟨S320000, .i32⟩
  | 86 => ⟨S320000, .i32⟩
  | 87 => ⟨S320000x1, .i32⟩
  | 88 => ⟨S320000x256, .f32⟩
  | 89 => ⟨S_, .f32⟩
  | 90 => ⟨S_, .f32⟩
  | 91 => ⟨S320000x256, .i1⟩
  | 92 => ⟨S320000x256, .f32⟩
  | 93 => ⟨S320000x256, .f32⟩
  | 94 => ⟨S_, .f32⟩
  | 95 => ⟨S20000x256, .f32⟩
  | 96 => ⟨S320000x1, .i32⟩
  | 97 => ⟨S20000x256, .f32⟩
  | 98 => ⟨S320000, .f32⟩
  | 99 => ⟨S_, .f32⟩
  | 100 => ⟨S20000, .f32⟩
  | 101 => ⟨S320000x1, .i32⟩
  | 102 => ⟨S20000, .f32⟩
  | 103 => ⟨S_, .f32⟩
  | 104 => ⟨S20000, .f32⟩
  | 105 => ⟨S20000, .f32⟩
  | 106 => ⟨S20000x1, .f32⟩
  | 107 => ⟨S20000x256, .f32⟩
  | 108 => ⟨S20000x256, .f32⟩
  | 109 => ⟨S20000x256, .f32⟩
  | 110 => ⟨S_, .f32⟩
  | 111 => ⟨S256, .f32⟩
  | 112 => ⟨S_, .f32⟩
  | 113 => ⟨S256, .f32⟩
  | 114 => ⟨S256, .f32⟩
  | 115 => ⟨S_, .i32⟩
  | 116 => ⟨S_, .f32⟩
  | 117 => ⟨S256, .f32⟩
  | 118 => ⟨S1x256, .f32⟩
  | 119 => ⟨S_, .f32⟩
  | 120 => ⟨S1x256, .f32⟩
  | 121 => ⟨S1x256, .f32⟩
  | 122 => ⟨S20000x256, .f32⟩
  | 123 => ⟨S20000x256, .f32⟩
  | 124 => ⟨S20000x256, .f32⟩
  | 125 => ⟨S_, .f32⟩
  | 126 => ⟨S_, .f32⟩
  | 127 => ⟨S_, .f32⟩
  | _ => ⟨S20000x768, .f32⟩

abbrev hbmTy0_1 (i : Nat) : BufTy := match i % 128 with
  | 0 => ⟨S_, .f32⟩
  | 1 => ⟨S256, .f32⟩
  | 2 => ⟨S256, .f32⟩
  | 3 => ⟨S256, .f32⟩
  | 4 => ⟨S_, .f32⟩
  | 5 => ⟨S_, .i1⟩
  | 6 => ⟨S_, .f32⟩
  | 7 => ⟨S_, .f32⟩
  | 8 => ⟨S256, .f32⟩
  | 9 => ⟨S256, .f32⟩
  | 10 => ⟨S1x256, .f32⟩
  | 11 => ⟨S20000x256, .f32⟩
  | 12 => ⟨S20000x256, .f32⟩
  | 13 => ⟨S_, .f32⟩
  | 14 => ⟨S256, .f32⟩
  | 15 => ⟨S256, .f32⟩
  | 16 => ⟨S256, .f32⟩
  | 17 => ⟨S1x256, .f32⟩
  | 18 => ⟨S20000x256, .f32⟩
  | 19 => ⟨S20000x256, .f32⟩
  | 20 => ⟨S1x256, .f32⟩
  | 21 => ⟨S20000x256, .f32⟩
  | 22 => ⟨S20000x256, .f32⟩
  | 23 => ⟨S1x256, .f32⟩
  | 24 => ⟨S20000x256, .f32⟩
  | 25 => ⟨S20000x256, .f32⟩
  | 26 => ⟨S_, .f32⟩
  | 27 => ⟨S20000x256, .f32⟩
  | 28 => ⟨S20000x256, .i1⟩
  | 29 => ⟨S_, .f32⟩
  | 30 => ⟨S20000x256, .f32⟩
  | 31 => ⟨S20000x256, .f32⟩
  | 32 => ⟨S20000x256, .f32⟩
  | 33 => ⟨S1x320000, .i32⟩
  | 34 => ⟨S320000, .i32⟩
  | 35 => ⟨S1x320000, .i32⟩
  | 36 => ⟨S320000, .i32⟩
  | 37 => ⟨S20000x128, .f32⟩
  | 38 => ⟨S1x128, .f32⟩
  | 39 => ⟨S20000x128, .f32⟩
  | 40 => ⟨S20000x128, .f32⟩
  | 41 => ⟨S1x256x128, .f32⟩
  | 42 => ⟨S256x128, .f32⟩
  | 43 => ⟨S20000x128, .f32⟩
  | 44 => ⟨S_, .i32⟩
  | 45 => ⟨S320000, .i32⟩
  | 46 => ⟨S320000, .i1⟩
  | 47 => ⟨S320000x1, .i1⟩
  | 48 => ⟨S_, .i32⟩
  | 49 => ⟨S320000, .i32⟩
  | 50 => ⟨S320000, .i1⟩
  | 51 => ⟨S_, .i32⟩
  | 52 => ⟨S320000, .i32⟩
  | 53 => ⟨S320000, .i32⟩
  | 54 => ⟨S320000, .i32⟩
  | 55 => ⟨S320000x1, .i32⟩
  | 56 => ⟨S320000x128, .f32⟩
  | 57 => ⟨S_, .f32⟩
  | 58 => ⟨S_, .f32⟩
  | 59 => ⟨S320000x128, .i1⟩
  | 60 => ⟨S320000x128, .f32⟩
  | 61 => ⟨S320000x128, .f32⟩
  | 62 => ⟨S_, .f32⟩
  | 63 => ⟨S20000x128, .f32⟩
  | 64 => ⟨S320000x1, .i32⟩
  | 65 => ⟨S20000x128, .f32⟩
  | 66 => ⟨S320000, .f32⟩
  | 67 => ⟨S_, .f32⟩
  | 68 => ⟨S20000, .f32⟩
  | 69 => ⟨S320000x1, .i32⟩
  | 70 => ⟨S20000, .f32⟩
  | 71 => ⟨S_, .f32⟩
  | 72 => ⟨S20000, .f32⟩
  | 73 => ⟨S20000, .f32⟩
  | 74 => ⟨S20000x1, .f32⟩
  | 75 => ⟨S20000x128, .f32⟩
  | 76 => ⟨S20000x128, .f32⟩
  | 77 => ⟨S20000x128, .f32⟩
  | 78 => ⟨S1x256x128, .f32⟩
  | 79 => ⟨S256x128, .f32⟩
  | 80 => ⟨S20000x128, .f32⟩
  | 81 => ⟨S_, .i32⟩
  | 82 => ⟨S320000, .i32⟩
  | 83 => ⟨S320000, .i1⟩
  | 84 => ⟨S320000x1, .i1⟩
  | 85 => ⟨S_, .i32⟩
  | 86 => ⟨S320000, .i32⟩
  | 87 => ⟨S320000, .i1⟩
  | 88 => ⟨S_, .i32⟩
  | 89 => ⟨S320000, .i32⟩
  | 90 => ⟨S320000, .i32⟩
  | 91 => ⟨S320000, .i32⟩
  | 92 => ⟨S320000x1, .i32⟩
  | 93 => ⟨S320000x128, .f32⟩
  | 94 => ⟨S_, .f32⟩
  | 95 => ⟨S_, .f32⟩
  | 96 => ⟨S320000x128, .i1⟩
  | 97 => ⟨S320000x128, .f32⟩
  | 98 => ⟨S320000x128, .f32⟩
  | 99 => ⟨S_, .f32⟩
  | 100 => ⟨S20000x128, .f32⟩
  | 101 => ⟨S320000x1, .i32⟩
  | 102 => ⟨S20000x128, .f32⟩
  | 103 => ⟨S320000, .f32⟩
  | 104 => ⟨S_, .f32⟩
  | 105 => ⟨S20000, .f32⟩
  | 106 => ⟨S320000x1, .i32⟩
  | 107 => ⟨S20000, .f32⟩
  | 108 => ⟨S_, .f32⟩
  | 109 => ⟨S20000, .f32⟩
  | 110 => ⟨S20000, .f32⟩
  | 111 => ⟨S20000x1, .f32⟩
  | 112 => ⟨S20000x128, .f32⟩
  | 113 => ⟨S20000x128, .f32⟩
  | 114 => ⟨S20000x128, .f32⟩
  | 115 => ⟨S_, .f32⟩
  | 116 => ⟨S128, .f32⟩
  | 117 => ⟨S_, .f32⟩
  | 118 => ⟨S128, .f32⟩
  | 119 => ⟨S128, .f32⟩
  | 120 => ⟨S_, .i32⟩
  | 121 => ⟨S_, .f32⟩
  | 122 => ⟨S128, .f32⟩
  | 123 => ⟨S1x128, .f32⟩
  | 124 => ⟨S_, .f32⟩
  | 125 => ⟨S1x128, .f32⟩
  | 126 => ⟨S1x128, .f32⟩
  | 127 => ⟨S20000x128, .f32⟩
  | _ => ⟨S20000x768, .f32⟩

abbrev hbmTy0_2 (i : Nat) : BufTy := match i % 128 with
  | 0 => ⟨S20000x128, .f32⟩
  | 1 => ⟨S20000x128, .f32⟩
  | 2 => ⟨S_, .f32⟩
  | 3 => ⟨S_, .f32⟩
  | 4 => ⟨S_, .f32⟩
  | 5 => ⟨S_, .f32⟩
  | 6 => ⟨S128, .f32⟩
  | 7 => ⟨S128, .f32⟩
  | 8 => ⟨S128, .f32⟩
  | 9 => ⟨S_, .f32⟩
  | 10 => ⟨S_, .i1⟩
  | 11 => ⟨S_, .f32⟩
  | 12 => ⟨S_, .f32⟩
  | 13 => ⟨S128, .f32⟩
  | 14 => ⟨S128, .f32⟩
  | 15 => ⟨S1x128, .f32⟩
  | 16 => ⟨S20000x128, .f32⟩
  | 17 => ⟨S20000x128, .f32⟩
  | 18 => ⟨S_, .f32⟩
  | 19 => ⟨S128, .f32⟩
  | 20 => ⟨S128, .f32⟩
  | 21 => ⟨S128, .f32⟩
  | 22 => ⟨S1x128, .f32⟩
  | 23 => ⟨S20000x128, .f32⟩
  | 24 => ⟨S20000x128, .f32⟩
  | 25 => ⟨S1x128, .f32⟩
  | 26 => ⟨S20000x128, .f32⟩
  | 27 => ⟨S20000x128, .f32⟩
  | 28 => ⟨S1x128, .f32⟩
  | 29 => ⟨S20000x128, .f32⟩
  | 30 => ⟨S20000x128, .f32⟩
  | 31 => ⟨S_, .f32⟩
  | 32 => ⟨S20000x128, .f32⟩
  | 33 => ⟨S20000x128, .i1⟩
  | 34 => ⟨S_, .f32⟩
  | 35 => ⟨S20000x128, .f32⟩
  | 36 => ⟨S20000x128, .f32⟩
  | 37 => ⟨S20000x128, .f32⟩
  | 38 => ⟨S_, .f32⟩
  | 39 => ⟨S64x128, .f32⟩
  | 40 => ⟨S20000x1, .i32⟩
  | 41 => ⟨S64x128, .f32⟩
  | 42 => ⟨S_, .f32⟩
  | 43 => ⟨S20000, .f32⟩
  | 44 => ⟨S_, .f32⟩
  | 45 => ⟨S64, .f32⟩
  | 46 => ⟨S20000x1, .i32⟩
  | 47 => ⟨S64, .f32⟩
  | 48 => ⟨S_, .f32⟩
  | 49 => ⟨S64, .f32⟩
  | 50 => ⟨S64, .f32⟩
  | 51 => ⟨S64x1, .f32⟩
  | 52 => ⟨S64x128, .f32⟩
  | 53 => ⟨S64x128, .f32⟩
  | 54 => ⟨S1x320000, .i32⟩
  | 55 => ⟨S320000, .i32⟩
  | 56 => ⟨S1x320000, .i32⟩
  | 57 => ⟨S320000, .i32⟩
  | 58 => ⟨S20000x256, .f32⟩
  | 59 => ⟨S1x256, .f32⟩
  | 60 => ⟨S20000x256, .f32⟩
  | 61 => ⟨S20000x256, .f32⟩
  | 62 => ⟨S1x128x256, .f32⟩
  | 63 => ⟨S128x256, .f32⟩
  | 64 => ⟨S20000x256, .f32⟩
  | 65 => ⟨S_, .i32⟩
  | 66 => ⟨S320000, .i32⟩
  | 67 => ⟨S320000, .i1⟩
  | 68 => ⟨S320000x1, .i1⟩
  | 69 => ⟨S_, .i32⟩
  | 70 => ⟨S320000, .i32⟩
  | 71 => ⟨S320000, .i1⟩
  | 72 => ⟨S_, .i32⟩
  | 73 => ⟨S320000, .i32⟩
  | 74 => ⟨S320000, .i32⟩
  | 75 => ⟨S320000, .i32⟩
  | 76 => ⟨S320000x1, .i32⟩
  | 77 => ⟨S320000x256, .f32⟩
  | 78 => ⟨S_, .f32⟩
  | 79 => ⟨S_, .f32⟩
  | 80 => ⟨S320000x256, .i1⟩
  | 81 => ⟨S320000x256, .f32⟩
  | 82 => ⟨S320000x256, .f32⟩
  | 83 => ⟨S_, .f32⟩
  | 84 => ⟨S20000x256, .f32⟩
  | 85 => ⟨S320000x1, .i32⟩
  | 86 => ⟨S20000x256, .f32⟩
  | 87 => ⟨S320000, .f32⟩
  | 88 => ⟨S_, .f32⟩
  | 89 => ⟨S20000, .f32⟩
  | 90 => ⟨S320000x1, .i32⟩
  | 91 => ⟨S20000, .f32⟩
  | 92 => ⟨S_, .f32⟩
  | 93 => ⟨S20000, .f32⟩
  | 94 => ⟨S20000, .f32⟩
  | 95 => ⟨S20000x1, .f32⟩
  | 96 => ⟨S20000x256, .f32⟩
  | 97 => ⟨S20000x256, .f32⟩
  | 98 => ⟨S20000x256, .f32⟩
  | 99 => ⟨S1x128x256, .f32⟩
  | 100 => ⟨S128x256, .f32⟩
  | 101 => ⟨S20000x256, .f32⟩
  | 102 => ⟨S_, .i32⟩
  | 103 => ⟨S320000, .i32⟩
  | 104 => ⟨S320000, .i1⟩
  | 105 => ⟨S320000x1, .i1⟩
  | 106 => ⟨S_, .i32⟩
  | 107 => ⟨S320000, .i32⟩
  | 108 => ⟨S320000, .i1⟩
  | 109 => ⟨S_, .i32⟩
  | 110 => ⟨S320000, .i32⟩
  | 111 => ⟨S320000, .i32⟩
  | 112 => ⟨S320000, .i32⟩
  | 113 => ⟨S320000x1, .i32⟩
  | 114 => ⟨S320000x256, .f32⟩
  | 115 => ⟨S_, .f32⟩
  | 116 => ⟨S_, .f32⟩
  | 117 => ⟨S320000x256, .i1⟩
  | 118 => ⟨S320000x256, .f32⟩
  | 119 => ⟨S320000x256, .f32⟩
  | 120 => ⟨S_, .f32⟩
  | 121 => ⟨S20000x256, .f32⟩
  | 122 => ⟨S320000x1, .i32⟩
  | 123 => ⟨S20000x256, .f32⟩
  | 124 => ⟨S320000, .f32⟩
  | 125 => ⟨S_, .f32⟩
  | 126 => ⟨S20000, .f32⟩
  | 127 => ⟨S320000x1, .i32⟩
  | _ => ⟨S20000x768, .f32⟩

abbrev hbmTy0_3 (i : Nat) : BufTy := match i % 128 with
  | 0 => ⟨S20000, .f32⟩
  | 1 => ⟨S_, .f32⟩
  | 2 => ⟨S20000, .f32⟩
  | 3 => ⟨S20000, .f32⟩
  | 4 => ⟨S20000x1, .f32⟩
  | 5 => ⟨S20000x256, .f32⟩
  | 6 => ⟨S20000x256, .f32⟩
  | 7 => ⟨S20000x256, .f32⟩
  | 8 => ⟨S_, .f32⟩
  | 9 => ⟨S256, .f32⟩
  | 10 => ⟨S_, .f32⟩
  | 11 => ⟨S256, .f32⟩
  | 12 => ⟨S256, .f32⟩
  | 13 => ⟨S_, .i32⟩
  | 14 => ⟨S_, .f32⟩
  | 15 => ⟨S256, .f32⟩
  | 16 => ⟨S1x256, .f32⟩
  | 17 => ⟨S_, .f32⟩
  | 18 => ⟨S1x256, .f32⟩
  | 19 => ⟨S1x256, .f32⟩
  | 20 => ⟨S20000x256, .f32⟩
  | 21 => ⟨S20000x256, .f32⟩
  | 22 => ⟨S20000x256, .f32⟩
  | 23 => ⟨S_, .f32⟩
  | 24 => ⟨S_, .f32⟩
  | 25 => ⟨S_, .f32⟩
  | 26 => ⟨S_, .f32⟩
  | 27 => ⟨S256, .f32⟩
  | 28 => ⟨S256, .f32⟩
  | 29 => ⟨S256, .f32⟩
  | 30 => ⟨S_, .f32⟩
  | 31 => ⟨S_, .i1⟩
  | 32 => ⟨S_, .f32⟩
  | 33 => ⟨S_, .f32⟩
  | 34 => ⟨S256, .f32⟩
  | 35 => ⟨S256, .f32⟩
  | 36 => ⟨S1x256, .f32⟩
  | 37 => ⟨S20000x256, .f32⟩
  | 38 => ⟨S20000x256, .f32⟩
  | 39 => ⟨S_, .f32⟩
  | 40 => ⟨S256, .f32⟩
  | 41 => ⟨S256, .f32⟩
  | 42 => ⟨S256, .f32⟩
  | 43 => ⟨S1x256, .f32⟩
  | 44 => ⟨S20000x256, .f32⟩
  | 45 => ⟨S20000x256, .f32⟩
  | 46 => ⟨S1x256, .f32⟩
  | 47 => ⟨S20000x256, .f32⟩
  | 48 => ⟨S20000x256, .f32⟩
  | 49 => ⟨S1x256, .f32⟩
  | 50 => ⟨S20000x256, .f32⟩
  | 51 => ⟨S20000x256, .f32⟩
  | 52 => ⟨S_, .f32⟩
  | 53 => ⟨S20000x256, .f32⟩
  | 54 => ⟨S20000x256, .i1⟩
  | 55 => ⟨S_, .f32⟩
  | 56 => ⟨S20000x256, .f32⟩
  | 57 => ⟨S20000x256, .f32⟩
  | 58 => ⟨S20000x256, .f32⟩
  | 59 => ⟨S1x320000, .i32⟩
  | 60 => ⟨S320000, .i32⟩
  | 61 => ⟨S1x320000, .i32⟩
  | 62 => ⟨S320000, .i32⟩
  | 63 => ⟨S20000x128, .f32⟩
  | 64 => ⟨S1x128, .f32⟩
  | 65 => ⟨S20000x128, .f32⟩
  | 66 => ⟨S20000x128, .f32⟩
  | 67 => ⟨S1x256x128, .f32⟩
  | 68 => ⟨S256x128, .f32⟩
  | 69 => ⟨S20000x128, .f32⟩
  | 70 => ⟨S_, .i32⟩
  | 71 => ⟨S320000, .i32⟩
  | 72 => ⟨S320000, .i1⟩
  | 73 => ⟨S320000x1, .i1⟩
  | 74 => ⟨S_, .i32⟩
  | 75 => ⟨S320000, .i32⟩
  | 76 => ⟨S320000, .i1⟩
  | 77 => ⟨S_, .i32⟩
  | 78 => ⟨S320000, .i32⟩
  | 79 => ⟨S320000, .i32⟩
  | 80 => ⟨S320000, .i32⟩
  | 81 => ⟨S320000x1, .i32⟩
  | 82 => ⟨S320000x128, .f32⟩
  | 83 => ⟨S_, .f32⟩
  | 84 => ⟨S_, .f32⟩
  | 85 => ⟨S320000x128, .i1⟩
  | 86 => ⟨S320000x128, .f32⟩
  | 87 => ⟨S320000x128, .f32⟩
  | 88 => ⟨S_, .f32⟩
  | 89 => ⟨S20000x128, .f32⟩
  | 90 => ⟨S320000x1, .i32⟩
  | 91 => ⟨S20000x128, .f32⟩
  | 92 => ⟨S320000, .f32⟩
  | 93 => ⟨S_, .f32⟩
  | 94 => ⟨S20000, .f32⟩
  | 95 => ⟨S320000x1, .i32⟩
  | 96 => ⟨S20000, .f32⟩
  | 97 => ⟨S_, .f32⟩
  | 98 => ⟨S20000, .f32⟩
  | 99 => ⟨S20000, .f32⟩
  | 100 => ⟨S20000x1, .f32⟩
  | 101 => ⟨S20000x128, .f32⟩
  | 102 => ⟨S20000x128, .f32⟩
  | 103 => ⟨S20000x128, .f32⟩
  | 104 => ⟨S1x256x128, .f32⟩
  | 105 => ⟨S256x128, .f32⟩
  | 106 => ⟨S20000x128, .f32⟩
  | 107 => ⟨S_, .i32⟩
  | 108 => ⟨S320000, .i32⟩
  | 109 => ⟨S320000, .i1⟩
  | 110 => ⟨S320000x1, .i1⟩
  | 111 => ⟨S_, .i32⟩
  | 112 => ⟨S320000, .i32⟩
  | 113 => ⟨S320000, .i1⟩
  | 114 => ⟨S_, .i32⟩
  | 115 => ⟨S320000, .i32⟩
  | 116 => ⟨S320000, .i32⟩
  | 117 => ⟨S320000, .i32⟩
  | 118 => ⟨S320000x1, .i32⟩
  | 119 => ⟨S320000x128, .f32⟩
  | 120 => ⟨S_, .f32⟩
  | 121 => ⟨S_, .f32⟩
  | 122 => ⟨S320000x128, .i1⟩
  | 123 => ⟨S320000x128, .f32⟩
  | 124 => ⟨S320000x128, .f32⟩
  | 125 => ⟨S_, .f32⟩
  | 126 => ⟨S20000x128, .f32⟩
  | 127 => ⟨S320000x1, .i32⟩
  | _ => ⟨S20000x768, .f32⟩

abbrev hbmTy0_4 (i : Nat) : BufTy := match i % 128 with
  | 0 => ⟨S20000x128, .f32⟩
  | 1 => ⟨S320000, .f32⟩
  | 2 => ⟨S_, .f32⟩
  | 3 => ⟨S20000, .f32⟩
  | 4 => ⟨S320000x1, .i32⟩
  | 5 => ⟨S20000, .f32⟩
  | 6 => ⟨S_, .f32⟩
  | 7 => ⟨S20000, .f32⟩
  | 8 => ⟨S20000, .f32⟩
  | 9 => ⟨S20000x1, .f32⟩
  | 10 => ⟨S20000x128, .f32⟩
  | 11 => ⟨S20000x128, .f32⟩
  | 12 => ⟨S20000x128, .f32⟩
  | 13 => ⟨S_, .f32⟩
  | 14 => ⟨S128, .f32⟩
  | 15 => ⟨S_, .f32⟩
  | 16 => ⟨S128, .f32⟩
  | 17 => ⟨S128, .f32⟩
  | 18 => ⟨S_, .i32⟩
  | 19 => ⟨S_, .f32⟩
  | 20 => ⟨S128, .f32⟩
  | 21 => ⟨S1x128, .f32⟩
  | 22 => ⟨S_, .f32⟩
  | 23 => ⟨S1x128, .f32⟩
  | 24 => ⟨S1x128, .f32⟩
  | 25 => ⟨S20000x128, .f32⟩
  | 26 => ⟨S20000x128, .f32⟩
  | 27 => ⟨S20000x128, .f32⟩
  | 28 => ⟨S_, .f32⟩
  | 29 => ⟨S_, .f32⟩
  | 30 => ⟨S_, .f32⟩
  | 31 => ⟨S_, .f32⟩
  | 32 => ⟨S128, .f32⟩
  | 33 => ⟨S128, .f32⟩
  | 34 => ⟨S128, .f32⟩
  | 35 => ⟨S_, .f32⟩
  | 36 => ⟨S_, .i1⟩
  | 37 => ⟨S_, .f32⟩
  | 38 => ⟨S_, .f32⟩
  | 39 => ⟨S128, .f32⟩
  | 40 => ⟨S128, .f32⟩
  | 41 => ⟨S1x128, .f32⟩
  | 42 => ⟨S20000x128, .f32⟩
  | 43 => ⟨S20000x128, .f32⟩
  | 44 => ⟨S_, .f32⟩
  | 45 => ⟨S128, .f32⟩
  | 46 => ⟨S128, .f32⟩
  | 47 => ⟨S128, .f32⟩
  | 48 => ⟨S1x128, .f32⟩
  | 49 => ⟨S20000x128, .f32⟩
  | 50 => ⟨S20000x128, .f32⟩
  | 51 => ⟨S1x128, .f32⟩
  | 52 => ⟨S20000x128, .f32⟩
  | 53 => ⟨S20000x128, .f32⟩
  | 54 => ⟨S1x128, .f32⟩
  | 55 => ⟨S20000x128, .f32⟩
  | 56 => ⟨S20000x128, .f32⟩
  | 57 => ⟨S_, .f32⟩
  | 58 => ⟨S20000x128, .f32⟩
  | 59 => ⟨S20000x128, .i1⟩
  | 60 => ⟨S_, .f32⟩
  | 61 => ⟨S20000x128, .f32⟩
  | 62 => ⟨S20000x128, .f32⟩
  | 63 => ⟨S20000x128, .f32⟩
  | 64 => ⟨S_, .f32⟩
  | 65 => ⟨S64x128, .f32⟩
  | 66 => ⟨S20000x1, .i32⟩
  | 67 => ⟨S64x128, .f32⟩
  | 68 => ⟨S_, .f32⟩
  | 69 => ⟨S20000, .f32⟩
  | 70 => ⟨S_, .f32⟩
  | 71 => ⟨S64, .f32⟩
  | 72 => ⟨S20000x1, .i32⟩
  | 73 => ⟨S64, .f32⟩
  | 74 => ⟨S_, .f32⟩
  | 75 => ⟨S64, .f32⟩
  | 76 => ⟨S64, .f32⟩
  | 77 => ⟨S64x1, .f32⟩
  | 78 => ⟨S64x128, .f32⟩
  | 79 => ⟨S64x128, .f32⟩
  | _ => ⟨S20000x768, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S20000x768, .f32⟩

abbrev bufTy : (tb : Table) → Fin (tcTables nBuf tb) → BufTy
  | .hbm, ⟨i, _⟩ => hbmTy i
  | _, _ => ⟨S20000x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_c : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_c_0 : Ref sig .tc := ⟨.hbm, 43, rfl⟩
abbrev main_v14 : Ref sig .tc := ⟨.hbm, 44, rfl⟩
abbrev main_v15 : Ref sig .tc := ⟨.hbm, 45, rfl⟩
abbrev main_c_1 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_cst : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_v21 : Ref sig .tc := ⟨.hbm, 56, rfl⟩
abbrev main_cst_2 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_cst_3 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_cst_4 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_c_5 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_c_6 : Ref sig .tc := ⟨.hbm, 80, rfl⟩
abbrev main_v41 : Ref sig .tc := ⟨.hbm, 81, rfl⟩
abbrev main_v42 : Ref sig .tc := ⟨.hbm, 82, rfl⟩
abbrev main_c_7 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_cst_8 : Ref sig .tc := ⟨.hbm, 89, rfl⟩
abbrev main_call1_v0 : Ref sig .tc := ⟨.hbm, 90, rfl⟩
abbrev main_call1_v1 : Ref sig .tc := ⟨.hbm, 91, rfl⟩
abbrev main_call1_v2 : Ref sig .tc := ⟨.hbm, 92, rfl⟩
abbrev main_v48 : Ref sig .tc := ⟨.hbm, 93, rfl⟩
abbrev main_cst_9 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_cst_10 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_cst_11 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_cst_12 : Ref sig .tc := ⟨.hbm, 110, rfl⟩
abbrev main_v62 : Ref sig .tc := ⟨.hbm, 111, rfl⟩
abbrev main_cst_13 : Ref sig .tc := ⟨.hbm, 112, rfl⟩
abbrev main_v63 : Ref sig .tc := ⟨.hbm, 113, rfl⟩
abbrev main_v64 : Ref sig .tc := ⟨.hbm, 114, rfl⟩
abbrev main_c_14 : Ref sig .tc := ⟨.hbm, 115, rfl⟩
abbrev main_call2_cst : Ref sig .tc := ⟨.hbm, 116, rfl⟩
abbrev main_call2_v0 : Ref sig .tc := ⟨.hbm, 117, rfl⟩
abbrev main_call2_v1 : Ref sig .tc := ⟨.hbm, 118, rfl⟩
abbrev main_call2_cst_0 : Ref sig .tc := ⟨.hbm, 119, rfl⟩
abbrev main_call2_v2 : Ref sig .tc := ⟨.hbm, 120, rfl⟩
abbrev main_call2_v3 : Ref sig .tc := ⟨.hbm, 121, rfl⟩
abbrev main_call2_v4 : Ref sig .tc := ⟨.hbm, 122, rfl⟩
abbrev main_call2_v5 : Ref sig .tc := ⟨.hbm, 123, rfl⟩
abbrev main_call2_v6 : Ref sig .tc := ⟨.hbm, 124, rfl⟩
abbrev main_call2_v7 : Ref sig .tc := ⟨.hbm, 125, rfl⟩
abbrev main_call2_cst_1 : Ref sig .tc := ⟨.hbm, 126, rfl⟩
abbrev main_call2_v8 : Ref sig .tc := ⟨.hbm, 127, rfl⟩
abbrev main_call2_cst_2 : Ref sig .tc := ⟨.hbm, 128, rfl⟩
abbrev main_call2_v9 : Ref sig .tc := ⟨.hbm, 129, rfl⟩
abbrev main_call2_v10 : Ref sig .tc := ⟨.hbm, 130, rfl⟩
abbrev main_call2_v11 : Ref sig .tc := ⟨.hbm, 131, rfl⟩
abbrev main_call2_cst_3 : Ref sig .tc := ⟨.hbm, 132, rfl⟩
abbrev main_call2_v12 : Ref sig .tc := ⟨.hbm, 133, rfl⟩
abbrev main_call2_cst_4 : Ref sig .tc := ⟨.hbm, 134, rfl⟩
abbrev main_call2_call0_v0 : Ref sig .tc := ⟨.hbm, 135, rfl⟩
abbrev main_call2_call0_v1 : Ref sig .tc := ⟨.hbm, 136, rfl⟩
abbrev main_v65 : Ref sig .tc := ⟨.hbm, 137, rfl⟩
abbrev main_v66 : Ref sig .tc := ⟨.hbm, 138, rfl⟩
abbrev main_v67 : Ref sig .tc := ⟨.hbm, 139, rfl⟩
abbrev main_v68 : Ref sig .tc := ⟨.hbm, 140, rfl⟩
abbrev main_cst_15 : Ref sig .tc := ⟨.hbm, 141, rfl⟩
abbrev main_v69 : Ref sig .tc := ⟨.hbm, 142, rfl⟩
abbrev main_v70 : Ref sig .tc := ⟨.hbm, 143, rfl⟩
abbrev main_v71 : Ref sig .tc := ⟨.hbm, 144, rfl⟩
abbrev main_v72 : Ref sig .tc := ⟨.hbm, 145, rfl⟩
abbrev main_v73 : Ref sig .tc := ⟨.hbm, 146, rfl⟩
abbrev main_v74 : Ref sig .tc := ⟨.hbm, 147, rfl⟩
abbrev main_v75 : Ref sig .tc := ⟨.hbm, 148, rfl⟩
abbrev main_v76 : Ref sig .tc := ⟨.hbm, 149, rfl⟩
abbrev main_v77 : Ref sig .tc := ⟨.hbm, 150, rfl⟩
abbrev main_v78 : Ref sig .tc := ⟨.hbm, 151, rfl⟩
abbrev main_v79 : Ref sig .tc := ⟨.hbm, 152, rfl⟩
abbrev main_v80 : Ref sig .tc := ⟨.hbm, 153, rfl⟩
abbrev main_cst_16 : Ref sig .tc := ⟨.hbm, 154, rfl⟩
abbrev main_v81 : Ref sig .tc := ⟨.hbm, 155, rfl⟩
abbrev main_v82 : Ref sig .tc := ⟨.hbm, 156, rfl⟩
abbrev main_cst_17 : Ref sig .tc := ⟨.hbm, 157, rfl⟩
abbrev main_v83 : Ref sig .tc := ⟨.hbm, 158, rfl⟩
abbrev main_v84 : Ref sig .tc := ⟨.hbm, 159, rfl⟩
abbrev main_v85 : Ref sig .tc := ⟨.hbm, 160, rfl⟩
abbrev main_v86 : Ref sig .tc := ⟨.hbm, 161, rfl⟩
abbrev main_v87 : Ref sig .tc := ⟨.hbm, 162, rfl⟩
abbrev main_v88 : Ref sig .tc := ⟨.hbm, 163, rfl⟩
abbrev main_v89 : Ref sig .tc := ⟨.hbm, 164, rfl⟩
abbrev main_v90 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_v94 : Ref sig .tc := ⟨.hbm, 169, rfl⟩
abbrev main_v95 : Ref sig .tc := ⟨.hbm, 170, rfl⟩
abbrev main_v96 : Ref sig .tc := ⟨.hbm, 171, rfl⟩
abbrev main_c_18 : Ref sig .tc := ⟨.hbm, 172, rfl⟩
abbrev main_v97 : Ref sig .tc := ⟨.hbm, 173, rfl⟩
abbrev main_v98 : Ref sig .tc := ⟨.hbm, 174, rfl⟩
abbrev main_v99 : Ref sig .tc := ⟨.hbm, 175, rfl⟩
abbrev main_c_19 : Ref sig .tc := ⟨.hbm, 176, rfl⟩
abbrev main_v100 : Ref sig .tc := ⟨.hbm, 177, rfl⟩
abbrev main_v101 : Ref sig .tc := ⟨.hbm, 178, rfl⟩
abbrev main_c_20 : Ref sig .tc := ⟨.hbm, 179, rfl⟩
abbrev main_v102 : Ref sig .tc := ⟨.hbm, 180, rfl⟩
abbrev main_v103 : Ref sig .tc := ⟨.hbm, 181, rfl⟩
abbrev main_v104 : Ref sig .tc := ⟨.hbm, 182, rfl⟩
abbrev main_v105 : Ref sig .tc := ⟨.hbm, 183, rfl⟩
abbrev main_v106 : Ref sig .tc := ⟨.hbm, 184, rfl⟩
abbrev main_cst_21 : Ref sig .tc := ⟨.hbm, 185, rfl⟩
abbrev main_call4_v0 : Ref sig .tc := ⟨.hbm, 186, rfl⟩
abbrev main_call4_v1 : Ref sig .tc := ⟨.hbm, 187, rfl⟩
abbrev main_call4_v2 : Ref sig .tc := ⟨.hbm, 188, rfl⟩
abbrev main_v107 : Ref sig .tc := ⟨.hbm, 189, rfl⟩
abbrev main_cst_22 : Ref sig .tc := ⟨.hbm, 190, rfl⟩
abbrev main_v108 : Ref sig .tc := ⟨.hbm, 191, rfl⟩
abbrev main_v109 : Ref sig .tc := ⟨.hbm, 192, rfl⟩
abbrev main_v110 : Ref sig .tc := ⟨.hbm, 193, rfl⟩
abbrev main_v111 : Ref sig .tc := ⟨.hbm, 194, rfl⟩
abbrev main_cst_23 : Ref sig .tc := ⟨.hbm, 195, rfl⟩
abbrev main_v112 : Ref sig .tc := ⟨.hbm, 196, rfl⟩
abbrev main_v113 : Ref sig .tc := ⟨.hbm, 197, rfl⟩
abbrev main_v114 : Ref sig .tc := ⟨.hbm, 198, rfl⟩
abbrev main_cst_24 : Ref sig .tc := ⟨.hbm, 199, rfl⟩
abbrev main_v115 : Ref sig .tc := ⟨.hbm, 200, rfl⟩
abbrev main_v116 : Ref sig .tc := ⟨.hbm, 201, rfl⟩
abbrev main_v117 : Ref sig .tc := ⟨.hbm, 202, rfl⟩
abbrev main_v118 : Ref sig .tc := ⟨.hbm, 203, rfl⟩
abbrev main_v119 : Ref sig .tc := ⟨.hbm, 204, rfl⟩
abbrev main_v120 : Ref sig .tc := ⟨.hbm, 205, rfl⟩
abbrev main_v121 : Ref sig .tc := ⟨.hbm, 206, rfl⟩
abbrev main_v122 : Ref sig .tc := ⟨.hbm, 207, rfl⟩
abbrev main_v123 : Ref sig .tc := ⟨.hbm, 208, rfl⟩
abbrev main_c_25 : Ref sig .tc := ⟨.hbm, 209, rfl⟩
abbrev main_v124 : Ref sig .tc := ⟨.hbm, 210, rfl⟩
abbrev main_v125 : Ref sig .tc := ⟨.hbm, 211, rfl⟩
abbrev main_v126 : Ref sig .tc := ⟨.hbm, 212, rfl⟩
abbrev main_c_26 : Ref sig .tc := ⟨.hbm, 213, rfl⟩
abbrev main_v127 : Ref sig .tc := ⟨.hbm, 214, rfl⟩
abbrev main_v128 : Ref sig .tc := ⟨.hbm, 215, rfl⟩
abbrev main_c_27 : Ref sig .tc := ⟨.hbm, 216, rfl⟩
abbrev main_v129 : Ref sig .tc := ⟨.hbm, 217, rfl⟩
abbrev main_v130 : Ref sig .tc := ⟨.hbm, 218, rfl⟩
abbrev main_v131 : Ref sig .tc := ⟨.hbm, 219, rfl⟩
abbrev main_v132 : Ref sig .tc := ⟨.hbm, 220, rfl⟩
abbrev main_v133 : Ref sig .tc := ⟨.hbm, 221, rfl⟩
abbrev main_cst_28 : Ref sig .tc := ⟨.hbm, 222, rfl⟩
abbrev main_call5_v0 : Ref sig .tc := ⟨.hbm, 223, rfl⟩
abbrev main_call5_v1 : Ref sig .tc := ⟨.hbm, 224, rfl⟩
abbrev main_call5_v2 : Ref sig .tc := ⟨.hbm, 225, rfl⟩
abbrev main_v134 : Ref sig .tc := ⟨.hbm, 226, rfl⟩
abbrev main_cst_29 : Ref sig .tc := ⟨.hbm, 227, rfl⟩
abbrev main_v135 : Ref sig .tc := ⟨.hbm, 228, rfl⟩
abbrev main_v136 : Ref sig .tc := ⟨.hbm, 229, rfl⟩
abbrev main_v137 : Ref sig .tc := ⟨.hbm, 230, rfl⟩
abbrev main_v138 : Ref sig .tc := ⟨.hbm, 231, rfl⟩
abbrev main_cst_30 : Ref sig .tc := ⟨.hbm, 232, rfl⟩
abbrev main_v139 : Ref sig .tc := ⟨.hbm, 233, rfl⟩
abbrev main_v140 : Ref sig .tc := ⟨.hbm, 234, rfl⟩
abbrev main_v141 : Ref sig .tc := ⟨.hbm, 235, rfl⟩
abbrev main_cst_31 : Ref sig .tc := ⟨.hbm, 236, rfl⟩
abbrev main_v142 : Ref sig .tc := ⟨.hbm, 237, rfl⟩
abbrev main_v143 : Ref sig .tc := ⟨.hbm, 238, rfl⟩
abbrev main_v144 : Ref sig .tc := ⟨.hbm, 239, rfl⟩
abbrev main_v145 : Ref sig .tc := ⟨.hbm, 240, rfl⟩
abbrev main_v146 : Ref sig .tc := ⟨.hbm, 241, rfl⟩
abbrev main_v147 : Ref sig .tc := ⟨.hbm, 242, rfl⟩
abbrev main_cst_32 : Ref sig .tc := ⟨.hbm, 243, rfl⟩
abbrev main_v148 : Ref sig .tc := ⟨.hbm, 244, rfl⟩
abbrev main_cst_33 : Ref sig .tc := ⟨.hbm, 245, rfl⟩
abbrev main_v149 : Ref sig .tc := ⟨.hbm, 246, rfl⟩
abbrev main_v150 : Ref sig .tc := ⟨.hbm, 247, rfl⟩
abbrev main_c_34 : Ref sig .tc := ⟨.hbm, 248, rfl⟩
abbrev main_call6_cst : Ref sig .tc := ⟨.hbm, 249, rfl⟩
abbrev main_call6_v0 : Ref sig .tc := ⟨.hbm, 250, rfl⟩
abbrev main_call6_v1 : Ref sig .tc := ⟨.hbm, 251, rfl⟩
abbrev main_call6_cst_0 : Ref sig .tc := ⟨.hbm, 252, rfl⟩
abbrev main_call6_v2 : Ref sig .tc := ⟨.hbm, 253, rfl⟩
abbrev main_call6_v3 : Ref sig .tc := ⟨.hbm, 254, rfl⟩
abbrev main_call6_v4 : Ref sig .tc := ⟨.hbm, 255, rfl⟩
abbrev main_call6_v5 : Ref sig .tc := ⟨.hbm, 256, rfl⟩
abbrev main_call6_v6 : Ref sig .tc := ⟨.hbm, 257, rfl⟩
abbrev main_call6_v7 : Ref sig .tc := ⟨.hbm, 258, rfl⟩
abbrev main_call6_cst_1 : Ref sig .tc := ⟨.hbm, 259, rfl⟩
abbrev main_call6_v8 : Ref sig .tc := ⟨.hbm, 260, rfl⟩
abbrev main_call6_cst_2 : Ref sig .tc := ⟨.hbm, 261, rfl⟩
abbrev main_call6_v9 : Ref sig .tc := ⟨.hbm, 262, rfl⟩
abbrev main_call6_v10 : Ref sig .tc := ⟨.hbm, 263, rfl⟩
abbrev main_call6_v11 : Ref sig .tc := ⟨.hbm, 264, rfl⟩
abbrev main_call6_cst_3 : Ref sig .tc := ⟨.hbm, 265, rfl⟩
abbrev main_call6_v12 : Ref sig .tc := ⟨.hbm, 266, rfl⟩
abbrev main_call6_cst_4 : Ref sig .tc := ⟨.hbm, 267, rfl⟩
abbrev main_call6_call0_v0 : Ref sig .tc := ⟨.hbm, 268, rfl⟩
abbrev main_call6_call0_v1 : Ref sig .tc := ⟨.hbm, 269, rfl⟩
abbrev main_v151 : Ref sig .tc := ⟨.hbm, 270, rfl⟩
abbrev main_v152 : Ref sig .tc := ⟨.hbm, 271, rfl⟩
abbrev main_v153 : Ref sig .tc := ⟨.hbm, 272, rfl⟩
abbrev main_v154 : Ref sig .tc := ⟨.hbm, 273, rfl⟩
abbrev main_cst_35 : Ref sig .tc := ⟨.hbm, 274, rfl⟩
abbrev main_v155 : Ref sig .tc := ⟨.hbm, 275, rfl⟩
abbrev main_v156 : Ref sig .tc := ⟨.hbm, 276, rfl⟩
abbrev main_v157 : Ref sig .tc := ⟨.hbm, 277, rfl⟩
abbrev main_v158 : Ref sig .tc := ⟨.hbm, 278, rfl⟩
abbrev main_v159 : Ref sig .tc := ⟨.hbm, 279, rfl⟩
abbrev main_v160 : Ref sig .tc := ⟨.hbm, 280, rfl⟩
abbrev main_v161 : Ref sig .tc := ⟨.hbm, 281, rfl⟩
abbrev main_v162 : Ref sig .tc := ⟨.hbm, 282, rfl⟩
abbrev main_v163 : Ref sig .tc := ⟨.hbm, 283, rfl⟩
abbrev main_v164 : Ref sig .tc := ⟨.hbm, 284, rfl⟩
abbrev main_v165 : Ref sig .tc := ⟨.hbm, 285, rfl⟩
abbrev main_v166 : Ref sig .tc := ⟨.hbm, 286, rfl⟩
abbrev main_cst_36 : Ref sig .tc := ⟨.hbm, 287, rfl⟩
abbrev main_v167 : Ref sig .tc := ⟨.hbm, 288, rfl⟩
abbrev main_v168 : Ref sig .tc := ⟨.hbm, 289, rfl⟩
abbrev main_cst_37 : Ref sig .tc := ⟨.hbm, 290, rfl⟩
abbrev main_v169 : Ref sig .tc := ⟨.hbm, 291, rfl⟩
abbrev main_v170 : Ref sig .tc := ⟨.hbm, 292, rfl⟩
abbrev main_v171 : Ref sig .tc := ⟨.hbm, 293, rfl⟩
abbrev main_cst_38 : Ref sig .tc := ⟨.hbm, 294, rfl⟩
abbrev main_v172 : Ref sig .tc := ⟨.hbm, 295, rfl⟩
abbrev main_v173 : Ref sig .tc := ⟨.hbm, 296, rfl⟩
abbrev main_v174 : Ref sig .tc := ⟨.hbm, 297, rfl⟩
abbrev main_cst_39 : Ref sig .tc := ⟨.hbm, 298, rfl⟩
abbrev main_v175 : Ref sig .tc := ⟨.hbm, 299, rfl⟩
abbrev main_cst_40 : Ref sig .tc := ⟨.hbm, 300, rfl⟩
abbrev main_v176 : Ref sig .tc := ⟨.hbm, 301, rfl⟩
abbrev main_v177 : Ref sig .tc := ⟨.hbm, 302, rfl⟩
abbrev main_v178 : Ref sig .tc := ⟨.hbm, 303, rfl⟩
abbrev main_cst_41 : Ref sig .tc := ⟨.hbm, 304, rfl⟩
abbrev main_v179 : Ref sig .tc := ⟨.hbm, 305, rfl⟩
abbrev main_v180 : Ref sig .tc := ⟨.hbm, 306, rfl⟩
abbrev main_v181 : Ref sig .tc := ⟨.hbm, 307, rfl⟩
abbrev main_v182 : Ref sig .tc := ⟨.hbm, 308, rfl⟩
abbrev main_v183 : Ref sig .tc := ⟨.hbm, 309, rfl⟩
abbrev main_v184 : Ref sig .tc := ⟨.hbm, 310, rfl⟩
abbrev main_v185 : Ref sig .tc := ⟨.hbm, 311, rfl⟩
abbrev main_v186 : Ref sig .tc := ⟨.hbm, 312, rfl⟩
abbrev main_v187 : Ref sig .tc := ⟨.hbm, 313, rfl⟩
abbrev main_v188 : Ref sig .tc := ⟨.hbm, 314, rfl⟩
abbrev main_v189 : Ref sig .tc := ⟨.hbm, 315, rfl⟩
abbrev main_v190 : Ref sig .tc := ⟨.hbm, 316, rfl⟩
abbrev main_v191 : Ref sig .tc := ⟨.hbm, 317, rfl⟩
abbrev main_v192 : Ref sig .tc := ⟨.hbm, 318, rfl⟩
abbrev main_v193 : Ref sig .tc := ⟨.hbm, 319, rfl⟩
abbrev main_v194 : Ref sig .tc := ⟨.hbm, 320, rfl⟩
abbrev main_c_42 : Ref sig .tc := ⟨.hbm, 321, rfl⟩
abbrev main_v195 : Ref sig .tc := ⟨.hbm, 322, rfl⟩
abbrev main_v196 : Ref sig .tc := ⟨.hbm, 323, rfl⟩
abbrev main_v197 : Ref sig .tc := ⟨.hbm, 324, rfl⟩
abbrev main_c_43 : Ref sig .tc := ⟨.hbm, 325, rfl⟩
abbrev main_v198 : Ref sig .tc := ⟨.hbm, 326, rfl⟩
abbrev main_v199 : Ref sig .tc := ⟨.hbm, 327, rfl⟩
abbrev main_c_44 : Ref sig .tc := ⟨.hbm, 328, rfl⟩
abbrev main_v200 : Ref sig .tc := ⟨.hbm, 329, rfl⟩
abbrev main_v201 : Ref sig .tc := ⟨.hbm, 330, rfl⟩
abbrev main_v202 : Ref sig .tc := ⟨.hbm, 331, rfl⟩
abbrev main_v203 : Ref sig .tc := ⟨.hbm, 332, rfl⟩
abbrev main_v204 : Ref sig .tc := ⟨.hbm, 333, rfl⟩
abbrev main_cst_45 : Ref sig .tc := ⟨.hbm, 334, rfl⟩
abbrev main_call8_v0 : Ref sig .tc := ⟨.hbm, 335, rfl⟩
abbrev main_call8_v1 : Ref sig .tc := ⟨.hbm, 336, rfl⟩
abbrev main_call8_v2 : Ref sig .tc := ⟨.hbm, 337, rfl⟩
abbrev main_v205 : Ref sig .tc := ⟨.hbm, 338, rfl⟩
abbrev main_cst_46 : Ref sig .tc := ⟨.hbm, 339, rfl⟩
abbrev main_v206 : Ref sig .tc := ⟨.hbm, 340, rfl⟩
abbrev main_v207 : Ref sig .tc := ⟨.hbm, 341, rfl⟩
abbrev main_v208 : Ref sig .tc := ⟨.hbm, 342, rfl⟩
abbrev main_v209 : Ref sig .tc := ⟨.hbm, 343, rfl⟩
abbrev main_cst_47 : Ref sig .tc := ⟨.hbm, 344, rfl⟩
abbrev main_v210 : Ref sig .tc := ⟨.hbm, 345, rfl⟩
abbrev main_v211 : Ref sig .tc := ⟨.hbm, 346, rfl⟩
abbrev main_v212 : Ref sig .tc := ⟨.hbm, 347, rfl⟩
abbrev main_cst_48 : Ref sig .tc := ⟨.hbm, 348, rfl⟩
abbrev main_v213 : Ref sig .tc := ⟨.hbm, 349, rfl⟩
abbrev main_v214 : Ref sig .tc := ⟨.hbm, 350, rfl⟩
abbrev main_v215 : Ref sig .tc := ⟨.hbm, 351, rfl⟩
abbrev main_v216 : Ref sig .tc := ⟨.hbm, 352, rfl⟩
abbrev main_v217 : Ref sig .tc := ⟨.hbm, 353, rfl⟩
abbrev main_v218 : Ref sig .tc := ⟨.hbm, 354, rfl⟩
abbrev main_v219 : Ref sig .tc := ⟨.hbm, 355, rfl⟩
abbrev main_v220 : Ref sig .tc := ⟨.hbm, 356, rfl⟩
abbrev main_v221 : Ref sig .tc := ⟨.hbm, 357, rfl⟩
abbrev main_c_49 : Ref sig .tc := ⟨.hbm, 358, rfl⟩
abbrev main_v222 : Ref sig .tc := ⟨.hbm, 359, rfl⟩
abbrev main_v223 : Ref sig .tc := ⟨.hbm, 360, rfl⟩
abbrev main_v224 : Ref sig .tc := ⟨.hbm, 361, rfl⟩
abbrev main_c_50 : Ref sig .tc := ⟨.hbm, 362, rfl⟩
abbrev main_v225 : Ref sig .tc := ⟨.hbm, 363, rfl⟩
abbrev main_v226 : Ref sig .tc := ⟨.hbm, 364, rfl⟩
abbrev main_c_51 : Ref sig .tc := ⟨.hbm, 365, rfl⟩
abbrev main_v227 : Ref sig .tc := ⟨.hbm, 366, rfl⟩
abbrev main_v228 : Ref sig .tc := ⟨.hbm, 367, rfl⟩
abbrev main_v229 : Ref sig .tc := ⟨.hbm, 368, rfl⟩
abbrev main_v230 : Ref sig .tc := ⟨.hbm, 369, rfl⟩
abbrev main_v231 : Ref sig .tc := ⟨.hbm, 370, rfl⟩
abbrev main_cst_52 : Ref sig .tc := ⟨.hbm, 371, rfl⟩
abbrev main_call9_v0 : Ref sig .tc := ⟨.hbm, 372, rfl⟩
abbrev main_call9_v1 : Ref sig .tc := ⟨.hbm, 373, rfl⟩
abbrev main_call9_v2 : Ref sig .tc := ⟨.hbm, 374, rfl⟩
abbrev main_v232 : Ref sig .tc := ⟨.hbm, 375, rfl⟩
abbrev main_cst_53 : Ref sig .tc := ⟨.hbm, 376, rfl⟩
abbrev main_v233 : Ref sig .tc := ⟨.hbm, 377, rfl⟩
abbrev main_v234 : Ref sig .tc := ⟨.hbm, 378, rfl⟩
abbrev main_v235 : Ref sig .tc := ⟨.hbm, 379, rfl⟩
abbrev main_v236 : Ref sig .tc := ⟨.hbm, 380, rfl⟩
abbrev main_cst_54 : Ref sig .tc := ⟨.hbm, 381, rfl⟩
abbrev main_v237 : Ref sig .tc := ⟨.hbm, 382, rfl⟩
abbrev main_v238 : Ref sig .tc := ⟨.hbm, 383, rfl⟩
abbrev main_v239 : Ref sig .tc := ⟨.hbm, 384, rfl⟩
abbrev main_cst_55 : Ref sig .tc := ⟨.hbm, 385, rfl⟩
abbrev main_v240 : Ref sig .tc := ⟨.hbm, 386, rfl⟩
abbrev main_v241 : Ref sig .tc := ⟨.hbm, 387, rfl⟩
abbrev main_v242 : Ref sig .tc := ⟨.hbm, 388, rfl⟩
abbrev main_v243 : Ref sig .tc := ⟨.hbm, 389, rfl⟩
abbrev main_v244 : Ref sig .tc := ⟨.hbm, 390, rfl⟩
abbrev main_v245 : Ref sig .tc := ⟨.hbm, 391, rfl⟩
abbrev main_cst_56 : Ref sig .tc := ⟨.hbm, 392, rfl⟩
abbrev main_v246 : Ref sig .tc := ⟨.hbm, 393, rfl⟩
abbrev main_cst_57 : Ref sig .tc := ⟨.hbm, 394, rfl⟩
abbrev main_v247 : Ref sig .tc := ⟨.hbm, 395, rfl⟩
abbrev main_v248 : Ref sig .tc := ⟨.hbm, 396, rfl⟩
abbrev main_c_58 : Ref sig .tc := ⟨.hbm, 397, rfl⟩
abbrev main_call10_cst : Ref sig .tc := ⟨.hbm, 398, rfl⟩
abbrev main_call10_v0 : Ref sig .tc := ⟨.hbm, 399, rfl⟩
abbrev main_call10_v1 : Ref sig .tc := ⟨.hbm, 400, rfl⟩
abbrev main_call10_cst_0 : Ref sig .tc := ⟨.hbm, 401, rfl⟩
abbrev main_call10_v2 : Ref sig .tc := ⟨.hbm, 402, rfl⟩
abbrev main_call10_v3 : Ref sig .tc := ⟨.hbm, 403, rfl⟩
abbrev main_call10_v4 : Ref sig .tc := ⟨.hbm, 404, rfl⟩
abbrev main_call10_v5 : Ref sig .tc := ⟨.hbm, 405, rfl⟩
abbrev main_call10_v6 : Ref sig .tc := ⟨.hbm, 406, rfl⟩
abbrev main_call10_v7 : Ref sig .tc := ⟨.hbm, 407, rfl⟩
abbrev main_call10_cst_1 : Ref sig .tc := ⟨.hbm, 408, rfl⟩
abbrev main_call10_v8 : Ref sig .tc := ⟨.hbm, 409, rfl⟩
abbrev main_call10_cst_2 : Ref sig .tc := ⟨.hbm, 410, rfl⟩
abbrev main_call10_v9 : Ref sig .tc := ⟨.hbm, 411, rfl⟩
abbrev main_call10_v10 : Ref sig .tc := ⟨.hbm, 412, rfl⟩
abbrev main_call10_v11 : Ref sig .tc := ⟨.hbm, 413, rfl⟩
abbrev main_call10_cst_3 : Ref sig .tc := ⟨.hbm, 414, rfl⟩
abbrev main_call10_v12 : Ref sig .tc := ⟨.hbm, 415, rfl⟩
abbrev main_call10_cst_4 : Ref sig .tc := ⟨.hbm, 416, rfl⟩
abbrev main_call10_call0_v0 : Ref sig .tc := ⟨.hbm, 417, rfl⟩
abbrev main_call10_call0_v1 : Ref sig .tc := ⟨.hbm, 418, rfl⟩
abbrev main_v249 : Ref sig .tc := ⟨.hbm, 419, rfl⟩
abbrev main_v250 : Ref sig .tc := ⟨.hbm, 420, rfl⟩
abbrev main_v251 : Ref sig .tc := ⟨.hbm, 421, rfl⟩
abbrev main_v252 : Ref sig .tc := ⟨.hbm, 422, rfl⟩
abbrev main_cst_59 : Ref sig .tc := ⟨.hbm, 423, rfl⟩
abbrev main_v253 : Ref sig .tc := ⟨.hbm, 424, rfl⟩
abbrev main_v254 : Ref sig .tc := ⟨.hbm, 425, rfl⟩
abbrev main_v255 : Ref sig .tc := ⟨.hbm, 426, rfl⟩
abbrev main_v256 : Ref sig .tc := ⟨.hbm, 427, rfl⟩
abbrev main_v257 : Ref sig .tc := ⟨.hbm, 428, rfl⟩
abbrev main_v258 : Ref sig .tc := ⟨.hbm, 429, rfl⟩
abbrev main_v259 : Ref sig .tc := ⟨.hbm, 430, rfl⟩
abbrev main_v260 : Ref sig .tc := ⟨.hbm, 431, rfl⟩
abbrev main_v261 : Ref sig .tc := ⟨.hbm, 432, rfl⟩
abbrev main_v262 : Ref sig .tc := ⟨.hbm, 433, rfl⟩
abbrev main_v263 : Ref sig .tc := ⟨.hbm, 434, rfl⟩
abbrev main_v264 : Ref sig .tc := ⟨.hbm, 435, rfl⟩
abbrev main_cst_60 : Ref sig .tc := ⟨.hbm, 436, rfl⟩
abbrev main_v265 : Ref sig .tc := ⟨.hbm, 437, rfl⟩
abbrev main_v266 : Ref sig .tc := ⟨.hbm, 438, rfl⟩
abbrev main_cst_61 : Ref sig .tc := ⟨.hbm, 439, rfl⟩
abbrev main_v267 : Ref sig .tc := ⟨.hbm, 440, rfl⟩
abbrev main_v268 : Ref sig .tc := ⟨.hbm, 441, rfl⟩
abbrev main_v269 : Ref sig .tc := ⟨.hbm, 442, rfl⟩
abbrev main_v270 : Ref sig .tc := ⟨.hbm, 443, rfl⟩
abbrev main_v271 : Ref sig .tc := ⟨.hbm, 444, rfl⟩
abbrev main_v272 : Ref sig .tc := ⟨.hbm, 445, rfl⟩
abbrev main_v273 : Ref sig .tc := ⟨.hbm, 446, rfl⟩
abbrev main_v274 : Ref sig .tc := ⟨.hbm, 447, rfl⟩
abbrev main_v275 : Ref sig .tc := ⟨.hbm, 448, rfl⟩
abbrev main_v276 : Ref sig .tc := ⟨.hbm, 449, rfl⟩
abbrev main_v277 : Ref sig .tc := ⟨.hbm, 450, rfl⟩
abbrev main_v278 : Ref sig .tc := ⟨.hbm, 451, rfl⟩
abbrev main_v279 : Ref sig .tc := ⟨.hbm, 452, rfl⟩
abbrev main_v280 : Ref sig .tc := ⟨.hbm, 453, rfl⟩
abbrev main_c_62 : Ref sig .tc := ⟨.hbm, 454, rfl⟩
abbrev main_v281 : Ref sig .tc := ⟨.hbm, 455, rfl⟩
abbrev main_v282 : Ref sig .tc := ⟨.hbm, 456, rfl⟩
abbrev main_v283 : Ref sig .tc := ⟨.hbm, 457, rfl⟩
abbrev main_c_63 : Ref sig .tc := ⟨.hbm, 458, rfl⟩
abbrev main_v284 : Ref sig .tc := ⟨.hbm, 459, rfl⟩
abbrev main_v285 : Ref sig .tc := ⟨.hbm, 460, rfl⟩
abbrev main_c_64 : Ref sig .tc := ⟨.hbm, 461, rfl⟩
abbrev main_v286 : Ref sig .tc := ⟨.hbm, 462, rfl⟩
abbrev main_v287 : Ref sig .tc := ⟨.hbm, 463, rfl⟩
abbrev main_v288 : Ref sig .tc := ⟨.hbm, 464, rfl⟩
abbrev main_v289 : Ref sig .tc := ⟨.hbm, 465, rfl⟩
abbrev main_v290 : Ref sig .tc := ⟨.hbm, 466, rfl⟩
abbrev main_cst_65 : Ref sig .tc := ⟨.hbm, 467, rfl⟩
abbrev main_call12_v0 : Ref sig .tc := ⟨.hbm, 468, rfl⟩
abbrev main_call12_v1 : Ref sig .tc := ⟨.hbm, 469, rfl⟩
abbrev main_call12_v2 : Ref sig .tc := ⟨.hbm, 470, rfl⟩
abbrev main_v291 : Ref sig .tc := ⟨.hbm, 471, rfl⟩
abbrev main_cst_66 : Ref sig .tc := ⟨.hbm, 472, rfl⟩
abbrev main_v292 : Ref sig .tc := ⟨.hbm, 473, rfl⟩
abbrev main_v293 : Ref sig .tc := ⟨.hbm, 474, rfl⟩
abbrev main_v294 : Ref sig .tc := ⟨.hbm, 475, rfl⟩
abbrev main_v295 : Ref sig .tc := ⟨.hbm, 476, rfl⟩
abbrev main_cst_67 : Ref sig .tc := ⟨.hbm, 477, rfl⟩
abbrev main_v296 : Ref sig .tc := ⟨.hbm, 478, rfl⟩
abbrev main_v297 : Ref sig .tc := ⟨.hbm, 479, rfl⟩
abbrev main_v298 : Ref sig .tc := ⟨.hbm, 480, rfl⟩
abbrev main_cst_68 : Ref sig .tc := ⟨.hbm, 481, rfl⟩
abbrev main_v299 : Ref sig .tc := ⟨.hbm, 482, rfl⟩
abbrev main_v300 : Ref sig .tc := ⟨.hbm, 483, rfl⟩
abbrev main_v301 : Ref sig .tc := ⟨.hbm, 484, rfl⟩
abbrev main_v302 : Ref sig .tc := ⟨.hbm, 485, rfl⟩
abbrev main_v303 : Ref sig .tc := ⟨.hbm, 486, rfl⟩
abbrev main_v304 : Ref sig .tc := ⟨.hbm, 487, rfl⟩
abbrev main_v305 : Ref sig .tc := ⟨.hbm, 488, rfl⟩
abbrev main_v306 : Ref sig .tc := ⟨.hbm, 489, rfl⟩
abbrev main_v307 : Ref sig .tc := ⟨.hbm, 490, rfl⟩
abbrev main_c_69 : Ref sig .tc := ⟨.hbm, 491, rfl⟩
abbrev main_v308 : Ref sig .tc := ⟨.hbm, 492, rfl⟩
abbrev main_v309 : Ref sig .tc := ⟨.hbm, 493, rfl⟩
abbrev main_v310 : Ref sig .tc := ⟨.hbm, 494, rfl⟩
abbrev main_c_70 : Ref sig .tc := ⟨.hbm, 495, rfl⟩
abbrev main_v311 : Ref sig .tc := ⟨.hbm, 496, rfl⟩
abbrev main_v312 : Ref sig .tc := ⟨.hbm, 497, rfl⟩
abbrev main_c_71 : Ref sig .tc := ⟨.hbm, 498, rfl⟩
abbrev main_v313 : Ref sig .tc := ⟨.hbm, 499, rfl⟩
abbrev main_v314 : Ref sig .tc := ⟨.hbm, 500, rfl⟩
abbrev main_v315 : Ref sig .tc := ⟨.hbm, 501, rfl⟩
abbrev main_v316 : Ref sig .tc := ⟨.hbm, 502, rfl⟩
abbrev main_v317 : Ref sig .tc := ⟨.hbm, 503, rfl⟩
abbrev main_cst_72 : Ref sig .tc := ⟨.hbm, 504, rfl⟩
abbrev main_call13_v0 : Ref sig .tc := ⟨.hbm, 505, rfl⟩
abbrev main_call13_v1 : Ref sig .tc := ⟨.hbm, 506, rfl⟩
abbrev main_call13_v2 : Ref sig .tc := ⟨.hbm, 507, rfl⟩
abbrev main_v318 : Ref sig .tc := ⟨.hbm, 508, rfl⟩
abbrev main_cst_73 : Ref sig .tc := ⟨.hbm, 509, rfl⟩
abbrev main_v319 : Ref sig .tc := ⟨.hbm, 510, rfl⟩
abbrev main_v320 : Ref sig .tc := ⟨.hbm, 511, rfl⟩
abbrev main_v321 : Ref sig .tc := ⟨.hbm, 512, rfl⟩
abbrev main_v322 : Ref sig .tc := ⟨.hbm, 513, rfl⟩
abbrev main_cst_74 : Ref sig .tc := ⟨.hbm, 514, rfl⟩
abbrev main_v323 : Ref sig .tc := ⟨.hbm, 515, rfl⟩
abbrev main_v324 : Ref sig .tc := ⟨.hbm, 516, rfl⟩
abbrev main_v325 : Ref sig .tc := ⟨.hbm, 517, rfl⟩
abbrev main_cst_75 : Ref sig .tc := ⟨.hbm, 518, rfl⟩
abbrev main_v326 : Ref sig .tc := ⟨.hbm, 519, rfl⟩
abbrev main_v327 : Ref sig .tc := ⟨.hbm, 520, rfl⟩
abbrev main_v328 : Ref sig .tc := ⟨.hbm, 521, rfl⟩
abbrev main_v329 : Ref sig .tc := ⟨.hbm, 522, rfl⟩
abbrev main_v330 : Ref sig .tc := ⟨.hbm, 523, rfl⟩
abbrev main_v331 : Ref sig .tc := ⟨.hbm, 524, rfl⟩
abbrev main_cst_76 : Ref sig .tc := ⟨.hbm, 525, rfl⟩
abbrev main_v332 : Ref sig .tc := ⟨.hbm, 526, rfl⟩
abbrev main_cst_77 : Ref sig .tc := ⟨.hbm, 527, rfl⟩
abbrev main_v333 : Ref sig .tc := ⟨.hbm, 528, rfl⟩
abbrev main_v334 : Ref sig .tc := ⟨.hbm, 529, rfl⟩
abbrev main_c_78 : Ref sig .tc := ⟨.hbm, 530, rfl⟩
abbrev main_call14_cst : Ref sig .tc := ⟨.hbm, 531, rfl⟩
abbrev main_call14_v0 : Ref sig .tc := ⟨.hbm, 532, rfl⟩
abbrev main_call14_v1 : Ref sig .tc := ⟨.hbm, 533, rfl⟩
abbrev main_call14_cst_0 : Ref sig .tc := ⟨.hbm, 534, rfl⟩
abbrev main_call14_v2 : Ref sig .tc := ⟨.hbm, 535, rfl⟩
abbrev main_call14_v3 : Ref sig .tc := ⟨.hbm, 536, rfl⟩
abbrev main_call14_v4 : Ref sig .tc := ⟨.hbm, 537, rfl⟩
abbrev main_call14_v5 : Ref sig .tc := ⟨.hbm, 538, rfl⟩
abbrev main_call14_v6 : Ref sig .tc := ⟨.hbm, 539, rfl⟩
abbrev main_call14_v7 : Ref sig .tc := ⟨.hbm, 540, rfl⟩
abbrev main_call14_cst_1 : Ref sig .tc := ⟨.hbm, 541, rfl⟩
abbrev main_call14_v8 : Ref sig .tc := ⟨.hbm, 542, rfl⟩
abbrev main_call14_cst_2 : Ref sig .tc := ⟨.hbm, 543, rfl⟩
abbrev main_call14_v9 : Ref sig .tc := ⟨.hbm, 544, rfl⟩
abbrev main_call14_v10 : Ref sig .tc := ⟨.hbm, 545, rfl⟩
abbrev main_call14_v11 : Ref sig .tc := ⟨.hbm, 546, rfl⟩
abbrev main_call14_cst_3 : Ref sig .tc := ⟨.hbm, 547, rfl⟩
abbrev main_call14_v12 : Ref sig .tc := ⟨.hbm, 548, rfl⟩
abbrev main_call14_cst_4 : Ref sig .tc := ⟨.hbm, 549, rfl⟩
abbrev main_call14_call0_v0 : Ref sig .tc := ⟨.hbm, 550, rfl⟩
abbrev main_call14_call0_v1 : Ref sig .tc := ⟨.hbm, 551, rfl⟩
abbrev main_v335 : Ref sig .tc := ⟨.hbm, 552, rfl⟩
abbrev main_v336 : Ref sig .tc := ⟨.hbm, 553, rfl⟩
abbrev main_v337 : Ref sig .tc := ⟨.hbm, 554, rfl⟩
abbrev main_v338 : Ref sig .tc := ⟨.hbm, 555, rfl⟩
abbrev main_cst_79 : Ref sig .tc := ⟨.hbm, 556, rfl⟩
abbrev main_v339 : Ref sig .tc := ⟨.hbm, 557, rfl⟩
abbrev main_v340 : Ref sig .tc := ⟨.hbm, 558, rfl⟩
abbrev main_v341 : Ref sig .tc := ⟨.hbm, 559, rfl⟩
abbrev main_v342 : Ref sig .tc := ⟨.hbm, 560, rfl⟩
abbrev main_v343 : Ref sig .tc := ⟨.hbm, 561, rfl⟩
abbrev main_v344 : Ref sig .tc := ⟨.hbm, 562, rfl⟩
abbrev main_v345 : Ref sig .tc := ⟨.hbm, 563, rfl⟩
abbrev main_v346 : Ref sig .tc := ⟨.hbm, 564, rfl⟩
abbrev main_v347 : Ref sig .tc := ⟨.hbm, 565, rfl⟩
abbrev main_v348 : Ref sig .tc := ⟨.hbm, 566, rfl⟩
abbrev main_v349 : Ref sig .tc := ⟨.hbm, 567, rfl⟩
abbrev main_v350 : Ref sig .tc := ⟨.hbm, 568, rfl⟩
abbrev main_cst_80 : Ref sig .tc := ⟨.hbm, 569, rfl⟩
abbrev main_v351 : Ref sig .tc := ⟨.hbm, 570, rfl⟩
abbrev main_v352 : Ref sig .tc := ⟨.hbm, 571, rfl⟩
abbrev main_cst_81 : Ref sig .tc := ⟨.hbm, 572, rfl⟩
abbrev main_v353 : Ref sig .tc := ⟨.hbm, 573, rfl⟩
abbrev main_v354 : Ref sig .tc := ⟨.hbm, 574, rfl⟩
abbrev main_v355 : Ref sig .tc := ⟨.hbm, 575, rfl⟩
abbrev main_cst_82 : Ref sig .tc := ⟨.hbm, 576, rfl⟩
abbrev main_v356 : Ref sig .tc := ⟨.hbm, 577, rfl⟩
abbrev main_v357 : Ref sig .tc := ⟨.hbm, 578, rfl⟩
abbrev main_v358 : Ref sig .tc := ⟨.hbm, 579, rfl⟩
abbrev main_cst_83 : Ref sig .tc := ⟨.hbm, 580, rfl⟩
abbrev main_v359 : Ref sig .tc := ⟨.hbm, 581, rfl⟩
abbrev main_cst_84 : Ref sig .tc := ⟨.hbm, 582, rfl⟩
abbrev main_v360 : Ref sig .tc := ⟨.hbm, 583, rfl⟩
abbrev main_v361 : Ref sig .tc := ⟨.hbm, 584, rfl⟩
abbrev main_v362 : Ref sig .tc := ⟨.hbm, 585, rfl⟩
abbrev main_cst_85 : Ref sig .tc := ⟨.hbm, 586, rfl⟩
abbrev main_v363 : Ref sig .tc := ⟨.hbm, 587, rfl⟩
abbrev main_v364 : Ref sig .tc := ⟨.hbm, 588, rfl⟩
abbrev main_v365 : Ref sig .tc := ⟨.hbm, 589, rfl⟩
abbrev main_v366 : Ref sig .tc := ⟨.hbm, 590, rfl⟩
abbrev main_v367 : Ref sig .tc := ⟨.hbm, 591, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  slices_S2x768x256_S1x768x256_0_0_0 : S2x768x256.Slices ![0, 0, 0] S1x768x256
  shapeCasts_S1x768x256_S768x256 : S1x768x256.ShapeCasts S768x256
  bcast_S_S320000 : S_.BroadcastsInDim S320000 (![] : Fin 0 → Fin S320000.rank)
  bcast_S320000_S320000x1_0 : S320000.BroadcastsInDim S320000x1 (![0] : Fin 1 → Fin S320000x1.rank)
  bcast_S320000x1_S320000x256_0_1 : S320000x1.BroadcastsInDim S320000x256 (![0, 1] : Fin 2 → Fin S320000x256.rank)
  bcast_S_S320000x256 : S_.BroadcastsInDim S320000x256 (![] : Fin 0 → Fin S320000x256.rank)
  bcast_S_S20000x256 : S_.BroadcastsInDim S20000x256 (![] : Fin 0 → Fin S20000x256.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x256_0_1 : S20000x1.BroadcastsInDim S20000x256 (![0, 1] : Fin 2 → Fin S20000x256.rank)
  slices_S2x768x256_S1x768x256_1_0_0 : S2x768x256.Slices ![1, 0, 0] S1x768x256
  reducesTo_S20000x256_S256_d0 : S20000x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  slices_S2x256x128_S1x256x128_0_0_0 : S2x256x128.Slices ![0, 0, 0] S1x256x128
  shapeCasts_S1x256x128_S256x128 : S1x256x128.ShapeCasts S256x128
  bcast_S320000x1_S320000x128_0_1 : S320000x1.BroadcastsInDim S320000x128 (![0, 1] : Fin 2 → Fin S320000x128.rank)
  bcast_S_S320000x128 : S_.BroadcastsInDim S320000x128 (![] : Fin 0 → Fin S320000x128.rank)
  bcast_S_S20000x128 : S_.BroadcastsInDim S20000x128 (![] : Fin 0 → Fin S20000x128.rank)
  bcast_S20000x1_S20000x128_0_1 : S20000x1.BroadcastsInDim S20000x128 (![0, 1] : Fin 2 → Fin S20000x128.rank)
  slices_S2x256x128_S1x256x128_1_0_0 : S2x256x128.Slices ![1, 0, 0] S1x256x128
  reducesTo_S20000x128_S128_d0 : S20000x128.ReducesTo [0] S128
  bcast_S_S128 : S_.BroadcastsInDim S128 (![] : Fin 0 → Fin S128.rank)
  bcast_S_S1x128 : S_.BroadcastsInDim S1x128 (![] : Fin 0 → Fin S1x128.rank)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  slices_S2x128x256_S1x128x256_0_0_0 : S2x128x256.Slices ![0, 0, 0] S1x128x256
  shapeCasts_S1x128x256_S128x256 : S1x128x256.ShapeCasts S128x256
  slices_S2x128x256_S1x128x256_1_0_0 : S2x128x256.Slices ![1, 0, 0] S1x128x256
  dot_S20000x768_S768x256_S20000x256_1_0_0_1_n_n_wf : DotDims.WF S20000x768 S768x256 S20000x256 [1] [0] [0] [1] [] []
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  scatter_S20000_S320000x1_S320000_n_0_0_1_wf : ScatterDims.WF S20000 S320000x1 S320000 [] [0] [0] 1
  dot_S20000x256_S256x128_S20000x128_1_0_0_1_n_n_wf : DotDims.WF S20000x256 S256x128 S20000x128 [1] [0] [0] [1] [] []
  gather_S20000x128_S320000x1_S320000x128_1_0_n_n_0_1_1128_wf : GatherDims.WF S20000x128 S320000x1 S320000x128 [1] [0] [] [0] [] 1 ![1, 128]
  scatter_S20000x128_S320000x1_S320000x128_1_0_0_1_wf : ScatterDims.WF S20000x128 S320000x1 S320000x128 [1] [0] [0] 1
  scatter_S64x128_S20000x1_S20000x128_1_0_0_1_wf : ScatterDims.WF S64x128 S20000x1 S20000x128 [1] [0] [0] 1
  scatter_S64_S20000x1_S20000_n_0_0_1_wf : ScatterDims.WF S64 S20000x1 S20000 [] [0] [0] 1
  dot_S20000x128_S128x256_S20000x256_1_0_0_1_n_n_wf : DotDims.WF S20000x128 S128x256 S20000x256 [1] [0] [0] [1] [] []

variable [Facts₀]

def dot_S20000x768_S768x256_S20000x256_1_0_0_1_n_n : DotDims S20000x768 S768x256 S20000x256 where
  lhsContracting := [1]
  rhsContracting := [0]
  lhsNonContracting := [0]
  rhsNonContracting := [1]
  lhsBatch := []
  rhsBatch := []
  wf := dot_S20000x768_S768x256_S20000x256_1_0_0_1_n_n_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def scatter_S20000_S320000x1_S320000_n_0_0_1 : ScatterDims S20000 S320000x1 S320000 where
  updateWindowDims := []
  insertedWindowDims := [0]
  scatterDimsToOperandDims := [0]
  indexVectorDim := 1
  wf := scatter_S20000_S320000x1_S320000_n_0_0_1_wf
def dot_S20000x256_S256x128_S20000x128_1_0_0_1_n_n : DotDims S20000x256 S256x128 S20000x128 where
  lhsContracting := [1]
  rhsContracting := [0]
  lhsNonContracting := [0]
  rhsNonContracting := [1]
  lhsBatch := []
  rhsBatch := []
  wf := dot_S20000x256_S256x128_S20000x128_1_0_0_1_n_n_wf
def gather_S20000x128_S320000x1_S320000x128_1_0_n_n_0_1_1128 : GatherDims S20000x128 S320000x1 S320000x128 where
  offsetDims := [1]
  collapsedSliceDims := [0]
  operandBatchingDims := []
  startIndicesBatchingDims := []
  startIndexMap := [0]
  indexVectorDim := 1
  sliceSizes := ![1, 128]
  wf := gather_S20000x128_S320000x1_S320000x128_1_0_n_n_0_1_1128_wf
def scatter_S20000x128_S320000x1_S320000x128_1_0_0_1 : ScatterDims S20000x128 S320000x1 S320000x128 where
  updateWindowDims := [1]
  insertedWindowDims := [0]
  scatterDimsToOperandDims := [0]
  indexVectorDim := 1
  wf := scatter_S20000x128_S320000x1_S320000x128_1_0_0_1_wf
def scatter_S64x128_S20000x1_S20000x128_1_0_0_1 : ScatterDims S64x128 S20000x1 S20000x128 where
  updateWindowDims := [1]
  insertedWindowDims := [0]
  scatterDimsToOperandDims := [0]
  indexVectorDim := 1
  wf := scatter_S64x128_S20000x1_S20000x128_1_0_0_1_wf
def scatter_S64_S20000x1_S20000_n_0_0_1 : ScatterDims S64 S20000x1 S20000 where
  updateWindowDims := []
  insertedWindowDims := [0]
  scatterDimsToOperandDims := [0]
  indexVectorDim := 1
  wf := scatter_S64_S20000x1_S20000_n_0_0_1_wf
def dot_S20000x128_S128x256_S20000x256_1_0_0_1_n_n : DotDims S20000x128 S128x256 S20000x256 where
  lhsContracting := [1]
  rhsContracting := [0]
  lhsNonContracting := [0]
  rhsNonContracting := [1]
  lhsBatch := []
  rhsBatch := []
  wf := dot_S20000x128_S128x256_S20000x256_1_0_0_1_n_n_wf

class Facts : Prop extends Facts₀ where

variable [Facts]
-- ==== Proof.RunCondKernel.lean ====
/- The run of @main through its 41 items, given the four regions' segment records: the conditional frame's
   argument (the items as segments, the host stretches chained through the valuations `V0 … V41`), with a
   stronger conclusion. Since at the end every unscoped buffer is owned whole at the last valuation `V41`, the final
   memory agrees with `V41` not only at the 28 arguments (where `V41` is the launch memory) but at every unscoped
   reference; here it is read also at the two results `main_v191` and `main_v383`. -/
import proofs.«177757_j84482006712681_1_alg».proof.Proof.RegionsKernel

-- memberships among the 628 references are decided by enumeration, which recurses past the default depth
set_option maxRecDepth 3024

noncomputable section

namespace Cert.Kernel.Hand
open Cert.Kernel Cert.Kernel.Gen Cert.Kernel.GenP

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

-- the launch theorem's implicit arguments are found by unifying its conclusion with the statement's, which takes
-- unfolding plain definitions in a metavariable's type
set_option backward.isDefEq.respectTransparency.types false in
/-- The conditional run. Under the conditional frame's hypotheses (a segment record per region, entered from the
    thread state before it and left at the one after it), every weakly fair execution of @main from memory `m` with
    zero counters terminates, and in every final memory, on every core, the two results hold the last valuation's
    contents and each argument holds its launch contents. -/
theorem run_cond (m : (ℓ : Loc nD τ sig) → Buf (Elt F) ℓ) {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 4) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 5 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE4 : ∀ c : Dev nD, E 4 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V11 m outs c) ∗ E 1 c) ⊢ R1.pre c)
    (hpost1 : ∀ c : Dev nD, R1.post c ⊢ iprop(StableHlo.held (c : Thread nD τ) (Pipeline.ucRefs τ sig) (V12 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V21 m outs c) ∗ E 2 c) ⊢ R2.pre c)
    (hpost2 : ∀ c : Dev nD, R2.post c ⊢ iprop(StableHlo.held (c : Thread nD τ) (Pipeline.ucRefs τ sig) (V22 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V31 m outs c) ∗ E 3 c) ⊢ R3.pre c)
    (hpost3 : ∀ c : Dev nD, R3.post c ⊢ iprop(StableHlo.held (c : Thread nD τ) (Pipeline.ucRefs τ sig) (V32 m outs c) ∗ E 4 c)) :
    θ_run defs (onTc (τ := τ) (main (F := F))) ⟨m, fun _ => 0, ρ⟩ (fun r => ∀ c : Dev nD,
      (r.2.mem ((c.tc : Thread nD τ).loc main_v191) = V41 m outs c (Proc.devRef .tc main_v191) ∧ r.2.mem ((c.tc : Thread nD τ).loc main_v383) = V41 m outs c (Proc.devRef .tc main_v383))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) := by
  refine Pipeline.θ_run_regions_kit_dev (pcfgs (F := F)) adm pdats ι cellOf_inj EP defs₀ 𝒱₀ L lv m ρ main
    (segs m outs 𝒱₀ L lv E ι pdats R0 R1 R2 R3)
    (fun c Q => by
      rewrite [show main (F := F) c = Seg.run (segs m outs 𝒱₀ L lv E ι pdats R0 R1 R2 R3 c) from (main_chain c).trans (by chain_rfl)]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V41 m outs c))
    (hch := fun c => ⟨.rfl, hpre0 c, hpost0 c, .rfl, .rfl, .rfl, .rfl, .rfl, .rfl, .rfl, .rfl, hpre1 c, hpost1 c, .rfl, .rfl, .rfl, .rfl, .rfl, .rfl, .rfl, .rfl, hpre2 c, hpost2 c, .rfl, .rfl, .rfl, .rfl, .rfl, .rfl, .rfl, .rfl, hpre3 c, hpost3 c, .rfl, .rfl, .rfl, .rfl, .rfl, .rfl, .rfl, .rfl, sep_mono .rfl (hE4 c)⟩)
    (hinit := ?_) (QY := fun c s => (s.mem ((c.tc : Thread nD τ).loc main_v191) = V41 m outs c (Proc.devRef .tc main_v191) ∧ s.mem ((c.tc : Thread nD τ).loc main_v383) = V41 m outs c (Proc.devRef .tc main_v383)) ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15) ∧ s.mem ((c.tc : Thread nD τ).loc main_arg16) = m ((c.tc : Thread nD τ).loc main_arg16) ∧ s.mem ((c.tc : Thread nD τ).loc main_arg17) = m ((c.tc : Thread nD τ).loc main_arg17) ∧ s.mem ((c.tc : Thread nD τ).loc main_arg18) = m ((c.tc : Thread nD τ).loc main_arg18) ∧ s.mem ((c.tc : Thread nD τ).loc main_arg19) = m ((c.tc : Thread nD τ).loc main_arg19) ∧ s.mem ((c.tc : Thread nD τ).loc main_arg20) = m ((c.tc : Thread nD τ).loc main_arg20) ∧ s.mem ((c.tc : Thread nD τ).loc main_arg21) = m ((c.tc : Thread nD τ).loc main_arg21) ∧ s.mem ((c.tc : Thread nD τ).loc main_arg22) = m ((c.tc : Thread nD τ).loc main_arg22) ∧ s.mem ((c.tc : Thread nD τ).loc main_arg23) = m ((c.tc : Thread nD τ).loc main_arg23) ∧ s.mem ((c.tc : Thread nD τ).loc main_arg24) = m ((c.tc : Thread nD τ).loc main_arg24) ∧ s.mem ((c.tc : Thread nD τ).loc main_arg25) = m ((c.tc : Thread nD τ).loc main_arg25) ∧ s.mem ((c.tc : Thread nD τ).loc main_arg26) = m ((c.tc : Thread nD τ).loc main_arg26) ∧ s.mem ((c.tc : Thread nD τ).loc main_arg27) = m ((c.tc : Thread nD τ).loc main_arg27))
    (hfin := fun c s' => ?_) (hQ := fun _ h => h)
  · -- at launch the memory's unscoped buffers are exactly the points-to facts at `V0`; what remains gives `E 0` on all cores together
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- at the end every unscoped buffer is owned whole at `V41`, so the final memory agrees with `V41` at each reference read
    unfold StableHlo.held
    iintro ⟨Hh, HSI⟩
    ihave Hr := (pointsTo_read_all (Pipeline.ucRefs τ sig) (fun b => ((c : Thread nD τ).1, b)) (V41 m outs c) s') $$ [Hh HSI]
    · isplitl [Hh] <;> iassumption
    icases Hr with ⟨%h, HSI⟩
    imodintro
    isplitr
    · ipureintro
      exact ⟨⟨h (Proc.devRef .tc main_v191) (Finset.mem_filter.mpr ⟨StableHlo.devRef_mem_tcRefs main_v191, by decide⟩), h (Proc.devRef .tc main_v383) (Finset.mem_filter.mpr ⟨StableHlo.devRef_mem_tcRefs main_v383, by decide⟩)⟩,
        (h (Proc.devRef .tc main_arg0) (Finset.mem_filter.mpr ⟨StableHlo.devRef_mem_tcRefs main_arg0, by decide⟩)).trans (V41_main_arg0 m outs c),
        (h (Proc.devRef .tc main_arg1) (Finset.mem_filter.mpr ⟨StableHlo.devRef_mem_tcRefs main_arg1, by decide⟩)).trans (V41_main_arg1 m outs c),
        (h (Proc.devRef .tc main_arg2) (Finset.mem_filter.mpr ⟨StableHlo.devRef_mem_tcRefs main_arg2, by decide⟩)).trans (V41_main_arg2 m outs c),
        (h (Proc.devRef .tc main_arg3) (Finset.mem_filter.mpr ⟨StableHlo.devRef_mem_tcRefs main_arg3, by decide⟩)).trans (V41_main_arg3 m outs c),
        (h (Proc.devRef .tc main_arg4) (Finset.mem_filter.mpr ⟨StableHlo.devRef_mem_tcRefs main_arg4, by decide⟩)).trans (V41_main_arg4 m outs c),
        (h (Proc.devRef .tc main_arg5) (Finset.mem_filter.mpr ⟨StableHlo.devRef_mem_tcRefs main_arg5, by decide⟩)).trans (V41_main_arg5 m outs c),
        (h (Proc.devRef .tc main_arg6) (Finset.mem_filter.mpr ⟨StableHlo.devRef_mem_tcRefs main_arg6, by decide⟩)).trans (V41_main_arg6 m outs c),
        (h (Proc.devRef .tc main_arg7) (Finset.mem_filter.mpr ⟨StableHlo.devRef_mem_tcRefs main_arg7, by decide⟩)).trans (V41_main_arg7 m outs c),
        (h (Proc.devRef .tc main_arg8) (Finset.mem_filter.mpr ⟨StableHlo.devRef_mem_tcRefs main_arg8, by decide⟩)).trans (V41_main_arg8 m outs c),
        (h (Proc.devRef .tc main_arg9) (Finset.mem_filter.mpr ⟨StableHlo.devRef_mem_tcRefs main_arg9, by decide⟩)).trans (V41_main_arg9 m outs c),
        (h (Proc.devRef .tc main_arg10) (Finset.mem_filter.mpr ⟨StableHlo.devRef_mem_tcRefs main_arg10, by decide⟩)).trans (V41_main_arg10 m outs c),
        (h (Proc.devRef .tc main_arg11) (Finset.mem_filter.mpr ⟨StableHlo.devRef_mem_tcRefs main_arg11, by decide⟩)).trans (V41_main_arg11 m outs c),
        (h (Proc.devRef .tc main_arg12) (Finset.mem_filter.mpr ⟨StableHlo.devRef_mem_tcRefs main_arg12, by decide⟩)).trans (V41_main_arg12 m outs c),
        (h (Proc.devRef .tc main_arg13) (Finset.mem_filter.mpr ⟨StableHlo.devRef_mem_tcRefs main_arg13, by decide⟩)).trans (V41_main_arg13 m outs c),
        (h (Proc.devRef .tc main_arg14) (Finset.mem_filter.mpr ⟨StableHlo.devRef_mem_tcRefs main_arg14, by decide⟩)).trans (V41_main_arg14 m outs c),
        (h (Proc.devRef .tc main_arg15) (Finset.mem_filter.mpr ⟨StableHlo.devRef_mem_tcRefs main_arg15, by decide⟩)).trans (V41_main_arg15 m outs c),
        (h (Proc.devRef .tc main_arg16) (Finset.mem_filter.mpr ⟨StableHlo.devRef_mem_tcRefs main_arg16, by decide⟩)).trans (V41_main_arg16 m outs c),
        (h (Proc.devRef .tc main_arg17) (Finset.mem_filter.mpr ⟨StableHlo.devRef_mem_tcRefs main_arg17, by decide⟩)).trans (V41_main_arg17 m outs c),
        (h (Proc.devRef .tc main_arg18) (Finset.mem_filter.mpr ⟨StableHlo.devRef_mem_tcRefs main_arg18, by decide⟩)).trans (V41_main_arg18 m outs c),
        (h (Proc.devRef .tc main_arg19) (Finset.mem_filter.mpr ⟨StableHlo.devRef_mem_tcRefs main_arg19, by decide⟩)).trans (V41_main_arg19 m outs c),
        (h (Proc.devRef .tc main_arg20) (Finset.mem_filter.mpr ⟨StableHlo.devRef_mem_tcRefs main_arg20, by decide⟩)).trans (V41_main_arg20 m outs c),
        (h (Proc.devRef .tc main_arg21) (Finset.mem_filter.mpr ⟨StableHlo.devRef_mem_tcRefs main_arg21, by decide⟩)).trans (V41_main_arg21 m outs c),
        (h (Proc.devRef .tc main_arg22) (Finset.mem_filter.mpr ⟨StableHlo.devRef_mem_tcRefs main_arg22, by decide⟩)).trans (V41_main_arg22 m outs c),
        (h (Proc.devRef .tc main_arg23) (Finset.mem_filter.mpr ⟨StableHlo.devRef_mem_tcRefs main_arg23, by decide⟩)).trans (V41_main_arg23 m outs c),
        (h (Proc.devRef .tc main_arg24) (Finset.mem_filter.mpr ⟨StableHlo.devRef_mem_tcRefs main_arg24, by decide⟩)).trans (V41_main_arg24 m outs c),
        (h (Proc.devRef .tc main_arg25) (Finset.mem_filter.mpr ⟨StableHlo.devRef_mem_tcRefs main_arg25, by decide⟩)).trans (V41_main_arg25 m outs c),
        (h (Proc.devRef .tc main_arg26) (Finset.mem_filter.mpr ⟨StableHlo.devRef_mem_tcRefs main_arg26, by decide⟩)).trans (V41_main_arg26 m outs c),
        (h (Proc.devRef .tc main_arg27) (Finset.mem_filter.mpr ⟨StableHlo.devRef_mem_tcRefs main_arg27, by decide⟩)).trans (V41_main_arg27 m outs c)⟩
    · iexact HSI

end Cert.Kernel.Hand

end
-- ==== Proof.DatKernel.lean ====
/- The proof data of the kernel program's four TensorCore regions, each a grid of ten points running one
   matmul body: per region, at a parameter `V` (the TensorCore's buffer contents when the region is entered),
   every window's block at a point, the three whole-block rectangles the body loads and stores through, the
   contents the body leaves in the output window's buffer as a function of the two input blocks, and the
   pipeline's proof data. Definitions and their projections only; the body's triple and the body obligation are
   stated over these in the neighbouring module. -/
import proofs.«177757_j84482006712681_1_alg».proof.Proof.Gen.Kernel.Launch
import proofs.«177757_j84482006712681_1_alg».proof.Proof.Gen.Kernel.Skeleton
import proofs.«177757_j84482006712681_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000 rows: the structural check recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered: every region's definitions are stated at it
variable (V : (c : Dev nD) → (b : Ref sig .tc) → Buf (Elt F) ((c : Thread nD τ).loc b))

/-! # Region 0: a [2000,k] by [k,n] product per grid point (S2000x768 times S768x768 into S2000x768) -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole block of window 0 (the left factor), of window 1 (the right factor) and of window 2 (the product):
    the rectangles of the body's two live loads and of its one store. -/
abbrev r0_0 : Rect S2000x768 := Rect.unit (s := S2000x768) ![0, 0] S2000x768.size inb_S2000x768_S2000x768_0_0
abbrev r0_1 : Rect S768x768 := Rect.unit (s := S768x768) ![0, 0] S768x768.size inb_S768x768_S768x768_0_0
abbrev r0_2 : Rect S2000x768 := Rect.unit (s := S2000x768) ![0, 0] S2000x768.size inb_S2000x768_S2000x768_0_0

/-- Window 2's staging buffer after the body, from the two input blocks: one store over the whole block, of the
    product of the blocks accumulated into zero (the payload `k0_pay1`). What the buffer held before is overwritten
    everywhere, so it does not appear. -/
def out0_2 (x0 : Vec F S2000x768 .bf16) (x1 : Vec F S768x768 .bf16) : Vec F S2000x768 .f32 :=
  View.canon [⟨r0_2, k0_pay1 (View.ld x0 r0_0) (View.ld x1 r0_1)⟩]

/-- The one store tiles the block (a single tile of the block's own size, checked by evaluation), so it covers it. -/
theorem cover0_2 (p0 : Vec F S2000x768 .f32) (y : S2000x768.Idx) :
    ∃ pc ∈ ([⟨r0_2, p0⟩] : List (View.Piece (Elt F) S2000x768 .f32)), y ∈ pc.1.set :=
  View.cover_of_tiled [⟨r0_2, p0⟩] S2000x768.size (by rfl) y

/-- The proof data of pipeline 0 on core `c`: the arrays as the region finds them (`V`); after the body at point
    `t` each input's buffer still at its block and the output's at `out0_2` of the two input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the definition's `match` reduced at each literal window). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! # Region 1: a [2000,k] by [k,n] product per grid point (S2000x256 times S256x384 into S2000x384) -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole block of window 0 (the left factor), of window 1 (the right factor) and of window 2 (the product):
    the rectangles of the body's two live loads and of its one store. -/
abbrev r1_0 : Rect S2000x256 := Rect.unit (s := S2000x256) ![0, 0] S2000x256.size inb_S2000x256_S2000x256_0_0
abbrev r1_1 : Rect S256x384 := Rect.unit (s := S256x384) ![0, 0] S256x384.size inb_S256x384_S256x384_0_0
abbrev r1_2 : Rect S2000x384 := Rect.unit (s := S2000x384) ![0, 0] S2000x384.size inb_S2000x384_S2000x384_0_0

/-- Window 2's staging buffer after the body, from the two input blocks: one store over the whole block, of the
    product of the blocks accumulated into zero (the payload `k1_pay1`). What the buffer held before is overwritten
    everywhere, so it does not appear. -/
def out1_2 (x0 : Vec F S2000x256 .bf16) (x1 : Vec F S256x384 .bf16) : Vec F S2000x384 .f32 :=
  View.canon [⟨r1_2, k1_pay1 (View.ld x0 r1_0) (View.ld x1 r1_1)⟩]

/-- The one store tiles the block (a single tile of the block's own size, checked by evaluation), so it covers it. -/
theorem cover1_2 (p0 : Vec F S2000x384 .f32) (y : S2000x384.Idx) :
    ∃ pc ∈ ([⟨r1_2, p0⟩] : List (View.Piece (Elt F) S2000x384 .f32)), y ∈ pc.1.set :=
  View.cover_of_tiled [⟨r1_2, p0⟩] S2000x384.size (by rfl) y

/-- The proof data of pipeline 1 on core `c`: the arrays as the region finds them (`V`); after the body at point
    `t` each input's buffer still at its block and the output's at `out1_2` of the two input blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the definition's `match` reduced at each literal window). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-! # Region 2: a [2000,k] by [k,n] product per grid point (S2000x128 times S128x768 into S2000x768) -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole block of window 0 (the left factor), of window 1 (the right factor) and of window 2 (the product):
    the rectangles of the body's two live loads and of its one store. -/
abbrev r2_0 : Rect S2000x128 := Rect.unit (s := S2000x128) ![0, 0] S2000x128.size inb_S2000x128_S2000x128_0_0
abbrev r2_1 : Rect S128x768 := Rect.unit (s := S128x768) ![0, 0] S128x768.size inb_S128x768_S128x768_0_0
abbrev r2_2 : Rect S2000x768 := Rect.unit (s := S2000x768) ![0, 0] S2000x768.size inb_S2000x768_S2000x768_0_0

/-- Window 2's staging buffer after the body, from the two input blocks: one store over the whole block, of the
    product of the blocks accumulated into zero (the payload `k2_pay1`). What the buffer held before is overwritten
    everywhere, so it does not appear. -/
def out2_2 (x0 : Vec F S2000x128 .bf16) (x1 : Vec F S128x768 .bf16) : Vec F S2000x768 .f32 :=
  View.canon [⟨r2_2, k2_pay1 (View.ld x0 r2_0) (View.ld x1 r2_1)⟩]

/-- The one store tiles the block (a single tile of the block's own size, checked by evaluation), so it covers it. -/
theorem cover2_2 (p0 : Vec F S2000x768 .f32) (y : S2000x768.Idx) :
    ∃ pc ∈ ([⟨r2_2, p0⟩] : List (View.Piece (Elt F) S2000x768 .f32)), y ∈ pc.1.set :=
  View.cover_of_tiled [⟨r2_2, p0⟩] S2000x768.size (by rfl) y

/-- The proof data of pipeline 2 on core `c`: the arrays as the region finds them (`V`); after the body at point
    `t` each input's buffer still at its block and the output's at `out2_2` of the two input blocks; the invariant
    the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window (the definition's `match` reduced at each literal window). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-! # Region 3: a [2000,k] by [k,n] product per grid point (S2000x256 times S256x384 into S2000x384) -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The whole block of window 0 (the left factor), of window 1 (the right factor) and of window 2 (the product):
    the rectangles of the body's two live loads and of its one store. -/
abbrev r3_0 : Rect S2000x256 := Rect.unit (s := S2000x256) ![0, 0] S2000x256.size inb_S2000x256_S2000x256_0_0
abbrev r3_1 : Rect S256x384 := Rect.unit (s := S256x384) ![0, 0] S256x384.size inb_S256x384_S256x384_0_0
abbrev r3_2 : Rect S2000x384 := Rect.unit (s := S2000x384) ![0, 0] S2000x384.size inb_S2000x384_S2000x384_0_0

/-- Window 2's staging buffer after the body, from the two input blocks: one store over the whole block, of the
    product of the blocks accumulated into zero (the payload `k3_pay1`). What the buffer held before is overwritten
    everywhere, so it does not appear. -/
def out3_2 (x0 : Vec F S2000x256 .bf16) (x1 : Vec F S256x384 .bf16) : Vec F S2000x384 .f32 :=
  View.canon [⟨r3_2, k3_pay1 (View.ld x0 r3_0) (View.ld x1 r3_1)⟩]

/-- The one store tiles the block (a single tile of the block's own size, checked by evaluation), so it covers it. -/
theorem cover3_2 (p0 : Vec F S2000x384 .f32) (y : S2000x384.Idx) :
    ∃ pc ∈ ([⟨r3_2, p0⟩] : List (View.Piece (Elt F) S2000x384 .f32)), y ∈ pc.1.set :=
  View.cover_of_tiled [⟨r3_2, p0⟩] S2000x384.size (by rfl) y

/-- The proof data of pipeline 3 on core `c`: the arrays as the region finds them (`V`); after the body at point
    `t` each input's buffer still at its block and the output's at `out3_2` of the two input blocks; the invariant
    the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The proof data's arrays are the region-entry contents (the definition projected). -/
theorem A_eq3 (c : Dev nD) (w : Fin cfg3.W) : (dat3 V c).A w = V c (Pipeline.arrRef spec3 w) := by
  dsimp only [dat3]

/-- What the body leaves, window by window (the definition's `match` reduced at each literal window). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

end Cert.Kernel.Hand

end
-- ==== Proof.BodyKernel.lean ====
/- The body halves of the kernel program's four TensorCore regions, over the proof data of the neighbouring
   module: per region the body's triple (two whole-block loads, a dead load of the output buffer, one whole-block
   store of the product), each input found at its block at every point whether it was fetched there or not, and
   the body obligation at a generic point. -/
import proofs.«177757_j84482006712681_1_alg».proof.Proof.DatKernel

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0 -/

set_option maxHeartbeats 1000000 in
/-- The body on whole staging memrefs, the two inputs' at read contents `x0`, `x1` and the output's at anything,
    runs to the continuation holding the inputs' as they were and the output's at `out0_2 x0 x1`: the value the
    body loads from the output buffer is used by nothing, and its one store covers the block, so what the buffer
    held does not survive. -/
theorem sound_kernel0 (c : Dev nD) (E : Set ℕ) (i : grid0.Coords)
    (arg1 : Memref sig .tc .vmem S2000x768 .bf16) (harg1 : arg1.IsWhole)
    (arg2 : Memref sig .tc .vmem S768x768 .bf16) (harg2 : arg2.IsWhole)
    (arg3 : Memref sig .tc .vmem S2000x768 .f32) (harg3 : arg3.IsWhole)
    (x0 : Vec F S2000x768 .bf16) (x1 : Vec F S768x768 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- Input window 0's current staging buffer holds its block at every point: the window is uncut and never idle and
    the body leaves its buffer as found, so a point that does not fetch it finds the previous point's block, whose
    index is this point's (`Dat.before_in_eq_fetched`). -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- Input window 1 likewise: it is fetched at the first point only, its block index constant over the grid, and
    every later point finds that one block still in place. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the two inputs' memrefs hold their blocks (`before0_0`, `before0_1`), the output's
    holds something, so `sound_kernel0` applies; the invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # Region 1 -/

set_option maxHeartbeats 1000000 in
/-- The body on whole staging memrefs, the two inputs' at read contents `x0`, `x1` and the output's at anything,
    runs to the continuation holding the inputs' as they were and the output's at `out1_2 x0 x1`: the value the
    body loads from the output buffer is used by nothing, and its one store covers the block, so what the buffer
    held does not survive. -/
theorem sound_kernel1 (c : Dev nD) (E : Set ℕ) (i : grid1.Coords)
    (arg1 : Memref sig .tc .vmem S2000x256 .bf16) (harg1 : arg1.IsWhole)
    (arg2 : Memref sig .tc .vmem S256x384 .bf16) (harg2 : arg2.IsWhole)
    (arg3 : Memref sig .tc .vmem S2000x384 .f32) (harg3 : arg3.IsWhole)
    (x0 : Vec F S2000x256 .bf16) (x1 : Vec F S256x384 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- Input window 0's current staging buffer holds its block at every point: the window is uncut and never idle and
    the body leaves its buffer as found, so a point that does not fetch it finds the previous point's block, whose
    index is this point's (`Dat.before_in_eq_fetched`). -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- Input window 1 likewise: it is fetched at the first point only, its block index constant over the grid, and
    every later point finds that one block still in place. -/
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-- What the body is called with at point `t` (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the two inputs' memrefs hold their blocks (`before1_0`, `before1_1`), the output's
    holds something, so `sound_kernel1` applies; the invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! # Region 2 -/

set_option maxHeartbeats 1000000 in
/-- The body on whole staging memrefs, the two inputs' at read contents `x0`, `x1` and the output's at anything,
    runs to the continuation holding the inputs' as they were and the output's at `out2_2 x0 x1`: the value the
    body loads from the output buffer is used by nothing, and its one store covers the block, so what the buffer
    held does not survive. -/
theorem sound_kernel2 (c : Dev nD) (E : Set ℕ) (i : grid2.Coords)
    (arg1 : Memref sig .tc .vmem S2000x128 .bf16) (harg1 : arg1.IsWhole)
    (arg2 : Memref sig .tc .vmem S128x768 .bf16) (harg2 : arg2.IsWhole)
    (arg3 : Memref sig .tc .vmem S2000x768 .f32) (harg3 : arg3.IsWhole)
    (x0 : Vec F S2000x128 .bf16) (x1 : Vec F S128x768 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- Input window 0's current staging buffer holds its block at every point: the window is uncut and never idle and
    the body leaves its buffer as found, so a point that does not fetch it finds the previous point's block, whose
    index is this point's (`Dat.before_in_eq_fetched`). -/
theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)

/-- Input window 1 likewise: it is fetched at the first point only, its block index constant over the grid, and
    every later point finds that one block still in place. -/
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

/-- What the body is called with at point `t` (the body obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the two inputs' memrefs hold their blocks (`before2_0`, `before2_1`), the output's
    holds something, so `sound_kernel2` applies; the invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! # Region 3 -/

set_option maxHeartbeats 1000000 in
/-- The body on whole staging memrefs, the two inputs' at read contents `x0`, `x1` and the output's at anything,
    runs to the continuation holding the inputs' as they were and the output's at `out3_2 x0 x1`: the value the
    body loads from the output buffer is used by nothing, and its one store covers the block, so what the buffer
    held does not survive. -/
theorem sound_kernel3 (c : Dev nD) (E : Set ℕ) (i : grid3.Coords)
    (arg1 : Memref sig .tc .vmem S2000x256 .bf16) (harg1 : arg1.IsWhole)
    (arg2 : Memref sig .tc .vmem S256x384 .bf16) (harg2 : arg2.IsWhole)
    (arg3 : Memref sig .tc .vmem S2000x384 .f32) (harg3 : arg3.IsWhole)
    (x0 : Vec F S2000x256 .bf16) (x1 : Vec F S256x384 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- Input window 0's current staging buffer holds its block at every point: the window is uncut and never idle and
    the body leaves its buffer as found, so a point that does not fetch it finds the previous point's block, whose
    index is this point's (`Dat.before_in_eq_fetched`). -/
theorem before3_0 (c : Dev nD) (t : Fin cfg3.N) (d) : (dat3 V c).before 0 t d = iblk3 V c 0 t :=
  ((dat3 V c).before_in_eq_fetched 0 rfl (fun _ => rfl) (fun _ _ _ => rfl)
      (fun t => by rw [after3_0]; unfold Dat.blockOf iblk3; rw [A_eq3]; try rfl) t d).trans
    (by unfold Dat.fetched Dat.blockOf iblk3; rw [A_eq3]; try rfl)

/-- Input window 1 likewise: it is fetched at the first point only, its block index constant over the grid, and
    every later point finds that one block still in place. -/
theorem before3_1 (c : Dev nD) (t : Fin cfg3.N) (d) : (dat3 V c).before 1 t d = iblk3 V c 1 t :=
  ((dat3 V c).before_in_eq_fetched 1 rfl (fun _ => rfl) (fun _ _ _ => rfl)
      (fun t => by rw [after3_1]; unfold Dat.blockOf iblk3; rw [A_eq3]; try rfl) t d).trans
    (by unfold Dat.fetched Dat.blockOf iblk3; rw [A_eq3]; try rfl)

/-- What the body is called with at point `t` (the body obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the two inputs' memrefs hold their blocks (`before3_0`, `before3_1`), the output's
    holds something, so `sound_kernel3` applies; the invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.FrameKernel.lean ====
/- The run of @main and its frame, unconditionally: the four regions' segment records over the neighbouring
   modules' proof data and body obligations, the contents each region leaves in its output array, and the launch.

   Between two items core `c` holds every unscoped buffer whole at the valuation `VJ m outs c`, where `outs` are the
   contents the regions leave. Region K's pipeline leaves in its output window's array the write-backs of its ten
   points folded over the entry contents (`Dat.arrAt … N`), and leaves its two input arrays as it found them. The
   entry contents of region K are themselves a valuation over what regions 0 … K−1 left, so the four output
   contents are defined one after the other, each over the ones before it. -/
import proofs.«177757_j84482006712681_1_alg».proof.Proof.RunCondKernel
import proofs.«177757_j84482006712681_1_alg».proof.Proof.BodyKernel

-- memberships among the 628 references are decided by enumeration, which recurses past the default depth
set_option maxRecDepth 16384

noncomputable section

namespace Cert.Kernel.Hand
open Cert.Kernel Cert.Kernel.Gen Cert.Kernel.GenP

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## A valuation before a region depends on the regions' contents only where it reads them

The valuation entering region 1 reads `outs` at `(2, main_v7)` only, the one entering region 2 also at
`(12, main_v97)`, the one entering region 3 also at `(22, main_v199)`: two families of contents that agree there give
the same valuation (the host stretches in between are the same functions of it). -/

theorem V11_congr (o o' : Outs (F := F)) (c : Dev nD) (h2 : o 2 main_v7 c = o' 2 main_v7 c) :
    V11 m o c = V11 m o' c := by
  have e : V2 m o c = V2 m o' c := by
    show Function.update (V1 m c) main_v7 (o 2 main_v7 c) = Function.update (V1 m c) main_v7 (o' 2 main_v7 c)
    rw [h2]
  exact congrArg (fun v : Valuation τ sig (Elt F) => StableHlo.after hostOps1_8 (StableHlo.after hostOps1_7 (StableHlo.after hostOps1_6 (StableHlo.after hostOps1_5 (StableHlo.after hostOps1_4 (StableHlo.after hostOps1_3 (StableHlo.after hostOps1_2 (StableHlo.after hostOps1_1 (StableHlo.after hostOps1 (v)))))))))) e

theorem V21_congr (o o' : Outs (F := F)) (c : Dev nD) (h2 : o 2 main_v7 c = o' 2 main_v7 c)
    (h12 : o 12 main_v97 c = o' 12 main_v97 c) : V21 m o c = V21 m o' c := by
  have e : V12 m o c = V12 m o' c := by
    show Function.update (V11 m o c) main_v97 (o 12 main_v97 c) = Function.update (V11 m o' c) main_v97 (o' 12 main_v97 c)
    rw [V11_congr m o o' c h2, h12]
  exact congrArg (fun v : Valuation τ sig (Elt F) => StableHlo.after hostOps2_8 (StableHlo.after hostOps2_7 (StableHlo.after hostOps2_6 (StableHlo.after hostOps2_5 (StableHlo.after hostOps2_4 (StableHlo.after hostOps2_3 (StableHlo.after hostOps2_2 (StableHlo.after hostOps2_1 (StableHlo.after hostOps2 (v)))))))))) e

theorem V31_congr (o o' : Outs (F := F)) (c : Dev nD) (h2 : o 2 main_v7 c = o' 2 main_v7 c)
    (h12 : o 12 main_v97 c = o' 12 main_v97 c) (h22 : o 22 main_v199 c = o' 22 main_v199 c) : V31 m o c = V31 m o' c := by
  have e : V22 m o c = V22 m o' c := by
    show Function.update (V21 m o c) main_v199 (o 22 main_v199 c) = Function.update (V21 m o' c) main_v199 (o' 22 main_v199 c)
    rw [V21_congr m o o' c h2 h12, h22]
  exact congrArg (fun v : Valuation τ sig (Elt F) => StableHlo.after hostOps3_8 (StableHlo.after hostOps3_7 (StableHlo.after hostOps3_6 (StableHlo.after hostOps3_5 (StableHlo.after hostOps3_4 (StableHlo.after hostOps3_3 (StableHlo.after hostOps3_2 (StableHlo.after hostOps3_1 (StableHlo.after hostOps3 (v)))))))))) e

/-! ## What each region leaves -/

/-- Core `c`'s unscoped buffers when region 0 is left: its three arrays at what the pipeline leaves (`Dat.arrAt … N`:
    an input as entered, the output with every point's write-back folded in), every other buffer as entered. -/
def exit0 (c : Dev nD) : Valuation τ sig (Elt F) :=
  Pipeline.withArrays spec0 c (V1 m c) fun w => (dat0 (fun c b => V1 m c b) c).arrAt w cfg0.N
/-- The contents left so far, after region 0. -/
def outsA : Outs (F := F) := fun _ r c => exit0 m c (Proc.devRef .tc r)

/-- Core `c`'s unscoped buffers when region 1 is left, over the entry valuation built from region 0's contents. -/
def exit1 (c : Dev nD) : Valuation τ sig (Elt F) :=
  Pipeline.withArrays spec1 c (V11 m (outsA m) c) fun w => (dat1 (fun c b => V11 m (outsA m) c b) c).arrAt w cfg1.N
/-- The contents left so far, after region 1. -/
def outsB : Outs (F := F) := fun J r c => match J with
  | 12 => exit1 m c (Proc.devRef .tc r)
  | _ => outsA m J r c

/-- Core `c`'s unscoped buffers when region 2 is left, over the entry valuation built from regions 0 and 1's contents. -/
def exit2 (c : Dev nD) : Valuation τ sig (Elt F) :=
  Pipeline.withArrays spec2 c (V21 m (outsB m) c) fun w => (dat2 (fun c b => V21 m (outsB m) c b) c).arrAt w cfg2.N
/-- The contents left so far, after region 2. -/
def outsC : Outs (F := F) := fun J r c => match J with
  | 22 => exit2 m c (Proc.devRef .tc r)
  | _ => outsB m J r c

/-- Core `c`'s unscoped buffers when region 3 is left, over the entry valuation built from regions 0, 1 and 2's contents. -/
def exit3 (c : Dev nD) : Valuation τ sig (Elt F) :=
  Pipeline.withArrays spec3 c (V31 m (outsC m) c) fun w => (dat3 (fun c b => V31 m (outsC m) c b) c).arrAt w cfg3.N
/-- WHAT THE REGIONS LEAVE: `outs m J r c` is the contents of `r` on core `c` after item J−1, for J = 2, 12, 22, 32 the
    value at `r` of the exit valuation of region 0, 1, 2, 3. -/
def outs : Outs (F := F) := fun J r c => match J with
  | 32 => exit3 m c (Proc.devRef .tc r)
  | _ => outsC m J r c

/-- The entry valuations over all four contents are the ones the contents were defined over. -/
theorem V11_outs (c : Dev nD) : V11 m (outs m) c = V11 m (outsA m) c := V11_congr m _ _ c rfl
theorem V21_outs (c : Dev nD) : V21 m (outs m) c = V21 m (outsB m) c := V21_congr m _ _ c rfl rfl
theorem V31_outs (c : Dev nD) : V31 m (outs m) c = V31 m (outsC m) c := V31_congr m _ _ c rfl rfl rfl

/-- A TensorCore's buffer contents, reference by reference: what a region's proof data are stated at. -/
abbrev TcVal : Type := (c : Dev nD) → (b : Ref sig .tc) → Buf (Elt F) ((c : Thread nD τ).loc b)

/-- Region 0 leaves in `main_v7`, its output window's array, the write-backs of its ten points folded over the entry
    contents. -/
theorem outs_2 (c : Dev nD) : outs m 2 main_v7 c = (dat0 (fun c b => V1 m c b) c).arrAt 2 cfg0.N := by
  show exit0 m c (Proc.devRef .tc (Pipeline.arrRef spec0 2)) = _
  unfold exit0
  exact Pipeline.withArrays_arr spec0 launch0.win.arr_inj c _ _ 2

/-- Region 1 leaves in `main_v97`, its output window's array, the write-backs of its ten points folded over the entry
    contents, the entry valuation read over all the regions' contents. -/
theorem outs_12 (c : Dev nD) : outs m 12 main_v97 c = (dat1 (fun c b => V11 m (outs m) c b) c).arrAt 2 cfg1.N := by
  have hV : @Eq (TcVal (F := F)) (fun c b => V11 m (outsA m) c b) (fun c b => V11 m (outs m) c b) :=
    funext fun c => funext fun b => (congrFun (V11_outs m c) (Proc.devRef .tc b)).symm
  refine Eq.trans ?_ (congrArg (fun V : TcVal (F := F) => (dat1 V c).arrAt 2 cfg1.N) hV)
  show exit1 m c (Proc.devRef .tc (Pipeline.arrRef spec1 2)) = _
  unfold exit1
  exact Pipeline.withArrays_arr spec1 launch1.win.arr_inj c _ _ 2

/-- Region 2 leaves in `main_v199`, its output window's array, the write-backs of its ten points folded over the entry
    contents, the entry valuation read over all the regions' contents. -/
theorem outs_22 (c : Dev nD) : outs m 22 main_v199 c = (dat2 (fun c b => V21 m (outs m) c b) c).arrAt 2 cfg2.N := by
  have hV : @Eq (TcVal (F := F)) (fun c b => V21 m (outsB m) c b) (fun c b => V21 m (outs m) c b) :=
    funext fun c => funext fun b => (congrFun (V21_outs m c) (Proc.devRef .tc b)).symm
  refine Eq.trans ?_ (congrArg (fun V : TcVal (F := F) => (dat2 V c).arrAt 2 cfg2.N) hV)
  show exit2 m c (Proc.devRef .tc (Pipeline.arrRef spec2 2)) = _
  unfold exit2
  exact Pipeline.withArrays_arr spec2 launch2.win.arr_inj c _ _ 2

/-- Region 3 leaves in `main_v289`, its output window's array, the write-backs of its ten points folded over the entry
    contents, the entry valuation read over all the regions' contents. -/
theorem outs_32 (c : Dev nD) : outs m 32 main_v289 c = (dat3 (fun c b => V31 m (outs m) c b) c).arrAt 2 cfg3.N := by
  have hV : @Eq (TcVal (F := F)) (fun c b => V31 m (outsC m) c b) (fun c b => V31 m (outs m) c b) :=
    funext fun c => funext fun b => (congrFun (V31_outs m c) (Proc.devRef .tc b)).symm
  refine Eq.trans ?_ (congrArg (fun V : TcVal (F := F) => (dat3 V c).arrAt 2 cfg3.N) hV)
  show exit3 m c (Proc.devRef .tc (Pipeline.arrRef spec3 2)) = _
  unfold exit3
  exact Pipeline.withArrays_arr spec3 launch3.win.arr_inj c _ _ 2

/-! ## The proof data family and what rides beside the buffers -/

/-- Every pipeline's proof data, each at its region's entry contents (a literal `match`, so that the family at a
    numeral reduces to the region's own data). -/
def pdats : (p : Fin 4) → (c : Dev nD) → Dat τ (Elt F) Unit ℕ (UR sig nD τ) ℕ (cfgs p) c
  | ⟨0, _⟩ => fun c => dat0 (fun c b => V1 m c b) c
  | ⟨1, _⟩ => fun c => dat1 (fun c b => V11 m (outs m) c b) c
  | ⟨2, _⟩ => fun c => dat2 (fun c b => V21 m (outs m) c b) c
  | ⟨3, _⟩ => fun c => dat3 (fun c b => V31 m (outs m) c b) c

/-- No core owes another anything: no pair is assigned a level. -/
abbrev L : GSem nD τ sig → Finset Unit := fun _ => ∅
abbrev lv : GSem nD τ sig → Unit → ℕ := fun _ _ => 0

/-- What a core holds beside its unscoped buffers between any two items: its generator register at some state (a
    region's invariant takes it in and gives it back) and its tallies, owing nothing. -/
abbrev R (c : Dev nD) : sProp 𝕄 := iprop((∃ r, prngReg c r) ∗ ∃ W, owes (c : Thread nD τ) (0 : CellTallies nD τ sig Unit) W)

/-! ### Region 0 -/

/-- When region 0 is left each of its arrays holds what the pipeline leaves: the output window's `main_v7` is where
    the exit valuation is updated, at that very value; an input window's array is not `main_v7`, so the exit valuation
    has it as the entry one does, which is what the proof data start from and what an input keeps. -/
theorem hF0 (c : Dev nD) : ∀ w : Fin cfg0.W,
    (dat0 (fun c b => V1 m c b) c).arrAt w cfg0.N = V2 m (outs m) c (Pipeline.arrRef spec0 w)
  | ⟨0, _⟩ => ((dat0 (fun c b => V1 m c b) c).arrAt_in 0 rfl _).trans ((A_eq0 (fun c b => V1 m c b) c 0).trans (V2_of m (outs m) c _ (by decide)).symm)
  | ⟨1, _⟩ => ((dat0 (fun c b => V1 m c b) c).arrAt_in 1 rfl _).trans ((A_eq0 (fun c b => V1 m c b) c 1).trans (V2_of m (outs m) c _ (by decide)).symm)
  | ⟨2, _⟩ => ((outs_2 m c).symm.trans (Function.update_self (β := fun b : DevRef τ sig => b.ty.Contents (Elt F)) (Proc.devRef .tc main_v7) (outs m 2 main_v7 c) (V1 m c)).symm)

/-- Off region 0's arrays the exit valuation is the entry one: it differs from it at `main_v7` only. -/
theorem hrest0 (c : Dev nD) : ∀ b : Ref sig .tc, b ∉ Finset.univ.image (Pipeline.arrRef spec0) → V2 m (outs m) c b = V1 m c b :=
  fun b hb => V2_of m (outs m) c b fun h => hb (Finset.mem_image.mpr ⟨2, Finset.mem_univ _, (List.mem_singleton.mp h).symm⟩)

-- a library lemma stated over the family's configuration at `p` meets the region's own configuration only when
-- unification may unfold plain definitions in a metavariable's type
set_option backward.isDefEq.respectTransparency.types false in
/-- REGION 0 as a segment: entered from every unscoped buffer at the valuation before it beside `R`, left at the
    valuation after it beside `R`. At entry its three arrays are split out of the unscoped buffers, the generator
    register goes into the pipeline's invariant; at exit the arrays, at what the pipeline leaves, are put back beside
    the untouched rest, and the register comes back. Nothing is owed at any point; the kernel has no semaphore of its own. -/
def reg0 : RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (fun c b => V1 m c b) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (fun b => V1 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V1 m c b) fun _ => rfl
    rw [Pipeline.unscopedBufs_held] at hsplit
    iintro ⟨⟨Hbufs, Hprng, Howes⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hprng]; · iexact Hprng
    iexact Hrest
  hin c := by
    rw [show (pdats m 0 c).Φ 0 = Pipeline.ΦA spec0 c from rfl]; unfold Pipeline.ΦA
    iintro ⟨Hprng, -, Hsc⟩
    isplitl [Hsc]; · iexact Hsc
    iexact Hprng
  hout c := by
    rw [Pipeline.ownSems0_none, show (pdats m 0 c).Φ (Fin.last _) = Pipeline.ΦA spec0 c from rfl]; unfold Pipeline.ΦA
    iintro ⟨Hsc, Hprng⟩
    isplitl [Hprng]; · iexact Hprng
    isplitr; · iempintro
    iexact Hsc
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => V1 m c b) (fun b => V2 m (outs m) c b) ((pdats m 0 c).arrAt · cfg0.N) (hF0 m c) (hrest0 m c)
    rw [Pipeline.unscopedBufs_held] at hjoin
    iintro ⟨Harr, Howes, Hprng, Hrest⟩
    imodintro
    isplitl [Harr Hrest]
    · iapply hjoin; isplitl [Harr] <;> iassumption
    isplitl [Hprng]; · iexact Hprng
    unfold Pipeline.Dat.owesAt Pipeline.owesWithin
    icases Howes with ⟨%W, -, Howes⟩; iexists W; iexact Howes

/-! ### Region 1 -/

/-- When region 1 is left each of its arrays holds what the pipeline leaves: the output window's `main_v97` is where
    the exit valuation is updated, at that very value; an input window's array is not `main_v97`, so the exit valuation
    has it as the entry one does, which is what the proof data start from and what an input keeps. -/
theorem hF1 (c : Dev nD) : ∀ w : Fin cfg1.W,
    (dat1 (fun c b => V11 m (outs m) c b) c).arrAt w cfg1.N = V12 m (outs m) c (Pipeline.arrRef spec1 w)
  | ⟨0, _⟩ => ((dat1 (fun c b => V11 m (outs m) c b) c).arrAt_in 0 rfl _).trans ((A_eq1 (fun c b => V11 m (outs m) c b) c 0).trans (V12_of m (outs m) c _ (by decide)).symm)
  | ⟨1, _⟩ => ((dat1 (fun c b => V11 m (outs m) c b) c).arrAt_in 1 rfl _).trans ((A_eq1 (fun c b => V11 m (outs m) c b) c 1).trans (V12_of m (outs m) c _ (by decide)).symm)
  | ⟨2, _⟩ => ((outs_12 m c).symm.trans (Function.update_self (β := fun b : DevRef τ sig => b.ty.Contents (Elt F)) (Proc.devRef .tc main_v97) (outs m 12 main_v97 c) (V11 m (outs m) c)).symm)

/-- Off region 1's arrays the exit valuation is the entry one: it differs from it at `main_v97` only. -/
theorem hrest1 (c : Dev nD) : ∀ b : Ref sig .tc, b ∉ Finset.univ.image (Pipeline.arrRef spec1) → V12 m (outs m) c b = V11 m (outs m) c b :=
  fun b hb => V12_of m (outs m) c b fun h => hb (Finset.mem_image.mpr ⟨2, Finset.mem_univ _, (List.mem_singleton.mp h).symm⟩)

-- a library lemma stated over the family's configuration at `p` meets the region's own configuration only when
-- unification may unfold plain definitions in a metavariable's type
set_option backward.isDefEq.respectTransparency.types false in
/-- REGION 1 as a segment: entered from every unscoped buffer at the valuation before it beside `R`, left at the
    valuation after it beside `R`. At entry its three arrays are split out of the unscoped buffers, the generator
    register goes into the pipeline's invariant; at exit the arrays, at what the pipeline leaves, are put back beside
    the untouched rest, and the register comes back. Nothing is owed at any point; the kernel has no semaphore of its own. -/
def reg1 : RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (fun c b => V11 m (outs m) c b) c).loose
  hwaits := Pipeline.hwaits_of_owed_zero _ _ _ _ L lv 1 fun _ _ => rfl
  pre c := iprop(StableHlo.held (c : Thread nD τ) (Pipeline.ucRefs τ sig) (V11 m (outs m) c) ∗ R c)
  post c := iprop(StableHlo.held (c : Thread nD τ) (Pipeline.ucRefs τ sig) (V12 m (outs m) c) ∗ R c)
  X c := iprop(∃ r, prngReg c r)
  Y c := iprop(∃ r, prngReg c r)
  Z c := Pipeline.unscopedRest (Ix := Unit) (Name := ℕ) (U := UR sig nD τ) (Lvl := ℕ) spec1 c (fun b => V11 m (outs m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V11 m (outs m) c b) fun _ => rfl
    rw [Pipeline.unscopedBufs_held] at hsplit
    iintro ⟨⟨Hbufs, Hprng, Howes⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hprng]; · iexact Hprng
    iexact Hrest
  hin c := by
    rw [show (pdats m 1 c).Φ 0 = Pipeline.ΦA spec1 c from rfl]; unfold Pipeline.ΦA
    iintro ⟨Hprng, -, Hsc⟩
    isplitl [Hsc]; · iexact Hsc
    iexact Hprng
  hout c := by
    rw [Pipeline.ownSems0_none, show (pdats m 1 c).Φ (Fin.last _) = Pipeline.ΦA spec1 c from rfl]; unfold Pipeline.ΦA
    iintro ⟨Hsc, Hprng⟩
    isplitl [Hprng]; · iexact Hprng
    isplitr; · iempintro
    iexact Hsc
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => V11 m (outs m) c b) (fun b => V12 m (outs m) c b) ((pdats m 1 c).arrAt · cfg1.N) (hF1 m c) (hrest1 m c)
    rw [Pipeline.unscopedBufs_held] at hjoin
    iintro ⟨Harr, Howes, Hprng, Hrest⟩
    imodintro
    isplitl [Harr Hrest]
    · iapply hjoin; isplitl [Harr] <;> iassumption
    isplitl [Hprng]; · iexact Hprng
    unfold Pipeline.Dat.owesAt Pipeline.owesWithin
    icases Howes with ⟨%W, -, Howes⟩; iexists W; iexact Howes

/-! ### Region 2 -/

/-- When region 2 is left each of its arrays holds what the pipeline leaves: the output window's `main_v199` is where
    the exit valuation is updated, at that very value; an input window's array is not `main_v199`, so the exit valuation
    has it as the entry one does, which is what the proof data start from and what an input keeps. -/
theorem hF2 (c : Dev nD) : ∀ w : Fin cfg2.W,
    (dat2 (fun c b => V21 m (outs m) c b) c).arrAt w cfg2.N = V22 m (outs m) c (Pipeline.arrRef spec2 w)
  | ⟨0, _⟩ => ((dat2 (fun c b => V21 m (outs m) c b) c).arrAt_in 0 rfl _).trans ((A_eq2 (fun c b => V21 m (outs m) c b) c 0).trans (V22_of m (outs m) c _ (by decide)).symm)
  | ⟨1, _⟩ => ((dat2 (fun c b => V21 m (outs m) c b) c).arrAt_in 1 rfl _).trans ((A_eq2 (fun c b => V21 m (outs m) c b) c 1).trans (V22_of m (outs m) c _ (by decide)).symm)
  | ⟨2, _⟩ => ((outs_22 m c).symm.trans (Function.update_self (β := fun b : DevRef τ sig => b.ty.Contents (Elt F)) (Proc.devRef .tc main_v199) (outs m 22 main_v199 c) (V21 m (outs m) c)).symm)

/-- Off region 2's arrays the exit valuation is the entry one: it differs from it at `main_v199` only. -/
theorem hrest2 (c : Dev nD) : ∀ b : Ref sig .tc, b ∉ Finset.univ.image (Pipeline.arrRef spec2) → V22 m (outs m) c b = V21 m (outs m) c b :=
  fun b hb => V22_of m (outs m) c b fun h => hb (Finset.mem_image.mpr ⟨2, Finset.mem_univ _, (List.mem_singleton.mp h).symm⟩)

-- a library lemma stated over the family's configuration at `p` meets the region's own configuration only when
-- unification may unfold plain definitions in a metavariable's type
set_option backward.isDefEq.respectTransparency.types false in
/-- REGION 2 as a segment: entered from every unscoped buffer at the valuation before it beside `R`, left at the
    valuation after it beside `R`. At entry its three arrays are split out of the unscoped buffers, the generator
    register goes into the pipeline's invariant; at exit the arrays, at what the pipeline leaves, are put back beside
    the untouched rest, and the register comes back. Nothing is owed at any point; the kernel has no semaphore of its own. -/
def reg2 : RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (body_obligation2 (fun c b => V21 m (outs m) c b) c).loose
  hwaits := Pipeline.hwaits_of_owed_zero _ _ _ _ L lv 2 fun _ _ => rfl
  pre c := iprop(StableHlo.held (c : Thread nD τ) (Pipeline.ucRefs τ sig) (V21 m (outs m) c) ∗ R c)
  post c := iprop(StableHlo.held (c : Thread nD τ) (Pipeline.ucRefs τ sig) (V22 m (outs m) c) ∗ R c)
  X c := iprop(∃ r, prngReg c r)
  Y c := iprop(∃ r, prngReg c r)
  Z c := Pipeline.unscopedRest (Ix := Unit) (Name := ℕ) (U := UR sig nD τ) (Lvl := ℕ) spec2 c (fun b => V21 m (outs m) c b)
  hentry c := by
    rw [Pipeline.ownSems0_none]
    have hsplit := Pipeline.arrays_of_unscopedBufs (p := 2) (pcfgs (F := F)) adm (pdats m) launch2.win launch2.arr_whole c
      ((pdats m 2 c).share_full fun _ => rfl) (fun b => V21 m (outs m) c b) fun _ => rfl
    rw [Pipeline.unscopedBufs_held] at hsplit
    iintro ⟨⟨Hbufs, Hprng, Howes⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hprng]; · iexact Hprng
    iexact Hrest
  hin c := by
    rw [show (pdats m 2 c).Φ 0 = Pipeline.ΦA spec2 c from rfl]; unfold Pipeline.ΦA
    iintro ⟨Hprng, -, Hsc⟩
    isplitl [Hsc]; · iexact Hsc
    iexact Hprng
  hout c := by
    rw [Pipeline.ownSems0_none, show (pdats m 2 c).Φ (Fin.last _) = Pipeline.ΦA spec2 c from rfl]; unfold Pipeline.ΦA
    iintro ⟨Hsc, Hprng⟩
    isplitl [Hprng]; · iexact Hprng
    isplitr; · iempintro
    iexact Hsc
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b => V21 m (outs m) c b) (fun b => V22 m (outs m) c b) ((pdats m 2 c).arrAt · cfg2.N) (hF2 m c) (hrest2 m c)
    rw [Pipeline.unscopedBufs_held] at hjoin
    iintro ⟨Harr, Howes, Hprng, Hrest⟩
    imodintro
    isplitl [Harr Hrest]
    · iapply hjoin; isplitl [Harr] <;> iassumption
    isplitl [Hprng]; · iexact Hprng
    unfold Pipeline.Dat.owesAt Pipeline.owesWithin
    icases Howes with ⟨%W, -, Howes⟩; iexists W; iexact Howes

/-! ### Region 3 -/

/-- When region 3 is left each of its arrays holds what the pipeline leaves: the output window's `main_v289` is where
    the exit valuation is updated, at that very value; an input window's array is not `main_v289`, so the exit valuation
    has it as the entry one does, which is what the proof data start from and what an input keeps. -/
theorem hF3 (c : Dev nD) : ∀ w : Fin cfg3.W,
    (dat3 (fun c b => V31 m (outs m) c b) c).arrAt w cfg3.N = V32 m (outs m) c (Pipeline.arrRef spec3 w)
  | ⟨0, _⟩ => ((dat3 (fun c b => V31 m (outs m) c b) c).arrAt_in 0 rfl _).trans ((A_eq3 (fun c b => V31 m (outs m) c b) c 0).trans (V32_of m (outs m) c _ (by decide)).symm)
  | ⟨1, _⟩ => ((dat3 (fun c b => V31 m (outs m) c b) c).arrAt_in 1 rfl _).trans ((A_eq3 (fun c b => V31 m (outs m) c b) c 1).trans (V32_of m (outs m) c _ (by decide)).symm)
  | ⟨2, _⟩ => ((outs_32 m c).symm.trans (Function.update_self (β := fun b : DevRef τ sig => b.ty.Contents (Elt F)) (Proc.devRef .tc main_v289) (outs m 32 main_v289 c) (V31 m (outs m) c)).symm)

/-- Off region 3's arrays the exit valuation is the entry one: it differs from it at `main_v289` only. -/
theorem hrest3 (c : Dev nD) : ∀ b : Ref sig .tc, b ∉ Finset.univ.image (Pipeline.arrRef spec3) → V32 m (outs m) c b = V31 m (outs m) c b :=
  fun b hb => V32_of m (outs m) c b fun h => hb (Finset.mem_image.mpr ⟨2, Finset.mem_univ _, (List.mem_singleton.mp h).symm⟩)

-- a library lemma stated over the family's configuration at `p` meets the region's own configuration only when
-- unification may unfold plain definitions in a metavariable's type
set_option backward.isDefEq.respectTransparency.types false in
/-- REGION 3 as a segment: entered from every unscoped buffer at the valuation before it beside `R`, left at the
    valuation after it beside `R`. At entry its three arrays are split out of the unscoped buffers, the generator
    register goes into the pipeline's invariant; at exit the arrays, at what the pipeline leaves, are put back beside
    the untouched rest, and the register comes back. Nothing is owed at any point; the kernel has no semaphore of its own. -/
def reg3 : RegionSeg (pcfgs (F := F)) adm (pdats m) () defs₀ Variants.none L lv 3 where
  win := launch3.win.to₀
  block_pos := launch3.block_pos
  stage_whole := launch3.stage_whole
  K := PEmpty
  osem k := k.elim
  ho := Pipeline.OwnSemFacts.none _
  hbody c := (body_obligation3 (fun c b => V31 m (outs m) c b) c).loose
  hwaits := Pipeline.hwaits_of_owed_zero _ _ _ _ L lv 3 fun _ _ => rfl
  pre c := iprop(StableHlo.held (c : Thread nD τ) (Pipeline.ucRefs τ sig) (V31 m (outs m) c) ∗ R c)
  post c := iprop(StableHlo.held (c : Thread nD τ) (Pipeline.ucRefs τ sig) (V32 m (outs m) c) ∗ R c)
  X c := iprop(∃ r, prngReg c r)
  Y c := iprop(∃ r, prngReg c r)
  Z c := Pipeline.unscopedRest (Ix := Unit) (Name := ℕ) (U := UR sig nD τ) (Lvl := ℕ) spec3 c (fun b => V31 m (outs m) c b)
  hentry c := by
    rw [Pipeline.ownSems0_none]
    have hsplit := Pipeline.arrays_of_unscopedBufs (p := 3) (pcfgs (F := F)) adm (pdats m) launch3.win launch3.arr_whole c
      ((pdats m 3 c).share_full fun _ => rfl) (fun b => V31 m (outs m) c b) fun _ => rfl
    rw [Pipeline.unscopedBufs_held] at hsplit
    iintro ⟨⟨Hbufs, Hprng, Howes⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hprng]; · iexact Hprng
    iexact Hrest
  hin c := by
    rw [show (pdats m 3 c).Φ 0 = Pipeline.ΦA spec3 c from rfl]; unfold Pipeline.ΦA
    iintro ⟨Hprng, -, Hsc⟩
    isplitl [Hsc]; · iexact Hsc
    iexact Hprng
  hout c := by
    rw [Pipeline.ownSems0_none, show (pdats m 3 c).Φ (Fin.last _) = Pipeline.ΦA spec3 c from rfl]; unfold Pipeline.ΦA
    iintro ⟨Hsc, Hprng⟩
    isplitl [Hprng]; · iexact Hprng
    isplitr; · iempintro
    iexact Hsc
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (fun b => V31 m (outs m) c b) (fun b => V32 m (outs m) c b) ((pdats m 3 c).arrAt · cfg3.N) (hF3 m c) (hrest3 m c)
    rw [Pipeline.unscopedBufs_held] at hjoin
    iintro ⟨Harr, Howes, Hprng, Hrest⟩
    imodintro
    isplitl [Harr Hrest]
    · iapply hjoin; isplitl [Harr] <;> iassumption
    isplitl [Hprng]; · iexact Hprng
    unfold Pipeline.Dat.owesAt Pipeline.owesWithin
    icases Howes with ⟨%W, -, Howes⟩; iexists W; iexact Howes

/-! ## The run and the frame -/

-- the conditional run's implicit arguments are found through plain definitions in a metavariable's type
set_option backward.isDefEq.respectTransparency.types false in
/-- THE RUN. From any memory `m` with zero counters and any generator registers, every weakly fair execution of @main
    on the TensorCores terminates, and in every final memory, on every core, the two results `main_v191` and
    `main_v383` hold the last valuation's contents (over the contents `outs m` the regions leave) and every argument
    holds its launch contents: the conditional run at the four regions' records. The launch element is the pipeline
    library's own, no ghost resource rides along, and what each core keeps beside its buffers from the launch on is
    its generator register and its tallies, owing nothing. -/
theorem run (ρ : Dev nD → PrngReg) : θ_run defs (onTc (τ := τ) (main (F := F))) ⟨m, fun _ => 0, ρ⟩ (fun r => ∀ c : Dev nD,
      (r.2.mem ((c.tc : Thread nD τ).loc main_v191) = V41 m (outs m) c (Proc.devRef .tc main_v191) ∧ r.2.mem ((c.tc : Thread nD τ).loc main_v383) = V41 m (outs m) c (Proc.devRef .tc main_v383))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  run_cond m (Ix := Unit) (U := UR sig nD τ) (Lvl := ℕ) (EP := emb₁) (ι := ()) (𝒱₀ := Variants.none) (L := L) (lv := lv)
    (hL := fun _ _ => rfl) (ρ := ρ) (outs := outs m) (pdats := pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ => R)
    (hE0 := by
      refine Pipeline.initEach L lv fun c => ?_
      iintro ⟨⟨-, Howes, -, Hprng, -⟩, -⟩
      imodintro
      isplitl [Hprng]; · iexists _; iexact Hprng
      iexists ∅; iexact Howes)
    (hE4 := fun c => (show (R c : sProp 𝕄) ⊢ _ from by iintro ⟨-, Howes⟩; iexact Howes))
    (R0 := reg0 m) (hpre0 := fun _ => .rfl) (hpost0 := fun _ => .rfl)
    (R1 := reg1 m) (hpre1 := fun _ => .rfl) (hpost1 := fun _ => .rfl)
    (R2 := reg2 m) (hpre2 := fun _ => .rfl) (hpost2 := fun _ => .rfl)
    (R3 := reg3 m) (hpre3 := fun _ => .rfl) (hpost3 := fun _ => .rfl)

/-- THE FRAME: from any memory with zero counters every weakly fair execution of @main terminates and every final
    memory holds each argument as launched — the run, its two results forgotten. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  (θ_run defs (onTc (τ := τ) (main (F := F))) ⟨m, fun _ => 0, ρ⟩).mono (fun _ h c => (h c).2) (run m ρ)

end Cert.Kernel.Hand

end
-- ==== Proof.RunCondKernelIdeal.lean ====
/- The run of @main through its 41 items, given the four regions' segment records: the conditional frame's
   argument (the items as segments, the host stretches chained through the valuations `V0 … V41`), with a
   stronger conclusion. Since at the end every unscoped buffer is owned whole at the last valuation `V41`, the final
   memory agrees with `V41` not only at the 28 arguments (where `V41` is the launch memory) but at every unscoped
   reference; here it is read also at the two results `main_v191` and `main_v383`. -/
import proofs.«177757_j84482006712681_1_alg».proof.Proof.RegionsKernelIdeal

-- memberships among the 628 references are decided by enumeration, which recurses past the default depth
set_option maxRecDepth 3024

noncomputable section

namespace Cert.KernelIdeal.Hand
open Cert.KernelIdeal Cert.KernelIdeal.Gen Cert.KernelIdeal.GenP

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

-- the launch theorem's implicit arguments are found by unifying its conclusion with the statement's, which takes
-- unfolding plain definitions in a metavariable's type
set_option backward.isDefEq.respectTransparency.types false in
/-- The conditional run. Under the conditional frame's hypotheses (a segment record per region, entered from the
    thread state before it and left at the one after it), every weakly fair execution of @main from memory `m` with
    zero counters terminates, and in every final memory, on every core, the two results hold the last valuation's
    contents and each argument holds its launch contents. -/
theorem run_cond (m : (ℓ : Loc nD τ sig) → Buf (Elt F) ℓ) {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 4) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 5 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE4 : ∀ c : Dev nD, E 4 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V11 m outs c) ∗ E 1 c) ⊢ R1.pre c)
    (hpost1 : ∀ c : Dev nD, R1.post c ⊢ iprop(StableHlo.held (c : Thread nD τ) (Pipeline.ucRefs τ sig) (V12 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V21 m outs c) ∗ E 2 c) ⊢ R2.pre c)
    (hpost2 : ∀ c : Dev nD, R2.post c ⊢ iprop(StableHlo.held (c : Thread nD τ) (Pipeline.ucRefs τ sig) (V22 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V31 m outs c) ∗ E 3 c) ⊢ R3.pre c)
    (hpost3 : ∀ c : Dev nD, R3.post c ⊢ iprop(StableHlo.held (c : Thread nD τ) (Pipeline.ucRefs τ sig) (V32 m outs c) ∗ E 4 c)) :
    θ_run defs (onTc (τ := τ) (main (F := F))) ⟨m, fun _ => 0, ρ⟩ (fun r => ∀ c : Dev nD,
      (r.2.mem ((c.tc : Thread nD τ).loc main_v191) = V41 m outs c (Proc.devRef .tc main_v191) ∧ r.2.mem ((c.tc : Thread nD τ).loc main_v383) = V41 m outs c (Proc.devRef .tc main_v383))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) := by
  refine Pipeline.θ_run_regions_kit_dev (pcfgs (F := F)) adm pdats ι cellOf_inj EP defs₀ 𝒱₀ L lv m ρ main
    (segs m outs 𝒱₀ L lv E ι pdats R0 R1 R2 R3)
    (fun c Q => by
      rewrite [show main (F := F) c = Seg.run (segs m outs 𝒱₀ L lv E ι pdats R0 R1 R2 R3 c) from (main_chain c).trans (by chain_rfl)]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V41 m outs c))
    (hch := fun c => ⟨.rfl, hpre0 c, hpost0 c, .rfl, .rfl, .rfl, .rfl, .rfl, .rfl, .rfl, .rfl, hpre1 c, hpost1 c, .rfl, .rfl, .rfl, .rfl, .rfl, .rfl, .rfl, .rfl, hpre2 c, hpost2 c, .rfl, .rfl, .rfl, .rfl, .rfl, .rfl, .rfl, .rfl, hpre3 c, hpost3 c, .rfl, .rfl, .rfl, .rfl, .rfl, .rfl, .rfl, .rfl, sep_mono .rfl (hE4 c)⟩)
    (hinit := ?_) (QY := fun c s => (s.mem ((c.tc : Thread nD τ).loc main_v191) = V41 m outs c (Proc.devRef .tc main_v191) ∧ s.mem ((c.tc : Thread nD τ).loc main_v383) = V41 m outs c (Proc.devRef .tc main_v383)) ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15) ∧ s.mem ((c.tc : Thread nD τ).loc main_arg16) = m ((c.tc : Thread nD τ).loc main_arg16) ∧ s.mem ((c.tc : Thread nD τ).loc main_arg17) = m ((c.tc : Thread nD τ).loc main_arg17) ∧ s.mem ((c.tc : Thread nD τ).loc main_arg18) = m ((c.tc : Thread nD τ).loc main_arg18) ∧ s.mem ((c.tc : Thread nD τ).loc main_arg19) = m ((c.tc : Thread nD τ).loc main_arg19) ∧ s.mem ((c.tc : Thread nD τ).loc main_arg20) = m ((c.tc : Thread nD τ).loc main_arg20) ∧ s.mem ((c.tc : Thread nD τ).loc main_arg21) = m ((c.tc : Thread nD τ).loc main_arg21) ∧ s.mem ((c.tc : Thread nD τ).loc main_arg22) = m ((c.tc : Thread nD τ).loc main_arg22) ∧ s.mem ((c.tc : Thread nD τ).loc main_arg23) = m ((c.tc : Thread nD τ).loc main_arg23) ∧ s.mem ((c.tc : Thread nD τ).loc main_arg24) = m ((c.tc : Thread nD τ).loc main_arg24) ∧ s.mem ((c.tc : Thread nD τ).loc main_arg25) = m ((c.tc : Thread nD τ).loc main_arg25) ∧ s.mem ((c.tc : Thread nD τ).loc main_arg26) = m ((c.tc : Thread nD τ).loc main_arg26) ∧ s.mem ((c.tc : Thread nD τ).loc main_arg27) = m ((c.tc : Thread nD τ).loc main_arg27))
    (hfin := fun c s' => ?_) (hQ := fun _ h => h)
  · -- at launch the memory's unscoped buffers are exactly the points-to facts at `V0`; what remains gives `E 0` on all cores together
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- at the end every unscoped buffer is owned whole at `V41`, so the final memory agrees with `V41` at each reference read
    unfold StableHlo.held
    iintro ⟨Hh, HSI⟩
    ihave Hr := (pointsTo_read_all (Pipeline.ucRefs τ sig) (fun b => ((c : Thread nD τ).1, b)) (V41 m outs c) s') $$ [Hh HSI]
    · isplitl [Hh] <;> iassumption
    icases Hr with ⟨%h, HSI⟩
    imodintro
    isplitr
    · ipureintro
      exact ⟨⟨h (Proc.devRef .tc main_v191) (Finset.mem_filter.mpr ⟨StableHlo.devRef_mem_tcRefs main_v191, by decide⟩), h (Proc.devRef .tc main_v383) (Finset.mem_filter.mpr ⟨StableHlo.devRef_mem_tcRefs main_v383, by decide⟩)⟩,
        (h (Proc.devRef .tc main_arg0) (Finset.mem_filter.mpr ⟨StableHlo.devRef_mem_tcRefs main_arg0, by decide⟩)).trans (V41_main_arg0 m outs c),
        (h (Proc.devRef .tc main_arg1) (Finset.mem_filter.mpr ⟨StableHlo.devRef_mem_tcRefs main_arg1, by decide⟩)).trans (V41_main_arg1 m outs c),
        (h (Proc.devRef .tc main_arg2) (Finset.mem_filter.mpr ⟨StableHlo.devRef_mem_tcRefs main_arg2, by decide⟩)).trans (V41_main_arg2 m outs c),
        (h (Proc.devRef .tc main_arg3) (Finset.mem_filter.mpr ⟨StableHlo.devRef_mem_tcRefs main_arg3, by decide⟩)).trans (V41_main_arg3 m outs c),
        (h (Proc.devRef .tc main_arg4) (Finset.mem_filter.mpr ⟨StableHlo.devRef_mem_tcRefs main_arg4, by decide⟩)).trans (V41_main_arg4 m outs c),
        (h (Proc.devRef .tc main_arg5) (Finset.mem_filter.mpr ⟨StableHlo.devRef_mem_tcRefs main_arg5, by decide⟩)).trans (V41_main_arg5 m outs c),
        (h (Proc.devRef .tc main_arg6) (Finset.mem_filter.mpr ⟨StableHlo.devRef_mem_tcRefs main_arg6, by decide⟩)).trans (V41_main_arg6 m outs c),
        (h (Proc.devRef .tc main_arg7) (Finset.mem_filter.mpr ⟨StableHlo.devRef_mem_tcRefs main_arg7, by decide⟩)).trans (V41_main_arg7 m outs c),
        (h (Proc.devRef .tc main_arg8) (Finset.mem_filter.mpr ⟨StableHlo.devRef_mem_tcRefs main_arg8, by decide⟩)).trans (V41_main_arg8 m outs c),
        (h (Proc.devRef .tc main_arg9) (Finset.mem_filter.mpr ⟨StableHlo.devRef_mem_tcRefs main_arg9, by decide⟩)).trans (V41_main_arg9 m outs c),
        (h (Proc.devRef .tc main_arg10) (Finset.mem_filter.mpr ⟨StableHlo.devRef_mem_tcRefs main_arg10, by decide⟩)).trans (V41_main_arg10 m outs c),
        (h (Proc.devRef .tc main_arg11) (Finset.mem_filter.mpr ⟨StableHlo.devRef_mem_tcRefs main_arg11, by decide⟩)).trans (V41_main_arg11 m outs c),
        (h (Proc.devRef .tc main_arg12) (Finset.mem_filter.mpr ⟨StableHlo.devRef_mem_tcRefs main_arg12, by decide⟩)).trans (V41_main_arg12 m outs c),
        (h (Proc.devRef .tc main_arg13) (Finset.mem_filter.mpr ⟨StableHlo.devRef_mem_tcRefs main_arg13, by decide⟩)).trans (V41_main_arg13 m outs c),
        (h (Proc.devRef .tc main_arg14) (Finset.mem_filter.mpr ⟨StableHlo.devRef_mem_tcRefs main_arg14, by decide⟩)).trans (V41_main_arg14 m outs c),
        (h (Proc.devRef .tc main_arg15) (Finset.mem_filter.mpr ⟨StableHlo.devRef_mem_tcRefs main_arg15, by decide⟩)).trans (V41_main_arg15 m outs c),
        (h (Proc.devRef .tc main_arg16) (Finset.mem_filter.mpr ⟨StableHlo.devRef_mem_tcRefs main_arg16, by decide⟩)).trans (V41_main_arg16 m outs c),
        (h (Proc.devRef .tc main_arg17) (Finset.mem_filter.mpr ⟨StableHlo.devRef_mem_tcRefs main_arg17, by decide⟩)).trans (V41_main_arg17 m outs c),
        (h (Proc.devRef .tc main_arg18) (Finset.mem_filter.mpr ⟨StableHlo.devRef_mem_tcRefs main_arg18, by decide⟩)).trans (V41_main_arg18 m outs c),
        (h (Proc.devRef .tc main_arg19) (Finset.mem_filter.mpr ⟨StableHlo.devRef_mem_tcRefs main_arg19, by decide⟩)).trans (V41_main_arg19 m outs c),
        (h (Proc.devRef .tc main_arg20) (Finset.mem_filter.mpr ⟨StableHlo.devRef_mem_tcRefs main_arg20, by decide⟩)).trans (V41_main_arg20 m outs c),
        (h (Proc.devRef .tc main_arg21) (Finset.mem_filter.mpr ⟨StableHlo.devRef_mem_tcRefs main_arg21, by decide⟩)).trans (V41_main_arg21 m outs c),
        (h (Proc.devRef .tc main_arg22) (Finset.mem_filter.mpr ⟨StableHlo.devRef_mem_tcRefs main_arg22, by decide⟩)).trans (V41_main_arg22 m outs c),
        (h (Proc.devRef .tc main_arg23) (Finset.mem_filter.mpr ⟨StableHlo.devRef_mem_tcRefs main_arg23, by decide⟩)).trans (V41_main_arg23 m outs c),
        (h (Proc.devRef .tc main_arg24) (Finset.mem_filter.mpr ⟨StableHlo.devRef_mem_tcRefs main_arg24, by decide⟩)).trans (V41_main_arg24 m outs c),
        (h (Proc.devRef .tc main_arg25) (Finset.mem_filter.mpr ⟨StableHlo.devRef_mem_tcRefs main_arg25, by decide⟩)).trans (V41_main_arg25 m outs c),
        (h (Proc.devRef .tc main_arg26) (Finset.mem_filter.mpr ⟨StableHlo.devRef_mem_tcRefs main_arg26, by decide⟩)).trans (V41_main_arg26 m outs c),
        (h (Proc.devRef .tc main_arg27) (Finset.mem_filter.mpr ⟨StableHlo.devRef_mem_tcRefs main_arg27, by decide⟩)).trans (V41_main_arg27 m outs c)⟩
    · iexact HSI

end Cert.KernelIdeal.Hand

end
-- ==== Proof.DatKernelIdeal.lean ====
/- The proof data of the kernel program's four TensorCore regions, each a grid of ten points running one
   matmul body: per region, at a parameter `V` (the TensorCore's buffer contents when the region is entered),
   every window's block at a point, the three whole-block rectangles the body loads and stores through, the
   contents the body leaves in the output window's buffer as a function of the two input blocks, and the
   pipeline's proof data. Definitions and their projections only; the body's triple and the body obligation are
   stated over these in the neighbouring module. -/
import proofs.«177757_j84482006712681_1_alg».proof.Proof.Gen.KernelIdeal.Launch
import proofs.«177757_j84482006712681_1_alg».proof.Proof.Gen.KernelIdeal.Skeleton
import proofs.«177757_j84482006712681_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000 rows: the structural check recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered: every region's definitions are stated at it
variable (V : (c : Dev nD) → (b : Ref sig .tc) → Buf (Elt F) ((c : Thread nD τ).loc b))

/-! # Region 0: a [2000,k] by [k,n] product per grid point (S2000x768 times S768x768 into S2000x768) -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole block of window 0 (the left factor), of window 1 (the right factor) and of window 2 (the product):
    the rectangles of the body's two live loads and of its one store. -/
abbrev r0_0 : Rect S2000x768 := Rect.unit (s := S2000x768) ![0, 0] S2000x768.size inb_S2000x768_S2000x768_0_0
abbrev r0_1 : Rect S768x768 := Rect.unit (s := S768x768) ![0, 0] S768x768.size inb_S768x768_S768x768_0_0
abbrev r0_2 : Rect S2000x768 := Rect.unit (s := S2000x768) ![0, 0] S2000x768.size inb_S2000x768_S2000x768_0_0

/-- Window 2's staging buffer after the body, from the two input blocks: one store over the whole block, of the
    product of the blocks accumulated into zero (the payload `k0_pay1`). What the buffer held before is overwritten
    everywhere, so it does not appear. -/
def out0_2 (x0 : Vec F S2000x768 .bf16) (x1 : Vec F S768x768 .bf16) : Vec F S2000x768 .f32 :=
  View.canon [⟨r0_2, k0_pay1 (View.ld x0 r0_0) (View.ld x1 r0_1)⟩]

/-- The one store tiles the block (a single tile of the block's own size, checked by evaluation), so it covers it. -/
theorem cover0_2 (p0 : Vec F S2000x768 .f32) (y : S2000x768.Idx) :
    ∃ pc ∈ ([⟨r0_2, p0⟩] : List (View.Piece (Elt F) S2000x768 .f32)), y ∈ pc.1.set :=
  View.cover_of_tiled [⟨r0_2, p0⟩] S2000x768.size (by rfl) y

/-- The proof data of pipeline 0 on core `c`: the arrays as the region finds them (`V`); after the body at point
    `t` each input's buffer still at its block and the output's at `out0_2` of the two input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the definition's `match` reduced at each literal window). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! # Region 1: a [2000,k] by [k,n] product per grid point (S2000x256 times S256x384 into S2000x384) -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole block of window 0 (the left factor), of window 1 (the right factor) and of window 2 (the product):
    the rectangles of the body's two live loads and of its one store. -/
abbrev r1_0 : Rect S2000x256 := Rect.unit (s := S2000x256) ![0, 0] S2000x256.size inb_S2000x256_S2000x256_0_0
abbrev r1_1 : Rect S256x384 := Rect.unit (s := S256x384) ![0, 0] S256x384.size inb_S256x384_S256x384_0_0
abbrev r1_2 : Rect S2000x384 := Rect.unit (s := S2000x384) ![0, 0] S2000x384.size inb_S2000x384_S2000x384_0_0

/-- Window 2's staging buffer after the body, from the two input blocks: one store over the whole block, of the
    product of the blocks accumulated into zero (the payload `k1_pay1`). What the buffer held before is overwritten
    everywhere, so it does not appear. -/
def out1_2 (x0 : Vec F S2000x256 .bf16) (x1 : Vec F S256x384 .bf16) : Vec F S2000x384 .f32 :=
  View.canon [⟨r1_2, k1_pay1 (View.ld x0 r1_0) (View.ld x1 r1_1)⟩]

/-- The one store tiles the block (a single tile of the block's own size, checked by evaluation), so it covers it. -/
theorem cover1_2 (p0 : Vec F S2000x384 .f32) (y : S2000x384.Idx) :
    ∃ pc ∈ ([⟨r1_2, p0⟩] : List (View.Piece (Elt F) S2000x384 .f32)), y ∈ pc.1.set :=
  View.cover_of_tiled [⟨r1_2, p0⟩] S2000x384.size (by rfl) y

/-- The proof data of pipeline 1 on core `c`: the arrays as the region finds them (`V`); after the body at point
    `t` each input's buffer still at its block and the output's at `out1_2` of the two input blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the definition's `match` reduced at each literal window). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-! # Region 2: a [2000,k] by [k,n] product per grid point (S2000x128 times S128x768 into S2000x768) -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole block of window 0 (the left factor), of window 1 (the right factor) and of window 2 (the product):
    the rectangles of the body's two live loads and of its one store. -/
abbrev r2_0 : Rect S2000x128 := Rect.unit (s := S2000x128) ![0, 0] S2000x128.size inb_S2000x128_S2000x128_0_0
abbrev r2_1 : Rect S128x768 := Rect.unit (s := S128x768) ![0, 0] S128x768.size inb_S128x768_S128x768_0_0
abbrev r2_2 : Rect S2000x768 := Rect.unit (s := S2000x768) ![0, 0] S2000x768.size inb_S2000x768_S2000x768_0_0

/-- Window 2's staging buffer after the body, from the two input blocks: one store over the whole block, of the
    product of the blocks accumulated into zero (the payload `k2_pay1`). What the buffer held before is overwritten
    everywhere, so it does not appear. -/
def out2_2 (x0 : Vec F S2000x128 .bf16) (x1 : Vec F S128x768 .bf16) : Vec F S2000x768 .f32 :=
  View.canon [⟨r2_2, k2_pay1 (View.ld x0 r2_0) (View.ld x1 r2_1)⟩]

/-- The one store tiles the block (a single tile of the block's own size, checked by evaluation), so it covers it. -/
theorem cover2_2 (p0 : Vec F S2000x768 .f32) (y : S2000x768.Idx) :
    ∃ pc ∈ ([⟨r2_2, p0⟩] : List (View.Piece (Elt F) S2000x768 .f32)), y ∈ pc.1.set :=
  View.cover_of_tiled [⟨r2_2, p0⟩] S2000x768.size (by rfl) y

/-- The proof data of pipeline 2 on core `c`: the arrays as the region finds them (`V`); after the body at point
    `t` each input's buffer still at its block and the output's at `out2_2` of the two input blocks; the invariant
    the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window (the definition's `match` reduced at each literal window). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-! # Region 3: a [2000,k] by [k,n] product per grid point (S2000x256 times S256x384 into S2000x384) -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The whole block of window 0 (the left factor), of window 1 (the right factor) and of window 2 (the product):
    the rectangles of the body's two live loads and of its one store. -/
abbrev r3_0 : Rect S2000x256 := Rect.unit (s := S2000x256) ![0, 0] S2000x256.size inb_S2000x256_S2000x256_0_0
abbrev r3_1 : Rect S256x384 := Rect.unit (s := S256x384) ![0, 0] S256x384.size inb_S256x384_S256x384_0_0
abbrev r3_2 : Rect S2000x384 := Rect.unit (s := S2000x384) ![0, 0] S2000x384.size inb_S2000x384_S2000x384_0_0

/-- Window 2's staging buffer after the body, from the two input blocks: one store over the whole block, of the
    product of the blocks accumulated into zero (the payload `k3_pay1`). What the buffer held before is overwritten
    everywhere, so it does not appear. -/
def out3_2 (x0 : Vec F S2000x256 .bf16) (x1 : Vec F S256x384 .bf16) : Vec F S2000x384 .f32 :=
  View.canon [⟨r3_2, k3_pay1 (View.ld x0 r3_0) (View.ld x1 r3_1)⟩]

/-- The one store tiles the block (a single tile of the block's own size, checked by evaluation), so it covers it. -/
theorem cover3_2 (p0 : Vec F S2000x384 .f32) (y : S2000x384.Idx) :
    ∃ pc ∈ ([⟨r3_2, p0⟩] : List (View.Piece (Elt F) S2000x384 .f32)), y ∈ pc.1.set :=
  View.cover_of_tiled [⟨r3_2, p0⟩] S2000x384.size (by rfl) y

/-- The proof data of pipeline 3 on core `c`: the arrays as the region finds them (`V`); after the body at point
    `t` each input's buffer still at its block and the output's at `out3_2` of the two input blocks; the invariant
    the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The proof data's arrays are the region-entry contents (the definition projected). -/
theorem A_eq3 (c : Dev nD) (w : Fin cfg3.W) : (dat3 V c).A w = V c (Pipeline.arrRef spec3 w) := by
  dsimp only [dat3]

/-- What the body leaves, window by window (the definition's `match` reduced at each literal window). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

end Cert.KernelIdeal.Hand

end
-- ==== Proof.BodyKernelIdeal.lean ====
/- The body halves of the kernel program's four TensorCore regions, over the proof data of the neighbouring
   module: per region the body's triple (two whole-block loads, a dead load of the output buffer, one whole-block
   store of the product), each input found at its block at every point whether it was fetched there or not, and
   the body obligation at a generic point. -/
import proofs.«177757_j84482006712681_1_alg».proof.Proof.DatKernelIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0 -/

set_option maxHeartbeats 1000000 in
/-- The body on whole staging memrefs, the two inputs' at read contents `x0`, `x1` and the output's at anything,
    runs to the continuation holding the inputs' as they were and the output's at `out0_2 x0 x1`: the value the
    body loads from the output buffer is used by nothing, and its one store covers the block, so what the buffer
    held does not survive. -/
theorem sound_kernel0 (c : Dev nD) (E : Set ℕ) (i : grid0.Coords)
    (arg1 : Memref sig .tc .vmem S2000x768 .bf16) (harg1 : arg1.IsWhole)
    (arg2 : Memref sig .tc .vmem S768x768 .bf16) (harg2 : arg2.IsWhole)
    (arg3 : Memref sig .tc .vmem S2000x768 .f32) (harg3 : arg3.IsWhole)
    (x0 : Vec F S2000x768 .bf16) (x1 : Vec F S768x768 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- Input window 0's current staging buffer holds its block at every point: the window is uncut and never idle and
    the body leaves its buffer as found, so a point that does not fetch it finds the previous point's block, whose
    index is this point's (`Dat.before_in_eq_fetched`). -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- Input window 1 likewise: it is fetched at the first point only, its block index constant over the grid, and
    every later point finds that one block still in place. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the two inputs' memrefs hold their blocks (`before0_0`, `before0_1`), the output's
    holds something, so `sound_kernel0` applies; the invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # Region 1 -/

set_option maxHeartbeats 1000000 in
/-- The body on whole staging memrefs, the two inputs' at read contents `x0`, `x1` and the output's at anything,
    runs to the continuation holding the inputs' as they were and the output's at `out1_2 x0 x1`: the value the
    body loads from the output buffer is used by nothing, and its one store covers the block, so what the buffer
    held does not survive. -/
theorem sound_kernel1 (c : Dev nD) (E : Set ℕ) (i : grid1.Coords)
    (arg1 : Memref sig .tc .vmem S2000x256 .bf16) (harg1 : arg1.IsWhole)
    (arg2 : Memref sig .tc .vmem S256x384 .bf16) (harg2 : arg2.IsWhole)
    (arg3 : Memref sig .tc .vmem S2000x384 .f32) (harg3 : arg3.IsWhole)
    (x0 : Vec F S2000x256 .bf16) (x1 : Vec F S256x384 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- Input window 0's current staging buffer holds its block at every point: the window is uncut and never idle and
    the body leaves its buffer as found, so a point that does not fetch it finds the previous point's block, whose
    index is this point's (`Dat.before_in_eq_fetched`). -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- Input window 1 likewise: it is fetched at the first point only, its block index constant over the grid, and
    every later point finds that one block still in place. -/
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-- What the body is called with at point `t` (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the two inputs' memrefs hold their blocks (`before1_0`, `before1_1`), the output's
    holds something, so `sound_kernel1` applies; the invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! # Region 2 -/

set_option maxHeartbeats 1000000 in
/-- The body on whole staging memrefs, the two inputs' at read contents `x0`, `x1` and the output's at anything,
    runs to the continuation holding the inputs' as they were and the output's at `out2_2 x0 x1`: the value the
    body loads from the output buffer is used by nothing, and its one store covers the block, so what the buffer
    held does not survive. -/
theorem sound_kernel2 (c : Dev nD) (E : Set ℕ) (i : grid2.Coords)
    (arg1 : Memref sig .tc .vmem S2000x128 .bf16) (harg1 : arg1.IsWhole)
    (arg2 : Memref sig .tc .vmem S128x768 .bf16) (harg2 : arg2.IsWhole)
    (arg3 : Memref sig .tc .vmem S2000x768 .f32) (harg3 : arg3.IsWhole)
    (x0 : Vec F S2000x128 .bf16) (x1 : Vec F S128x768 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- Input window 0's current staging buffer holds its block at every point: the window is uncut and never idle and
    the body leaves its buffer as found, so a point that does not fetch it finds the previous point's block, whose
    index is this point's (`Dat.before_in_eq_fetched`). -/
theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)

/-- Input window 1 likewise: it is fetched at the first point only, its block index constant over the grid, and
    every later point finds that one block still in place. -/
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

/-- What the body is called with at point `t` (the body obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the two inputs' memrefs hold their blocks (`before2_0`, `before2_1`), the output's
    holds something, so `sound_kernel2` applies; the invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! # Region 3 -/

set_option maxHeartbeats 1000000 in
/-- The body on whole staging memrefs, the two inputs' at read contents `x0`, `x1` and the output's at anything,
    runs to the continuation holding the inputs' as they were and the output's at `out3_2 x0 x1`: the value the
    body loads from the output buffer is used by nothing, and its one store covers the block, so what the buffer
    held does not survive. -/
theorem sound_kernel3 (c : Dev nD) (E : Set ℕ) (i : grid3.Coords)
    (arg1 : Memref sig .tc .vmem S2000x256 .bf16) (harg1 : arg1.IsWhole)
    (arg2 : Memref sig .tc .vmem S256x384 .bf16) (harg2 : arg2.IsWhole)
    (arg3 : Memref sig .tc .vmem S2000x384 .f32) (harg3 : arg3.IsWhole)
    (x0 : Vec F S2000x256 .bf16) (x1 : Vec F S256x384 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- Input window 0's current staging buffer holds its block at every point: the window is uncut and never idle and
    the body leaves its buffer as found, so a point that does not fetch it finds the previous point's block, whose
    index is this point's (`Dat.before_in_eq_fetched`). -/
theorem before3_0 (c : Dev nD) (t : Fin cfg3.N) (d) : (dat3 V c).before 0 t d = iblk3 V c 0 t :=
  ((dat3 V c).before_in_eq_fetched 0 rfl (fun _ => rfl) (fun _ _ _ => rfl)
      (fun t => by rw [after3_0]; unfold Dat.blockOf iblk3; rw [A_eq3]; try rfl) t d).trans
    (by unfold Dat.fetched Dat.blockOf iblk3; rw [A_eq3]; try rfl)

/-- Input window 1 likewise: it is fetched at the first point only, its block index constant over the grid, and
    every later point finds that one block still in place. -/
theorem before3_1 (c : Dev nD) (t : Fin cfg3.N) (d) : (dat3 V c).before 1 t d = iblk3 V c 1 t :=
  ((dat3 V c).before_in_eq_fetched 1 rfl (fun _ => rfl) (fun _ _ _ => rfl)
      (fun t => by rw [after3_1]; unfold Dat.blockOf iblk3; rw [A_eq3]; try rfl) t d).trans
    (by unfold Dat.fetched Dat.blockOf iblk3; rw [A_eq3]; try rfl)

/-- What the body is called with at point `t` (the body obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the two inputs' memrefs hold their blocks (`before3_0`, `before3_1`), the output's
    holds something, so `sound_kernel3` applies; the invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.FrameKernelIdeal.lean ====
/- The run of @main and its frame, unconditionally: the four regions' segment records over the neighbouring
   modules' proof data and body obligations, the contents each region leaves in its output array, and the launch.

   Between two items core `c` holds every unscoped buffer whole at the valuation `VJ m outs c`, where `outs` are the
   contents the regions leave. Region K's pipeline leaves in its output window's array the write-backs of its ten
   points folded over the entry contents (`Dat.arrAt … N`), and leaves its two input arrays as it found them. The
   entry contents of region K are themselves a valuation over what regions 0 … K−1 left, so the four output
   contents are defined one after the other, each over the ones before it. -/
import proofs.«177757_j84482006712681_1_alg».proof.Proof.RunCondKernelIdeal
import proofs.«177757_j84482006712681_1_alg».proof.Proof.BodyKernelIdeal

-- memberships among the 628 references are decided by enumeration, which recurses past the default depth
set_option maxRecDepth 16384

noncomputable section

namespace Cert.KernelIdeal.Hand
open Cert.KernelIdeal Cert.KernelIdeal.Gen Cert.KernelIdeal.GenP

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## A valuation before a region depends on the regions' contents only where it reads them

The valuation entering region 1 reads `outs` at `(2, main_v7)` only, the one entering region 2 also at
`(12, main_v97)`, the one entering region 3 also at `(22, main_v199)`: two families of contents that agree there give
the same valuation (the host stretches in between are the same functions of it). -/

theorem V11_congr (o o' : Outs (F := F)) (c : Dev nD) (h2 : o 2 main_v7 c = o' 2 main_v7 c) :
    V11 m o c = V11 m o' c := by
  have e : V2 m o c = V2 m o' c := by
    show Function.update (V1 m c) main_v7 (o 2 main_v7 c) = Function.update (V1 m c) main_v7 (o' 2 main_v7 c)
    rw [h2]
  exact congrArg (fun v : Valuation τ sig (Elt F) => StableHlo.after hostOps1_8 (StableHlo.after hostOps1_7 (StableHlo.after hostOps1_6 (StableHlo.after hostOps1_5 (StableHlo.after hostOps1_4 (StableHlo.after hostOps1_3 (StableHlo.after hostOps1_2 (StableHlo.after hostOps1_1 (StableHlo.after hostOps1 (v)))))))))) e

theorem V21_congr (o o' : Outs (F := F)) (c : Dev nD) (h2 : o 2 main_v7 c = o' 2 main_v7 c)
    (h12 : o 12 main_v97 c = o' 12 main_v97 c) : V21 m o c = V21 m o' c := by
  have e : V12 m o c = V12 m o' c := by
    show Function.update (V11 m o c) main_v97 (o 12 main_v97 c) = Function.update (V11 m o' c) main_v97 (o' 12 main_v97 c)
    rw [V11_congr m o o' c h2, h12]
  exact congrArg (fun v : Valuation τ sig (Elt F) => StableHlo.after hostOps2_8 (StableHlo.after hostOps2_7 (StableHlo.after hostOps2_6 (StableHlo.after hostOps2_5 (StableHlo.after hostOps2_4 (StableHlo.after hostOps2_3 (StableHlo.after hostOps2_2 (StableHlo.after hostOps2_1 (StableHlo.after hostOps2 (v)))))))))) e

theorem V31_congr (o o' : Outs (F := F)) (c : Dev nD) (h2 : o 2 main_v7 c = o' 2 main_v7 c)
    (h12 : o 12 main_v97 c = o' 12 main_v97 c) (h22 : o 22 main_v199 c = o' 22 main_v199 c) : V31 m o c = V31 m o' c := by
  have e : V22 m o c = V22 m o' c := by
    show Function.update (V21 m o c) main_v199 (o 22 main_v199 c) = Function.update (V21 m o' c) main_v199 (o' 22 main_v199 c)
    rw [V21_congr m o o' c h2 h12, h22]
  exact congrArg (fun v : Valuation τ sig (Elt F) => StableHlo.after hostOps3_8 (StableHlo.after hostOps3_7 (StableHlo.after hostOps3_6 (StableHlo.after hostOps3_5 (StableHlo.after hostOps3_4 (StableHlo.after hostOps3_3 (StableHlo.after hostOps3_2 (StableHlo.after hostOps3_1 (StableHlo.after hostOps3 (v)))))))))) e

/-! ## What each region leaves -/

/-- Core `c`'s unscoped buffers when region 0 is left: its three arrays at what the pipeline leaves (`Dat.arrAt … N`:
    an input as entered, the output with every point's write-back folded in), every other buffer as entered. -/
def exit0 (c : Dev nD) : Valuation τ sig (Elt F) :=
  Pipeline.withArrays spec0 c (V1 m c) fun w => (dat0 (fun c b => V1 m c b) c).arrAt w cfg0.N
/-- The contents left so far, after region 0. -/
def outsA : Outs (F := F) := fun _ r c => exit0 m c (Proc.devRef .tc r)

/-- Core `c`'s unscoped buffers when region 1 is left, over the entry valuation built from region 0's contents. -/
def exit1 (c : Dev nD) : Valuation τ sig (Elt F) :=
  Pipeline.withArrays spec1 c (V11 m (outsA m) c) fun w => (dat1 (fun c b => V11 m (outsA m) c b) c).arrAt w cfg1.N
/-- The contents left so far, after region 1. -/
def outsB : Outs (F := F) := fun J r c => match J with
  | 12 => exit1 m c (Proc.devRef .tc r)
  | _ => outsA m J r c

/-- Core `c`'s unscoped buffers when region 2 is left, over the entry valuation built from regions 0 and 1's contents. -/
def exit2 (c : Dev nD) : Valuation τ sig (Elt F) :=
  Pipeline.withArrays spec2 c (V21 m (outsB m) c) fun w => (dat2 (fun c b => V21 m (outsB m) c b) c).arrAt w cfg2.N
/-- The contents left so far, after region 2. -/
def outsC : Outs (F := F) := fun J r c => match J with
  | 22 => exit2 m c (Proc.devRef .tc r)
  | _ => outsB m J r c

/-- Core `c`'s unscoped buffers when region 3 is left, over the entry valuation built from regions 0, 1 and 2's contents. -/
def exit3 (c : Dev nD) : Valuation τ sig (Elt F) :=
  Pipeline.withArrays spec3 c (V31 m (outsC m) c) fun w => (dat3 (fun c b => V31 m (outsC m) c b) c).arrAt w cfg3.N
/-- WHAT THE REGIONS LEAVE: `outs m J r c` is the contents of `r` on core `c` after item J−1, for J = 2, 12, 22, 32 the
    value at `r` of the exit valuation of region 0, 1, 2, 3. -/
def outs : Outs (F := F) := fun J r c => match J with
  | 32 => exit3 m c (Proc.devRef .tc r)
  | _ => outsC m J r c

/-- The entry valuations over all four contents are the ones the contents were defined over. -/
theorem V11_outs (c : Dev nD) : V11 m (outs m) c = V11 m (outsA m) c := V11_congr m _ _ c rfl
theorem V21_outs (c : Dev nD) : V21 m (outs m) c = V21 m (outsB m) c := V21_congr m _ _ c rfl rfl
theorem V31_outs (c : Dev nD) : V31 m (outs m) c = V31 m (outsC m) c := V31_congr m _ _ c rfl rfl rfl

/-- A TensorCore's buffer contents, reference by reference: what a region's proof data are stated at. -/
abbrev TcVal : Type := (c : Dev nD) → (b : Ref sig .tc) → Buf (Elt F) ((c : Thread nD τ).loc b)

/-- Region 0 leaves in `main_v7`, its output window's array, the write-backs of its ten points folded over the entry
    contents. -/
theorem outs_2 (c : Dev nD) : outs m 2 main_v7 c = (dat0 (fun c b => V1 m c b) c).arrAt 2 cfg0.N := by
  show exit0 m c (Proc.devRef .tc (Pipeline.arrRef spec0 2)) = _
  unfold exit0
  exact Pipeline.withArrays_arr spec0 launch0.win.arr_inj c _ _ 2

/-- Region 1 leaves in `main_v97`, its output window's array, the write-backs of its ten points folded over the entry
    contents, the entry valuation read over all the regions' contents. -/
theorem outs_12 (c : Dev nD) : outs m 12 main_v97 c = (dat1 (fun c b => V11 m (outs m) c b) c).arrAt 2 cfg1.N := by
  have hV : @Eq (TcVal (F := F)) (fun c b => V11 m (outsA m) c b) (fun c b => V11 m (outs m) c b) :=
    funext fun c => funext fun b => (congrFun (V11_outs m c) (Proc.devRef .tc b)).symm
  refine Eq.trans ?_ (congrArg (fun V : TcVal (F := F) => (dat1 V c).arrAt 2 cfg1.N) hV)
  show exit1 m c (Proc.devRef .tc (Pipeline.arrRef spec1 2)) = _
  unfold exit1
  exact Pipeline.withArrays_arr spec1 launch1.win.arr_inj c _ _ 2

/-- Region 2 leaves in `main_v199`, its output window's array, the write-backs of its ten points folded over the entry
    contents, the entry valuation read over all the regions' contents. -/
theorem outs_22 (c : Dev nD) : outs m 22 main_v199 c = (dat2 (fun c b => V21 m (outs m) c b) c).arrAt 2 cfg2.N := by
  have hV : @Eq (TcVal (F := F)) (fun c b => V21 m (outsB m) c b) (fun c b => V21 m (outs m) c b) :=
    funext fun c => funext fun b => (congrFun (V21_outs m c) (Proc.devRef .tc b)).symm
  refine Eq.trans ?_ (congrArg (fun V : TcVal (F := F) => (dat2 V c).arrAt 2 cfg2.N) hV)
  show exit2 m c (Proc.devRef .tc (Pipeline.arrRef spec2 2)) = _
  unfold exit2
  exact Pipeline.withArrays_arr spec2 launch2.win.arr_inj c _ _ 2

/-- Region 3 leaves in `main_v289`, its output window's array, the write-backs of its ten points folded over the entry
    contents, the entry valuation read over all the regions' contents. -/
theorem outs_32 (c : Dev nD) : outs m 32 main_v289 c = (dat3 (fun c b => V31 m (outs m) c b) c).arrAt 2 cfg3.N := by
  have hV : @Eq (TcVal (F := F)) (fun c b => V31 m (outsC m) c b) (fun c b => V31 m (outs m) c b) :=
    funext fun c => funext fun b => (congrFun (V31_outs m c) (Proc.devRef .tc b)).symm
  refine Eq.trans ?_ (congrArg (fun V : TcVal (F := F) => (dat3 V c).arrAt 2 cfg3.N) hV)
  show exit3 m c (Proc.devRef .tc (Pipeline.arrRef spec3 2)) = _
  unfold exit3
  exact Pipeline.withArrays_arr spec3 launch3.win.arr_inj c _ _ 2

/-! ## The proof data family and what rides beside the buffers -/

/-- Every pipeline's proof data, each at its region's entry contents (a literal `match`, so that the family at a
    numeral reduces to the region's own data). -/
def pdats : (p : Fin 4) → (c : Dev nD) → Dat τ (Elt F) Unit ℕ (UR sig nD τ) ℕ (cfgs p) c
  | ⟨0, _⟩ => fun c => dat0 (fun c b => V1 m c b) c
  | ⟨1, _⟩ => fun c => dat1 (fun c b => V11 m (outs m) c b) c
  | ⟨2, _⟩ => fun c => dat2 (fun c b => V21 m (outs m) c b) c
  | ⟨3, _⟩ => fun c => dat3 (fun c b => V31 m (outs m) c b) c

/-- No core owes another anything: no pair is assigned a level. -/
abbrev L : GSem nD τ sig → Finset Unit := fun _ => ∅
abbrev lv : GSem nD τ sig → Unit → ℕ := fun _ _ => 0

/-- What a core holds beside its unscoped buffers between any two items: its generator register at some state (a
    region's invariant takes it in and gives it back) and its tallies, owing nothing. -/
abbrev R (c : Dev nD) : sProp 𝕄 := iprop((∃ r, prngReg c r) ∗ ∃ W, owes (c : Thread nD τ) (0 : CellTallies nD τ sig Unit) W)

/-! ### Region 0 -/

/-- When region 0 is left each of its arrays holds what the pipeline leaves: the output window's `main_v7` is where
    the exit valuation is updated, at that very value; an input window's array is not `main_v7`, so the exit valuation
    has it as the entry one does, which is what the proof data start from and what an input keeps. -/
theorem hF0 (c : Dev nD) : ∀ w : Fin cfg0.W,
    (dat0 (fun c b => V1 m c b) c).arrAt w cfg0.N = V2 m (outs m) c (Pipeline.arrRef spec0 w)
  | ⟨0, _⟩ => ((dat0 (fun c b => V1 m c b) c).arrAt_in 0 rfl _).trans ((A_eq0 (fun c b => V1 m c b) c 0).trans (V2_of m (outs m) c _ (by decide)).symm)
  | ⟨1, _⟩ => ((dat0 (fun c b => V1 m c b) c).arrAt_in 1 rfl _).trans ((A_eq0 (fun c b => V1 m c b) c 1).trans (V2_of m (outs m) c _ (by decide)).symm)
  | ⟨2, _⟩ => ((outs_2 m c).symm.trans (Function.update_self (β := fun b : DevRef τ sig => b.ty.Contents (Elt F)) (Proc.devRef .tc main_v7) (outs m 2 main_v7 c) (V1 m c)).symm)

/-- Off region 0's arrays the exit valuation is the entry one: it differs from it at `main_v7` only. -/
theorem hrest0 (c : Dev nD) : ∀ b : Ref sig .tc, b ∉ Finset.univ.image (Pipeline.arrRef spec0) → V2 m (outs m) c b = V1 m c b :=
  fun b hb => V2_of m (outs m) c b fun h => hb (Finset.mem_image.mpr ⟨2, Finset.mem_univ _, (List.mem_singleton.mp h).symm⟩)

-- a library lemma stated over the family's configuration at `p` meets the region's own configuration only when
-- unification may unfold plain definitions in a metavariable's type
set_option backward.isDefEq.respectTransparency.types false in
/-- REGION 0 as a segment: entered from every unscoped buffer at the valuation before it beside `R`, left at the
    valuation after it beside `R`. At entry its three arrays are split out of the unscoped buffers, the generator
    register goes into the pipeline's invariant; at exit the arrays, at what the pipeline leaves, are put back beside
    the untouched rest, and the register comes back. Nothing is owed at any point; the kernel has no semaphore of its own. -/
def reg0 : RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (fun c b => V1 m c b) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (fun b => V1 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V1 m c b) fun _ => rfl
    rw [Pipeline.unscopedBufs_held] at hsplit
    iintro ⟨⟨Hbufs, Hprng, Howes⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hprng]; · iexact Hprng
    iexact Hrest
  hin c := by
    rw [show (pdats m 0 c).Φ 0 = Pipeline.ΦA spec0 c from rfl]; unfold Pipeline.ΦA
    iintro ⟨Hprng, -, Hsc⟩
    isplitl [Hsc]; · iexact Hsc
    iexact Hprng
  hout c := by
    rw [Pipeline.ownSems0_none, show (pdats m 0 c).Φ (Fin.last _) = Pipeline.ΦA spec0 c from rfl]; unfold Pipeline.ΦA
    iintro ⟨Hsc, Hprng⟩
    isplitl [Hprng]; · iexact Hprng
    isplitr; · iempintro
    iexact Hsc
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => V1 m c b) (fun b => V2 m (outs m) c b) ((pdats m 0 c).arrAt · cfg0.N) (hF0 m c) (hrest0 m c)
    rw [Pipeline.unscopedBufs_held] at hjoin
    iintro ⟨Harr, Howes, Hprng, Hrest⟩
    imodintro
    isplitl [Harr Hrest]
    · iapply hjoin; isplitl [Harr] <;> iassumption
    isplitl [Hprng]; · iexact Hprng
    unfold Pipeline.Dat.owesAt Pipeline.owesWithin
    icases Howes with ⟨%W, -, Howes⟩; iexists W; iexact Howes

/-! ### Region 1 -/

/-- When region 1 is left each of its arrays holds what the pipeline leaves: the output window's `main_v97` is where
    the exit valuation is updated, at that very value; an input window's array is not `main_v97`, so the exit valuation
    has it as the entry one does, which is what the proof data start from and what an input keeps. -/
theorem hF1 (c : Dev nD) : ∀ w : Fin cfg1.W,
    (dat1 (fun c b => V11 m (outs m) c b) c).arrAt w cfg1.N = V12 m (outs m) c (Pipeline.arrRef spec1 w)
  | ⟨0, _⟩ => ((dat1 (fun c b => V11 m (outs m) c b) c).arrAt_in 0 rfl _).trans ((A_eq1 (fun c b => V11 m (outs m) c b) c 0).trans (V12_of m (outs m) c _ (by decide)).symm)
  | ⟨1, _⟩ => ((dat1 (fun c b => V11 m (outs m) c b) c).arrAt_in 1 rfl _).trans ((A_eq1 (fun c b => V11 m (outs m) c b) c 1).trans (V12_of m (outs m) c _ (by decide)).symm)
  | ⟨2, _⟩ => ((outs_12 m c).symm.trans (Function.update_self (β := fun b : DevRef τ sig => b.ty.Contents (Elt F)) (Proc.devRef .tc main_v97) (outs m 12 main_v97 c) (V11 m (outs m) c)).symm)

/-- Off region 1's arrays the exit valuation is the entry one: it differs from it at `main_v97` only. -/
theorem hrest1 (c : Dev nD) : ∀ b : Ref sig .tc, b ∉ Finset.univ.image (Pipeline.arrRef spec1) → V12 m (outs m) c b = V11 m (outs m) c b :=
  fun b hb => V12_of m (outs m) c b fun h => hb (Finset.mem_image.mpr ⟨2, Finset.mem_univ _, (List.mem_singleton.mp h).symm⟩)

-- a library lemma stated over the family's configuration at `p` meets the region's own configuration only when
-- unification may unfold plain definitions in a metavariable's type
set_option backward.isDefEq.respectTransparency.types false in
/-- REGION 1 as a segment: entered from every unscoped buffer at the valuation before it beside `R`, left at the
    valuation after it beside `R`. At entry its three arrays are split out of the unscoped buffers, the generator
    register goes into the pipeline's invariant; at exit the arrays, at what the pipeline leaves, are put back beside
    the untouched rest, and the register comes back. Nothing is owed at any point; the kernel has no semaphore of its own. -/
def reg1 : RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (fun c b => V11 m (outs m) c b) c).loose
  hwaits := Pipeline.hwaits_of_owed_zero _ _ _ _ L lv 1 fun _ _ => rfl
  pre c := iprop(StableHlo.held (c : Thread nD τ) (Pipeline.ucRefs τ sig) (V11 m (outs m) c) ∗ R c)
  post c := iprop(StableHlo.held (c : Thread nD τ) (Pipeline.ucRefs τ sig) (V12 m (outs m) c) ∗ R c)
  X c := iprop(∃ r, prngReg c r)
  Y c := iprop(∃ r, prngReg c r)
  Z c := Pipeline.unscopedRest (Ix := Unit) (Name := ℕ) (U := UR sig nD τ) (Lvl := ℕ) spec1 c (fun b => V11 m (outs m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V11 m (outs m) c b) fun _ => rfl
    rw [Pipeline.unscopedBufs_held] at hsplit
    iintro ⟨⟨Hbufs, Hprng, Howes⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hprng]; · iexact Hprng
    iexact Hrest
  hin c := by
    rw [show (pdats m 1 c).Φ 0 = Pipeline.ΦA spec1 c from rfl]; unfold Pipeline.ΦA
    iintro ⟨Hprng, -, Hsc⟩
    isplitl [Hsc]; · iexact Hsc
    iexact Hprng
  hout c := by
    rw [Pipeline.ownSems0_none, show (pdats m 1 c).Φ (Fin.last _) = Pipeline.ΦA spec1 c from rfl]; unfold Pipeline.ΦA
    iintro ⟨Hsc, Hprng⟩
    isplitl [Hprng]; · iexact Hprng
    isplitr; · iempintro
    iexact Hsc
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => V11 m (outs m) c b) (fun b => V12 m (outs m) c b) ((pdats m 1 c).arrAt · cfg1.N) (hF1 m c) (hrest1 m c)
    rw [Pipeline.unscopedBufs_held] at hjoin
    iintro ⟨Harr, Howes, Hprng, Hrest⟩
    imodintro
    isplitl [Harr Hrest]
    · iapply hjoin; isplitl [Harr] <;> iassumption
    isplitl [Hprng]; · iexact Hprng
    unfold Pipeline.Dat.owesAt Pipeline.owesWithin
    icases Howes with ⟨%W, -, Howes⟩; iexists W; iexact Howes

/-! ### Region 2 -/

/-- When region 2 is left each of its arrays holds what the pipeline leaves: the output window's `main_v199` is where
    the exit valuation is updated, at that very value; an input window's array is not `main_v199`, so the exit valuation
    has it as the entry one does, which is what the proof data start from and what an input keeps. -/
theorem hF2 (c : Dev nD) : ∀ w : Fin cfg2.W,
    (dat2 (fun c b => V21 m (outs m) c b) c).arrAt w cfg2.N = V22 m (outs m) c (Pipeline.arrRef spec2 w)
  | ⟨0, _⟩ => ((dat2 (fun c b => V21 m (outs m) c b) c).arrAt_in 0 rfl _).trans ((A_eq2 (fun c b => V21 m (outs m) c b) c 0).trans (V22_of m (outs m) c _ (by decide)).symm)
  | ⟨1, _⟩ => ((dat2 (fun c b => V21 m (outs m) c b) c).arrAt_in 1 rfl _).trans ((A_eq2 (fun c b => V21 m (outs m) c b) c 1).trans (V22_of m (outs m) c _ (by decide)).symm)
  | ⟨2, _⟩ => ((outs_22 m c).symm.trans (Function.update_self (β := fun b : DevRef τ sig => b.ty.Contents (Elt F)) (Proc.devRef .tc main_v199) (outs m 22 main_v199 c) (V21 m (outs m) c)).symm)

/-- Off region 2's arrays the exit valuation is the entry one: it differs from it at `main_v199` only. -/
theorem hrest2 (c : Dev nD) : ∀ b : Ref sig .tc, b ∉ Finset.univ.image (Pipeline.arrRef spec2) → V22 m (outs m) c b = V21 m (outs m) c b :=
  fun b hb => V22_of m (outs m) c b fun h => hb (Finset.mem_image.mpr ⟨2, Finset.mem_univ _, (List.mem_singleton.mp h).symm⟩)

-- a library lemma stated over the family's configuration at `p` meets the region's own configuration only when
-- unification may unfold plain definitions in a metavariable's type
set_option backward.isDefEq.respectTransparency.types false in
/-- REGION 2 as a segment: entered from every unscoped buffer at the valuation before it beside `R`, left at the
    valuation after it beside `R`. At entry its three arrays are split out of the unscoped buffers, the generator
    register goes into the pipeline's invariant; at exit the arrays, at what the pipeline leaves, are put back beside
    the untouched rest, and the register comes back. Nothing is owed at any point; the kernel has no semaphore of its own. -/
def reg2 : RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (body_obligation2 (fun c b => V21 m (outs m) c b) c).loose
  hwaits := Pipeline.hwaits_of_owed_zero _ _ _ _ L lv 2 fun _ _ => rfl
  pre c := iprop(StableHlo.held (c : Thread nD τ) (Pipeline.ucRefs τ sig) (V21 m (outs m) c) ∗ R c)
  post c := iprop(StableHlo.held (c : Thread nD τ) (Pipeline.ucRefs τ sig) (V22 m (outs m) c) ∗ R c)
  X c := iprop(∃ r, prngReg c r)
  Y c := iprop(∃ r, prngReg c r)
  Z c := Pipeline.unscopedRest (Ix := Unit) (Name := ℕ) (U := UR sig nD τ) (Lvl := ℕ) spec2 c (fun b => V21 m (outs m) c b)
  hentry c := by
    rw [Pipeline.ownSems0_none]
    have hsplit := Pipeline.arrays_of_unscopedBufs (p := 2) (pcfgs (F := F)) adm (pdats m) launch2.win launch2.arr_whole c
      ((pdats m 2 c).share_full fun _ => rfl) (fun b => V21 m (outs m) c b) fun _ => rfl
    rw [Pipeline.unscopedBufs_held] at hsplit
    iintro ⟨⟨Hbufs, Hprng, Howes⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hprng]; · iexact Hprng
    iexact Hrest
  hin c := by
    rw [show (pdats m 2 c).Φ 0 = Pipeline.ΦA spec2 c from rfl]; unfold Pipeline.ΦA
    iintro ⟨Hprng, -, Hsc⟩
    isplitl [Hsc]; · iexact Hsc
    iexact Hprng
  hout c := by
    rw [Pipeline.ownSems0_none, show (pdats m 2 c).Φ (Fin.last _) = Pipeline.ΦA spec2 c from rfl]; unfold Pipeline.ΦA
    iintro ⟨Hsc, Hprng⟩
    isplitl [Hprng]; · iexact Hprng
    isplitr; · iempintro
    iexact Hsc
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b => V21 m (outs m) c b) (fun b => V22 m (outs m) c b) ((pdats m 2 c).arrAt · cfg2.N) (hF2 m c) (hrest2 m c)
    rw [Pipeline.unscopedBufs_held] at hjoin
    iintro ⟨Harr, Howes, Hprng, Hrest⟩
    imodintro
    isplitl [Harr Hrest]
    · iapply hjoin; isplitl [Harr] <;> iassumption
    isplitl [Hprng]; · iexact Hprng
    unfold Pipeline.Dat.owesAt Pipeline.owesWithin
    icases Howes with ⟨%W, -, Howes⟩; iexists W; iexact Howes

/-! ### Region 3 -/

/-- When region 3 is left each of its arrays holds what the pipeline leaves: the output window's `main_v289` is where
    the exit valuation is updated, at that very value; an input window's array is not `main_v289`, so the exit valuation
    has it as the entry one does, which is what the proof data start from and what an input keeps. -/
theorem hF3 (c : Dev nD) : ∀ w : Fin cfg3.W,
    (dat3 (fun c b => V31 m (outs m) c b) c).arrAt w cfg3.N = V32 m (outs m) c (Pipeline.arrRef spec3 w)
  | ⟨0, _⟩ => ((dat3 (fun c b => V31 m (outs m) c b) c).arrAt_in 0 rfl _).trans ((A_eq3 (fun c b => V31 m (outs m) c b) c 0).trans (V32_of m (outs m) c _ (by decide)).symm)
  | ⟨1, _⟩ => ((dat3 (fun c b => V31 m (outs m) c b) c).arrAt_in 1 rfl _).trans ((A_eq3 (fun c b => V31 m (outs m) c b) c 1).trans (V32_of m (outs m) c _ (by decide)).symm)
  | ⟨2, _⟩ => ((outs_32 m c).symm.trans (Function.update_self (β := fun b : DevRef τ sig => b.ty.Contents (Elt F)) (Proc.devRef .tc main_v289) (outs m 32 main_v289 c) (V31 m (outs m) c)).symm)

/-- Off region 3's arrays the exit valuation is the entry one: it differs from it at `main_v289` only. -/
theorem hrest3 (c : Dev nD) : ∀ b : Ref sig .tc, b ∉ Finset.univ.image (Pipeline.arrRef spec3) → V32 m (outs m) c b = V31 m (outs m) c b :=
  fun b hb => V32_of m (outs m) c b fun h => hb (Finset.mem_image.mpr ⟨2, Finset.mem_univ _, (List.mem_singleton.mp h).symm⟩)

-- a library lemma stated over the family's configuration at `p` meets the region's own configuration only when
-- unification may unfold plain definitions in a metavariable's type
set_option backward.isDefEq.respectTransparency.types false in
/-- REGION 3 as a segment: entered from every unscoped buffer at the valuation before it beside `R`, left at the
    valuation after it beside `R`. At entry its three arrays are split out of the unscoped buffers, the generator
    register goes into the pipeline's invariant; at exit the arrays, at what the pipeline leaves, are put back beside
    the untouched rest, and the register comes back. Nothing is owed at any point; the kernel has no semaphore of its own. -/
def reg3 : RegionSeg (pcfgs (F := F)) adm (pdats m) () defs₀ Variants.none L lv 3 where
  win := launch3.win.to₀
  block_pos := launch3.block_pos
  stage_whole := launch3.stage_whole
  K := PEmpty
  osem k := k.elim
  ho := Pipeline.OwnSemFacts.none _
  hbody c := (body_obligation3 (fun c b => V31 m (outs m) c b) c).loose
  hwaits := Pipeline.hwaits_of_owed_zero _ _ _ _ L lv 3 fun _ _ => rfl
  pre c := iprop(StableHlo.held (c : Thread nD τ) (Pipeline.ucRefs τ sig) (V31 m (outs m) c) ∗ R c)
  post c := iprop(StableHlo.held (c : Thread nD τ) (Pipeline.ucRefs τ sig) (V32 m (outs m) c) ∗ R c)
  X c := iprop(∃ r, prngReg c r)
  Y c := iprop(∃ r, prngReg c r)
  Z c := Pipeline.unscopedRest (Ix := Unit) (Name := ℕ) (U := UR sig nD τ) (Lvl := ℕ) spec3 c (fun b => V31 m (outs m) c b)
  hentry c := by
    rw [Pipeline.ownSems0_none]
    have hsplit := Pipeline.arrays_of_unscopedBufs (p := 3) (pcfgs (F := F)) adm (pdats m) launch3.win launch3.arr_whole c
      ((pdats m 3 c).share_full fun _ => rfl) (fun b => V31 m (outs m) c b) fun _ => rfl
    rw [Pipeline.unscopedBufs_held] at hsplit
    iintro ⟨⟨Hbufs, Hprng, Howes⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hprng]; · iexact Hprng
    iexact Hrest
  hin c := by
    rw [show (pdats m 3 c).Φ 0 = Pipeline.ΦA spec3 c from rfl]; unfold Pipeline.ΦA
    iintro ⟨Hprng, -, Hsc⟩
    isplitl [Hsc]; · iexact Hsc
    iexact Hprng
  hout c := by
    rw [Pipeline.ownSems0_none, show (pdats m 3 c).Φ (Fin.last _) = Pipeline.ΦA spec3 c from rfl]; unfold Pipeline.ΦA
    iintro ⟨Hsc, Hprng⟩
    isplitl [Hprng]; · iexact Hprng
    isplitr; · iempintro
    iexact Hsc
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (fun b => V31 m (outs m) c b) (fun b => V32 m (outs m) c b) ((pdats m 3 c).arrAt · cfg3.N) (hF3 m c) (hrest3 m c)
    rw [Pipeline.unscopedBufs_held] at hjoin
    iintro ⟨Harr, Howes, Hprng, Hrest⟩
    imodintro
    isplitl [Harr Hrest]
    · iapply hjoin; isplitl [Harr] <;> iassumption
    isplitl [Hprng]; · iexact Hprng
    unfold Pipeline.Dat.owesAt Pipeline.owesWithin
    icases Howes with ⟨%W, -, Howes⟩; iexists W; iexact Howes

/-! ## The run and the frame -/

-- the conditional run's implicit arguments are found through plain definitions in a metavariable's type
set_option backward.isDefEq.respectTransparency.types false in
/-- THE RUN. From any memory `m` with zero counters and any generator registers, every weakly fair execution of @main
    on the TensorCores terminates, and in every final memory, on every core, the two results `main_v191` and
    `main_v383` hold the last valuation's contents (over the contents `outs m` the regions leave) and every argument
    holds its launch contents: the conditional run at the four regions' records. The launch element is the pipeline
    library's own, no ghost resource rides along, and what each core keeps beside its buffers from the launch on is
    its generator register and its tallies, owing nothing. -/
theorem run (ρ : Dev nD → PrngReg) : θ_run defs (onTc (τ := τ) (main (F := F))) ⟨m, fun _ => 0, ρ⟩ (fun r => ∀ c : Dev nD,
      (r.2.mem ((c.tc : Thread nD τ).loc main_v191) = V41 m (outs m) c (Proc.devRef .tc main_v191) ∧ r.2.mem ((c.tc : Thread nD τ).loc main_v383) = V41 m (outs m) c (Proc.devRef .tc main_v383))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  run_cond m (Ix := Unit) (U := UR sig nD τ) (Lvl := ℕ) (EP := emb₁) (ι := ()) (𝒱₀ := Variants.none) (L := L) (lv := lv)
    (hL := fun _ _ => rfl) (ρ := ρ) (outs := outs m) (pdats := pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ => R)
    (hE0 := by
      refine Pipeline.initEach L lv fun c => ?_
      iintro ⟨⟨-, Howes, -, Hprng, -⟩, -⟩
      imodintro
      isplitl [Hprng]; · iexists _; iexact Hprng
      iexists ∅; iexact Howes)
    (hE4 := fun c => (show (R c : sProp 𝕄) ⊢ _ from by iintro ⟨-, Howes⟩; iexact Howes))
    (R0 := reg0 m) (hpre0 := fun _ => .rfl) (hpost0 := fun _ => .rfl)
    (R1 := reg1 m) (hpre1 := fun _ => .rfl) (hpost1 := fun _ => .rfl)
    (R2 := reg2 m) (hpre2 := fun _ => .rfl) (hpost2 := fun _ => .rfl)
    (R3 := reg3 m) (hpre3 := fun _ => .rfl) (hpost3 := fun _ => .rfl)

/-- THE FRAME: from any memory with zero counters every weakly fair execution of @main terminates and every final
    memory holds each argument as launched — the run, its two results forgotten. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  (θ_run defs (onTc (τ := τ) (main (F := F))) ⟨m, fun _ => 0, ρ⟩).mono (fun _ h c => (h c).2) (run m ρ)

end Cert.KernelIdeal.Hand

end
-- ==== Proof.RefRunOps.lean ====
/- The reference program's host operations as lists. The program is a straight line of tensor operations: its eight
   windows run in order, and a call of an outlined function runs the callee's operations on the caller's operand
   buffers and the call's own result buffers. Each window is listed here with every call's operations in place, so
   that the whole program is one sequence of 564 operations, each writing a buffer of its own. -/
import proofs.«177757_j84482006712681_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.SL.Sem

variable {F : FTy → Type} [FloatOps F]

/-- Window 0 of the reference program: its host operations 1 … 66 of 564 in program order, each
    call's operations written out at the call site over that call's own buffers. -/
abbrev ops0 : List (HloOp τ sig (Elt F)) :=
  [ StableHlo.unary main_arg22 main_v0 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v0 main_v1 rfl shapeCasts_S1x320000_S320000,
    StableHlo.unary main_arg22 main_v2 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v2 main_v3 rfl shapeCasts_S1x320000_S320000,
    StableHlo.binary main_arg0 main_arg3 main_v4 ((fun l r => Host.dotGeneral dot_S20000x768_S768x256_S20000x256_1_0_0_1_n_n none l r) : (⟨S20000x768, .f32⟩ : BufTy).Contents (Elt F) → (⟨S768x256, .f32⟩ : BufTy).Contents (Elt F) → (⟨S20000x256, .f32⟩ : BufTy).Contents (Elt F)),
    StableHlo.unary main_arg4 main_v5 (broadcastInDim S1x256 ![1] bcast_S256_S1x256_1 : (⟨S256, .f32⟩ : BufTy).Contents (Elt F) → (⟨S1x256, .f32⟩ : BufTy).Contents (Elt F)),
    StableHlo.unary main_v5 main_v6 (broadcastInDim S20000x256 ![0, 1] bcast_S1x256_S20000x256_0_1 : (⟨S1x256, .f32⟩ : BufTy).Contents (Elt F) → (⟨S20000x256, .f32⟩ : BufTy).Contents (Elt F)),
    StableHlo.binary main_v4 main_v6 main_v7 (addf : (⟨S20000x256, .f32⟩ : BufTy).Contents (Elt F) → (⟨S20000x256, .f32⟩ : BufTy).Contents (Elt F) → (⟨S20000x256, .f32⟩ : BufTy).Contents (Elt F)),
    StableHlo.unary main_arg2 main_v8 ((extractStridedSlice S1x768x256 ![0, 0, 0] · slices_S2x768x256_S1x768x256_0_0_0) : (⟨S2x768x256, .f32⟩ : BufTy).Contents (Elt F) → (⟨S1x768x256, .f32⟩ : BufTy).Contents (Elt F)),
    StableHlo.reshape main_v8 main_v9 rfl shapeCasts_S1x768x256_S768x256,
    StableHlo.binary main_arg0 main_v9 main_v10 ((fun l r => Host.dotGeneral dot_S20000x768_S768x256_S20000x256_1_0_0_1_n_n none l r) : (⟨S20000x768, .f32⟩ : BufTy).Contents (Elt F) → (⟨S768x256, .f32⟩ : BufTy).Contents (Elt F) → (⟨S20000x256, .f32⟩ : BufTy).Contents (Elt F)),
    StableHlo.nullary main_c (constantI S_ 32 0#32),
    StableHlo.unary main_c main_v11 (broadcastInDim S320000 ![] bcast_S_S320000 : (⟨S_, .i32⟩ : BufTy).Contents (Elt F) → (⟨S320000, .i32⟩ : BufTy).Contents (Elt F)),
    StableHlo.binary main_arg23 main_v11 main_v12 (cmpi .eq : (⟨S320000, .i32⟩ : BufTy).Contents (Elt F) → (⟨S320000, .i32⟩ : BufTy).Contents (Elt F) → (⟨S320000, .i1⟩ : BufTy).Contents (Elt F)),
    StableHlo.unary main_v12 main_v13 (broadcastInDim S320000x1 ![0] bcast_S320000_S320000x1_0 : (⟨S320000, .i1⟩ : BufTy).Contents (Elt F) → (⟨S320000x1, .i1⟩ : BufTy).Contents (Elt F)),
    StableHlo.nullary main_c_0 (constantI S_ 32 0#32),
    StableHlo.unary main_c_0 main_v14 (broadcastInDim S320000 ![] bcast_S_S320000 : (⟨S_, .i32⟩ : BufTy).Contents (Elt F) → (⟨S320000, .i32⟩ : BufTy).Contents (Elt F)),
    StableHlo.binary main_v1 main_v14 main_v15 (cmpi .slt : (⟨S320000, .i32⟩ : BufTy).Contents (Elt F) → (⟨S320000, .i32⟩ : BufTy).Contents (Elt F) → (⟨S320000, .i1⟩ : BufTy).Contents (Elt F)),
    StableHlo.nullary main_c_1 (constantI S_ 32 20000#32),
    StableHlo.unary main_c_1 main_v16 (broadcastInDim S320000 ![] bcast_S_S320000 : (⟨S_, .i32⟩ : BufTy).Contents (Elt F) → (⟨S320000, .i32⟩ : BufTy).Contents (Elt F)),
    StableHlo.binary main_v1 main_v16 main_v17 (addi : (⟨S320000, .i32⟩ : BufTy).Contents (Elt F) → (⟨S320000, .i32⟩ : BufTy).Contents (Elt F) → (⟨S320000, .i32⟩ : BufTy).Contents (Elt F)),
    StableHlo.ternary main_v15 main_v17 main_v1 main_v18 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v18 main_v19 (broadcastInDim S320000x1 ![0] bcast_S320000_S320000x1_0 : (⟨S320000, .i32⟩ : BufTy).Contents (Elt F) → (⟨S320000x1, .i32⟩ : BufTy).Contents (Elt F)),
    StableHlo.binary main_v10 main_v19 main_v20 ((fun x i => Host.gather gather_S20000x256_S320000x1_S320000x256_1_0_n_n_0_1_1256 x i) : (⟨S20000x256, .f32⟩ : BufTy).Contents (Elt F) → (⟨S320000x1, .i32⟩ : BufTy).Contents (Elt F) → (⟨S320000x256, .f32⟩ : BufTy).Contents (Elt F)),
    StableHlo.nullary main_cst (constant S_ .f32 0x00000000#32),
    StableHlo.TRef.unary (.of main_cst : StableHlo.TRef sig ⟨S_, .f32⟩) main_call0.v0 id,
    StableHlo.TRef.unary (.of main_v13 : StableHlo.TRef sig ⟨S320000x1, .i1⟩) main_call0.v1 (broadcastInDim S320000x256 ![0, 1] bcast_S320000x1_S320000x256_0_1),
    StableHlo.TRef.unary main_call0.v0 main_call0.v2 (broadcastInDim S320000x256 ![] bcast_S_S320000x256),
    StableHlo.TRef.ternary main_call0.v1 (.of main_v20 : StableHlo.TRef sig ⟨S320000x256, .f32⟩) main_call0.v2 main_call0.v3 select,
    StableHlo.nullary main_cst_2 (constant S_ .f32 0x00000000#32),
    StableHlo.unary main_cst_2 main_v22 (broadcastInDim S20000x256 ![] bcast_S_S20000x256 : (⟨S_, .f32⟩ : BufTy).Contents (Elt F) → (⟨S20000x256, .f32⟩ : BufTy).Contents (Elt F)),
    StableHlo.unary main_v3 main_v23 (broadcastInDim S320000x1 ![0] bcast_S320000_S320000x1_0 : (⟨S320000, .i32⟩ : BufTy).Contents (Elt F) → (⟨S320000x1, .i32⟩ : BufTy).Contents (Elt F)),
    StableHlo.ternary main_v22 main_v23 main_v21 main_v24 ((fun x i u => Host.scatterAdd scatter_S20000x256_S320000x1_S320000x256_1_0_0_1 x i u) : (⟨S20000x256, .f32⟩ : BufTy).Contents (Elt F) → (⟨S320000x1, .i32⟩ : BufTy).Contents (Elt F) → (⟨S320000x256, .f32⟩ : BufTy).Contents (Elt F) → (⟨S20000x256, .f32⟩ : BufTy).Contents (Elt F)),
    StableHlo.unary main_v12 main_v25 (uitofp .f32 : (⟨S320000, .i1⟩ : BufTy).Contents (Elt F) → (⟨S320000, .f32⟩ : BufTy).Contents (Elt F)),
    StableHlo.nullary main_cst_3 (constant S_ .f32 0x00000000#32),
    StableHlo.unary main_cst_3 main_v26 (broadcastInDim S20000 ![] bcast_S_S20000 : (⟨S_, .f32⟩ : BufTy).Contents (Elt F) → (⟨S20000, .f32⟩ : BufTy).Contents (Elt F)),
    StableHlo.unary main_v3 main_v27 (broadcastInDim S320000x1 ![0] bcast_S320000_S320000x1_0 : (⟨S320000, .i32⟩ : BufTy).Contents (Elt F) → (⟨S320000x1, .i32⟩ : BufTy).Contents (Elt F)),
    StableHlo.ternary main_v26 main_v27 main_v25 main_v28 ((fun x i u => Host.scatterAdd scatter_S20000_S320000x1_S320000_n_0_0_1 x i u) : (⟨S20000, .f32⟩ : BufTy).Contents (Elt F) → (⟨S320000x1, .i32⟩ : BufTy).Contents (Elt F) → (⟨S320000, .f32⟩ : BufTy).Contents (Elt F) → (⟨S20000, .f32⟩ : BufTy).Contents (Elt F)),
    StableHlo.nullary main_cst_4 (constant S_ .f32 0x3F800000#32),
    StableHlo.unary main_cst_4 main_v29 (broadcastInDim S20000 ![] bcast_S_S20000 : (⟨S_, .f32⟩ : BufTy).Contents (Elt F) → (⟨S20000, .f32⟩ : BufTy).Contents (Elt F)),
    StableHlo.binary main_v28 main_v29 main_v30 (maximumf : (⟨S20000, .f32⟩ : BufTy).Contents (Elt F) → (⟨S20000, .f32⟩ : BufTy).Contents (Elt F) → (⟨S20000, .f32⟩ : BufTy).Contents (Elt F)),
    StableHlo.unary main_v30 main_v31 (broadcastInDim S20000x1 ![0] bcast_S20000_S20000x1_0 : (⟨S20000, .f32⟩ : BufTy).Contents (Elt F) → (⟨S20000x1, .f32⟩ : BufTy).Contents (Elt F)),
    StableHlo.unary main_v31 main_v32 (broadcastInDim S20000x256 ![0, 1] bcast_S20000x1_S20000x256_0_1 : (⟨S20000x1, .f32⟩ : BufTy).Contents (Elt F) → (⟨S20000x256, .f32⟩ : BufTy).Contents (Elt F)),
    StableHlo.binary main_v24 main_v32 main_v33 (Host.divf : (⟨S20000x256, .f32⟩ : BufTy).Contents (Elt F) → (⟨S20000x256, .f32⟩ : BufTy).Contents (Elt F) → (⟨S20000x256, .f32⟩ : BufTy).Contents (Elt F)),
    StableHlo.binary main_v7 main_v33 main_v34 (addf : (⟨S20000x256, .f32⟩ : BufTy).Contents (Elt F) → (⟨S20000x256, .f32⟩ : BufTy).Contents (Elt F) → (⟨S20000x256, .f32⟩ : BufTy).Contents (Elt F)),
    StableHlo.unary main_arg2 main_v35 ((extractStridedSlice S1x768x256 ![1, 0, 0] · slices_S2x768x256_S1x768x256_1_0_0) : (⟨S2x768x256, .f32⟩ : BufTy).Contents (Elt F) → (⟨S1x768x256, .f32⟩ : BufTy).Contents (Elt F)),
    StableHlo.reshape main_v35 main_v36 rfl shapeCasts_S1x768x256_S768x256,
    StableHlo.binary main_arg0 main_v36 main_v37 ((fun l r => Host.dotGeneral dot_S20000x768_S768x256_S20000x256_1_0_0_1_n_n none l r) : (⟨S20000x768, .f32⟩ : BufTy).Contents (Elt F) → (⟨S768x256, .f32⟩ : BufTy).Contents (Elt F) → (⟨S20000x256, .f32⟩ : BufTy).Contents (Elt F)),
    StableHlo.nullary main_c_5 (constantI S_ 32 1#32),
    StableHlo.unary main_c_5 main_v38 (broadcastInDim S320000 ![] bcast_S_S320000 : (⟨S_, .i32⟩ : BufTy).Contents (Elt F) → (⟨S320000, .i32⟩ : BufTy).Contents (Elt F)),
    StableHlo.binary main_arg23 main_v38 main_v39 (cmpi .eq : (⟨S320000, .i32⟩ : BufTy).Contents (Elt F) → (⟨S320000, .i32⟩ : BufTy).Contents (Elt F) → (⟨S320000, .i1⟩ : BufTy).Contents (Elt F)),
    StableHlo.unary main_v39 main_v40 (broadcastInDim S320000x1 ![0] bcast_S320000_S320000x1_0 : (⟨S320000, .i1⟩ : BufTy).Contents (Elt F) → (⟨S320000x1, .i1⟩ : BufTy).Contents (Elt F)),
    StableHlo.nullary main_c_6 (constantI S_ 32 0#32),
    StableHlo.unary main_c_6 main_v41 (broadcastInDim S320000 ![] bcast_S_S320000 : (⟨S_, .i32⟩ : BufTy).Contents (Elt F) → (⟨S320000, .i32⟩ : BufTy).Contents (Elt F)),
    StableHlo.binary main_v1 main_v41 main_v42 (cmpi .slt : (⟨S320000, .i32⟩ : BufTy).Contents (Elt F) → (⟨S320000, .i32⟩ : BufTy).Contents (Elt F) → (⟨S320000, .i1⟩ : BufTy).Contents (Elt F)),
    StableHlo.nullary main_c_7 (constantI S_ 32 20000#32),
    StableHlo.unary main_c_7 main_v43 (broadcastInDim S320000 ![] bcast_S_S320000 : (⟨S_, .i32⟩ : BufTy).Contents (Elt F) → (⟨S320000, .i32⟩ : BufTy).Contents (Elt F)),
    StableHlo.binary main_v1 main_v43 main_v44 (addi : (⟨S320000, .i32⟩ : BufTy).Contents (Elt F) → (⟨S320000, .i32⟩ : BufTy).Contents (Elt F) → (⟨S320000, .i32⟩ : BufTy).Contents (Elt F)),
    StableHlo.ternary main_v42 main_v44 main_v1 main_v45 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v45 main_v46 (broadcastInDim S320000x1 ![0] bcast_S320000_S320000x1_0 : (⟨S320000, .i32⟩ : BufTy).Contents (Elt F) → (⟨S320000x1, .i32⟩ : BufTy).Contents (Elt F)),
    StableHlo.binary main_v37 main_v46 main_v47 ((fun x i => Host.gather gather_S20000x256_S320000x1_S320000x256_1_0_n_n_0_1_1256 x i) : (⟨S20000x256, .f32⟩ : BufTy).Contents (Elt F) → (⟨S320000x1, .i32⟩ : BufTy).Contents (Elt F) → (⟨S320000x256, .f32⟩ : BufTy).Contents (Elt F)),
    StableHlo.nullary main_cst_8 (constant S_ .f32 0x00000000#32),
    StableHlo.TRef.unary (.of main_cst_8 : StableHlo.TRef sig ⟨S_, .f32⟩) main_call1.v0 id,
    StableHlo.TRef.unary (.of main_v40 : StableHlo.TRef sig ⟨S320000x1, .i1⟩) main_call1.v1 (broadcastInDim S320000x256 ![0, 1] bcast_S320000x1_S320000x256_0_1),
    StableHlo.TRef.unary main_call1.v0 main_call1.v2 (broadcastInDim S320000x256 ![] bcast_S_S320000x256),
    StableHlo.TRef.ternary main_call1.v1 (.of main_v47 : StableHlo.TRef sig ⟨S320000x256, .f32⟩) main_call1.v2 main_call1.v3 select ]

/-- Window 1 of the reference program: its host operations 67 … 147 of 564 in program order, each
    call's operations written out at the call site over that call's own buffers. -/
abbrev ops1 : List (HloOp τ sig (Elt F)) :=
  [ StableHlo.nullary main_cst_9 (constant S_ .f32 0x00000000#32),
    StableHlo.unary main_cst_9 main_v49 (broadcastInDim S20000x256 ![] bcast_S_S20000x256 : (⟨S_, .f32⟩ : BufTy).Contents (Elt F) → (⟨S20000x256, .f32⟩ : BufTy).Contents (Elt F)),
    StableHlo.unary main_v3 main_v50 (broadcastInDim S320000x1 ![0] bcast_S320000_S320000x1_0 : (⟨S320000, .i32⟩ : BufTy).Contents (Elt F) → (⟨S320000x1, .i32⟩ : BufTy).Contents (Elt F)),
    StableHlo.ternary main_v49 main_v50 main_v48 main_v51 ((fun x i u => Host.scatterAdd scatter_S20000x256_S320000x1_S320000x256_1_0_0_1 x i u) : (⟨S20000x256, .f32⟩ : BufTy).Contents (Elt F) → (⟨S320000x1, .i32⟩ : BufTy).Contents (Elt F) → (⟨S320000x256, .f32⟩ : BufTy).Contents (Elt F) → (⟨S20000x256, .f32⟩ : BufTy).Contents (Elt F)),
    StableHlo.unary main_v39 main_v52 (uitofp .f32 : (⟨S320000, .i1⟩ : BufTy).Contents (Elt F) → (⟨S320000, .f32⟩ : BufTy).Contents (Elt F)),
    StableHlo.nullary main_cst_10 (constant S_ .f32 0x00000000#32),
    StableHlo.unary main_cst_10 main_v53 (broadcastInDim S20000 ![] bcast_S_S20000 : (⟨S_, .f32⟩ : BufTy).Contents (Elt F) → (⟨S20000, .f32⟩ : BufTy).Contents (Elt F)),
    StableHlo.unary main_v3 main_v54 (broadcastInDim S320000x1 ![0] bcast_S320000_S320000x1_0 : (⟨S320000, .i32⟩ : BufTy).Contents (Elt F) → (⟨S320000x1, .i32⟩ : BufTy).Contents (Elt F)),
    StableHlo.ternary main_v53 main_v54 main_v52 main_v55 ((fun x i u => Host.scatterAdd scatter_S20000_S320000x1_S320000_n_0_0_1 x i u) : (⟨S20000, .f32⟩ : BufTy).Contents (Elt F) → (⟨S320000x1, .i32⟩ : BufTy).Contents (Elt F) → (⟨S320000, .f32⟩ : BufTy).Contents (Elt F) → (⟨S20000, .f32⟩ : BufTy).Contents (Elt F)),
    StableHlo.nullary main_cst_11 (constant S_ .f32 0x3F800000#32),
    StableHlo.unary main_cst_11 main_v56 (broadcastInDim S20000 ![] bcast_S_S20000 : (⟨S_, .f32⟩ : BufTy).Contents (Elt F) → (⟨S20000, .f32⟩ : BufTy).Contents (Elt F)),
    StableHlo.binary main_v55 main_v56 main_v57 (maximumf : (⟨S20000, .f32⟩ : BufTy).Contents (Elt F) → (⟨S20000, .f32⟩ : BufTy).Contents (Elt F) → (⟨S20000, .f32⟩ : BufTy).Contents (Elt F)),
    StableHlo.unary main_v57 main_v58 (broadcastInDim S20000x1 ![0] bcast_S20000_S20000x1_0 : (⟨S20000, .f32⟩ : BufTy).Contents (Elt F) → (⟨S20000x1, .f32⟩ : BufTy).Contents (Elt F)),
    StableHlo.unary main_v58 main_v59 (broadcastInDim S20000x256 ![0, 1] bcast_S20000x1_S20000x256_0_1 : (⟨S20000x1, .f32⟩ : BufTy).Contents (Elt F) → (⟨S20000x256, .f32⟩ : BufTy).Contents (Elt F)),
    StableHlo.binary main_v51 main_v59 main_v60 (Host.divf : (⟨S20000x256, .f32⟩ : BufTy).Contents (Elt F) → (⟨S20000x256, .f32⟩ : BufTy).Contents (Elt F) → (⟨S20000x256, .f32⟩ : BufTy).Contents (Elt F)),
    StableHlo.binary main_v34 main_v60 main_v61 (addf : (⟨S20000x256, .f32⟩ : BufTy).Contents (Elt F) → (⟨S20000x256, .f32⟩ : BufTy).Contents (Elt F) → (⟨S20000x256, .f32⟩ : BufTy).Contents (Elt F)),
    StableHlo.nullary main_cst_12 (constant S_ .f32 0x00000000#32),
    StableHlo.binary main_v61 main_cst_12 main_v62 ((fun x v => Host.reduceAdd x v reducesTo_S20000x256_S256_d0 h_S_) : (⟨S20000x256, .f32⟩ : BufTy).Contents (Elt F) → (⟨S_, .f32⟩ : BufTy).Contents (Elt F) → (⟨S256, .f32⟩ : BufTy).Contents (Elt F)),
    StableHlo.nullary main_cst_13 (constant S_ .f32 0x469C4000#32),
    StableHlo.unary main_cst_13 main_v63 (broadcastInDim S256 ![] bcast_S_S256 : (⟨S_, .f32⟩ : BufTy).Contents (Elt F) → (⟨S256, .f32⟩ : BufTy).Contents (Elt F)),
    StableHlo.binary main_v62 main_v63 main_v64 (Host.divf : (⟨S256, .f32⟩ : BufTy).Contents (Elt F) → (⟨S256, .f32⟩ : BufTy).Contents (Elt F) → (⟨S256, .f32⟩ : BufTy).Contents (Elt F)),
    StableHlo.nullary main_c_14 (constantI S_ 32 0#32),
    StableHlo.TRef.nullary main_call2.cst (constant S_ .f32 0x00000000#32),
    StableHlo.TRef.binary (.of main_v61 : StableHlo.TRef sig ⟨S20000x256, .f32⟩) main_call2.cst main_call2.v0 (fun x v => Host.reduceAdd x v reducesTo_S20000x256_S256_d0 h_S_),
    StableHlo.TRef.unary main_call2.v0 main_call2.v1 (broadcastInDim S1x256 ![1] bcast_S256_S1x256_1),
    StableHlo.TRef.nullary main_call2.cst_0 (constant S_ .f32 0x469C4000#32),
    StableHlo.TRef.unary main_call2.cst_0 main_call2.v2 (broadcastInDim S1x256 ![] bcast_S_S1x256),
    StableHlo.TRef.binary main_call2.v1 main_call2.v2 main_call2.v3 Host.divf,
    StableHlo.TRef.unary main_call2.v3 main_call2.v4 (broadcastInDim S20000x256 ![0, 1] bcast_S1x256_S20000x256_0_1),
    StableHlo.TRef.binary (.of main_v61 : StableHlo.TRef sig ⟨S20000x256, .f32⟩) main_call2.v4 main_call2.v5 subf,
    StableHlo.TRef.binary main_call2.v5 main_call2.v5 main_call2.v6 mulf,
    StableHlo.TRef.unary (.of main_c_14 : StableHlo.TRef sig ⟨S_, .i32⟩) main_call2.v7 (sitofp .f32),
    StableHlo.TRef.nullary main_call2.cst_1 (constant S_ .f32 0x469C4000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S20000x256_S256_d0 h_S_),
    StableHlo.TRef.unary main_call2.v8 main_call2.v10 (broadcastInDim S256 ![] bcast_S_S256),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S256 ![] bcast_S_S256),
    StableHlo.TRef.ternary main_call2.v12 main_call2.v11 main_call2.call0.v1 main_call2.call0.v2 (fun p a b => select (broadcastInDim S256 ![] bcast_S_S256 p) a b),
    StableHlo.unary main_v64 main_v66 (broadcastInDim S1x256 ![1] bcast_S256_S1x256_1 : (⟨S256, .f32⟩ : BufTy).Contents (Elt F) → (⟨S1x256, .f32⟩ : BufTy).Contents (Elt F)),
    StableHlo.unary main_v66 main_v67 (broadcastInDim S20000x256 ![0, 1] bcast_S1x256_S20000x256_0_1 : (⟨S1x256, .f32⟩ : BufTy).Contents (Elt F) → (⟨S20000x256, .f32⟩ : BufTy).Contents (Elt F)),
    StableHlo.binary main_v61 main_v67 main_v68 (subf : (⟨S20000x256, .f32⟩ : BufTy).Contents (Elt F) → (⟨S20000x256, .f32⟩ : BufTy).Contents (Elt F) → (⟨S20000x256, .f32⟩ : BufTy).Contents (Elt F)),
    StableHlo.nullary main_cst_15 (constant S_ .f32 0x3727C5AC#32),
    StableHlo.unary main_cst_15 main_v69 (broadcastInDim S256 ![] bcast_S_S256 : (⟨S_, .f32⟩ : BufTy).Contents (Elt F) → (⟨S256, .f32⟩ : BufTy).Contents (Elt F)),
    StableHlo.binary main_v65 main_v69 main_v70 (addf : (⟨S256, .f32⟩ : BufTy).Contents (Elt F) → (⟨S256, .f32⟩ : BufTy).Contents (Elt F) → (⟨S256, .f32⟩ : BufTy).Contents (Elt F)),
    StableHlo.unary main_v70 main_v71 (Host.rsqrt : (⟨S256, .f32⟩ : BufTy).Contents (Elt F) → (⟨S256, .f32⟩ : BufTy).Contents (Elt F)),
    StableHlo.unary main_v71 main_v72 (broadcastInDim S1x256 ![1] bcast_S256_S1x256_1 : (⟨S256, .f32⟩ : BufTy).Contents (Elt F) → (⟨S1x256, .f32⟩ : BufTy).Contents (Elt F)),
    StableHlo.unary main_v72 main_v73 (broadcastInDim S20000x256 ![0, 1] bcast_S1x256_S20000x256_0_1 : (⟨S1x256, .f32⟩ : BufTy).Contents (Elt F) → (⟨S20000x256, .f32⟩ : BufTy).Contents (Elt F)),
    StableHlo.binary main_v68 main_v73 main_v74 (mulf : (⟨S20000x256, .f32⟩ : BufTy).Contents (Elt F) → (⟨S20000x256, .f32⟩ : BufTy).Contents (Elt F) → (⟨S20000x256, .f32⟩ : BufTy).Contents (Elt F)),
    StableHlo.unary main_arg14 main_v75 (broadcastInDim S1x256 ![1] bcast_S256_S1x256_1 : (⟨S256, .f32⟩ : BufTy).Contents (Elt F) → (⟨S1x256, .f32⟩ : BufTy).Contents (Elt F)),
    StableHlo.unary main_v75 main_v76 (broadcastInDim S20000x256 ![0, 1] bcast_S1x256_S20000x256_0_1 : (⟨S1x256, .f32⟩ : BufTy).Contents (Elt F) → (⟨S20000x256, .f32⟩ : BufTy).Contents (Elt F)),
    StableHlo.binary main_v74 main_v76 main_v77 (mulf : (⟨S20000x256, .f32⟩ : BufTy).Contents (Elt F) → (⟨S20000x256, .f32⟩ : BufTy).Contents (Elt F) → (⟨S20000x256, .f32⟩ : BufTy).Contents (Elt F)),
    StableHlo.unary main_arg15 main_v78 (broadcastInDim S1x256 ![1] bcast_S256_S1x256_1 : (⟨S256, .f32⟩ : BufTy).Contents (Elt F) → (⟨S1x256, .f32⟩ : BufTy).Contents (Elt F)),
    StableHlo.unary main_v78 main_v79 (broadcastInDim S20000x256 ![0, 1] bcast_S1x256_S20000x256_0_1 : (⟨S1x256, .f32⟩ : BufTy).Contents (Elt F) → (⟨S20000x256, .f32⟩ : BufTy).Contents (Elt F)),
    StableHlo.binary main_v77 main_v79 main_v80 (addf : (⟨S20000x256, .f32⟩ : BufTy).Contents (Elt F) → (⟨S20000x256, .f32⟩ : BufTy).Contents (Elt F) → (⟨S20000x256, .f32⟩ : BufTy).Contents (Elt F)),
    StableHlo.nullary main_cst_16 (constant S_ .f32 0x00000000#32),
    StableHlo.unary main_cst_16 main_v81 (broadcastInDim S20000x256 ![] bcast_S_S20000x256 : (⟨S_, .f32⟩ : BufTy).Contents (Elt F) → (⟨S20000x256, .f32⟩ : BufTy).Contents (Elt F)),
    StableHlo.binary main_v80 main_v81 main_v82 (cmpf .oge : (⟨S20000x256, .f32⟩ : BufTy).Contents (Elt F) → (⟨S20000x256, .f32⟩ : BufTy).Contents (Elt F) → (⟨S20000x256, .i1⟩ : BufTy).Contents (Elt F)),
    StableHlo.nullary main_cst_17 (constant S_ .f32 0x3C23D70A#32),
    StableHlo.unary main_cst_17 main_v83 (broadcastInDim S20000x256 ![] bcast_S_S20000x256 : (⟨S_, .f32⟩ : BufTy).Contents (Elt F) → (⟨S20000x256, .f32⟩ : BufTy).Contents (Elt F)),
    StableHlo.binary main_v83 main_v80 main_v84 (mulf : (⟨S20000x256, .f32⟩ : BufTy).Contents (Elt F) → (⟨S20000x256, .f32⟩ : BufTy).Contents (Elt F) → (⟨S20000x256, .f32⟩ : BufTy).Contents (Elt F)),
    StableHlo.TRef.ternary (.of main_v82 : StableHlo.TRef sig ⟨S20000x256, .i1⟩) (.of main_v80 : StableHlo.TRef sig ⟨S20000x256, .f32⟩) (.of main_v84 : StableHlo.TRef sig ⟨S20000x256, .f32⟩) main_call3.v0 select,
    StableHlo.unary main_arg22 main_v86 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v86 main_v87 rfl shapeCasts_S1x320000_S320000,
    StableHlo.unary main_arg22 main_v88 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v88 main_v89 rfl shapeCasts_S1x320000_S320000,
    StableHlo.binary main_v85 main_arg6 main_v90 ((fun l r => Host.dotGeneral dot_S20000x256_S256x128_S20000x128_1_0_0_1_n_n none l r) : (⟨S20000x256, .f32⟩ : BufTy).Contents (Elt F) → (⟨S256x128, .f32⟩ : BufTy).Contents (Elt F) → (⟨S20000x128, .f32⟩ : BufTy).Contents (Elt F)),
    StableHlo.unary main_arg7 main_v91 (broadcastInDim S1x128 ![1] bcast_S128_S1x128_1 : (⟨S128, .f32⟩ : BufTy).Contents (Elt F) → (⟨S1x128, .f32⟩ : BufTy).Contents (Elt F)),
    StableHlo.unary main_v91 main_v92 (broadcastInDim S20000x128 ![0, 1] bcast_S1x128_S20000x128_0_1 : (⟨S1x128, .f32⟩ : BufTy).Contents (Elt F) → (⟨S20000x128, .f32⟩ : BufTy).Contents (Elt F)),
    StableHlo.binary main_v90 main_v92 main_v93 (addf : (⟨S20000x128, .f32⟩ : BufTy).Contents (Elt F) → (⟨S20000x128, .f32⟩ : BufTy).Contents (Elt F) → (⟨S20000x128, .f32⟩ : BufTy).Contents (Elt F)),
    StableHlo.unary main_arg5 main_v94 ((extractStridedSlice S1x256x128 ![0, 0, 0] · slices_S2x256x128_S1x256x128_0_0_0) : (⟨S2x256x128, .f32⟩ : BufTy).Contents (Elt F) → (⟨S1x256x128, .f32⟩ : BufTy).Contents (Elt F)),
    StableHlo.reshape main_v94 main_v95 rfl shapeCasts_S1x256x128_S256x128,
    StableHlo.binary main_v85 main_v95 main_v96 ((fun l r => Host.dotGeneral dot_S20000x256_S256x128_S20000x128_1_0_0_1_n_n none l r) : (⟨S20000x256, .f32⟩ : BufTy).Contents (Elt F) → (⟨S256x128, .f32⟩ : BufTy).Contents (Elt F) → (⟨S20000x128, .f32⟩ : BufTy).Contents (Elt F)),
    StableHlo.nullary main_c_18 (constantI S_ 32 0#32),
    StableHlo.unary main_c_18 main_v97 (broadcastInDim S320000 ![] bcast_S_S320000 : (⟨S_, .i32⟩ : BufTy).Contents (Elt F) → (⟨S320000, .i32⟩ : BufTy).Contents (Elt F)),
    StableHlo.binary main_arg23 main_v97 main_v98 (cmpi .eq : (⟨S320000, .i32⟩ : BufTy).Contents (Elt F) → (⟨S320000, .i32⟩ : BufTy).Contents (Elt F) → (⟨S320000, .i1⟩ : BufTy).Contents (Elt F)) ]

/-- Window 2 of the reference program: its host operations 148 … 213 of 564 in program order, each
    call's operations written out at the call site over that call's own buffers. -/
abbrev ops2 : List (HloOp τ sig (Elt F)) :=
  [ StableHlo.unary main_v98 main_v99 (broadcastInDim S320000x1 ![0] bcast_S320000_S320000x1_0 : (⟨S320000, .i1⟩ : BufTy).Contents (Elt F) → (⟨S320000x1, .i1⟩ : BufTy).Contents (Elt F)),
    StableHlo.nullary main_c_19 (constantI S_ 32 0#32),
    StableHlo.unary main_c_19 main_v100 (broadcastInDim S320000 ![] bcast_S_S320000 : (⟨S_, .i32⟩ : BufTy).Contents (Elt F) → (⟨S320000, .i32⟩ : BufTy).Contents (Elt F)),
    StableHlo.binary main_v87 main_v100 main_v101 (cmpi .slt : (⟨S320000, .i32⟩ : BufTy).Contents (Elt F) → (⟨S320000, .i32⟩ : BufTy).Contents (Elt F) → (⟨S320000, .i1⟩ : BufTy).Contents (Elt F)),
    StableHlo.nullary main_c_20 (constantI S_ 32 20000#32),
    StableHlo.unary main_c_20 main_v102 (broadcastInDim S320000 ![] bcast_S_S320000 : (⟨S_, .i32⟩ : BufTy).Contents (Elt F) → (⟨S320000, .i32⟩ : BufTy).Contents (Elt F)),
    StableHlo.binary main_v87 main_v102 main_v103 (addi : (⟨S320000, .i32⟩ : BufTy).Contents (Elt F) → (⟨S320000, .i32⟩ : BufTy).Contents (Elt F) → (⟨S320000, .i32⟩ : BufTy).Contents (Elt F)),
    StableHlo.ternary main_v101 main_v103 main_v87 main_v104 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v104 main_v105 (broadcastInDim S320000x1 ![0] bcast_S320000_S320000x1_0 : (⟨S320000, .i32⟩ : BufTy).Contents (Elt F) → (⟨S320000x1, .i32⟩ : BufTy).Contents (Elt F)),
    StableHlo.binary main_v96 main_v105 main_v106 ((fun x i => Host.gather gather_S20000x128_S320000x1_S320000x128_1_0_n_n_0_1_1128 x i) : (⟨S20000x128, .f32⟩ : BufTy).Contents (Elt F) → (⟨S320000x1, .i32⟩ : BufTy).Contents (Elt F) → (⟨S320000x128, .f32⟩ : BufTy).Contents (Elt F)),
    StableHlo.nullary main_cst_21 (constant S_ .f32 0x00000000#32),
    StableHlo.TRef.unary (.of main_cst_21 : StableHlo.TRef sig ⟨S_, .f32⟩) main_call4.v0 id,
    StableHlo.TRef.unary (.of main_v99 : StableHlo.TRef sig ⟨S320000x1, .i1⟩) main_call4.v1 (broadcastInDim S320000x128 ![0, 1] bcast_S320000x1_S320000x128_0_1),
    StableHlo.TRef.unary main_call4.v0 main_call4.v2 (broadcastInDim S320000x128 ![] bcast_S_S320000x128),
    StableHlo.TRef.ternary main_call4.v1 (.of main_v106 : StableHlo.TRef sig ⟨S320000x128, .f32⟩) main_call4.v2 main_call4.v3 select,
    StableHlo.nullary main_cst_22 (constant S_ .f32 0x00000000#32),
    StableHlo.unary main_cst_22 main_v108 (broadcastInDim S20000x128 ![] bcast_S_S20000x128 : (⟨S_, .f32⟩ : BufTy).Contents (Elt F) → (⟨S20000x128, .f32⟩ : BufTy).Contents (Elt F)),
    StableHlo.unary main_v89 main_v109 (broadcastInDim S320000x1 ![0] bcast_S320000_S320000x1_0 : (⟨S320000, .i32⟩ : BufTy).Contents (Elt F) → (⟨S320000x1, .i32⟩ : BufTy).Contents (Elt F)),
    StableHlo.ternary main_v108 main_v109 main_v107 main_v110 ((fun x i u => Host.scatterAdd scatter_S20000x128_S320000x1_S320000x128_1_0_0_1 x i u) : (⟨S20000x128, .f32⟩ : BufTy).Contents (Elt F) → (⟨S320000x1, .i32⟩ : BufTy).Contents (Elt F) → (⟨S320000x128, .f32⟩ : BufTy).Contents (Elt F) → (⟨S20000x128, .f32⟩ : BufTy).Contents (Elt F)),
    StableHlo.unary main_v98 main_v111 (uitofp .f32 : (⟨S320000, .i1⟩ : BufTy).Contents (Elt F) → (⟨S320000, .f32⟩ : BufTy).Contents (Elt F)),
    StableHlo.nullary main_cst_23 (constant S_ .f32 0x00000000#32),
    StableHlo.unary main_cst_23 main_v112 (broadcastInDim S20000 ![] bcast_S_S20000 : (⟨S_, .f32⟩ : BufTy).Contents (Elt F) → (⟨S20000, .f32⟩ : BufTy).Contents (Elt F)),
    StableHlo.unary main_v89 main_v113 (broadcastInDim S320000x1 ![0] bcast_S320000_S320000x1_0 : (⟨S320000, .i32⟩ : BufTy).Contents (Elt F) → (⟨S320000x1, .i32⟩ : BufTy).Contents (Elt F)),
    StableHlo.ternary main_v112 main_v113 main_v111 main_v114 ((fun x i u => Host.scatterAdd scatter_S20000_S320000x1_S320000_n_0_0_1 x i u) : (⟨S20000, .f32⟩ : BufTy).Contents (Elt F) → (⟨S320000x1, .i32⟩ : BufTy).Contents (Elt F) → (⟨S320000, .f32⟩ : BufTy).Contents (Elt F) → (⟨S20000, .f32⟩ : BufTy).Contents (Elt F)),
    StableHlo.nullary main_cst_24 (constant S_ .f32 0x3F800000#32),
    StableHlo.unary main_cst_24 main_v115 (broadcastInDim S20000 ![] bcast_S_S20000 : (⟨S_, .f32⟩ : BufTy).Contents (Elt F) → (⟨S20000, .f32⟩ : BufTy).Contents (Elt F)),
    StableHlo.binary main_v114 main_v115 main_v116 (maximumf : (⟨S20000, .f32⟩ : BufTy).Contents (Elt F) → (⟨S20000, .f32⟩ : BufTy).Contents (Elt F) → (⟨S20000, .f32⟩ : BufTy).Contents (Elt F)),
    StableHlo.unary main_v116 main_v117 (broadcastInDim S20000x1 ![0] bcast_S20000_S20000x1_0 : (⟨S20000, .f32⟩ : BufTy).Contents (Elt F) → (⟨S20000x1, .f32⟩ : BufTy).Contents (Elt F)),
    StableHlo.unary main_v117 main_v118 (broadcastInDim S20000x128 ![0, 1] bcast_S20000x1_S20000x128_0_1 : (⟨S20000x1, .f32⟩ : BufTy).Contents (Elt F) → (⟨S20000x128, .f32⟩ : BufTy).Contents (Elt F)),
    StableHlo.binary main_v110 main_v118 main_v119 (Host.divf : (⟨S20000x128, .f32⟩ : BufTy).Contents (Elt F) → (⟨S20000x128, .f32⟩ : BufTy).Contents (Elt F) → (⟨S20000x128, .f32⟩ : BufTy).Contents (Elt F)),
    StableHlo.binary main_v93 main_v119 main_v120 (addf : (⟨S20000x128, .f32⟩ : BufTy).Contents (Elt F) → (⟨S20000x128, .f32⟩ : BufTy).Contents (Elt F) → (⟨S20000x128, .f32⟩ : BufTy).Contents (Elt F)),
    StableHlo.unary main_arg5 main_v121 ((extractStridedSlice S1x256x128 ![1, 0, 0] · slices_S2x256x128_S1x256x128_1_0_0) : (⟨S2x256x128, .f32⟩ : BufTy).Contents (Elt F) → (⟨S1x256x128, .f32⟩ : BufTy).Contents (Elt F)),
    StableHlo.reshape main_v121 main_v122 rfl shapeCasts_S1x256x128_S256x128,
    StableHlo.binary main_v85 main_v122 main_v123 ((fun l r => Host.dotGeneral dot_S20000x256_S256x128_S20000x128_1_0_0_1_n_n none l r) : (⟨S20000x256, .f32⟩ : BufTy).Contents (Elt F) → (⟨S256x128, .f32⟩ : BufTy).Contents (Elt F) → (⟨S20000x128, .f32⟩ : BufTy).Contents (Elt F)),
    StableHlo.nullary main_c_25 (constantI S_ 32 1#32),
    StableHlo.unary main_c_25 main_v124 (broadcastInDim S320000 ![] bcast_S_S320000 : (⟨S_, .i32⟩ : BufTy).Contents (Elt F) → (⟨S320000, .i32⟩ : BufTy).Contents (Elt F)),
    StableHlo.binary main_arg23 main_v124 main_v125 (cmpi .eq : (⟨S320000, .i32⟩ : BufTy).Contents (Elt F) → (⟨S320000, .i32⟩ : BufTy).Contents (Elt F) → (⟨S320000, .i1⟩ : BufTy).Contents (Elt F)),
    StableHlo.unary main_v125 main_v126 (broadcastInDim S320000x1 ![0] bcast_S320000_S320000x1_0 : (⟨S320000, .i1⟩ : BufTy).Contents (Elt F) → (⟨S320000x1, .i1⟩ : BufTy).Contents (Elt F)),
    StableHlo.nullary main_c_26 (constantI S_ 32 0#32),
    StableHlo.unary main_c_26 main_v127 (broadcastInDim S320000 ![] bcast_S_S320000 : (⟨S_, .i32⟩ : BufTy).Contents (Elt F) → (⟨S320000, .i32⟩ : BufTy).Contents (Elt F)),
    StableHlo.binary main_v87 main_v127 main_v128 (cmpi .slt : (⟨S320000, .i32⟩ : BufTy).Contents (Elt F) → (⟨S320000, .i32⟩ : BufTy).Contents (Elt F) → (⟨S320000, .i1⟩ : BufTy).Contents (Elt F)),
    StableHlo.nullary main_c_27 (constantI S_ 32 20000#32),
    StableHlo.unary main_c_27 main_v129 (broadcastInDim S320000 ![] bcast_S_S320000 : (⟨S_, .i32⟩ : BufTy).Contents (Elt F) → (⟨S320000, .i32⟩ : BufTy).Contents (Elt F)),
    StableHlo.binary main_v87 main_v129 main_v130 (addi : (⟨S320000, .i32⟩ : BufTy).Contents (Elt F) → (⟨S320000, .i32⟩ : BufTy).Contents (Elt F) → (⟨S320000, .i32⟩ : BufTy).Contents (Elt F)),
    StableHlo.ternary main_v128 main_v130 main_v87 main_v131 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v131 main_v132 (broadcastInDim S320000x1 ![0] bcast_S320000_S320000x1_0 : (⟨S320000, .i32⟩ : BufTy).Contents (Elt F) → (⟨S320000x1, .i32⟩ : BufTy).Contents (Elt F)),
    StableHlo.binary main_v123 main_v132 main_v133 ((fun x i => Host.gather gather_S20000x128_S320000x1_S320000x128_1_0_n_n_0_1_1128 x i) : (⟨S20000x128, .f32⟩ : BufTy).Contents (Elt F) → (⟨S320000x1, .i32⟩ : BufTy).Contents (Elt F) → (⟨S320000x128, .f32⟩ : BufTy).Contents (Elt F)),
    StableHlo.nullary main_cst_28 (constant S_ .f32 0x00000000#32),
    StableHlo.TRef.unary (.of main_cst_28 : StableHlo.TRef sig ⟨S_, .f32⟩) main_call5.v0 id,
    StableHlo.TRef.unary (.of main_v126 : StableHlo.TRef sig ⟨S320000x1, .i1⟩) main_call5.v1 (broadcastInDim S320000x128 ![0, 1] bcast_S320000x1_S320000x128_0_1),
    StableHlo.TRef.unary main_call5.v0 main_call5.v2 (broadcastInDim S320000x128 ![] bcast_S_S320000x128),
    StableHlo.TRef.ternary main_call5.v1 (.of main_v133 : StableHlo.TRef sig ⟨S320000x128, .f32⟩) main_call5.v2 main_call5.v3 select,
    StableHlo.nullary main_cst_29 (constant S_ .f32 0x00000000#32),
    StableHlo.unary main_cst_29 main_v135 (broadcastInDim S20000x128 ![] bcast_S_S20000x128 : (⟨S_, .f32⟩ : BufTy).Contents (Elt F) → (⟨S20000x128, .f32⟩ : BufTy).Contents (Elt F)),
    StableHlo.unary main_v89 main_v136 (broadcastInDim S320000x1 ![0] bcast_S320000_S320000x1_0 : (⟨S320000, .i32⟩ : BufTy).Contents (Elt F) → (⟨S320000x1, .i32⟩ : BufTy).Contents (Elt F)),
    StableHlo.ternary main_v135 main_v136 main_v134 main_v137 ((fun x i u => Host.scatterAdd scatter_S20000x128_S320000x1_S320000x128_1_0_0_1 x i u) : (⟨S20000x128, .f32⟩ : BufTy).Contents (Elt F) → (⟨S320000x1, .i32⟩ : BufTy).Contents (Elt F) → (⟨S320000x128, .f32⟩ : BufTy).Contents (Elt F) → (⟨S20000x128, .f32⟩ : BufTy).Contents (Elt F)),
    StableHlo.unary main_v125 main_v138 (uitofp .f32 : (⟨S320000, .i1⟩ : BufTy).Contents (Elt F) → (⟨S320000, .f32⟩ : BufTy).Contents (Elt F)),
    StableHlo.nullary main_cst_30 (constant S_ .f32 0x00000000#32),
    StableHlo.unary main_cst_30 main_v139 (broadcastInDim S20000 ![] bcast_S_S20000 : (⟨S_, .f32⟩ : BufTy).Contents (Elt F) → (⟨S20000, .f32⟩ : BufTy).Contents (Elt F)),
    StableHlo.unary main_v89 main_v140 (broadcastInDim S320000x1 ![0] bcast_S320000_S320000x1_0 : (⟨S320000, .i32⟩ : BufTy).Contents (Elt F) → (⟨S320000x1, .i32⟩ : BufTy).Contents (Elt F)),
    StableHlo.ternary main_v139 main_v140 main_v138 main_v141 ((fun x i u => Host.scatterAdd scatter_S20000_S320000x1_S320000_n_0_0_1 x i u) : (⟨S20000, .f32⟩ : BufTy).Contents (Elt F) → (⟨S320000x1, .i32⟩ : BufTy).Contents (Elt F) → (⟨S320000, .f32⟩ : BufTy).Contents (Elt F) → (⟨S20000, .f32⟩ : BufTy).Contents (Elt F)),
    StableHlo.nullary main_cst_31 (constant S_ .f32 0x3F800000#32),
    StableHlo.unary main_cst_31 main_v142 (broadcastInDim S20000 ![] bcast_S_S20000 : (⟨S_, .f32⟩ : BufTy).Contents (Elt F) → (⟨S20000, .f32⟩ : BufTy).Contents (Elt F)),
    StableHlo.binary main_v141 main_v142 main_v143 (maximumf : (⟨S20000, .f32⟩ : BufTy).Contents (Elt F) → (⟨S20000, .f32⟩ : BufTy).Contents (Elt F) → (⟨S20000, .f32⟩ : BufTy).Contents (Elt F)),
    StableHlo.unary main_v143 main_v144 (broadcastInDim S20000x1 ![0] bcast_S20000_S20000x1_0 : (⟨S20000, .f32⟩ : BufTy).Contents (Elt F) → (⟨S20000x1, .f32⟩ : BufTy).Contents (Elt F)),
    StableHlo.unary main_v144 main_v145 (broadcastInDim S20000x128 ![0, 1] bcast_S20000x1_S20000x128_0_1 : (⟨S20000x1, .f32⟩ : BufTy).Contents (Elt F) → (⟨S20000x128, .f32⟩ : BufTy).Contents (Elt F)) ]

/-- Window 3 of the reference program: its host operations 214 … 294 of 564 in program order, each
    call's operations written out at the call site over that call's own buffers. -/
abbrev ops3 : List (HloOp τ sig (Elt F)) :=
  [ StableHlo.binary main_v137 main_v145 main_v146 (Host.divf : (⟨S20000x128, .f32⟩ : BufTy).Contents (Elt F) → (⟨S20000x128, .f32⟩ : BufTy).Contents (Elt F) → (⟨S20000x128, .f32⟩ : BufTy).Contents (Elt F)),
    StableHlo.binary main_v120 main_v146 main_v147 (addf : (⟨S20000x128, .f32⟩ : BufTy).Contents (Elt F) → (⟨S20000x128, .f32⟩ : BufTy).Contents (Elt F) → (⟨S20000x128, .f32⟩ : BufTy).Contents (Elt F)),
    StableHlo.nullary main_cst_32 (constant S_ .f32 0x00000000#32),
    StableHlo.binary main_v147 main_cst_32 main_v148 ((fun x v => Host.reduceAdd x v reducesTo_S20000x128_S128_d0 h_S_) : (⟨S20000x128, .f32⟩ : BufTy).Contents (Elt F) → (⟨S_, .f32⟩ : BufTy).Contents (Elt F) → (⟨S128, .f32⟩ : BufTy).Contents (Elt F)),
    StableHlo.nullary main_cst_33 (constant S_ .f32 0x469C4000#32),
    StableHlo.unary main_cst_33 main_v149 (broadcastInDim S128 ![] bcast_S_S128 : (⟨S_, .f32⟩ : BufTy).Contents (Elt F) → (⟨S128, .f32⟩ : BufTy).Contents (Elt F)),
    StableHlo.binary main_v148 main_v149 main_v150 (Host.divf : (⟨S128, .f32⟩ : BufTy).Contents (Elt F) → (⟨S128, .f32⟩ : BufTy).Contents (Elt F) → (⟨S128, .f32⟩ : BufTy).Contents (Elt F)),
    StableHlo.nullary main_c_34 (constantI S_ 32 0#32),
    StableHlo.TRef.nullary main_call6.cst (constant S_ .f32 0x00000000#32),
    StableHlo.TRef.binary (.of main_v147 : StableHlo.TRef sig ⟨S20000x128, .f32⟩) main_call6.cst main_call6.v0 (fun x v => Host.reduceAdd x v reducesTo_S20000x128_S128_d0 h_S_),
    StableHlo.TRef.unary main_call6.v0 main_call6.v1 (broadcastInDim S1x128 ![1] bcast_S128_S1x128_1),
    StableHlo.TRef.nullary main_call6.cst_0 (constant S_ .f32 0x469C4000#32),
    StableHlo.TRef.unary main_call6.cst_0 main_call6.v2 (broadcastInDim S1x128 ![] bcast_S_S1x128),
    StableHlo.TRef.binary main_call6.v1 main_call6.v2 main_call6.v3 Host.divf,
    StableHlo.TRef.unary main_call6.v3 main_call6.v4 (broadcastInDim S20000x128 ![0, 1] bcast_S1x128_S20000x128_0_1),
    StableHlo.TRef.binary (.of main_v147 : StableHlo.TRef sig ⟨S20000x128, .f32⟩) main_call6.v4 main_call6.v5 subf,
    StableHlo.TRef.binary main_call6.v5 main_call6.v5 main_call6.v6 mulf,
    StableHlo.TRef.unary (.of main_c_34 : StableHlo.TRef sig ⟨S_, .i32⟩) main_call6.v7 (sitofp .f32),
    StableHlo.TRef.nullary main_call6.cst_1 (constant S_ .f32 0x469C4000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S20000x128_S128_d0 h_S_),
    StableHlo.TRef.unary main_call6.v8 main_call6.v10 (broadcastInDim S128 ![] bcast_S_S128),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S128 ![] bcast_S_S128),
    StableHlo.TRef.ternary main_call6.v12 main_call6.v11 main_call6.call0.v1 main_call6.call0.v2 (fun p a b => select (broadcastInDim S128 ![] bcast_S_S128 p) a b),
    StableHlo.unary main_v150 main_v152 (broadcastInDim S1x128 ![1] bcast_S128_S1x128_1 : (⟨S128, .f32⟩ : BufTy).Contents (Elt F) → (⟨S1x128, .f32⟩ : BufTy).Contents (Elt F)),
    StableHlo.unary main_v152 main_v153 (broadcastInDim S20000x128 ![0, 1] bcast_S1x128_S20000x128_0_1 : (⟨S1x128, .f32⟩ : BufTy).Contents (Elt F) → (⟨S20000x128, .f32⟩ : BufTy).Contents (Elt F)),
    StableHlo.binary main_v147 main_v153 main_v154 (subf : (⟨S20000x128, .f32⟩ : BufTy).Contents (Elt F) → (⟨S20000x128, .f32⟩ : BufTy).Contents (Elt F) → (⟨S20000x128, .f32⟩ : BufTy).Contents (Elt F)),
    StableHlo.nullary main_cst_35 (constant S_ .f32 0x3727C5AC#32),
    StableHlo.unary main_cst_35 main_v155 (broadcastInDim S128 ![] bcast_S_S128 : (⟨S_, .f32⟩ : BufTy).Contents (Elt F) → (⟨S128, .f32⟩ : BufTy).Contents (Elt F)),
    StableHlo.binary main_v151 main_v155 main_v156 (addf : (⟨S128, .f32⟩ : BufTy).Contents (Elt F) → (⟨S128, .f32⟩ : BufTy).Contents (Elt F) → (⟨S128, .f32⟩ : BufTy).Contents (Elt F)),
    StableHlo.unary main_v156 main_v157 (Host.rsqrt : (⟨S128, .f32⟩ : BufTy).Contents (Elt F) → (⟨S128, .f32⟩ : BufTy).Contents (Elt F)),
    StableHlo.unary main_v157 main_v158 (broadcastInDim S1x128 ![1] bcast_S128_S1x128_1 : (⟨S128, .f32⟩ : BufTy).Contents (Elt F) → (⟨S1x128, .f32⟩ : BufTy).Contents (Elt F)),
    StableHlo.unary main_v158 main_v159 (broadcastInDim S20000x128 ![0, 1] bcast_S1x128_S20000x128_0_1 : (⟨S1x128, .f32⟩ : BufTy).Contents (Elt F) → (⟨S20000x128, .f32⟩ : BufTy).Contents (Elt F)),
    StableHlo.binary main_v154 main_v159 main_v160 (mulf : (⟨S20000x128, .f32⟩ : BufTy).Contents (Elt F) → (⟨S20000x128, .f32⟩ : BufTy).Contents (Elt F) → (⟨S20000x128, .f32⟩ : BufTy).Contents (Elt F)),
    StableHlo.unary main_arg16 main_v161 (broadcastInDim S1x128 ![1] bcast_S128_S1x128_1 : (⟨S128, .f32⟩ : BufTy).Contents (Elt F) → (⟨S1x128, .f32⟩ : BufTy).Contents (Elt F)),
    StableHlo.unary main_v161 main_v162 (broadcastInDim S20000x128 ![0, 1] bcast_S1x128_S20000x128_0_1 : (⟨S1x128, .f32⟩ : BufTy).Contents (Elt F) → (⟨S20000x128, .f32⟩ : BufTy).Contents (Elt F)),
    StableHlo.binary main_v160 main_v162 main_v163 (mulf : (⟨S20000x128, .f32⟩ : BufTy).Contents (Elt F) → (⟨S20000x128, .f32⟩ : BufTy).Contents (Elt F) → (⟨S20000x128, .f32⟩ : BufTy).Contents (Elt F)),
    StableHlo.unary main_arg17 main_v164 (broadcastInDim S1x128 ![1] bcast_S128_S1x128_1 : (⟨S128, .f32⟩ : BufTy).Contents (Elt F) → (⟨S1x128, .f32⟩ : BufTy).Contents (Elt F)),
    StableHlo.unary main_v164 main_v165 (broadcastInDim S20000x128 ![0, 1] bcast_S1x128_S20000x128_0_1 : (⟨S1x128, .f32⟩ : BufTy).Contents (Elt F) → (⟨S20000x128, .f32⟩ : BufTy).Contents (Elt F)),
    StableHlo.binary main_v163 main_v165 main_v166 (addf : (⟨S20000x128, .f32⟩ : BufTy).Contents (Elt F) → (⟨S20000x128, .f32⟩ : BufTy).Contents (Elt F) → (⟨S20000x128, .f32⟩ : BufTy).Contents (Elt F)),
    StableHlo.nullary main_cst_36 (constant S_ .f32 0x00000000#32),
    StableHlo.unary main_cst_36 main_v167 (broadcastInDim S20000x128 ![] bcast_S_S20000x128 : (⟨S_, .f32⟩ : BufTy).Contents (Elt F) → (⟨S20000x128, .f32⟩ : BufTy).Contents (Elt F)),
    StableHlo.binary main_v166 main_v167 main_v168 (cmpf .oge : (⟨S20000x128, .f32⟩ : BufTy).Contents (Elt F) → (⟨S20000x128, .f32⟩ : BufTy).Contents (Elt F) → (⟨S20000x128, .i1⟩ : BufTy).Contents (Elt F)),
    StableHlo.nullary main_cst_37 (constant S_ .f32 0x3C23D70A#32),
    StableHlo.unary main_cst_37 main_v169 (broadcastInDim S20000x128 ![] bcast_S_S20000x128 : (⟨S_, .f32⟩ : BufTy).Contents (Elt F) → (⟨S20000x128, .f32⟩ : BufTy).Contents (Elt F)),
    StableHlo.binary main_v169 main_v166 main_v170 (mulf : (⟨S20000x128, .f32⟩ : BufTy).Contents (Elt F) → (⟨S20000x128, .f32⟩ : BufTy).Contents (Elt F) → (⟨S20000x128, .f32⟩ : BufTy).Contents (Elt F)),
    StableHlo.TRef.ternary (.of main_v168 : StableHlo.TRef sig ⟨S20000x128, .i1⟩) (.of main_v166 : StableHlo.TRef sig ⟨S20000x128, .f32⟩) (.of main_v170 : StableHlo.TRef sig ⟨S20000x128, .f32⟩) main_call7.v0 select,
    StableHlo.nullary main_cst_38 (constant S_ .f32 0x00000000#32),
    StableHlo.unary main_cst_38 main_v172 (broadcastInDim S64x128 ![] bcast_S_S64x128 : (⟨S_, .f32⟩ : BufTy).Contents (Elt F) → (⟨S64x128, .f32⟩ : BufTy).Contents (Elt F)),
    StableHlo.unary main_arg24 main_v173 (broadcastInDim S20000x1 ![0] bcast_S20000_S20000x1_0 : (⟨S20000, .i32⟩ : BufTy).Contents (Elt F) → (⟨S20000x1, .i32⟩ : BufTy).Contents (Elt F)),
    StableHlo.ternary main_v172 main_v173 main_v171 main_v174 ((fun x i u => Host.scatterAdd scatter_S64x128_S20000x1_S20000x128_1_0_0_1 x i u) : (⟨S64x128, .f32⟩ : BufTy).Contents (Elt F) → (⟨S20000x1, .i32⟩ : BufTy).Contents (Elt F) → (⟨S20000x128, .f32⟩ : BufTy).Contents (Elt F) → (⟨S64x128, .f32⟩ : BufTy).Contents (Elt F)),
    StableHlo.nullary main_cst_39 (constant S_ .f32 0x3F800000#32),
    StableHlo.unary main_cst_39 main_v175 (broadcastInDim S20000 ![] bcast_S_S20000 : (⟨S_, .f32⟩ : BufTy).Contents (Elt F) → (⟨S20000, .f32⟩ : BufTy).Contents (Elt F)),
    StableHlo.nullary main_cst_40 (constant S_ .f32 0x00000000#32),
    StableHlo.unary main_cst_40 main_v176 (broadcastInDim S64 ![] bcast_S_S64 : (⟨S_, .f32⟩ : BufTy).Contents (Elt F) → (⟨S64, .f32⟩ : BufTy).Contents (Elt F)),
    StableHlo.unary main_arg24 main_v177 (broadcastInDim S20000x1 ![0] bcast_S20000_S20000x1_0 : (⟨S20000, .i32⟩ : BufTy).Contents (Elt F) → (⟨S20000x1, .i32⟩ : BufTy).Contents (Elt F)),
    StableHlo.ternary main_v176 main_v177 main_v175 main_v178 ((fun x i u => Host.scatterAdd scatter_S64_S20000x1_S20000_n_0_0_1 x i u) : (⟨S64, .f32⟩ : BufTy).Contents (Elt F) → (⟨S20000x1, .i32⟩ : BufTy).Contents (Elt F) → (⟨S20000, .f32⟩ : BufTy).Contents (Elt F) → (⟨S64, .f32⟩ : BufTy).Contents (Elt F)),
    StableHlo.nullary main_cst_41 (constant S_ .f32 0x3F800000#32),
    StableHlo.unary main_cst_41 main_v179 (broadcastInDim S64 ![] bcast_S_S64 : (⟨S_, .f32⟩ : BufTy).Contents (Elt F) → (⟨S64, .f32⟩ : BufTy).Contents (Elt F)),
    StableHlo.binary main_v178 main_v179 main_v180 (maximumf : (⟨S64, .f32⟩ : BufTy).Contents (Elt F) → (⟨S64, .f32⟩ : BufTy).Contents (Elt F) → (⟨S64, .f32⟩ : BufTy).Contents (Elt F)),
    StableHlo.unary main_v180 main_v181 (broadcastInDim S64x1 ![0] bcast_S64_S64x1_0 : (⟨S64, .f32⟩ : BufTy).Contents (Elt F) → (⟨S64x1, .f32⟩ : BufTy).Contents (Elt F)),
    StableHlo.unary main_v181 main_v182 (broadcastInDim S64x128 ![0, 1] bcast_S64x1_S64x128_0_1 : (⟨S64x1, .f32⟩ : BufTy).Contents (Elt F) → (⟨S64x128, .f32⟩ : BufTy).Contents (Elt F)),
    StableHlo.binary main_v174 main_v182 main_v183 (Host.divf : (⟨S64x128, .f32⟩ : BufTy).Contents (Elt F) → (⟨S64x128, .f32⟩ : BufTy).Contents (Elt F) → (⟨S64x128, .f32⟩ : BufTy).Contents (Elt F)),
    StableHlo.unary main_arg25 main_v184 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v184 main_v185 rfl shapeCasts_S1x320000_S320000,
    StableHlo.unary main_arg25 main_v186 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v186 main_v187 rfl shapeCasts_S1x320000_S320000,
    StableHlo.binary main_arg1 main_arg9 main_v188 ((fun l r => Host.dotGeneral dot_S20000x128_S128x256_S20000x256_1_0_0_1_n_n none l r) : (⟨S20000x128, .f32⟩ : BufTy).Contents (Elt F) → (⟨S128x256, .f32⟩ : BufTy).Contents (Elt F) → (⟨S20000x256, .f32⟩ : BufTy).Contents (Elt F)),
    StableHlo.unary main_arg10 main_v189 (broadcastInDim S1x256 ![1] bcast_S256_S1x256_1 : (⟨S256, .f32⟩ : BufTy).Contents (Elt F) → (⟨S1x256, .f32⟩ : BufTy).Contents (Elt F)),
    StableHlo.unary main_v189 main_v190 (broadcastInDim S20000x256 ![0, 1] bcast_S1x256_S20000x256_0_1 : (⟨S1x256, .f32⟩ : BufTy).Contents (Elt F) → (⟨S20000x256, .f32⟩ : BufTy).Contents (Elt F)),
    StableHlo.binary main_v188 main_v190 main_v191 (addf : (⟨S20000x256, .f32⟩ : BufTy).Contents (Elt F) → (⟨S20000x256, .f32⟩ : BufTy).Contents (Elt F) → (⟨S20000x256, .f32⟩ : BufTy).Contents (Elt F)),
    StableHlo.unary main_arg8 main_v192 ((extractStridedSlice S1x128x256 ![0, 0, 0] · slices_S2x128x256_S1x128x256_0_0_0) : (⟨S2x128x256, .f32⟩ : BufTy).Contents (Elt F) → (⟨S1x128x256, .f32⟩ : BufTy).Contents (Elt F)),
    StableHlo.reshape main_v192 main_v193 rfl shapeCasts_S1x128x256_S128x256,
    StableHlo.binary main_arg1 main_v193 main_v194 ((fun l r => Host.dotGeneral dot_S20000x128_S128x256_S20000x256_1_0_0_1_n_n none l r) : (⟨S20000x128, .f32⟩ : BufTy).Contents (Elt F) → (⟨S128x256, .f32⟩ : BufTy).Contents (Elt F) → (⟨S20000x256, .f32⟩ : BufTy).Contents (Elt F)),
    StableHlo.nullary main_c_42 (constantI S_ 32 0#32) ]

/-- Window 4 of the reference program: its host operations 295 … 360 of 564 in program order, each
    call's operations written out at the call site over that call's own buffers. -/
abbrev ops4 : List (HloOp τ sig (Elt F)) :=
  [ StableHlo.unary main_c_42 main_v195 (broadcastInDim S320000 ![] bcast_S_S320000 : (⟨S_, .i32⟩ : BufTy).Contents (Elt F) → (⟨S320000, .i32⟩ : BufTy).Contents (Elt F)),
    StableHlo.binary main_arg26 main_v195 main_v196 (cmpi .eq : (⟨S320000, .i32⟩ : BufTy).Contents (Elt F) → (⟨S320000, .i32⟩ : BufTy).Contents (Elt F) → (⟨S320000, .i1⟩ : BufTy).Contents (Elt F)),
    StableHlo.unary main_v196 main_v197 (broadcastInDim S320000x1 ![0] bcast_S320000_S320000x1_0 : (⟨S320000, .i1⟩ : BufTy).Contents (Elt F) → (⟨S320000x1, .i1⟩ : BufTy).Contents (Elt F)),
    StableHlo.nullary main_c_43 (constantI S_ 32 0#32),
    StableHlo.unary main_c_43 main_v198 (broadcastInDim S320000 ![] bcast_S_S320000 : (⟨S_, .i32⟩ : BufTy).Contents (Elt F) → (⟨S320000, .i32⟩ : BufTy).Contents (Elt F)),
    StableHlo.binary main_v185 main_v198 main_v199 (cmpi .slt : (⟨S320000, .i32⟩ : BufTy).Contents (Elt F) → (⟨S320000, .i32⟩ : BufTy).Contents (Elt F) → (⟨S320000, .i1⟩ : BufTy).Contents (Elt F)),
    StableHlo.nullary main_c_44 (constantI S_ 32 20000#32),
    StableHlo.unary main_c_44 main_v200 (broadcastInDim S320000 ![] bcast_S_S320000 : (⟨S_, .i32⟩ : BufTy).Contents (Elt F) → (⟨S320000, .i32⟩ : BufTy).Contents (Elt F)),
    StableHlo.binary main_v185 main_v200 main_v201 (addi : (⟨S320000, .i32⟩ : BufTy).Contents (Elt F) → (⟨S320000, .i32⟩ : BufTy).Contents (Elt F) → (⟨S320000, .i32⟩ : BufTy).Contents (Elt F)),
    StableHlo.ternary main_v199 main_v201 main_v185 main_v202 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v202 main_v203 (broadcastInDim S320000x1 ![0] bcast_S320000_S320000x1_0 : (⟨S320000, .i32⟩ : BufTy).Contents (Elt F) → (⟨S320000x1, .i32⟩ : BufTy).Contents (Elt F)),
    StableHlo.binary main_v194 main_v203 main_v204 ((fun x i => Host.gather gather_S20000x256_S320000x1_S320000x256_1_0_n_n_0_1_1256 x i) : (⟨S20000x256, .f32⟩ : BufTy).Contents (Elt F) → (⟨S320000x1, .i32⟩ : BufTy).Contents (Elt F) → (⟨S320000x256, .f32⟩ : BufTy).Contents (Elt F)),
    StableHlo.nullary main_cst_45 (constant S_ .f32 0x00000000#32),
    StableHlo.TRef.unary (.of main_cst_45 : StableHlo.TRef sig ⟨S_, .f32⟩) main_call8.v0 id,
    StableHlo.TRef.unary (.of main_v197 : StableHlo.TRef sig ⟨S320000x1, .i1⟩) main_call8.v1 (broadcastInDim S320000x256 ![0, 1] bcast_S320000x1_S320000x256_0_1),
    StableHlo.TRef.unary main_call8.v0 main_call8.v2 (broadcastInDim S320000x256 ![] bcast_S_S320000x256),
    StableHlo.TRef.ternary main_call8.v1 (.of main_v204 : StableHlo.TRef sig ⟨S320000x256, .f32⟩) main_call8.v2 main_call8.v3 select,
    StableHlo.nullary main_cst_46 (constant S_ .f32 0x00000000#32),
    StableHlo.unary main_cst_46 main_v206 (broadcastInDim S20000x256 ![] bcast_S_S20000x256 : (⟨S_, .f32⟩ : BufTy).Contents (Elt F) → (⟨S20000x256, .f32⟩ : BufTy).Contents (Elt F)),
    StableHlo.unary main_v187 main_v207 (broadcastInDim S320000x1 ![0] bcast_S320000_S320000x1_0 : (⟨S320000, .i32⟩ : BufTy).Contents (Elt F) → (⟨S320000x1, .i32⟩ : BufTy).Contents (Elt F)),
    StableHlo.ternary main_v206 main_v207 main_v205 main_v208 ((fun x i u => Host.scatterAdd scatter_S20000x256_S320000x1_S320000x256_1_0_0_1 x i u) : (⟨S20000x256, .f32⟩ : BufTy).Contents (Elt F) → (⟨S320000x1, .i32⟩ : BufTy).Contents (Elt F) → (⟨S320000x256, .f32⟩ : BufTy).Contents (Elt F) → (⟨S20000x256, .f32⟩ : BufTy).Contents (Elt F)),
    StableHlo.unary main_v196 main_v209 (uitofp .f32 : (⟨S320000, .i1⟩ : BufTy).Contents (Elt F) → (⟨S320000, .f32⟩ : BufTy).Contents (Elt F)),
    StableHlo.nullary main_cst_47 (constant S_ .f32 0x00000000#32),
    StableHlo.unary main_cst_47 main_v210 (broadcastInDim S20000 ![] bcast_S_S20000 : (⟨S_, .f32⟩ : BufTy).Contents (Elt F) → (⟨S20000, .f32⟩ : BufTy).Contents (Elt F)),
    StableHlo.unary main_v187 main_v211 (broadcastInDim S320000x1 ![0] bcast_S320000_S320000x1_0 : (⟨S320000, .i32⟩ : BufTy).Contents (Elt F) → (⟨S320000x1, .i32⟩ : BufTy).Contents (Elt F)),
    StableHlo.ternary main_v210 main_v211 main_v209 main_v212 ((fun x i u => Host.scatterAdd scatter_S20000_S320000x1_S320000_n_0_0_1 x i u) : (⟨S20000, .f32⟩ : BufTy).Contents (Elt F) → (⟨S320000x1, .i32⟩ : BufTy).Contents (Elt F) → (⟨S320000, .f32⟩ : BufTy).Contents (Elt F) → (⟨S20000, .f32⟩ : BufTy).Contents (Elt F)),
    StableHlo.nullary main_cst_48 (constant S_ .f32 0x3F800000#32),
    StableHlo.unary main_cst_48 main_v213 (broadcastInDim S20000 ![] bcast_S_S20000 : (⟨S_, .f32⟩ : BufTy).Contents (Elt F) → (⟨S20000, .f32⟩ : BufTy).Contents (Elt F)),
    StableHlo.binary main_v212 main_v213 main_v214 (maximumf : (⟨S20000, .f32⟩ : BufTy).Contents (Elt F) → (⟨S20000, .f32⟩ : BufTy).Contents (Elt F) → (⟨S20000, .f32⟩ : BufTy).Contents (Elt F)),
    StableHlo.unary main_v214 main_v215 (broadcastInDim S20000x1 ![0] bcast_S20000_S20000x1_0 : (⟨S20000, .f32⟩ : BufTy).Contents (Elt F) → (⟨S20000x1, .f32⟩ : BufTy).Contents (Elt F)),
    StableHlo.unary main_v215 main_v216 (broadcastInDim S20000x256 ![0, 1] bcast_S20000x1_S20000x256_0_1 : (⟨S20000x1, .f32⟩ : BufTy).Contents (Elt F) → (⟨S20000x256, .f32⟩ : BufTy).Contents (Elt F)),
    StableHlo.binary main_v208 main_v216 main_v217 (Host.divf : (⟨S20000x256, .f32⟩ : BufTy).Contents (Elt F) → (⟨S20000x256, .f32⟩ : BufTy).Contents (Elt F) → (⟨S20000x256, .f32⟩ : BufTy).Contents (Elt F)),
    StableHlo.binary main_v191 main_v217 main_v218 (addf : (⟨S20000x256, .f32⟩ : BufTy).Contents (Elt F) → (⟨S20000x256, .f32⟩ : BufTy).Contents (Elt F) → (⟨S20000x256, .f32⟩ : BufTy).Contents (Elt F)),
    StableHlo.unary main_arg8 main_v219 ((extractStridedSlice S1x128x256 ![1, 0, 0] · slices_S2x128x256_S1x128x256_1_0_0) : (⟨S2x128x256, .f32⟩ : BufTy).Contents (Elt F) → (⟨S1x128x256, .f32⟩ : BufTy).Contents (Elt F)),
    StableHlo.reshape main_v219 main_v220 rfl shapeCasts_S1x128x256_S128x256,
    StableHlo.binary main_arg1 main_v220 main_v221 ((fun l r => Host.dotGeneral dot_S20000x128_S128x256_S20000x256_1_0_0_1_n_n none l r) : (⟨S20000x128, .f32⟩ : BufTy).Contents (Elt F) → (⟨S128x256, .f32⟩ : BufTy).Contents (Elt F) → (⟨S20000x256, .f32⟩ : BufTy).Contents (Elt F)),
    StableHlo.nullary main_c_49 (constantI S_ 32 1#32),
    StableHlo.unary main_c_49 main_v222 (broadcastInDim S320000 ![] bcast_S_S320000 : (⟨S_, .i32⟩ : BufTy).Contents (Elt F) → (⟨S320000, .i32⟩ : BufTy).Contents (Elt F)),
    StableHlo.binary main_arg26 main_v222 main_v223 (cmpi .eq : (⟨S320000, .i32⟩ : BufTy).Contents (Elt F) → (⟨S320000, .i32⟩ : BufTy).Contents (Elt F) → (⟨S320000, .i1⟩ : BufTy).Contents (Elt F)),
    StableHlo.unary main_v223 main_v224 (broadcastInDim S320000x1 ![0] bcast_S320000_S320000x1_0 : (⟨S320000, .i1⟩ : BufTy).Contents (Elt F) → (⟨S320000x1, .i1⟩ : BufTy).Contents (Elt F)),
    StableHlo.nullary main_c_50 (constantI S_ 32 0#32),
    StableHlo.unary main_c_50 main_v225 (broadcastInDim S320000 ![] bcast_S_S320000 : (⟨S_, .i32⟩ : BufTy).Contents (Elt F) → (⟨S320000, .i32⟩ : BufTy).Contents (Elt F)),
    StableHlo.binary main_v185 main_v225 main_v226 (cmpi .slt : (⟨S320000, .i32⟩ : BufTy).Contents (Elt F) → (⟨S320000, .i32⟩ : BufTy).Contents (Elt F) → (⟨S320000, .i1⟩ : BufTy).Contents (Elt F)),
    StableHlo.nullary main_c_51 (constantI S_ 32 20000#32),
    StableHlo.unary main_c_51 main_v227 (broadcastInDim S320000 ![] bcast_S_S320000 : (⟨S_, .i32⟩ : BufTy).Contents (Elt F) → (⟨S320000, .i32⟩ : BufTy).Contents (Elt F)),
    StableHlo.binary main_v185 main_v227 main_v228 (addi : (⟨S320000, .i32⟩ : BufTy).Contents (Elt F) → (⟨S320000, .i32⟩ : BufTy).Contents (Elt F) → (⟨S320000, .i32⟩ : BufTy).Contents (Elt F)),
    StableHlo.ternary main_v226 main_v228 main_v185 main_v229 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v229 main_v230 (broadcastInDim S320000x1 ![0] bcast_S320000_S320000x1_0 : (⟨S320000, .i32⟩ : BufTy).Contents (Elt F) → (⟨S320000x1, .i32⟩ : BufTy).Contents (Elt F)),
    StableHlo.binary main_v221 main_v230 main_v231 ((fun x i => Host.gather gather_S20000x256_S320000x1_S320000x256_1_0_n_n_0_1_1256 x i) : (⟨S20000x256, .f32⟩ : BufTy).Contents (Elt F) → (⟨S320000x1, .i32⟩ : BufTy).Contents (Elt F) → (⟨S320000x256, .f32⟩ : BufTy).Contents (Elt F)),
    StableHlo.nullary main_cst_52 (constant S_ .f32 0x00000000#32),
    StableHlo.TRef.unary (.of main_cst_52 : StableHlo.TRef sig ⟨S_, .f32⟩) main_call9.v0 id,
    StableHlo.TRef.unary (.of main_v224 : StableHlo.TRef sig ⟨S320000x1, .i1⟩) main_call9.v1 (broadcastInDim S320000x256 ![0, 1] bcast_S320000x1_S320000x256_0_1),
    StableHlo.TRef.unary main_call9.v0 main_call9.v2 (broadcastInDim S320000x256 ![] bcast_S_S320000x256),
    StableHlo.TRef.ternary main_call9.v1 (.of main_v231 : StableHlo.TRef sig ⟨S320000x256, .f32⟩) main_call9.v2 main_call9.v3 select,
    StableHlo.nullary main_cst_53 (constant S_ .f32 0x00000000#32),
    StableHlo.unary main_cst_53 main_v233 (broadcastInDim S20000x256 ![] bcast_S_S20000x256 : (⟨S_, .f32⟩ : BufTy).Contents (Elt F) → (⟨S20000x256, .f32⟩ : BufTy).Contents (Elt F)),
    StableHlo.unary main_v187 main_v234 (broadcastInDim S320000x1 ![0] bcast_S320000_S320000x1_0 : (⟨S320000, .i32⟩ : BufTy).Contents (Elt F) → (⟨S320000x1, .i32⟩ : BufTy).Contents (Elt F)),
    StableHlo.ternary main_v233 main_v234 main_v232 main_v235 ((fun x i u => Host.scatterAdd scatter_S20000x256_S320000x1_S320000x256_1_0_0_1 x i u) : (⟨S20000x256, .f32⟩ : BufTy).Contents (Elt F) → (⟨S320000x1, .i32⟩ : BufTy).Contents (Elt F) → (⟨S320000x256, .f32⟩ : BufTy).Contents (Elt F) → (⟨S20000x256, .f32⟩ : BufTy).Contents (Elt F)),
    StableHlo.unary main_v223 main_v236 (uitofp .f32 : (⟨S320000, .i1⟩ : BufTy).Contents (Elt F) → (⟨S320000, .f32⟩ : BufTy).Contents (Elt F)),
    StableHlo.nullary main_cst_54 (constant S_ .f32 0x00000000#32),
    StableHlo.unary main_cst_54 main_v237 (broadcastInDim S20000 ![] bcast_S_S20000 : (⟨S_, .f32⟩ : BufTy).Contents (Elt F) → (⟨S20000, .f32⟩ : BufTy).Contents (Elt F)),
    StableHlo.unary main_v187 main_v238 (broadcastInDim S320000x1 ![0] bcast_S320000_S320000x1_0 : (⟨S320000, .i32⟩ : BufTy).Contents (Elt F) → (⟨S320000x1, .i32⟩ : BufTy).Contents (Elt F)),
    StableHlo.ternary main_v237 main_v238 main_v236 main_v239 ((fun x i u => Host.scatterAdd scatter_S20000_S320000x1_S320000_n_0_0_1 x i u) : (⟨S20000, .f32⟩ : BufTy).Contents (Elt F) → (⟨S320000x1, .i32⟩ : BufTy).Contents (Elt F) → (⟨S320000, .f32⟩ : BufTy).Contents (Elt F) → (⟨S20000, .f32⟩ : BufTy).Contents (Elt F)),
    StableHlo.nullary main_cst_55 (constant S_ .f32 0x3F800000#32),
    StableHlo.unary main_cst_55 main_v240 (broadcastInDim S20000 ![] bcast_S_S20000 : (⟨S_, .f32⟩ : BufTy).Contents (Elt F) → (⟨S20000, .f32⟩ : BufTy).Contents (Elt F)),
    StableHlo.binary main_v239 main_v240 main_v241 (maximumf : (⟨S20000, .f32⟩ : BufTy).Contents (Elt F) → (⟨S20000, .f32⟩ : BufTy).Contents (Elt F) → (⟨S20000, .f32⟩ : BufTy).Contents (Elt F)) ]

/-- Window 5 of the reference program: its host operations 361 … 444 of 564 in program order, each
    call's operations written out at the call site over that call's own buffers. -/
abbrev ops5 : List (HloOp τ sig (Elt F)) :=
  [ StableHlo.unary main_v241 main_v242 (broadcastInDim S20000x1 ![0] bcast_S20000_S20000x1_0 : (⟨S20000, .f32⟩ : BufTy).Contents (Elt F) → (⟨S20000x1, .f32⟩ : BufTy).Contents (Elt F)),
    StableHlo.unary main_v242 main_v243 (broadcastInDim S20000x256 ![0, 1] bcast_S20000x1_S20000x256_0_1 : (⟨S20000x1, .f32⟩ : BufTy).Contents (Elt F) → (⟨S20000x256, .f32⟩ : BufTy).Contents (Elt F)),
    StableHlo.binary main_v235 main_v243 main_v244 (Host.divf : (⟨S20000x256, .f32⟩ : BufTy).Contents (Elt F) → (⟨S20000x256, .f32⟩ : BufTy).Contents (Elt F) → (⟨S20000x256, .f32⟩ : BufTy).Contents (Elt F)),
    StableHlo.binary main_v218 main_v244 main_v245 (addf : (⟨S20000x256, .f32⟩ : BufTy).Contents (Elt F) → (⟨S20000x256, .f32⟩ : BufTy).Contents (Elt F) → (⟨S20000x256, .f32⟩ : BufTy).Contents (Elt F)),
    StableHlo.nullary main_cst_56 (constant S_ .f32 0x00000000#32),
    StableHlo.binary main_v245 main_cst_56 main_v246 ((fun x v => Host.reduceAdd x v reducesTo_S20000x256_S256_d0 h_S_) : (⟨S20000x256, .f32⟩ : BufTy).Contents (Elt F) → (⟨S_, .f32⟩ : BufTy).Contents (Elt F) → (⟨S256, .f32⟩ : BufTy).Contents (Elt F)),
    StableHlo.nullary main_cst_57 (constant S_ .f32 0x469C4000#32),
    StableHlo.unary main_cst_57 main_v247 (broadcastInDim S256 ![] bcast_S_S256 : (⟨S_, .f32⟩ : BufTy).Contents (Elt F) → (⟨S256, .f32⟩ : BufTy).Contents (Elt F)),
    StableHlo.binary main_v246 main_v247 main_v248 (Host.divf : (⟨S256, .f32⟩ : BufTy).Contents (Elt F) → (⟨S256, .f32⟩ : BufTy).Contents (Elt F) → (⟨S256, .f32⟩ : BufTy).Contents (Elt F)),
    StableHlo.nullary main_c_58 (constantI S_ 32 0#32),
    StableHlo.TRef.nullary main_call10.cst (constant S_ .f32 0x00000000#32),
    StableHlo.TRef.binary (.of main_v245 : StableHlo.TRef sig ⟨S20000x256, .f32⟩) main_call10.cst main_call10.v0 (fun x v => Host.reduceAdd x v reducesTo_S20000x256_S256_d0 h_S_),
    StableHlo.TRef.unary main_call10.v0 main_call10.v1 (broadcastInDim S1x256 ![1] bcast_S256_S1x256_1),
    StableHlo.TRef.nullary main_call10.cst_0 (constant S_ .f32 0x469C4000#32),
    StableHlo.TRef.unary main_call10.cst_0 main_call10.v2 (broadcastInDim S1x256 ![] bcast_S_S1x256),
    StableHlo.TRef.binary main_call10.v1 main_call10.v2 main_call10.v3 Host.divf,
    StableHlo.TRef.unary main_call10.v3 main_call10.v4 (broadcastInDim S20000x256 ![0, 1] bcast_S1x256_S20000x256_0_1),
    StableHlo.TRef.binary (.of main_v245 : StableHlo.TRef sig ⟨S20000x256, .f32⟩) main_call10.v4 main_call10.v5 subf,
    StableHlo.TRef.binary main_call10.v5 main_call10.v5 main_call10.v6 mulf,
    StableHlo.TRef.unary (.of main_c_58 : StableHlo.TRef sig ⟨S_, .i32⟩) main_call10.v7 (sitofp .f32),
    StableHlo.TRef.nullary main_call10.cst_1 (constant S_ .f32 0x469C4000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S20000x256_S256_d0 h_S_),
    StableHlo.TRef.unary main_call10.v8 main_call10.v10 (broadcastInDim S256 ![] bcast_S_S256),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S256 ![] bcast_S_S256),
    StableHlo.TRef.ternary main_call10.v12 main_call10.v11 main_call10.call0.v1 main_call10.call0.v2 (fun p a b => select (broadcastInDim S256 ![] bcast_S_S256 p) a b),
    StableHlo.unary main_v248 main_v250 (broadcastInDim S1x256 ![1] bcast_S256_S1x256_1 : (⟨S256, .f32⟩ : BufTy).Contents (Elt F) → (⟨S1x256, .f32⟩ : BufTy).Contents (Elt F)),
    StableHlo.unary main_v250 main_v251 (broadcastInDim S20000x256 ![0, 1] bcast_S1x256_S20000x256_0_1 : (⟨S1x256, .f32⟩ : BufTy).Contents (Elt F) → (⟨S20000x256, .f32⟩ : BufTy).Contents (Elt F)),
    StableHlo.binary main_v245 main_v251 main_v252 (subf : (⟨S20000x256, .f32⟩ : BufTy).Contents (Elt F) → (⟨S20000x256, .f32⟩ : BufTy).Contents (Elt F) → (⟨S20000x256, .f32⟩ : BufTy).Contents (Elt F)),
    StableHlo.nullary main_cst_59 (constant S_ .f32 0x3727C5AC#32),
    StableHlo.unary main_cst_59 main_v253 (broadcastInDim S256 ![] bcast_S_S256 : (⟨S_, .f32⟩ : BufTy).Contents (Elt F) → (⟨S256, .f32⟩ : BufTy).Contents (Elt F)),
    StableHlo.binary main_v249 main_v253 main_v254 (addf : (⟨S256, .f32⟩ : BufTy).Contents (Elt F) → (⟨S256, .f32⟩ : BufTy).Contents (Elt F) → (⟨S256, .f32⟩ : BufTy).Contents (Elt F)),
    StableHlo.unary main_v254 main_v255 (Host.rsqrt : (⟨S256, .f32⟩ : BufTy).Contents (Elt F) → (⟨S256, .f32⟩ : BufTy).Contents (Elt F)),
    StableHlo.unary main_v255 main_v256 (broadcastInDim S1x256 ![1] bcast_S256_S1x256_1 : (⟨S256, .f32⟩ : BufTy).Contents (Elt F) → (⟨S1x256, .f32⟩ : BufTy).Contents (Elt F)),
    StableHlo.unary main_v256 main_v257 (broadcastInDim S20000x256 ![0, 1] bcast_S1x256_S20000x256_0_1 : (⟨S1x256, .f32⟩ : BufTy).Contents (Elt F) → (⟨S20000x256, .f32⟩ : BufTy).Contents (Elt F)),
    StableHlo.binary main_v252 main_v257 main_v258 (mulf : (⟨S20000x256, .f32⟩ : BufTy).Contents (Elt F) → (⟨S20000x256, .f32⟩ : BufTy).Contents (Elt F) → (⟨S20000x256, .f32⟩ : BufTy).Contents (Elt F)),
    StableHlo.unary main_arg18 main_v259 (broadcastInDim S1x256 ![1] bcast_S256_S1x256_1 : (⟨S256, .f32⟩ : BufTy).Contents (Elt F) → (⟨S1x256, .f32⟩ : BufTy).Contents (Elt F)),
    StableHlo.unary main_v259 main_v260 (broadcastInDim S20000x256 ![0, 1] bcast_S1x256_S20000x256_0_1 : (⟨S1x256, .f32⟩ : BufTy).Contents (Elt F) → (⟨S20000x256, .f32⟩ : BufTy).Contents (Elt F)),
    StableHlo.binary main_v258 main_v260 main_v261 (mulf : (⟨S20000x256, .f32⟩ : BufTy).Contents (Elt F) → (⟨S20000x256, .f32⟩ : BufTy).Contents (Elt F) → (⟨S20000x256, .f32⟩ : BufTy).Contents (Elt F)),
    StableHlo.unary main_arg19 main_v262 (broadcastInDim S1x256 ![1] bcast_S256_S1x256_1 : (⟨S256, .f32⟩ : BufTy).Contents (Elt F) → (⟨S1x256, .f32⟩ : BufTy).Contents (Elt F)),
    StableHlo.unary main_v262 main_v263 (broadcastInDim S20000x256 ![0, 1] bcast_S1x256_S20000x256_0_1 : (⟨S1x256, .f32⟩ : BufTy).Contents (Elt F) → (⟨S20000x256, .f32⟩ : BufTy).Contents (Elt F)),
    StableHlo.binary main_v261 main_v263 main_v264 (addf : (⟨S20000x256, .f32⟩ : BufTy).Contents (Elt F) → (⟨S20000x256, .f32⟩ : BufTy).Contents (Elt F) → (⟨S20000x256, .f32⟩ : BufTy).Contents (Elt F)),
    StableHlo.nullary main_cst_60 (constant S_ .f32 0x00000000#32),
    StableHlo.unary main_cst_60 main_v265 (broadcastInDim S20000x256 ![] bcast_S_S20000x256 : (⟨S_, .f32⟩ : BufTy).Contents (Elt F) → (⟨S20000x256, .f32⟩ : BufTy).Contents (Elt F)),
    StableHlo.binary main_v264 main_v265 main_v266 (cmpf .oge : (⟨S20000x256, .f32⟩ : BufTy).Contents (Elt F) → (⟨S20000x256, .f32⟩ : BufTy).Contents (Elt F) → (⟨S20000x256, .i1⟩ : BufTy).Contents (Elt F)),
    StableHlo.nullary main_cst_61 (constant S_ .f32 0x3C23D70A#32),
    StableHlo.unary main_cst_61 main_v267 (broadcastInDim S20000x256 ![] bcast_S_S20000x256 : (⟨S_, .f32⟩ : BufTy).Contents (Elt F) → (⟨S20000x256, .f32⟩ : BufTy).Contents (Elt F)),
    StableHlo.binary main_v267 main_v264 main_v268 (mulf : (⟨S20000x256, .f32⟩ : BufTy).Contents (Elt F) → (⟨S20000x256, .f32⟩ : BufTy).Contents (Elt F) → (⟨S20000x256, .f32⟩ : BufTy).Contents (Elt F)),
    StableHlo.TRef.ternary (.of main_v266 : StableHlo.TRef sig ⟨S20000x256, .i1⟩) (.of main_v264 : StableHlo.TRef sig ⟨S20000x256, .f32⟩) (.of main_v268 : StableHlo.TRef sig ⟨S20000x256, .f32⟩) main_call11.v0 select,
    StableHlo.unary main_arg25 main_v270 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v270 main_v271 rfl shapeCasts_S1x320000_S320000,
    StableHlo.unary main_arg25 main_v272 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v272 main_v273 rfl shapeCasts_S1x320000_S320000,
    StableHlo.binary main_v269 main_arg12 main_v274 ((fun l r => Host.dotGeneral dot_S20000x256_S256x128_S20000x128_1_0_0_1_n_n none l r) : (⟨S20000x256, .f32⟩ : BufTy).Contents (Elt F) → (⟨S256x128, .f32⟩ : BufTy).Contents (Elt F) → (⟨S20000x128, .f32⟩ : BufTy).Contents (Elt F)),
    StableHlo.unary main_arg13 main_v275 (broadcastInDim S1x128 ![1] bcast_S128_S1x128_1 : (⟨S128, .f32⟩ : BufTy).Contents (Elt F) → (⟨S1x128, .f32⟩ : BufTy).Contents (Elt F)),
    StableHlo.unary main_v275 main_v276 (broadcastInDim S20000x128 ![0, 1] bcast_S1x128_S20000x128_0_1 : (⟨S1x128, .f32⟩ : BufTy).Contents (Elt F) → (⟨S20000x128, .f32⟩ : BufTy).Contents (Elt F)),
    StableHlo.binary main_v274 main_v276 main_v277 (addf : (⟨S20000x128, .f32⟩ : BufTy).Contents (Elt F) → (⟨S20000x128, .f32⟩ : BufTy).Contents (Elt F) → (⟨S20000x128, .f32⟩ : BufTy).Contents (Elt F)),
    StableHlo.unary main_arg11 main_v278 ((extractStridedSlice S1x256x128 ![0, 0, 0] · slices_S2x256x128_S1x256x128_0_0_0) : (⟨S2x256x128, .f32⟩ : BufTy).Contents (Elt F) → (⟨S1x256x128, .f32⟩ : BufTy).Contents (Elt F)),
    StableHlo.reshape main_v278 main_v279 rfl shapeCasts_S1x256x128_S256x128,
    StableHlo.binary main_v269 main_v279 main_v280 ((fun l r => Host.dotGeneral dot_S20000x256_S256x128_S20000x128_1_0_0_1_n_n none l r) : (⟨S20000x256, .f32⟩ : BufTy).Contents (Elt F) → (⟨S256x128, .f32⟩ : BufTy).Contents (Elt F) → (⟨S20000x128, .f32⟩ : BufTy).Contents (Elt F)),
    StableHlo.nullary main_c_62 (constantI S_ 32 0#32),
    StableHlo.unary main_c_62 main_v281 (broadcastInDim S320000 ![] bcast_S_S320000 : (⟨S_, .i32⟩ : BufTy).Contents (Elt F) → (⟨S320000, .i32⟩ : BufTy).Contents (Elt F)),
    StableHlo.binary main_arg26 main_v281 main_v282 (cmpi .eq : (⟨S320000, .i32⟩ : BufTy).Contents (Elt F) → (⟨S320000, .i32⟩ : BufTy).Contents (Elt F) → (⟨S320000, .i1⟩ : BufTy).Contents (Elt F)),
    StableHlo.unary main_v282 main_v283 (broadcastInDim S320000x1 ![0] bcast_S320000_S320000x1_0 : (⟨S320000, .i1⟩ : BufTy).Contents (Elt F) → (⟨S320000x1, .i1⟩ : BufTy).Contents (Elt F)),
    StableHlo.nullary main_c_63 (constantI S_ 32 0#32),
    StableHlo.unary main_c_63 main_v284 (broadcastInDim S320000 ![] bcast_S_S320000 : (⟨S_, .i32⟩ : BufTy).Contents (Elt F) → (⟨S320000, .i32⟩ : BufTy).Contents (Elt F)),
    StableHlo.binary main_v271 main_v284 main_v285 (cmpi .slt : (⟨S320000, .i32⟩ : BufTy).Contents (Elt F) → (⟨S320000, .i32⟩ : BufTy).Contents (Elt F) → (⟨S320000, .i1⟩ : BufTy).Contents (Elt F)),
    StableHlo.nullary main_c_64 (constantI S_ 32 20000#32),
    StableHlo.unary main_c_64 main_v286 (broadcastInDim S320000 ![] bcast_S_S320000 : (⟨S_, .i32⟩ : BufTy).Contents (Elt F) → (⟨S320000, .i32⟩ : BufTy).Contents (Elt F)),
    StableHlo.binary main_v271 main_v286 main_v287 (addi : (⟨S320000, .i32⟩ : BufTy).Contents (Elt F) → (⟨S320000, .i32⟩ : BufTy).Contents (Elt F) → (⟨S320000, .i32⟩ : BufTy).Contents (Elt F)),
    StableHlo.ternary main_v285 main_v287 main_v271 main_v288 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v288 main_v289 (broadcastInDim S320000x1 ![0] bcast_S320000_S320000x1_0 : (⟨S320000, .i32⟩ : BufTy).Contents (Elt F) → (⟨S320000x1, .i32⟩ : BufTy).Contents (Elt F)),
    StableHlo.binary main_v280 main_v289 main_v290 ((fun x i => Host.gather gather_S20000x128_S320000x1_S320000x128_1_0_n_n_0_1_1128 x i) : (⟨S20000x128, .f32⟩ : BufTy).Contents (Elt F) → (⟨S320000x1, .i32⟩ : BufTy).Contents (Elt F) → (⟨S320000x128, .f32⟩ : BufTy).Contents (Elt F)),
    StableHlo.nullary main_cst_65 (constant S_ .f32 0x00000000#32),
    StableHlo.TRef.unary (.of main_cst_65 : StableHlo.TRef sig ⟨S_, .f32⟩) main_call12.v0 id,
    StableHlo.TRef.unary (.of main_v283 : StableHlo.TRef sig ⟨S320000x1, .i1⟩) main_call12.v1 (broadcastInDim S320000x128 ![0, 1] bcast_S320000x1_S320000x128_0_1),
    StableHlo.TRef.unary main_call12.v0 main_call12.v2 (broadcastInDim S320000x128 ![] bcast_S_S320000x128),
    StableHlo.TRef.ternary main_call12.v1 (.of main_v290 : StableHlo.TRef sig ⟨S320000x128, .f32⟩) main_call12.v2 main_call12.v3 select ]

/-- Window 6 of the reference program: its host operations 445 … 528 of 564 in program order, each
    call's operations written out at the call site over that call's own buffers. -/
abbrev ops6 : List (HloOp τ sig (Elt F)) :=
  [ StableHlo.nullary main_cst_66 (constant S_ .f32 0x00000000#32),
    StableHlo.unary main_cst_66 main_v292 (broadcastInDim S20000x128 ![] bcast_S_S20000x128 : (⟨S_, .f32⟩ : BufTy).Contents (Elt F) → (⟨S20000x128, .f32⟩ : BufTy).Contents (Elt F)),
    StableHlo.unary main_v273 main_v293 (broadcastInDim S320000x1 ![0] bcast_S320000_S320000x1_0 : (⟨S320000, .i32⟩ : BufTy).Contents (Elt F) → (⟨S320000x1, .i32⟩ : BufTy).Contents (Elt F)),
    StableHlo.ternary main_v292 main_v293 main_v291 main_v294 ((fun x i u => Host.scatterAdd scatter_S20000x128_S320000x1_S320000x128_1_0_0_1 x i u) : (⟨S20000x128, .f32⟩ : BufTy).Contents (Elt F) → (⟨S320000x1, .i32⟩ : BufTy).Contents (Elt F) → (⟨S320000x128, .f32⟩ : BufTy).Contents (Elt F) → (⟨S20000x128, .f32⟩ : BufTy).Contents (Elt F)),
    StableHlo.unary main_v282 main_v295 (uitofp .f32 : (⟨S320000, .i1⟩ : BufTy).Contents (Elt F) → (⟨S320000, .f32⟩ : BufTy).Contents (Elt F)),
    StableHlo.nullary main_cst_67 (constant S_ .f32 0x00000000#32),
    StableHlo.unary main_cst_67 main_v296 (broadcastInDim S20000 ![] bcast_S_S20000 : (⟨S_, .f32⟩ : BufTy).Contents (Elt F) → (⟨S20000, .f32⟩ : BufTy).Contents (Elt F)),
    StableHlo.unary main_v273 main_v297 (broadcastInDim S320000x1 ![0] bcast_S320000_S320000x1_0 : (⟨S320000, .i32⟩ : BufTy).Contents (Elt F) → (⟨S320000x1, .i32⟩ : BufTy).Contents (Elt F)),
    StableHlo.ternary main_v296 main_v297 main_v295 main_v298 ((fun x i u => Host.scatterAdd scatter_S20000_S320000x1_S320000_n_0_0_1 x i u) : (⟨S20000, .f32⟩ : BufTy).Contents (Elt F) → (⟨S320000x1, .i32⟩ : BufTy).Contents (Elt F) → (⟨S320000, .f32⟩ : BufTy).Contents (Elt F) → (⟨S20000, .f32⟩ : BufTy).Contents (Elt F)),
    StableHlo.nullary main_cst_68 (constant S_ .f32 0x3F800000#32),
    StableHlo.unary main_cst_68 main_v299 (broadcastInDim S20000 ![] bcast_S_S20000 : (⟨S_, .f32⟩ : BufTy).Contents (Elt F) → (⟨S20000, .f32⟩ : BufTy).Contents (Elt F)),
    StableHlo.binary main_v298 main_v299 main_v300 (maximumf : (⟨S20000, .f32⟩ : BufTy).Contents (Elt F) → (⟨S20000, .f32⟩ : BufTy).Contents (Elt F) → (⟨S20000, .f32⟩ : BufTy).Contents (Elt F)),
    StableHlo.unary main_v300 main_v301 (broadcastInDim S20000x1 ![0] bcast_S20000_S20000x1_0 : (⟨S20000, .f32⟩ : BufTy).Contents (Elt F) → (⟨S20000x1, .f32⟩ : BufTy).Contents (Elt F)),
    StableHlo.unary main_v301 main_v302 (broadcastInDim S20000x128 ![0, 1] bcast_S20000x1_S20000x128_0_1 : (⟨S20000x1, .f32⟩ : BufTy).Contents (Elt F) → (⟨S20000x128, .f32⟩ : BufTy).Contents (Elt F)),
    StableHlo.binary main_v294 main_v302 main_v303 (Host.divf : (⟨S20000x128, .f32⟩ : BufTy).Contents (Elt F) → (⟨S20000x128, .f32⟩ : BufTy).Contents (Elt F) → (⟨S20000x128, .f32⟩ : BufTy).Contents (Elt F)),
    StableHlo.binary main_v277 main_v303 main_v304 (addf : (⟨S20000x128, .f32⟩ : BufTy).Contents (Elt F) → (⟨S20000x128, .f32⟩ : BufTy).Contents (Elt F) → (⟨S20000x128, .f32⟩ : BufTy).Contents (Elt F)),
    StableHlo.unary main_arg11 main_v305 ((extractStridedSlice S1x256x128 ![1, 0, 0] · slices_S2x256x128_S1x256x128_1_0_0) : (⟨S2x256x128, .f32⟩ : BufTy).Contents (Elt F) → (⟨S1x256x128, .f32⟩ : BufTy).Contents (Elt F)),
    StableHlo.reshape main_v305 main_v306 rfl shapeCasts_S1x256x128_S256x128,
    StableHlo.binary main_v269 main_v306 main_v307 ((fun l r => Host.dotGeneral dot_S20000x256_S256x128_S20000x128_1_0_0_1_n_n none l r) : (⟨S20000x256, .f32⟩ : BufTy).Contents (Elt F) → (⟨S256x128, .f32⟩ : BufTy).Contents (Elt F) → (⟨S20000x128, .f32⟩ : BufTy).Contents (Elt F)),
    StableHlo.nullary main_c_69 (constantI S_ 32 1#32),
    StableHlo.unary main_c_69 main_v308 (broadcastInDim S320000 ![] bcast_S_S320000 : (⟨S_, .i32⟩ : BufTy).Contents (Elt F) → (⟨S320000, .i32⟩ : BufTy).Contents (Elt F)),
    StableHlo.binary main_arg26 main_v308 main_v309 (cmpi .eq : (⟨S320000, .i32⟩ : BufTy).Contents (Elt F) → (⟨S320000, .i32⟩ : BufTy).Contents (Elt F) → (⟨S320000, .i1⟩ : BufTy).Contents (Elt F)),
    StableHlo.unary main_v309 main_v310 (broadcastInDim S320000x1 ![0] bcast_S320000_S320000x1_0 : (⟨S320000, .i1⟩ : BufTy).Contents (Elt F) → (⟨S320000x1, .i1⟩ : BufTy).Contents (Elt F)),
    StableHlo.nullary main_c_70 (constantI S_ 32 0#32),
    StableHlo.unary main_c_70 main_v311 (broadcastInDim S320000 ![] bcast_S_S320000 : (⟨S_, .i32⟩ : BufTy).Contents (Elt F) → (⟨S320000, .i32⟩ : BufTy).Contents (Elt F)),
    StableHlo.binary main_v271 main_v311 main_v312 (cmpi .slt : (⟨S320000, .i32⟩ : BufTy).Contents (Elt F) → (⟨S320000, .i32⟩ : BufTy).Contents (Elt F) → (⟨S320000, .i1⟩ : BufTy).Contents (Elt F)),
    StableHlo.nullary main_c_71 (constantI S_ 32 20000#32),
    StableHlo.unary main_c_71 main_v313 (broadcastInDim S320000 ![] bcast_S_S320000 : (⟨S_, .i32⟩ : BufTy).Contents (Elt F) → (⟨S320000, .i32⟩ : BufTy).Contents (Elt F)),
    StableHlo.binary main_v271 main_v313 main_v314 (addi : (⟨S320000, .i32⟩ : BufTy).Contents (Elt F) → (⟨S320000, .i32⟩ : BufTy).Contents (Elt F) → (⟨S320000, .i32⟩ : BufTy).Contents (Elt F)),
    StableHlo.ternary main_v312 main_v314 main_v271 main_v315 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v315 main_v316 (broadcastInDim S320000x1 ![0] bcast_S320000_S320000x1_0 : (⟨S320000, .i32⟩ : BufTy).Contents (Elt F) → (⟨S320000x1, .i32⟩ : BufTy).Contents (Elt F)),
    StableHlo.binary main_v307 main_v316 main_v317 ((fun x i => Host.gather gather_S20000x128_S320000x1_S320000x128_1_0_n_n_0_1_1128 x i) : (⟨S20000x128, .f32⟩ : BufTy).Contents (Elt F) → (⟨S320000x1, .i32⟩ : BufTy).Contents (Elt F) → (⟨S320000x128, .f32⟩ : BufTy).Contents (Elt F)),
    StableHlo.nullary main_cst_72 (constant S_ .f32 0x00000000#32),
    StableHlo.TRef.unary (.of main_cst_72 : StableHlo.TRef sig ⟨S_, .f32⟩) main_call13.v0 id,
    StableHlo.TRef.unary (.of main_v310 : StableHlo.TRef sig ⟨S320000x1, .i1⟩) main_call13.v1 (broadcastInDim S320000x128 ![0, 1] bcast_S320000x1_S320000x128_0_1),
    StableHlo.TRef.unary main_call13.v0 main_call13.v2 (broadcastInDim S320000x128 ![] bcast_S_S320000x128),
    StableHlo.TRef.ternary main_call13.v1 (.of main_v317 : StableHlo.TRef sig ⟨S320000x128, .f32⟩) main_call13.v2 main_call13.v3 select,
    StableHlo.nullary main_cst_73 (constant S_ .f32 0x00000000#32),
    StableHlo.unary main_cst_73 main_v319 (broadcastInDim S20000x128 ![] bcast_S_S20000x128 : (⟨S_, .f32⟩ : BufTy).Contents (Elt F) → (⟨S20000x128, .f32⟩ : BufTy).Contents (Elt F)),
    StableHlo.unary main_v273 main_v320 (broadcastInDim S320000x1 ![0] bcast_S320000_S320000x1_0 : (⟨S320000, .i32⟩ : BufTy).Contents (Elt F) → (⟨S320000x1, .i32⟩ : BufTy).Contents (Elt F)),
    StableHlo.ternary main_v319 main_v320 main_v318 main_v321 ((fun x i u => Host.scatterAdd scatter_S20000x128_S320000x1_S320000x128_1_0_0_1 x i u) : (⟨S20000x128, .f32⟩ : BufTy).Contents (Elt F) → (⟨S320000x1, .i32⟩ : BufTy).Contents (Elt F) → (⟨S320000x128, .f32⟩ : BufTy).Contents (Elt F) → (⟨S20000x128, .f32⟩ : BufTy).Contents (Elt F)),
    StableHlo.unary main_v309 main_v322 (uitofp .f32 : (⟨S320000, .i1⟩ : BufTy).Contents (Elt F) → (⟨S320000, .f32⟩ : BufTy).Contents (Elt F)),
    StableHlo.nullary main_cst_74 (constant S_ .f32 0x00000000#32),
    StableHlo.unary main_cst_74 main_v323 (broadcastInDim S20000 ![] bcast_S_S20000 : (⟨S_, .f32⟩ : BufTy).Contents (Elt F) → (⟨S20000, .f32⟩ : BufTy).Contents (Elt F)),
    StableHlo.unary main_v273 main_v324 (broadcastInDim S320000x1 ![0] bcast_S320000_S320000x1_0 : (⟨S320000, .i32⟩ : BufTy).Contents (Elt F) → (⟨S320000x1, .i32⟩ : BufTy).Contents (Elt F)),
    StableHlo.ternary main_v323 main_v324 main_v322 main_v325 ((fun x i u => Host.scatterAdd scatter_S20000_S320000x1_S320000_n_0_0_1 x i u) : (⟨S20000, .f32⟩ : BufTy).Contents (Elt F) → (⟨S320000x1, .i32⟩ : BufTy).Contents (Elt F) → (⟨S320000, .f32⟩ : BufTy).Contents (Elt F) → (⟨S20000, .f32⟩ : BufTy).Contents (Elt F)),
    StableHlo.nullary main_cst_75 (constant S_ .f32 0x3F800000#32),
    StableHlo.unary main_cst_75 main_v326 (broadcastInDim S20000 ![] bcast_S_S20000 : (⟨S_, .f32⟩ : BufTy).Contents (Elt F) → (⟨S20000, .f32⟩ : BufTy).Contents (Elt F)),
    StableHlo.binary main_v325 main_v326 main_v327 (maximumf : (⟨S20000, .f32⟩ : BufTy).Contents (Elt F) → (⟨S20000, .f32⟩ : BufTy).Contents (Elt F) → (⟨S20000, .f32⟩ : BufTy).Contents (Elt F)),
    StableHlo.unary main_v327 main_v328 (broadcastInDim S20000x1 ![0] bcast_S20000_S20000x1_0 : (⟨S20000, .f32⟩ : BufTy).Contents (Elt F) → (⟨S20000x1, .f32⟩ : BufTy).Contents (Elt F)),
    StableHlo.unary main_v328 main_v329 (broadcastInDim S20000x128 ![0, 1] bcast_S20000x1_S20000x128_0_1 : (⟨S20000x1, .f32⟩ : BufTy).Contents (Elt F) → (⟨S20000x128, .f32⟩ : BufTy).Contents (Elt F)),
    StableHlo.binary main_v321 main_v329 main_v330 (Host.divf : (⟨S20000x128, .f32⟩ : BufTy).Contents (Elt F) → (⟨S20000x128, .f32⟩ : BufTy).Contents (Elt F) → (⟨S20000x128, .f32⟩ : BufTy).Contents (Elt F)),
    StableHlo.binary main_v304 main_v330 main_v331 (addf : (⟨S20000x128, .f32⟩ : BufTy).Contents (Elt F) → (⟨S20000x128, .f32⟩ : BufTy).Contents (Elt F) → (⟨S20000x128, .f32⟩ : BufTy).Contents (Elt F)),
    StableHlo.nullary main_cst_76 (constant S_ .f32 0x00000000#32),
    StableHlo.binary main_v331 main_cst_76 main_v332 ((fun x v => Host.reduceAdd x v reducesTo_S20000x128_S128_d0 h_S_) : (⟨S20000x128, .f32⟩ : BufTy).Contents (Elt F) → (⟨S_, .f32⟩ : BufTy).Contents (Elt F) → (⟨S128, .f32⟩ : BufTy).Contents (Elt F)),
    StableHlo.nullary main_cst_77 (constant S_ .f32 0x469C4000#32),
    StableHlo.unary main_cst_77 main_v333 (broadcastInDim S128 ![] bcast_S_S128 : (⟨S_, .f32⟩ : BufTy).Contents (Elt F) → (⟨S128, .f32⟩ : BufTy).Contents (Elt F)),
    StableHlo.binary main_v332 main_v333 main_v334 (Host.divf : (⟨S128, .f32⟩ : BufTy).Contents (Elt F) → (⟨S128, .f32⟩ : BufTy).Contents (Elt F) → (⟨S128, .f32⟩ : BufTy).Contents (Elt F)),
    StableHlo.nullary main_c_78 (constantI S_ 32 0#32),
    StableHlo.TRef.nullary main_call14.cst (constant S_ .f32 0x00000000#32),
    StableHlo.TRef.binary (.of main_v331 : StableHlo.TRef sig ⟨S20000x128, .f32⟩) main_call14.cst main_call14.v0 (fun x v => Host.reduceAdd x v reducesTo_S20000x128_S128_d0 h_S_),
    StableHlo.TRef.unary main_call14.v0 main_call14.v1 (broadcastInDim S1x128 ![1] bcast_S128_S1x128_1),
    StableHlo.TRef.nullary main_call14.cst_0 (constant S_ .f32 0x469C4000#32),
    StableHlo.TRef.unary main_call14.cst_0 main_call14.v2 (broadcastInDim S1x128 ![] bcast_S_S1x128),
    StableHlo.TRef.binary main_call14.v1 main_call14.v2 main_call14.v3 Host.divf,
    StableHlo.TRef.unary main_call14.v3 main_call14.v4 (broadcastInDim S20000x128 ![0, 1] bcast_S1x128_S20000x128_0_1),
    StableHlo.TRef.binary (.of main_v331 : StableHlo.TRef sig ⟨S20000x128, .f32⟩) main_call14.v4 main_call14.v5 subf,
    StableHlo.TRef.binary main_call14.v5 main_call14.v5 main_call14.v6 mulf,
    StableHlo.TRef.unary (.of main_c_78 : StableHlo.TRef sig ⟨S_, .i32⟩) main_call14.v7 (sitofp .f32),
    StableHlo.TRef.nullary main_call14.cst_1 (constant S_ .f32 0x469C4000#32),
    StableHlo.TRef.binary main_call14.cst_1 main_call14.v7 main_call14.v8 subf,
    StableHlo.TRef.nullary main_call14.cst_2 (constant S_ .f32 0x00000000#32),
    StableHlo.TRef.binary main_call14.v6 main_call14.cst_2 main_call14.v9 (fun x v => Host.reduceAdd x v reducesTo_S20000x128_S128_d0 h_S_),
    StableHlo.TRef.unary main_call14.v8 main_call14.v10 (broadcastInDim S128 ![] bcast_S_S128),
    StableHlo.TRef.binary main_call14.v9 main_call14.v10 main_call14.v11 Host.divf,
    StableHlo.TRef.nullary main_call14.cst_3 (constant S_ .f32 0x00000000#32),
    StableHlo.TRef.binary main_call14.v8 main_call14.cst_3 main_call14.v12 (cmpf .ogt),
    StableHlo.TRef.nullary main_call14.cst_4 (constant S_ .f32 0x7FC00000#32),
    StableHlo.TRef.unary main_call14.cst_4 main_call14.call0.v0 id,
    StableHlo.TRef.unary main_call14.call0.v0 main_call14.call0.v1 (broadcastInDim S128 ![] bcast_S_S128),
    StableHlo.TRef.ternary main_call14.v12 main_call14.v11 main_call14.call0.v1 main_call14.call0.v2 (fun p a b => select (broadcastInDim S128 ![] bcast_S_S128 p) a b),
    StableHlo.unary main_v334 main_v336 (broadcastInDim S1x128 ![1] bcast_S128_S1x128_1 : (⟨S128, .f32⟩ : BufTy).Contents (Elt F) → (⟨S1x128, .f32⟩ : BufTy).Contents (Elt F)),
    StableHlo.unary main_v336 main_v337 (broadcastInDim S20000x128 ![0, 1] bcast_S1x128_S20000x128_0_1 : (⟨S1x128, .f32⟩ : BufTy).Contents (Elt F) → (⟨S20000x128, .f32⟩ : BufTy).Contents (Elt F)),
    StableHlo.binary main_v331 main_v337 main_v338 (subf : (⟨S20000x128, .f32⟩ : BufTy).Contents (Elt F) → (⟨S20000x128, .f32⟩ : BufTy).Contents (Elt F) → (⟨S20000x128, .f32⟩ : BufTy).Contents (Elt F)) ]

/-- Window 7 of the reference program: its host operations 529 … 564 of 564 in program order, each
    call's operations written out at the call site over that call's own buffers. -/
abbrev ops7 : List (HloOp τ sig (Elt F)) :=
  [ StableHlo.nullary main_cst_79 (constant S_ .f32 0x3727C5AC#32),
    StableHlo.unary main_cst_79 main_v339 (broadcastInDim S128 ![] bcast_S_S128 : (⟨S_, .f32⟩ : BufTy).Contents (Elt F) → (⟨S128, .f32⟩ : BufTy).Contents (Elt F)),
    StableHlo.binary main_v335 main_v339 main_v340 (addf : (⟨S128, .f32⟩ : BufTy).Contents (Elt F) → (⟨S128, .f32⟩ : BufTy).Contents (Elt F) → (⟨S128, .f32⟩ : BufTy).Contents (Elt F)),
    StableHlo.unary main_v340 main_v341 (Host.rsqrt : (⟨S128, .f32⟩ : BufTy).Contents (Elt F) → (⟨S128, .f32⟩ : BufTy).Contents (Elt F)),
    StableHlo.unary main_v341 main_v342 (broadcastInDim S1x128 ![1] bcast_S128_S1x128_1 : (⟨S128, .f32⟩ : BufTy).Contents (Elt F) → (⟨S1x128, .f32⟩ : BufTy).Contents (Elt F)),
    StableHlo.unary main_v342 main_v343 (broadcastInDim S20000x128 ![0, 1] bcast_S1x128_S20000x128_0_1 : (⟨S1x128, .f32⟩ : BufTy).Contents (Elt F) → (⟨S20000x128, .f32⟩ : BufTy).Contents (Elt F)),
    StableHlo.binary main_v338 main_v343 main_v344 (mulf : (⟨S20000x128, .f32⟩ : BufTy).Contents (Elt F) → (⟨S20000x128, .f32⟩ : BufTy).Contents (Elt F) → (⟨S20000x128, .f32⟩ : BufTy).Contents (Elt F)),
    StableHlo.unary main_arg20 main_v345 (broadcastInDim S1x128 ![1] bcast_S128_S1x128_1 : (⟨S128, .f32⟩ : BufTy).Contents (Elt F) → (⟨S1x128, .f32⟩ : BufTy).Contents (Elt F)),
    StableHlo.unary main_v345 main_v346 (broadcastInDim S20000x128 ![0, 1] bcast_S1x128_S20000x128_0_1 : (⟨S1x128, .f32⟩ : BufTy).Contents (Elt F) → (⟨S20000x128, .f32⟩ : BufTy).Contents (Elt F)),
    StableHlo.binary main_v344 main_v346 main_v347 (mulf : (⟨S20000x128, .f32⟩ : BufTy).Contents (Elt F) → (⟨S20000x128, .f32⟩ : BufTy).Contents (Elt F) → (⟨S20000x128, .f32⟩ : BufTy).Contents (Elt F)),
    StableHlo.unary main_arg21 main_v348 (broadcastInDim S1x128 ![1] bcast_S128_S1x128_1 : (⟨S128, .f32⟩ : BufTy).Contents (Elt F) → (⟨S1x128, .f32⟩ : BufTy).Contents (Elt F)),
    StableHlo.unary main_v348 main_v349 (broadcastInDim S20000x128 ![0, 1] bcast_S1x128_S20000x128_0_1 : (⟨S1x128, .f32⟩ : BufTy).Contents (Elt F) → (⟨S20000x128, .f32⟩ : BufTy).Contents (Elt F)),
    StableHlo.binary main_v347 main_v349 main_v350 (addf : (⟨S20000x128, .f32⟩ : BufTy).Contents (Elt F) → (⟨S20000x128, .f32⟩ : BufTy).Contents (Elt F) → (⟨S20000x128, .f32⟩ : BufTy).Contents (Elt F)),
    StableHlo.nullary main_cst_80 (constant S_ .f32 0x00000000#32),
    StableHlo.unary main_cst_80 main_v351 (broadcastInDim S20000x128 ![] bcast_S_S20000x128 : (⟨S_, .f32⟩ : BufTy).Contents (Elt F) → (⟨S20000x128, .f32⟩ : BufTy).Contents (Elt F)),
    StableHlo.binary main_v350 main_v351 main_v352 (cmpf .oge : (⟨S20000x128, .f32⟩ : BufTy).Contents (Elt F) → (⟨S20000x128, .f32⟩ : BufTy).Contents (Elt F) → (⟨S20000x128, .i1⟩ : BufTy).Contents (Elt F)),
    StableHlo.nullary main_cst_81 (constant S_ .f32 0x3C23D70A#32),
    StableHlo.unary main_cst_81 main_v353 (broadcastInDim S20000x128 ![] bcast_S_S20000x128 : (⟨S_, .f32⟩ : BufTy).Contents (Elt F) → (⟨S20000x128, .f32⟩ : BufTy).Contents (Elt F)),
    StableHlo.binary main_v353 main_v350 main_v354 (mulf : (⟨S20000x128, .f32⟩ : BufTy).Contents (Elt F) → (⟨S20000x128, .f32⟩ : BufTy).Contents (Elt F) → (⟨S20000x128, .f32⟩ : BufTy).Contents (Elt F)),
    StableHlo.TRef.ternary (.of main_v352 : StableHlo.TRef sig ⟨S20000x128, .i1⟩) (.of main_v350 : StableHlo.TRef sig ⟨S20000x128, .f32⟩) (.of main_v354 : StableHlo.TRef sig ⟨S20000x128, .f32⟩) main_call15.v0 select,
    StableHlo.nullary main_cst_82 (constant S_ .f32 0x00000000#32),
    StableHlo.unary main_cst_82 main_v356 (broadcastInDim S64x128 ![] bcast_S_S64x128 : (⟨S_, .f32⟩ : BufTy).Contents (Elt F) → (⟨S64x128, .f32⟩ : BufTy).Contents (Elt F)),
    StableHlo.unary main_arg27 main_v357 (broadcastInDim S20000x1 ![0] bcast_S20000_S20000x1_0 : (⟨S20000, .i32⟩ : BufTy).Contents (Elt F) → (⟨S20000x1, .i32⟩ : BufTy).Contents (Elt F)),
    StableHlo.ternary main_v356 main_v357 main_v355 main_v358 ((fun x i u => Host.scatterAdd scatter_S64x128_S20000x1_S20000x128_1_0_0_1 x i u) : (⟨S64x128, .f32⟩ : BufTy).Contents (Elt F) → (⟨S20000x1, .i32⟩ : BufTy).Contents (Elt F) → (⟨S20000x128, .f32⟩ : BufTy).Contents (Elt F) → (⟨S64x128, .f32⟩ : BufTy).Contents (Elt F)),
    StableHlo.nullary main_cst_83 (constant S_ .f32 0x3F800000#32),
    StableHlo.unary main_cst_83 main_v359 (broadcastInDim S20000 ![] bcast_S_S20000 : (⟨S_, .f32⟩ : BufTy).Contents (Elt F) → (⟨S20000, .f32⟩ : BufTy).Contents (Elt F)),
    StableHlo.nullary main_cst_84 (constant S_ .f32 0x00000000#32),
    StableHlo.unary main_cst_84 main_v360 (broadcastInDim S64 ![] bcast_S_S64 : (⟨S_, .f32⟩ : BufTy).Contents (Elt F) → (⟨S64, .f32⟩ : BufTy).Contents (Elt F)),
    StableHlo.unary main_arg27 main_v361 (broadcastInDim S20000x1 ![0] bcast_S20000_S20000x1_0 : (⟨S20000, .i32⟩ : BufTy).Contents (Elt F) → (⟨S20000x1, .i32⟩ : BufTy).Contents (Elt F)),
    StableHlo.ternary main_v360 main_v361 main_v359 main_v362 ((fun x i u => Host.scatterAdd scatter_S64_S20000x1_S20000_n_0_0_1 x i u) : (⟨S64, .f32⟩ : BufTy).Contents (Elt F) → (⟨S20000x1, .i32⟩ : BufTy).Contents (Elt F) → (⟨S20000, .f32⟩ : BufTy).Contents (Elt F) → (⟨S64, .f32⟩ : BufTy).Contents (Elt F)),
    StableHlo.nullary main_cst_85 (constant S_ .f32 0x3F800000#32),
    StableHlo.unary main_cst_85 main_v363 (broadcastInDim S64 ![] bcast_S_S64 : (⟨S_, .f32⟩ : BufTy).Contents (Elt F) → (⟨S64, .f32⟩ : BufTy).Contents (Elt F)),
    StableHlo.binary main_v362 main_v363 main_v364 (maximumf : (⟨S64, .f32⟩ : BufTy).Contents (Elt F) → (⟨S64, .f32⟩ : BufTy).Contents (Elt F) → (⟨S64, .f32⟩ : BufTy).Contents (Elt F)),
    StableHlo.unary main_v364 main_v365 (broadcastInDim S64x1 ![0] bcast_S64_S64x1_0 : (⟨S64, .f32⟩ : BufTy).Contents (Elt F) → (⟨S64x1, .f32⟩ : BufTy).Contents (Elt F)),
    StableHlo.unary main_v365 main_v366 (broadcastInDim S64x128 ![0, 1] bcast_S64x1_S64x128_0_1 : (⟨S64x1, .f32⟩ : BufTy).Contents (Elt F) → (⟨S64x128, .f32⟩ : BufTy).Contents (Elt F)),
    StableHlo.binary main_v358 main_v366 main_v367 (Host.divf : (⟨S64x128, .f32⟩ : BufTy).Contents (Elt F) → (⟨S64x128, .f32⟩ : BufTy).Contents (Elt F) → (⟨S64x128, .f32⟩ : BufTy).Contents (Elt F)) ]

/-- The whole program: the eight windows in order. -/
abbrev ops : List (HloOp τ sig (Elt F)) := ops0 ++ ops1 ++ ops2 ++ ops3 ++ ops4 ++ ops5 ++ ops6 ++ ops7

/-- The buffers window 0's operations write, in order: one each. -/
abbrev ops0_W : List (Ref sig .tc) :=
  [main_v0, main_v1, main_v2, main_v3, main_v4, main_v5, main_v6, main_v7, main_v8, main_v9, main_v10, main_c, main_v11, main_v12, main_v13, main_c_0, main_v14, main_v15, main_c_1, main_v16, main_v17, main_v18, main_v19, main_v20, main_cst, main_call0_v0, main_call0_v1, main_call0_v2, main_v21, main_cst_2, main_v22, main_v23, main_v24, main_v25, main_cst_3, main_v26, main_v27, main_v28, main_cst_4, main_v29, main_v30, main_v31, main_v32, main_v33, main_v34, main_v35, main_v36, main_v37, main_c_5, main_v38, main_v39, main_v40, main_c_6, main_v41, main_v42, main_c_7, main_v43, main_v44, main_v45, main_v46, main_v47, main_cst_8, main_call1_v0, main_call1_v1, main_call1_v2, main_v48]

/-- The buffers window 1's operations write, in order: one each. -/
abbrev ops1_W : List (Ref sig .tc) :=
  [main_cst_9, main_v49, main_v50, main_v51, main_v52, main_cst_10, main_v53, main_v54, main_v55, main_cst_11, main_v56, main_v57, main_v58, main_v59, main_v60, main_v61, main_cst_12, main_v62, main_cst_13, main_v63, main_v64, main_c_14, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v65, main_v66, main_v67, main_v68, main_cst_15, main_v69, main_v70, main_v71, main_v72, main_v73, main_v74, main_v75, main_v76, main_v77, main_v78, main_v79, main_v80, main_cst_16, main_v81, main_v82, main_cst_17, main_v83, main_v84, main_v85, main_v86, main_v87, main_v88, main_v89, main_v90, main_v91, main_v92, main_v93, main_v94, main_v95, main_v96, main_c_18, main_v97, main_v98]

/-- The buffers window 2's operations write, in order: one each. -/
abbrev ops2_W : List (Ref sig .tc) :=
  [main_v99, main_c_19, main_v100, main_v101, main_c_20, main_v102, main_v103, main_v104, main_v105, main_v106, main_cst_21, main_call4_v0, main_call4_v1, main_call4_v2, main_v107, main_cst_22, main_v108, main_v109, main_v110, main_v111, main_cst_23, main_v112, main_v113, main_v114, main_cst_24, main_v115, main_v116, main_v117, main_v118, main_v119, main_v120, main_v121, main_v122, main_v123, main_c_25, main_v124, main_v125, main_v126, main_c_26, main_v127, main_v128, main_c_27, main_v129, main_v130, main_v131, main_v132, main_v133, main_cst_28, main_call5_v0, main_call5_v1, main_call5_v2, main_v134, main_cst_29, main_v135, main_v136, main_v137, main_v138, main_cst_30, main_v139, main_v140, main_v141, main_cst_31, main_v142, main_v143, main_v144, main_v145]

/-- The buffers window 3's operations write, in order: one each. -/
abbrev ops3_W : List (Ref sig .tc) :=
  [main_v146, main_v147, main_cst_32, main_v148, main_cst_33, main_v149, main_v150, main_c_34, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v151, main_v152, main_v153, main_v154, main_cst_35, main_v155, main_v156, main_v157, main_v158, main_v159, main_v160, main_v161, main_v162, main_v163, main_v164, main_v165, main_v166, main_cst_36, main_v167, main_v168, main_cst_37, main_v169, main_v170, main_v171, main_cst_38, main_v172, main_v173, main_v174, main_cst_39, main_v175, main_cst_40, main_v176, main_v177, main_v178, main_cst_41, main_v179, main_v180, main_v181, main_v182, main_v183, main_v184, main_v185, main_v186, main_v187, main_v188, main_v189, main_v190, main_v191, main_v192, main_v193, main_v194, main_c_42]

/-- The buffers window 4's operations write, in order: one each. -/
abbrev ops4_W : List (Ref sig .tc) :=
  [main_v195, main_v196, main_v197, main_c_43, main_v198, main_v199, main_c_44, main_v200, main_v201, main_v202, main_v203, main_v204, main_cst_45, main_call8_v0, main_call8_v1, main_call8_v2, main_v205, main_cst_46, main_v206, main_v207, main_v208, main_v209, main_cst_47, main_v210, main_v211, main_v212, main_cst_48, main_v213, main_v214, main_v215, main_v216, main_v217, main_v218, main_v219, main_v220, main_v221, main_c_49, main_v222, main_v223, main_v224, main_c_50, main_v225, main_v226, main_c_51, main_v227, main_v228, main_v229, main_v230, main_v231, main_cst_52, main_call9_v0, main_call9_v1, main_call9_v2, main_v232, main_cst_53, main_v233, main_v234, main_v235, main_v236, main_cst_54, main_v237, main_v238, main_v239, main_cst_55, main_v240, main_v241]

/-- The buffers window 5's operations write, in order: one each. -/
abbrev ops5_W : List (Ref sig .tc) :=
  [main_v242, main_v243, main_v244, main_v245, main_cst_56, main_v246, main_cst_57, main_v247, main_v248, main_c_58, main_call10_cst, main_call10_v0, main_call10_v1, main_call10_cst_0, main_call10_v2, main_call10_v3, main_call10_v4, main_call10_v5, main_call10_v6, main_call10_v7, main_call10_cst_1, main_call10_v8, main_call10_cst_2, main_call10_v9, main_call10_v10, main_call10_v11, main_call10_cst_3, main_call10_v12, main_call10_cst_4, main_call10_call0_v0, main_call10_call0_v1, main_v249, main_v250, main_v251, main_v252, main_cst_59, main_v253, main_v254, main_v255, main_v256, main_v257, main_v258, main_v259, main_v260, main_v261, main_v262, main_v263, main_v264, main_cst_60, main_v265, main_v266, main_cst_61, main_v267, main_v268, main_v269, main_v270, main_v271, main_v272, main_v273, main_v274, main_v275, main_v276, main_v277, main_v278, main_v279, main_v280, main_c_62, main_v281, main_v282, main_v283, main_c_63, main_v284, main_v285, main_c_64, main_v286, main_v287, main_v288, main_v289, main_v290, main_cst_65, main_call12_v0, main_call12_v1, main_call12_v2, main_v291]

/-- The buffers window 6's operations write, in order: one each. -/
abbrev ops6_W : List (Ref sig .tc) :=
  [main_cst_66, main_v292, main_v293, main_v294, main_v295, main_cst_67, main_v296, main_v297, main_v298, main_cst_68, main_v299, main_v300, main_v301, main_v302, main_v303, main_v304, main_v305, main_v306, main_v307, main_c_69, main_v308, main_v309, main_v310, main_c_70, main_v311, main_v312, main_c_71, main_v313, main_v314, main_v315, main_v316, main_v317, main_cst_72, main_call13_v0, main_call13_v1, main_call13_v2, main_v318, main_cst_73, main_v319, main_v320, main_v321, main_v322, main_cst_74, main_v323, main_v324, main_v325, main_cst_75, main_v326, main_v327, main_v328, main_v329, main_v330, main_v331, main_cst_76, main_v332, main_cst_77, main_v333, main_v334, main_c_78, main_call14_cst, main_call14_v0, main_call14_v1, main_call14_cst_0, main_call14_v2, main_call14_v3, main_call14_v4, main_call14_v5, main_call14_v6, main_call14_v7, main_call14_cst_1, main_call14_v8, main_call14_cst_2, main_call14_v9, main_call14_v10, main_call14_v11, main_call14_cst_3, main_call14_v12, main_call14_cst_4, main_call14_call0_v0, main_call14_call0_v1, main_v335, main_v336, main_v337, main_v338]

/-- The buffers window 7's operations write, in order: one each. -/
abbrev ops7_W : List (Ref sig .tc) :=
  [main_cst_79, main_v339, main_v340, main_v341, main_v342, main_v343, main_v344, main_v345, main_v346, main_v347, main_v348, main_v349, main_v350, main_cst_80, main_v351, main_v352, main_cst_81, main_v353, main_v354, main_v355, main_cst_82, main_v356, main_v357, main_v358, main_cst_83, main_v359, main_cst_84, main_v360, main_v361, main_v362, main_cst_85, main_v363, main_v364, main_v365, main_v366, main_v367]

end Cert.ReferenceIdeal.RefRun

end
-- ==== Proof.RefRun.lean ====
/- The run of the reference program. The program is a straight line of 564 tensor operations on one TensorCore — eight
   windows run in order, the outlined functions' bodies run in place at their calls — and launches no kernel. So every
   weakly fair execution terminates, and each buffer ends at the fold of the operations' results over the launch
   contents: the two results at that fold read at their buffers, and the 28 arguments, which no operation writes,
   unchanged. -/
import proofs.«177757_j84482006712681_1_alg».proof.Proof.RefRunOps
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.SL.Sem

variable {F : FTy → Type} [FloatOps F]

set_option Elab.async false

/-! ## Lists of operations: what they write, and what they leave alone -/

section Generic

variable {Val : EltTy → Type}

/-- If the operations of a line write, one by one, exactly the buffers of a list of references, then each writes inside
    that list. -/
theorem writes_sub_of_map_eq {l : List (HloOp τ sig Val)} {W : List (Ref sig .tc)}
    (h : l.map HloOp.writes = W.map fun y => ({Proc.devRef (τ := τ) .tc y} : Finset (DevRef τ sig))) :
    l.Forall fun op => op.writes ⊆ (W.map (Proc.devRef (τ := τ) .tc)).toFinset := by
  refine List.forall_iff_forall_mem.mpr fun op hop => ?_
  have h1 : op.writes ∈ l.map HloOp.writes := List.mem_map_of_mem hop
  rw [h] at h1
  obtain ⟨y, hy, e⟩ := List.mem_map.mp h1
  rw [← e, Finset.singleton_subset_iff, List.mem_toFinset]
  exact List.mem_map_of_mem hy

/-- If no operation of a line, one by one, has a buffer whose new contents it leaves open, none has. -/
theorem fresh_of_map_eq {l : List (HloOp τ sig Val)} {W : List (Ref sig .tc)}
    (h : l.map HloOp.fresh = W.map fun _ => (∅ : Finset (DevRef τ sig))) : l.Forall fun op => op.fresh = ∅ := by
  refine List.forall_iff_forall_mem.mpr fun op hop => ?_
  have h1 : op.fresh ∈ l.map HloOp.fresh := List.mem_map_of_mem hop
  rw [h] at h1
  obtain ⟨y, _, e⟩ := List.mem_map.mp h1
  exact e.symm

/-- A reference whose index is below every index of a list is not in the list. -/
theorem not_mem_of_idx_lt {W : List (Ref sig .tc)} {n : Nat} (hW : ∀ r ∈ W, n ≤ r.idx.val) {r : Ref sig .tc}
    (hr : r.idx.val < n) : r ∉ W := fun h => absurd (hW r h) (Nat.not_le.mpr hr)

/-- Eight lines run one after the other are their concatenation run as one. -/
theorem seq8 {Λ : Labels} (l0 l1 l2 l3 l4 l5 l6 l7 : List (HloOp τ sig Val)) :
    ((StableHlo.seq l0 : Prog (TpuEff nD τ sig Val Λ .tc) PUnit) >>= fun _ => StableHlo.seq l1 >>= fun _ =>
      StableHlo.seq l2 >>= fun _ => StableHlo.seq l3 >>= fun _ => StableHlo.seq l4 >>= fun _ => StableHlo.seq l5 >>= fun _ =>
      StableHlo.seq l6 >>= fun _ => StableHlo.seq l7)
      = StableHlo.seq (l0 ++ l1 ++ l2 ++ l3 ++ l4 ++ l5 ++ l6 ++ l7) := by
  simp only [StableHlo.seq_append, bind_assoc]

end Generic

/-! ## Window 0 -/

set_option maxRecDepth 8192 in
/-- Window 0 of the program is the straight line of its operations: the called functions' bodies unfolded at their
    calls, both sides are one chain of steps once sequencing is reassociated. -/
theorem main_part0_eq (c : Dev nD) : main_part0 (F := F) c = StableHlo.seq ops0 := by
  simp only [main_part0, fn_where.body, StableHlo.seq, bind_assoc, pure_bind] <;> rfl

set_option maxRecDepth 8192 in
/-- Every operation of window 0 touches TensorCore buffers only. -/
theorem ops0_sub : (ops0 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.binary_bufs_sub .., StableHlo.unary_bufs_sub ..,
    StableHlo.unary_bufs_sub .., StableHlo.binary_bufs_sub .., StableHlo.unary_bufs_sub .., StableHlo.reshape_bufs_sub .., StableHlo.binary_bufs_sub .., StableHlo.nullary_bufs_sub ..,
    StableHlo.unary_bufs_sub .., StableHlo.binary_bufs_sub .., StableHlo.unary_bufs_sub .., StableHlo.nullary_bufs_sub .., StableHlo.unary_bufs_sub .., StableHlo.binary_bufs_sub ..,
    StableHlo.nullary_bufs_sub .., StableHlo.unary_bufs_sub .., StableHlo.binary_bufs_sub .., StableHlo.ternary_bufs_sub .., StableHlo.unary_bufs_sub .., StableHlo.binary_bufs_sub ..,
    StableHlo.nullary_bufs_sub .., StableHlo.unary_bufs_sub .., StableHlo.unary_bufs_sub .., StableHlo.unary_bufs_sub .., StableHlo.ternary_bufs_sub .., StableHlo.nullary_bufs_sub ..,
    StableHlo.unary_bufs_sub .., StableHlo.unary_bufs_sub .., StableHlo.ternary_bufs_sub .., StableHlo.unary_bufs_sub .., StableHlo.nullary_bufs_sub .., StableHlo.unary_bufs_sub ..,
    StableHlo.unary_bufs_sub .., StableHlo.ternary_bufs_sub .., StableHlo.nullary_bufs_sub .., StableHlo.unary_bufs_sub .., StableHlo.binary_bufs_sub .., StableHlo.unary_bufs_sub ..,
    StableHlo.unary_bufs_sub .., StableHlo.binary_bufs_sub .., StableHlo.binary_bufs_sub .., StableHlo.unary_bufs_sub .., StableHlo.reshape_bufs_sub .., StableHlo.binary_bufs_sub ..,
    StableHlo.nullary_bufs_sub .., StableHlo.unary_bufs_sub .., StableHlo.binary_bufs_sub .., StableHlo.unary_bufs_sub .., StableHlo.nullary_bufs_sub .., StableHlo.unary_bufs_sub ..,
    StableHlo.binary_bufs_sub .., StableHlo.nullary_bufs_sub .., StableHlo.unary_bufs_sub .., StableHlo.binary_bufs_sub .., StableHlo.ternary_bufs_sub .., StableHlo.unary_bufs_sub ..,
    StableHlo.binary_bufs_sub .., StableHlo.nullary_bufs_sub .., StableHlo.unary_bufs_sub .., StableHlo.unary_bufs_sub .., StableHlo.unary_bufs_sub .., StableHlo.ternary_bufs_sub ..⟩

set_option maxRecDepth 8192 in
/-- Window 0's operations write, one by one, the buffers listed for it. -/
theorem ops0_writes : (ops0 : List (HloOp τ sig (Elt F))).Forall fun op =>
    op.writes ⊆ (ops0_W.map (Proc.devRef (τ := τ) .tc)).toFinset := writes_sub_of_map_eq rfl

set_option maxRecDepth 8192 in
/-- Every operation of window 0 determines the contents it writes. -/
theorem ops0_fresh : (ops0 : List (HloOp τ sig (Elt F))).Forall fun op => op.fresh = ∅ :=
  fresh_of_map_eq (W := ops0_W) rfl

/-- The buffers window 0 writes all come after the program's 28 arguments. -/
theorem ops0_W_ge : ∀ r ∈ ops0_W, 28 ≤ r.idx.val := by decide

/-- Window 0 leaves the program's arguments as they were. -/
theorem keep0 (V : Valuation τ sig (Elt F)) {r : Ref sig .tc} (h : r.idx.val < 28) :
    StableHlo.after ops0 V (Proc.devRef .tc r) = V (Proc.devRef .tc r) :=
  StableHlo.after_of_writes_sub ops0 V ops0_writes (not_mem_of_idx_lt ops0_W_ge h)

/-! ## Window 1 -/

set_option maxRecDepth 8192 in
/-- Window 1 of the program is the straight line of its operations: the called functions' bodies unfolded at their
    calls, both sides are one chain of steps once sequencing is reassociated. -/
theorem main_part1_eq (c : Dev nD) : main_part1 (F := F) c = StableHlo.seq ops1 := by
  simp only [main_part1, fn_var.body, fn_where_0.body, fn_where_1.body, StableHlo.seq, bind_assoc, pure_bind] <;> rfl

set_option maxRecDepth 8192 in
/-- Every operation of window 1 touches TensorCore buffers only. -/
theorem ops1_sub : (ops1 : List (HloOp τ sig (Elt F))).Forall fun op => op.bufs ⊆ StableHlo.tcRefs τ sig :=
  ⟨StableHlo.nullary_bufs_sub .., StableHlo.unary_bufs_sub .., StableHlo.unary_bufs_sub .., StableHlo.ternary_bufs_sub .., StableHlo.unary_bufs_sub .., StableHlo.nullary_bufs_sub ..,
    StableHlo.unary_bufs_sub .., StableHlo.unary_bufs_sub .., StableHlo.ternary_bufs_sub .., StableHlo.nullary_bufs_sub .., StableHlo.unary_bufs_sub .., StableHlo.binary_bufs_sub ..,
    StableHlo.unary_bufs_sub .., StableHlo.unary_bufs_sub .., StableHlo.binary_bufs_sub .., StableHlo.binary_bufs_sub .., StableHlo.nullary_bufs_sub .., StableHlo.binary_bufs_sub ..,
    StableHlo.nullary_bufs_sub .., StableHlo.unary_bufs_sub .., StableHlo.binary_bufs_sub .., StableHlo.nullary_bufs_sub .., StableHlo.nullary_bufs_sub .., StableHlo.binary_bufs_sub ..,
    StableHlo.unary_bufs_sub .., StableHlo.nullary_bufs_sub .., StableHlo.unary_bufs_sub .., StableHlo.binary_bufs_sub .., StableHlo.unary_bufs_sub .., StableHlo.binary_bufs_sub ..,
    StableHlo.binary_bufs_sub .., StableHlo.unary_bufs_sub .., StableHlo.nullary_bufs_sub .., StableHlo.binary_bufs_sub .., StableHlo.nullary_bufs_sub .., StableHlo.binary_bufs_sub ..,
    StableHlo.unary_bufs_sub .., StableHlo.binary_bufs_sub .., StableHlo.nullary_bufs_sub .., StableHlo.binary_bufs_sub .., StableHlo.nullary_bufs_sub .., StableHlo.unary_bufs_sub ..,
    StableHlo.unary_bufs_sub .., StableHlo.ternary_bufs_sub .., StableHlo.unary_bufs_sub .., StableHlo.unary_bufs_sub .., StableHlo.binary_bufs_sub .., StableHlo.nullary_bufs_sub ..,
    StableHlo.unary_bufs_sub .., StableHlo.binary_bufs_sub .., StableHlo.unary_bufs_sub .., StableHlo.unary_bufs_sub .., StableHlo.unary_bufs_sub .., StableHlo.binary_bufs_sub ..,
    StableHlo.unary_bufs_sub .., StableHlo.unary_bufs_sub .., StableHlo.binary_bufs_sub .., StableHlo.unary_bufs_sub .., StableHlo.unary_bufs_sub .., StableHlo.binary_bufs_sub ..,
    StableHlo.nullary_bufs_sub .., StableHlo.unary_bufs_sub .., StableHlo.binary_bufs_sub .., StableHlo.nullary_bufs_sub .., StableHlo.unary_bufs_sub .., StableHlo.binary_bufs_sub ..,
    StableHlo.ternary_bufs_sub .., StableHlo.unary_bufs_sub .., StableHlo.reshape_bufs_sub .., StableHlo.unary_bufs_sub .., StableHlo.reshape_bufs_sub .., StableHlo.binary_bufs_sub ..,
    StableHlo.unary_bufs_sub .., StableHlo.unary_bufs_sub .., StableHlo.binary_bufs_sub .., StableHlo.unary_bufs_sub .., StableHlo.reshape_bufs_sub .., StableHlo.binary_bufs_sub ..,
    StableHlo.nullary_bufs_sub .., StableHlo.unary_bufs_sub .., StableHlo.binary_bufs_sub ..⟩

set_option maxRecDepth 8192 in
/-- Window 1's operations write, one by one, the buffers listed for it. -/
theorem ops1_writes : (ops1 : List (HloOp τ sig (Elt F))).Forall fun op =>
    op.writes ⊆ (ops1_W.map (Proc.devRef (τ := τ) .tc)).toFinset := writes_sub_of_map_eq rfl

set_option maxRecDepth 8192 in
/-- Every operation of window 1 determines the contents it writes. -/
theorem ops1_fresh : (ops1 : List (HloOp τ sig (Elt F))).Forall fun op => op.fresh = ∅ :=
  fresh_of_map_eq (W := ops1_W) rfl

/-- The buffers window 1 writes all come after the program's 28 arguments. -/
theorem ops1_W_ge : ∀ r ∈ ops1_W, 28 ≤ r.idx.val := by decide

/-- Window 1 leaves the program's arguments as they were. -/
theorem keep1 (V : Valuation τ sig (Elt F)) {r : Ref sig .tc} (h : r.idx.val < 28) :
    StableHlo.after ops1 V (Proc.devRef .tc r) = V (Proc.devRef .tc r) :=
  StableHlo.after_of_writes_sub ops1 V ops1_writes (not_mem_of_idx_lt ops1_W_ge h)

/-! ## Window 2 -/

set_option maxRecDepth 8192 in
/-- Window 2 of the program is the straight line of its operations: the called functions' bodies unfolded at their
    calls, both sides are one chain of steps once sequencing is reassociated. -/
theorem main_part2_eq (c : Dev nD) : main_part2 (F := F) c = StableHlo.seq ops2 := by
  simp only [main_part2, fn_where_2.body, StableHlo.seq, bind_assoc, pure_bind] <;> rfl

set_option maxRecDepth 8192 in
/-- Every operation of window 2 touches TensorCore buffers only. -/
theorem ops2_sub : (ops2 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub .., StableHlo.unary_bufs_sub ..,
    StableHlo.binary_bufs_sub .., StableHlo.ternary_bufs_sub .., StableHlo.unary_bufs_sub .., StableHlo.binary_bufs_sub .., StableHlo.nullary_bufs_sub .., StableHlo.unary_bufs_sub ..,
    StableHlo.unary_bufs_sub .., StableHlo.unary_bufs_sub .., StableHlo.ternary_bufs_sub .., StableHlo.nullary_bufs_sub .., StableHlo.unary_bufs_sub .., StableHlo.unary_bufs_sub ..,
    StableHlo.ternary_bufs_sub .., StableHlo.unary_bufs_sub .., StableHlo.nullary_bufs_sub .., StableHlo.unary_bufs_sub .., StableHlo.unary_bufs_sub .., StableHlo.ternary_bufs_sub ..,
    StableHlo.nullary_bufs_sub .., StableHlo.unary_bufs_sub .., StableHlo.binary_bufs_sub .., StableHlo.unary_bufs_sub .., StableHlo.unary_bufs_sub .., StableHlo.binary_bufs_sub ..,
    StableHlo.binary_bufs_sub .., StableHlo.unary_bufs_sub .., StableHlo.reshape_bufs_sub .., StableHlo.binary_bufs_sub .., StableHlo.nullary_bufs_sub .., StableHlo.unary_bufs_sub ..,
    StableHlo.binary_bufs_sub .., StableHlo.unary_bufs_sub .., StableHlo.nullary_bufs_sub .., StableHlo.unary_bufs_sub .., StableHlo.binary_bufs_sub .., StableHlo.nullary_bufs_sub ..,
    StableHlo.unary_bufs_sub .., StableHlo.binary_bufs_sub .., StableHlo.ternary_bufs_sub .., StableHlo.unary_bufs_sub .., StableHlo.binary_bufs_sub .., StableHlo.nullary_bufs_sub ..,
    StableHlo.unary_bufs_sub .., StableHlo.unary_bufs_sub .., StableHlo.unary_bufs_sub .., StableHlo.ternary_bufs_sub .., StableHlo.nullary_bufs_sub .., StableHlo.unary_bufs_sub ..,
    StableHlo.unary_bufs_sub .., StableHlo.ternary_bufs_sub .., StableHlo.unary_bufs_sub .., StableHlo.nullary_bufs_sub .., StableHlo.unary_bufs_sub .., StableHlo.unary_bufs_sub ..,
    StableHlo.ternary_bufs_sub .., StableHlo.nullary_bufs_sub .., StableHlo.unary_bufs_sub .., StableHlo.binary_bufs_sub .., StableHlo.unary_bufs_sub .., StableHlo.unary_bufs_sub ..⟩

set_option maxRecDepth 8192 in
/-- Window 2's operations write, one by one, the buffers listed for it. -/
theorem ops2_writes : (ops2 : List (HloOp τ sig (Elt F))).Forall fun op =>
    op.writes ⊆ (ops2_W.map (Proc.devRef (τ := τ) .tc)).toFinset := writes_sub_of_map_eq rfl

set_option maxRecDepth 8192 in
/-- Every operation of window 2 determines the contents it writes. -/
theorem ops2_fresh : (ops2 : List (HloOp τ sig (Elt F))).Forall fun op => op.fresh = ∅ :=
  fresh_of_map_eq (W := ops2_W) rfl

/-- The buffers window 2 writes all come after the program's 28 arguments. -/
theorem ops2_W_ge : ∀ r ∈ ops2_W, 28 ≤ r.idx.val := by decide

/-- Window 2 leaves the program's arguments as they were. -/
theorem keep2 (V : Valuation τ sig (Elt F)) {r : Ref sig .tc} (h : r.idx.val < 28) :
    StableHlo.after ops2 V (Proc.devRef .tc r) = V (Proc.devRef .tc r) :=
  StableHlo.after_of_writes_sub ops2 V ops2_writes (not_mem_of_idx_lt ops2_W_ge h)

/-! ## Window 3 -/

set_option maxRecDepth 8192 in
/-- Window 3 of the program is the straight line of its operations: the called functions' bodies unfolded at their
    calls, both sides are one chain of steps once sequencing is reassociated. -/
theorem main_part3_eq (c : Dev nD) : main_part3 (F := F) c = StableHlo.seq ops3 := by
  simp only [main_part3, fn_var_3.body, fn_where_4.body, fn_where_5.body, StableHlo.seq, bind_assoc, pure_bind] <;> rfl

set_option maxRecDepth 8192 in
/-- Every operation of window 3 touches TensorCore buffers only. -/
theorem ops3_sub : (ops3 : List (HloOp τ sig (Elt F))).Forall fun op => op.bufs ⊆ StableHlo.tcRefs τ sig :=
  ⟨StableHlo.binary_bufs_sub .., StableHlo.binary_bufs_sub .., StableHlo.nullary_bufs_sub .., StableHlo.binary_bufs_sub .., StableHlo.nullary_bufs_sub .., StableHlo.unary_bufs_sub ..,
    StableHlo.binary_bufs_sub .., StableHlo.nullary_bufs_sub .., StableHlo.nullary_bufs_sub .., StableHlo.binary_bufs_sub .., StableHlo.unary_bufs_sub .., StableHlo.nullary_bufs_sub ..,
    StableHlo.unary_bufs_sub .., StableHlo.binary_bufs_sub .., StableHlo.unary_bufs_sub .., StableHlo.binary_bufs_sub .., StableHlo.binary_bufs_sub .., StableHlo.unary_bufs_sub ..,
    StableHlo.nullary_bufs_sub .., StableHlo.binary_bufs_sub .., StableHlo.nullary_bufs_sub .., StableHlo.binary_bufs_sub .., StableHlo.unary_bufs_sub .., StableHlo.binary_bufs_sub ..,
    StableHlo.nullary_bufs_sub .., StableHlo.binary_bufs_sub .., StableHlo.nullary_bufs_sub .., StableHlo.unary_bufs_sub .., StableHlo.unary_bufs_sub .., StableHlo.ternary_bufs_sub ..,
    StableHlo.unary_bufs_sub .., StableHlo.unary_bufs_sub .., StableHlo.binary_bufs_sub .., StableHlo.nullary_bufs_sub .., StableHlo.unary_bufs_sub .., StableHlo.binary_bufs_sub ..,
    StableHlo.unary_bufs_sub .., StableHlo.unary_bufs_sub .., StableHlo.unary_bufs_sub .., StableHlo.binary_bufs_sub .., StableHlo.unary_bufs_sub .., StableHlo.unary_bufs_sub ..,
    StableHlo.binary_bufs_sub .., StableHlo.unary_bufs_sub .., StableHlo.unary_bufs_sub .., StableHlo.binary_bufs_sub .., StableHlo.nullary_bufs_sub .., StableHlo.unary_bufs_sub ..,
    StableHlo.binary_bufs_sub .., StableHlo.nullary_bufs_sub .., StableHlo.unary_bufs_sub .., StableHlo.binary_bufs_sub .., StableHlo.ternary_bufs_sub .., StableHlo.nullary_bufs_sub ..,
    StableHlo.unary_bufs_sub .., StableHlo.unary_bufs_sub .., StableHlo.ternary_bufs_sub .., StableHlo.nullary_bufs_sub .., StableHlo.unary_bufs_sub .., StableHlo.nullary_bufs_sub ..,
    StableHlo.unary_bufs_sub .., StableHlo.unary_bufs_sub .., StableHlo.ternary_bufs_sub .., StableHlo.nullary_bufs_sub .., StableHlo.unary_bufs_sub .., StableHlo.binary_bufs_sub ..,
    StableHlo.unary_bufs_sub .., StableHlo.unary_bufs_sub .., StableHlo.binary_bufs_sub .., StableHlo.unary_bufs_sub .., StableHlo.reshape_bufs_sub .., StableHlo.unary_bufs_sub ..,
    StableHlo.reshape_bufs_sub .., StableHlo.binary_bufs_sub .., StableHlo.unary_bufs_sub .., StableHlo.unary_bufs_sub .., StableHlo.binary_bufs_sub .., StableHlo.unary_bufs_sub ..,
    StableHlo.reshape_bufs_sub .., StableHlo.binary_bufs_sub .., StableHlo.nullary_bufs_sub ..⟩

set_option maxRecDepth 8192 in
/-- Window 3's operations write, one by one, the buffers listed for it. -/
theorem ops3_writes : (ops3 : List (HloOp τ sig (Elt F))).Forall fun op =>
    op.writes ⊆ (ops3_W.map (Proc.devRef (τ := τ) .tc)).toFinset := writes_sub_of_map_eq rfl

set_option maxRecDepth 8192 in
/-- Every operation of window 3 determines the contents it writes. -/
theorem ops3_fresh : (ops3 : List (HloOp τ sig (Elt F))).Forall fun op => op.fresh = ∅ :=
  fresh_of_map_eq (W := ops3_W) rfl

/-- The buffers window 3 writes all come after the program's 28 arguments. -/
theorem ops3_W_ge : ∀ r ∈ ops3_W, 28 ≤ r.idx.val := by decide

/-- Window 3 leaves the program's arguments as they were. -/
theorem keep3 (V : Valuation τ sig (Elt F)) {r : Ref sig .tc} (h : r.idx.val < 28) :
    StableHlo.after ops3 V (Proc.devRef .tc r) = V (Proc.devRef .tc r) :=
  StableHlo.after_of_writes_sub ops3 V ops3_writes (not_mem_of_idx_lt ops3_W_ge h)

/-! ## Window 4 -/

set_option maxRecDepth 8192 in
/-- Window 4 of the program is the straight line of its operations: the called functions' bodies unfolded at their
    calls, both sides are one chain of steps once sequencing is reassociated. -/
theorem main_part4_eq (c : Dev nD) : main_part4 (F := F) c = StableHlo.seq ops4 := by
  simp only [main_part4, fn_where.body, StableHlo.seq, bind_assoc, pure_bind] <;> rfl

set_option maxRecDepth 8192 in
/-- Every operation of window 4 touches TensorCore buffers only. -/
theorem ops4_sub : (ops4 : List (HloOp τ sig (Elt F))).Forall fun op => op.bufs ⊆ StableHlo.tcRefs τ sig :=
  ⟨StableHlo.unary_bufs_sub .., StableHlo.binary_bufs_sub .., StableHlo.unary_bufs_sub .., StableHlo.nullary_bufs_sub .., StableHlo.unary_bufs_sub .., StableHlo.binary_bufs_sub ..,
    StableHlo.nullary_bufs_sub .., StableHlo.unary_bufs_sub .., StableHlo.binary_bufs_sub .., StableHlo.ternary_bufs_sub .., StableHlo.unary_bufs_sub .., StableHlo.binary_bufs_sub ..,
    StableHlo.nullary_bufs_sub .., StableHlo.unary_bufs_sub .., StableHlo.unary_bufs_sub .., StableHlo.unary_bufs_sub .., StableHlo.ternary_bufs_sub .., StableHlo.nullary_bufs_sub ..,
    StableHlo.unary_bufs_sub .., StableHlo.unary_bufs_sub .., StableHlo.ternary_bufs_sub .., StableHlo.unary_bufs_sub .., StableHlo.nullary_bufs_sub .., StableHlo.unary_bufs_sub ..,
    StableHlo.unary_bufs_sub .., StableHlo.ternary_bufs_sub .., StableHlo.nullary_bufs_sub .., StableHlo.unary_bufs_sub .., StableHlo.binary_bufs_sub .., StableHlo.unary_bufs_sub ..,
    StableHlo.unary_bufs_sub .., StableHlo.binary_bufs_sub .., StableHlo.binary_bufs_sub .., StableHlo.unary_bufs_sub .., StableHlo.reshape_bufs_sub .., StableHlo.binary_bufs_sub ..,
    StableHlo.nullary_bufs_sub .., StableHlo.unary_bufs_sub .., StableHlo.binary_bufs_sub .., StableHlo.unary_bufs_sub .., StableHlo.nullary_bufs_sub .., StableHlo.unary_bufs_sub ..,
    StableHlo.binary_bufs_sub .., StableHlo.nullary_bufs_sub .., StableHlo.unary_bufs_sub .., StableHlo.binary_bufs_sub .., StableHlo.ternary_bufs_sub .., StableHlo.unary_bufs_sub ..,
    StableHlo.binary_bufs_sub .., StableHlo.nullary_bufs_sub .., StableHlo.unary_bufs_sub .., StableHlo.unary_bufs_sub .., StableHlo.unary_bufs_sub .., StableHlo.ternary_bufs_sub ..,
    StableHlo.nullary_bufs_sub .., StableHlo.unary_bufs_sub .., StableHlo.unary_bufs_sub .., StableHlo.ternary_bufs_sub .., StableHlo.unary_bufs_sub .., StableHlo.nullary_bufs_sub ..,
    StableHlo.unary_bufs_sub .., StableHlo.unary_bufs_sub .., StableHlo.ternary_bufs_sub .., StableHlo.nullary_bufs_sub .., StableHlo.unary_bufs_sub .., StableHlo.binary_bufs_sub ..⟩

set_option maxRecDepth 8192 in
/-- Window 4's operations write, one by one, the buffers listed for it. -/
theorem ops4_writes : (ops4 : List (HloOp τ sig (Elt F))).Forall fun op =>
    op.writes ⊆ (ops4_W.map (Proc.devRef (τ := τ) .tc)).toFinset := writes_sub_of_map_eq rfl

set_option maxRecDepth 8192 in
/-- Every operation of window 4 determines the contents it writes. -/
theorem ops4_fresh : (ops4 : List (HloOp τ sig (Elt F))).Forall fun op => op.fresh = ∅ :=
  fresh_of_map_eq (W := ops4_W) rfl

/-- The buffers window 4 writes all come after the program's 28 arguments. -/
theorem ops4_W_ge : ∀ r ∈ ops4_W, 28 ≤ r.idx.val := by decide

/-- Window 4 leaves the program's arguments as they were. -/
theorem keep4 (V : Valuation τ sig (Elt F)) {r : Ref sig .tc} (h : r.idx.val < 28) :
    StableHlo.after ops4 V (Proc.devRef .tc r) = V (Proc.devRef .tc r) :=
  StableHlo.after_of_writes_sub ops4 V ops4_writes (not_mem_of_idx_lt ops4_W_ge h)

/-! ## Window 5 -/

set_option maxRecDepth 8192 in
/-- Window 5 of the program is the straight line of its operations: the called functions' bodies unfolded at their
    calls, both sides are one chain of steps once sequencing is reassociated. -/
theorem main_part5_eq (c : Dev nD) : main_part5 (F := F) c = StableHlo.seq ops5 := by
  simp only [main_part5, fn_var.body, fn_where_0.body, fn_where_1.body, fn_where_2.body, StableHlo.seq, bind_assoc, pure_bind] <;> rfl

set_option maxRecDepth 8192 in
/-- Every operation of window 5 touches TensorCore buffers only. -/
theorem ops5_sub : (ops5 : List (HloOp τ sig (Elt F))).Forall fun op => op.bufs ⊆ StableHlo.tcRefs τ sig :=
  ⟨StableHlo.unary_bufs_sub .., StableHlo.unary_bufs_sub .., StableHlo.binary_bufs_sub .., StableHlo.binary_bufs_sub .., StableHlo.nullary_bufs_sub .., StableHlo.binary_bufs_sub ..,
    StableHlo.nullary_bufs_sub .., StableHlo.unary_bufs_sub .., StableHlo.binary_bufs_sub .., StableHlo.nullary_bufs_sub .., StableHlo.nullary_bufs_sub .., StableHlo.binary_bufs_sub ..,
    StableHlo.unary_bufs_sub .., StableHlo.nullary_bufs_sub .., StableHlo.unary_bufs_sub .., StableHlo.binary_bufs_sub .., StableHlo.unary_bufs_sub .., StableHlo.binary_bufs_sub ..,
    StableHlo.binary_bufs_sub .., StableHlo.unary_bufs_sub .., StableHlo.nullary_bufs_sub .., StableHlo.binary_bufs_sub .., StableHlo.nullary_bufs_sub .., StableHlo.binary_bufs_sub ..,
    StableHlo.unary_bufs_sub .., StableHlo.binary_bufs_sub .., StableHlo.nullary_bufs_sub .., StableHlo.binary_bufs_sub .., StableHlo.nullary_bufs_sub .., StableHlo.unary_bufs_sub ..,
    StableHlo.unary_bufs_sub .., StableHlo.ternary_bufs_sub .., StableHlo.unary_bufs_sub .., StableHlo.unary_bufs_sub .., StableHlo.binary_bufs_sub .., StableHlo.nullary_bufs_sub ..,
    StableHlo.unary_bufs_sub .., StableHlo.binary_bufs_sub .., StableHlo.unary_bufs_sub .., StableHlo.unary_bufs_sub .., StableHlo.unary_bufs_sub .., StableHlo.binary_bufs_sub ..,
    StableHlo.unary_bufs_sub .., StableHlo.unary_bufs_sub .., StableHlo.binary_bufs_sub .., StableHlo.unary_bufs_sub .., StableHlo.unary_bufs_sub .., StableHlo.binary_bufs_sub ..,
    StableHlo.nullary_bufs_sub .., StableHlo.unary_bufs_sub .., StableHlo.binary_bufs_sub .., StableHlo.nullary_bufs_sub .., StableHlo.unary_bufs_sub .., StableHlo.binary_bufs_sub ..,
    StableHlo.ternary_bufs_sub .., StableHlo.unary_bufs_sub .., StableHlo.reshape_bufs_sub .., StableHlo.unary_bufs_sub .., StableHlo.reshape_bufs_sub .., StableHlo.binary_bufs_sub ..,
    StableHlo.unary_bufs_sub .., StableHlo.unary_bufs_sub .., StableHlo.binary_bufs_sub .., StableHlo.unary_bufs_sub .., StableHlo.reshape_bufs_sub .., StableHlo.binary_bufs_sub ..,
    StableHlo.nullary_bufs_sub .., StableHlo.unary_bufs_sub .., StableHlo.binary_bufs_sub .., StableHlo.unary_bufs_sub .., StableHlo.nullary_bufs_sub .., StableHlo.unary_bufs_sub ..,
    StableHlo.binary_bufs_sub .., StableHlo.nullary_bufs_sub .., StableHlo.unary_bufs_sub .., StableHlo.binary_bufs_sub .., StableHlo.ternary_bufs_sub .., StableHlo.unary_bufs_sub ..,
    StableHlo.binary_bufs_sub .., StableHlo.nullary_bufs_sub .., StableHlo.unary_bufs_sub .., StableHlo.unary_bufs_sub .., StableHlo.unary_bufs_sub .., StableHlo.ternary_bufs_sub ..⟩

set_option maxRecDepth 8192 in
/-- Window 5's operations write, one by one, the buffers listed for it. -/
theorem ops5_writes : (ops5 : List (HloOp τ sig (Elt F))).Forall fun op =>
    op.writes ⊆ (ops5_W.map (Proc.devRef (τ := τ) .tc)).toFinset := writes_sub_of_map_eq rfl

set_option maxRecDepth 8192 in
/-- Every operation of window 5 determines the contents it writes. -/
theorem ops5_fresh : (ops5 : List (HloOp τ sig (Elt F))).Forall fun op => op.fresh = ∅ :=
  fresh_of_map_eq (W := ops5_W) rfl

/-- The buffers window 5 writes all come after the program's 28 arguments. -/
theorem ops5_W_ge : ∀ r ∈ ops5_W, 28 ≤ r.idx.val := by decide

/-- Window 5 leaves the program's arguments as they were. -/
theorem keep5 (V : Valuation τ sig (Elt F)) {r : Ref sig .tc} (h : r.idx.val < 28) :
    StableHlo.after ops5 V (Proc.devRef .tc r) = V (Proc.devRef .tc r) :=
  StableHlo.after_of_writes_sub ops5 V ops5_writes (not_mem_of_idx_lt ops5_W_ge h)

/-! ## Window 6 -/

set_option maxRecDepth 8192 in
/-- Window 6 of the program is the straight line of its operations: the called functions' bodies unfolded at their
    calls, both sides are one chain of steps once sequencing is reassociated. -/
theorem main_part6_eq (c : Dev nD) : main_part6 (F := F) c = StableHlo.seq ops6 := by
  simp only [main_part6, fn_where_2.body, fn_var_3.body, fn_where_4.body, StableHlo.seq, bind_assoc, pure_bind] <;> rfl

set_option maxRecDepth 8192 in
/-- Every operation of window 6 touches TensorCore buffers only. -/
theorem ops6_sub : (ops6 : List (HloOp τ sig (Elt F))).Forall fun op => op.bufs ⊆ StableHlo.tcRefs τ sig :=
  ⟨StableHlo.nullary_bufs_sub .., StableHlo.unary_bufs_sub .., StableHlo.unary_bufs_sub .., StableHlo.ternary_bufs_sub .., StableHlo.unary_bufs_sub .., StableHlo.nullary_bufs_sub ..,
    StableHlo.unary_bufs_sub .., StableHlo.unary_bufs_sub .., StableHlo.ternary_bufs_sub .., StableHlo.nullary_bufs_sub .., StableHlo.unary_bufs_sub .., StableHlo.binary_bufs_sub ..,
    StableHlo.unary_bufs_sub .., StableHlo.unary_bufs_sub .., StableHlo.binary_bufs_sub .., StableHlo.binary_bufs_sub .., StableHlo.unary_bufs_sub .., StableHlo.reshape_bufs_sub ..,
    StableHlo.binary_bufs_sub .., StableHlo.nullary_bufs_sub .., StableHlo.unary_bufs_sub .., StableHlo.binary_bufs_sub .., StableHlo.unary_bufs_sub .., StableHlo.nullary_bufs_sub ..,
    StableHlo.unary_bufs_sub .., StableHlo.binary_bufs_sub .., StableHlo.nullary_bufs_sub .., StableHlo.unary_bufs_sub .., StableHlo.binary_bufs_sub .., StableHlo.ternary_bufs_sub ..,
    StableHlo.unary_bufs_sub .., StableHlo.binary_bufs_sub .., StableHlo.nullary_bufs_sub .., StableHlo.unary_bufs_sub .., StableHlo.unary_bufs_sub .., StableHlo.unary_bufs_sub ..,
    StableHlo.ternary_bufs_sub .., StableHlo.nullary_bufs_sub .., StableHlo.unary_bufs_sub .., StableHlo.unary_bufs_sub .., StableHlo.ternary_bufs_sub .., StableHlo.unary_bufs_sub ..,
    StableHlo.nullary_bufs_sub .., StableHlo.unary_bufs_sub .., StableHlo.unary_bufs_sub .., StableHlo.ternary_bufs_sub .., StableHlo.nullary_bufs_sub .., StableHlo.unary_bufs_sub ..,
    StableHlo.binary_bufs_sub .., StableHlo.unary_bufs_sub .., StableHlo.unary_bufs_sub .., StableHlo.binary_bufs_sub .., StableHlo.binary_bufs_sub .., StableHlo.nullary_bufs_sub ..,
    StableHlo.binary_bufs_sub .., StableHlo.nullary_bufs_sub .., StableHlo.unary_bufs_sub .., StableHlo.binary_bufs_sub .., StableHlo.nullary_bufs_sub .., StableHlo.nullary_bufs_sub ..,
    StableHlo.binary_bufs_sub .., StableHlo.unary_bufs_sub .., StableHlo.nullary_bufs_sub .., StableHlo.unary_bufs_sub .., StableHlo.binary_bufs_sub .., StableHlo.unary_bufs_sub ..,
    StableHlo.binary_bufs_sub .., StableHlo.binary_bufs_sub .., StableHlo.unary_bufs_sub .., StableHlo.nullary_bufs_sub .., StableHlo.binary_bufs_sub .., StableHlo.nullary_bufs_sub ..,
    StableHlo.binary_bufs_sub .., StableHlo.unary_bufs_sub .., StableHlo.binary_bufs_sub .., StableHlo.nullary_bufs_sub .., StableHlo.binary_bufs_sub .., StableHlo.nullary_bufs_sub ..,
    StableHlo.unary_bufs_sub .., StableHlo.unary_bufs_sub .., StableHlo.ternary_bufs_sub .., StableHlo.unary_bufs_sub .., StableHlo.unary_bufs_sub .., StableHlo.binary_bufs_sub ..⟩

set_option maxRecDepth 8192 in
/-- Window 6's operations write, one by one, the buffers listed for it. -/
theorem ops6_writes : (ops6 : List (HloOp τ sig (Elt F))).Forall fun op =>
    op.writes ⊆ (ops6_W.map (Proc.devRef (τ := τ) .tc)).toFinset := writes_sub_of_map_eq rfl

set_option maxRecDepth 8192 in
/-- Every operation of window 6 determines the contents it writes. -/
theorem ops6_fresh : (ops6 : List (HloOp τ sig (Elt F))).Forall fun op => op.fresh = ∅ :=
  fresh_of_map_eq (W := ops6_W) rfl

/-- The buffers window 6 writes all come after the program's 28 arguments. -/
theorem ops6_W_ge : ∀ r ∈ ops6_W, 28 ≤ r.idx.val := by decide

/-- Window 6 leaves the program's arguments as they were. -/
theorem keep6 (V : Valuation τ sig (Elt F)) {r : Ref sig .tc} (h : r.idx.val < 28) :
    StableHlo.after ops6 V (Proc.devRef .tc r) = V (Proc.devRef .tc r) :=
  StableHlo.after_of_writes_sub ops6 V ops6_writes (not_mem_of_idx_lt ops6_W_ge h)

/-! ## Window 7 -/

set_option maxRecDepth 8192 in
/-- Window 7 of the program is the straight line of its operations: the called functions' bodies unfolded at their
    calls, both sides are one chain of steps once sequencing is reassociated. -/
theorem main_part7_eq (c : Dev nD) : main_part7 (F := F) c = StableHlo.seq ops7 := by
  simp only [main_part7, fn_where_5.body, StableHlo.seq, bind_assoc, pure_bind] <;> rfl

set_option maxRecDepth 8192 in
/-- Every operation of window 7 touches TensorCore buffers only. -/
theorem ops7_sub : (ops7 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.unary_bufs_sub .., StableHlo.unary_bufs_sub ..,
    StableHlo.binary_bufs_sub .., StableHlo.unary_bufs_sub .., StableHlo.unary_bufs_sub .., StableHlo.binary_bufs_sub .., StableHlo.unary_bufs_sub .., StableHlo.unary_bufs_sub ..,
    StableHlo.binary_bufs_sub .., StableHlo.nullary_bufs_sub .., StableHlo.unary_bufs_sub .., StableHlo.binary_bufs_sub .., StableHlo.nullary_bufs_sub .., StableHlo.unary_bufs_sub ..,
    StableHlo.binary_bufs_sub .., StableHlo.ternary_bufs_sub .., StableHlo.nullary_bufs_sub .., StableHlo.unary_bufs_sub .., StableHlo.unary_bufs_sub .., StableHlo.ternary_bufs_sub ..,
    StableHlo.nullary_bufs_sub .., StableHlo.unary_bufs_sub .., StableHlo.nullary_bufs_sub .., StableHlo.unary_bufs_sub .., StableHlo.unary_bufs_sub .., StableHlo.ternary_bufs_sub ..,
    StableHlo.nullary_bufs_sub .., StableHlo.unary_bufs_sub .., StableHlo.binary_bufs_sub .., StableHlo.unary_bufs_sub .., StableHlo.unary_bufs_sub .., StableHlo.binary_bufs_sub ..⟩

set_option maxRecDepth 8192 in
/-- Window 7's operations write, one by one, the buffers listed for it. -/
theorem ops7_writes : (ops7 : List (HloOp τ sig (Elt F))).Forall fun op =>
    op.writes ⊆ (ops7_W.map (Proc.devRef (τ := τ) .tc)).toFinset := writes_sub_of_map_eq rfl

set_option maxRecDepth 8192 in
/-- Every operation of window 7 determines the contents it writes. -/
theorem ops7_fresh : (ops7 : List (HloOp τ sig (Elt F))).Forall fun op => op.fresh = ∅ :=
  fresh_of_map_eq (W := ops7_W) rfl

/-- The buffers window 7 writes all come after the program's 28 arguments. -/
theorem ops7_W_ge : ∀ r ∈ ops7_W, 28 ≤ r.idx.val := by decide

/-- Window 7 leaves the program's arguments as they were. -/
theorem keep7 (V : Valuation τ sig (Elt F)) {r : Ref sig .tc} (h : r.idx.val < 28) :
    StableHlo.after ops7 V (Proc.devRef .tc r) = V (Proc.devRef .tc r) :=
  StableHlo.after_of_writes_sub ops7 V ops7_writes (not_mem_of_idx_lt ops7_W_ge h)

/-! ## The whole program -/

/-- The program is the straight line of its 564 operations: its windows run in order, each the line of its own. -/
theorem main_eq (c : Dev nD) : main (F := F) c = StableHlo.seq ops := by
  rw [show (ops : List (HloOp τ sig (Elt F))) = ops0 ++ ops1 ++ ops2 ++ ops3 ++ ops4 ++ ops5 ++ ops6 ++ ops7 from rfl, ← seq8,
    ← main_part0_eq c, ← main_part1_eq c, ← main_part2_eq c, ← main_part3_eq c, ← main_part4_eq c, ← main_part5_eq c,
    ← main_part6_eq c, ← main_part7_eq c]
  rfl

/-- The signature scopes no TensorCore buffer. -/
theorem scopedRefs_eq : (Finset.univ.filter fun b : Ref sig .tc => b.isScoped) = ∅ := by decide
/-- The signature has no semaphore to scope. -/
theorem scopedSems_eq : (Finset.univ.filter fun sm : SemLoc sig => sm.isScoped .tc) = ∅ := by decide

/-- Every operation of the program touches TensorCore buffers only. -/
theorem ops_sub : (ops : List (HloOp τ sig (Elt F))).Forall fun op => op.bufs ⊆ StableHlo.tcRefs τ sig :=
  List.forall_append.mpr ⟨List.forall_append.mpr ⟨List.forall_append.mpr ⟨List.forall_append.mpr ⟨List.forall_append.mpr ⟨List.forall_append.mpr ⟨List.forall_append.mpr ⟨ops0_sub, ops1_sub⟩, ops2_sub⟩, ops3_sub⟩, ops4_sub⟩, ops5_sub⟩, ops6_sub⟩, ops7_sub⟩

/-- Every operation of the program determines the contents it writes. -/
theorem ops_fresh : ∀ op ∈ (ops : List (HloOp τ sig (Elt F))), op.fresh = ∅ :=
  List.forall_iff_forall_mem.mp
    (List.forall_append.mpr ⟨List.forall_append.mpr ⟨List.forall_append.mpr ⟨List.forall_append.mpr ⟨List.forall_append.mpr ⟨List.forall_append.mpr ⟨List.forall_append.mpr ⟨ops0_fresh, ops1_fresh⟩, ops2_fresh⟩, ops3_fresh⟩, ops4_fresh⟩, ops5_fresh⟩, ops6_fresh⟩, ops7_fresh⟩)

/-- The program leaves its arguments as they were: no window writes one. -/
theorem keep (V : Valuation τ sig (Elt F)) {r : Ref sig .tc} (h : r.idx.val < 28) :
    StableHlo.after ops V (Proc.devRef .tc r) = V (Proc.devRef .tc r) := by
  simp only [ops, StableHlo.after_append]
  rw [keep7 _ h, keep6 _ h, keep5 _ h, keep4 _ h, keep3 _ h, keep2 _ h, keep1 _ h, keep0 _ h]

/-- On every device, for any float values, from any memory with zero counters: every weakly fair execution of the
    program terminates with each of its two results at the operations' fold over the launch contents, read at the
    result's buffer, and with every argument unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      (r.2.mem ((c.tc : Thread nD τ).loc main_v183) = StableHlo.after (ops (F := F)) (fun b => m (c, b)) (Proc.devRef .tc main_v183)
        ∧ r.2.mem ((c.tc : Thread nD τ).loc main_v367) = StableHlo.after (ops (F := F)) (fun b => m (c, b)) (Proc.devRef .tc main_v367))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  (θ_run defs _ _).mono (fun _ h c => ⟨⟨h c main_v183, h c main_v367⟩,
      (h c main_arg0).trans (keep _ (by decide)),
      (h c main_arg1).trans (keep _ (by decide)),
      (h c main_arg2).trans (keep _ (by decide)),
      (h c main_arg3).trans (keep _ (by decide)),
      (h c main_arg4).trans (keep _ (by decide)),
      (h c main_arg5).trans (keep _ (by decide)),
      (h c main_arg6).trans (keep _ (by decide)),
      (h c main_arg7).trans (keep _ (by decide)),
      (h c main_arg8).trans (keep _ (by decide)),
      (h c main_arg9).trans (keep _ (by decide)),
      (h c main_arg10).trans (keep _ (by decide)),
      (h c main_arg11).trans (keep _ (by decide)),
      (h c main_arg12).trans (keep _ (by decide)),
      (h c main_arg13).trans (keep _ (by decide)),
      (h c main_arg14).trans (keep _ (by decide)),
      (h c main_arg15).trans (keep _ (by decide)),
      (h c main_arg16).trans (keep _ (by decide)),
      (h c main_arg17).trans (keep _ (by decide)),
      (h c main_arg18).trans (keep _ (by decide)),
      (h c main_arg19).trans (keep _ (by decide)),
      (h c main_arg20).trans (keep _ (by decide)),
      (h c main_arg21).trans (keep _ (by decide)),
      (h c main_arg22).trans (keep _ (by decide)),
      (h c main_arg23).trans (keep _ (by decide)),
      (h c main_arg24).trans (keep _ (by decide)),
      (h c main_arg25).trans (keep _ (by decide)),
      (h c main_arg26).trans (keep _ (by decide)),
      (h c main_arg27).trans (keep _ (by decide))⟩)
    (StableHlo.run_seq scopedRefs_eq scopedSems_eq defs main (fun _ => ops) main_eq (fun _ => ops_sub) m ρ (fun _ => ops_fresh))

end Cert.ReferenceIdeal.RefRun

end
-- ==== Proof.BridgeBase.lean ====
/-
  Both programs run the same host operations on every layer — the gather of source rows, the per-relation mask, the two
  segment sums and their quotient, the batch normalisation, the leaky rectifier, the pooling — in the same order; they
  differ only in the names of their buffers and in how a layer's three matrix products are obtained. This module cuts each
  program's operation list at the layer boundaries (four stages: two layers for each of the two branches), so that each
  stage can be compared with the stage's input as an unknown, and shows that the cuts put together are the whole list.
  A list run after another is their concatenation run from the start (`after_append`).
-/
import proofs.«177757_j84482006712681_1_alg».proof.Proof.Gen.KernelIdeal.Launch
import proofs.«177757_j84482006712681_1_alg».proof.Proof.RefRunOps
import Idealize.ShloMosaic.Lib.StableHlo.Run
import Idealize.ShloMosaic.PureOps.Ideal

noncomputable section

namespace Cert.Bridge

open Idealize.ShloMosaic Idealize.SL.Sem

/-- The contents after two lists of operations run one after the other are the contents after the second list, run from
    the contents after the first. -/
theorem after_append {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => simp only [List.cons_append, StableHlo.after_cons, ih]

/-- A core's buffer contents, of the kernel program and of the reference, at the ideal instance. -/
abbrev KV := Valuation Cert.KernelIdeal.τ Cert.KernelIdeal.sig (Elt Ideal)
abbrev RV := Valuation Cert.ReferenceIdeal.τ Cert.ReferenceIdeal.sig (Elt Ideal)
abbrev kr (r : Ref Cert.KernelIdeal.sig .tc) : DevRef Cert.KernelIdeal.τ Cert.KernelIdeal.sig := Proc.devRef .tc r
abbrev rr (r : Ref Cert.ReferenceIdeal.sig .tc) : DevRef Cert.ReferenceIdeal.τ Cert.ReferenceIdeal.sig := Proc.devRef .tc r

section Kernel
open Cert.KernelIdeal.Gen

/-- First branch, first layer: from the first matrix product's result to the layer's output (normalised, rectified). -/
abbrev kerA : List (HloOp Cert.KernelIdeal.τ Cert.KernelIdeal.sig (Elt Ideal)) :=
  hostOps1 ++ (hostOps1_1 ++ (hostOps1_2 ++ (hostOps1_3 ++ (hostOps1_4 ++ (hostOps1_5 ++ (hostOps1_6 ++ hostOps1_7))))))
/-- First branch, second layer and the pooling: from the second matrix product's result to the first result array. -/
abbrev kerB : List (HloOp Cert.KernelIdeal.τ Cert.KernelIdeal.sig (Elt Ideal)) :=
  hostOps2 ++ (hostOps2_1 ++ (hostOps2_2 ++ (hostOps2_3 ++ (hostOps2_4 ++ (hostOps2_5 ++ (hostOps2_6 ++ (hostOps2_7 ++ hostOps2_8)))))))
/-- Second branch, first layer. -/
abbrev kerC : List (HloOp Cert.KernelIdeal.τ Cert.KernelIdeal.sig (Elt Ideal)) :=
  hostOps3 ++ (hostOps3_1 ++ (hostOps3_2 ++ (hostOps3_3 ++ (hostOps3_4 ++ (hostOps3_5 ++ (hostOps3_6 ++ hostOps3_7))))))
/-- Second branch, second layer and the pooling: to the second result array. -/
abbrev kerD : List (HloOp Cert.KernelIdeal.τ Cert.KernelIdeal.sig (Elt Ideal)) :=
  hostOps4 ++ (hostOps4_1 ++ (hostOps4_2 ++ (hostOps4_3 ++ (hostOps4_4 ++ (hostOps4_5 ++ (hostOps4_6 ++ (hostOps4_7 ++ hostOps4_8)))))))

end Kernel

section Reference
open Cert.ReferenceIdeal.RefRun

/-- The reference's operations 1 … 133: the first branch's first layer, its three matrix products included. -/
abbrev refA : List (HloOp Cert.ReferenceIdeal.τ Cert.ReferenceIdeal.sig (Elt Ideal)) := ops0 ++ ops1.take 67
/-- Operations 134 … 282: the first branch's second layer and pooling, to the first result array. -/
abbrev refB : List (HloOp Cert.ReferenceIdeal.τ Cert.ReferenceIdeal.sig (Elt Ideal)) := ops1.drop 67 ++ (ops2 ++ ops3.take 69)
/-- Operations 283 … 415: the second branch's first layer. -/
abbrev refC : List (HloOp Cert.ReferenceIdeal.τ Cert.ReferenceIdeal.sig (Elt Ideal)) := ops3.drop 69 ++ (ops4 ++ ops5.take 55)
/-- Operations 416 … 564: the second branch's second layer and pooling, to the second result array. -/
abbrev refD : List (HloOp Cert.ReferenceIdeal.τ Cert.ReferenceIdeal.sig (Elt Ideal)) := ops5.drop 55 ++ (ops6 ++ ops7)

/-- The four stages, in order, are the whole reference program. -/
theorem ops_split : (ops (F := Ideal)) = refA ++ (refB ++ (refC ++ refD)) := by
  simp only [ops, refA, refB, refC, refD, List.append_assoc]
  rw [← List.append_assoc (ops5.take 55), List.take_append_drop, ← List.append_assoc (ops3.take 69), List.take_append_drop,
    ← List.append_assoc (ops1.take 67), List.take_append_drop]

end Reference

end Cert.Bridge

end
-- ==== Proof.BridgeA.lean ====
/-
  THE FIRST BRANCH'S FIRST LAYER. From the contents `Vk` of the kernel program's buffers after its first matrix product and
  any contents `Vr` of the reference's buffers: if the two agree on the bias, the normalisation's scale and shift, and the edge
  arrays, and if the three column blocks of the kernel's product are what the reference's three matrix products compute,
  then the layer's output — the sum of the root term, the bias and the two relations' mean messages, normalised over the
  nodes and rectified — is the same array in both programs.
  Both programs apply the same operations to these inputs, one after the other; read off as functions of the inputs, the two
  outputs are one term once the kernel's three column blocks are replaced by the reference's products and the arguments
  are identified.
-/
import proofs.«177757_j84482006712681_1_alg».proof.Proof.BridgeBase

noncomputable section

namespace Cert.Bridge

open Idealize.ShloMosaic Idealize.SL.Sem

set_option maxHeartbeats 16000000 in
/-- The stage's output is the same array in both programs, given equal arguments and the three matrix-product sites. -/
theorem stageA (Vk : KV) (Vr : RV)
    (hA4 : (Vk (kr Cert.KernelIdeal.main_arg4) : (⟨Cert.KernelIdeal.S256, .f32⟩ : BufTy).Contents (Elt Ideal)) = Vr (rr Cert.ReferenceIdeal.main_arg4))
    (hA14 : (Vk (kr Cert.KernelIdeal.main_arg14) : (⟨Cert.KernelIdeal.S256, .f32⟩ : BufTy).Contents (Elt Ideal)) = Vr (rr Cert.ReferenceIdeal.main_arg14))
    (hA15 : (Vk (kr Cert.KernelIdeal.main_arg15) : (⟨Cert.KernelIdeal.S256, .f32⟩ : BufTy).Contents (Elt Ideal)) = Vr (rr Cert.ReferenceIdeal.main_arg15))
    (hA22 : (Vk (kr Cert.KernelIdeal.main_arg22) : (⟨Cert.KernelIdeal.S2x320000, .i32⟩ : BufTy).Contents (Elt Ideal)) = Vr (rr Cert.ReferenceIdeal.main_arg22))
    (hA23 : (Vk (kr Cert.KernelIdeal.main_arg23) : (⟨Cert.KernelIdeal.S320000, .i32⟩ : BufTy).Contents (Elt Ideal)) = Vr (rr Cert.ReferenceIdeal.main_arg23))
    (hs0 : ∀ h, (extractStridedSlice Cert.KernelIdeal.S20000x256 ![0, 0] (Vk (kr Cert.KernelIdeal.main_v7) : (⟨Cert.KernelIdeal.S20000x768, .f32⟩ : BufTy).Contents (Elt Ideal)) h : (⟨Cert.KernelIdeal.S20000x256, .f32⟩ : BufTy).Contents (Elt Ideal))
        = StableHlo.after refA Vr (rr Cert.ReferenceIdeal.main_v4))
    (hs1 : ∀ h, (extractStridedSlice Cert.KernelIdeal.S20000x256 ![0, 256] (Vk (kr Cert.KernelIdeal.main_v7) : (⟨Cert.KernelIdeal.S20000x768, .f32⟩ : BufTy).Contents (Elt Ideal)) h : (⟨Cert.KernelIdeal.S20000x256, .f32⟩ : BufTy).Contents (Elt Ideal))
        = StableHlo.after refA Vr (rr Cert.ReferenceIdeal.main_v10))
    (hs2 : ∀ h, (extractStridedSlice Cert.KernelIdeal.S20000x256 ![0, 512] (Vk (kr Cert.KernelIdeal.main_v7) : (⟨Cert.KernelIdeal.S20000x768, .f32⟩ : BufTy).Contents (Elt Ideal)) h : (⟨Cert.KernelIdeal.S20000x256, .f32⟩ : BufTy).Contents (Elt Ideal))
        = StableHlo.after refA Vr (rr Cert.ReferenceIdeal.main_v37)) :
    (StableHlo.after kerA Vk (kr Cert.KernelIdeal.main_v89) : (⟨Cert.KernelIdeal.S20000x256, .f32⟩ : BufTy).Contents (Elt Ideal))
      = StableHlo.after refA Vr (rr Cert.ReferenceIdeal.main_v85) := by
  simp only [kerA, refA, after_append] at hs0 hs1 hs2 ⊢
  simp (disch := decide) only [Cert.KernelIdeal.Gen.hostOps1, Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.ReferenceIdeal.RefRun.ops0, Cert.ReferenceIdeal.RefRun.ops1,
    List.take_succ_cons, List.take_zero, List.drop_succ_cons, List.drop_zero,
    StableHlo.after_cons, StableHlo.after_nil, StableHlo.nullary_result', StableHlo.unary_result', StableHlo.binary_result', StableHlo.ternary_result', StableHlo.quaternary_result', StableHlo.reshape_result', StableHlo.nary4_result', StableHlo.nary_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne'] at hs0 hs1 hs2 ⊢
  simp only [hs0, hs1, hs2, hA4, hA14, hA15, hA22, hA23]
  rfl

end Cert.Bridge

end
-- ==== Proof.BridgeB.lean ====
/-
  THE FIRST BRANCH'S SECOND LAYER AND POOLING. From the contents after the kernel program's second matrix product: under the
  same agreements (bias, scale, shift, edge arrays, the nodes' graph numbers) and the three column blocks of the product being the
  reference's three products, the first result array — the per-graph mean of the second layer's output — is the same in both programs.
  Both programs apply the same operations to these inputs, one after the other; read off as functions of the inputs, the two
  outputs are one term once the kernel's three column blocks are replaced by the reference's products and the arguments
  are identified.
-/
import proofs.«177757_j84482006712681_1_alg».proof.Proof.BridgeBase

noncomputable section

namespace Cert.Bridge

open Idealize.ShloMosaic Idealize.SL.Sem

set_option maxHeartbeats 16000000 in
/-- The stage's output is the same array in both programs, given equal arguments and the three matrix-product sites. -/
theorem stageB (Vk : KV) (Vr : RV)
    (hA7 : (Vk (kr Cert.KernelIdeal.main_arg7) : (⟨Cert.KernelIdeal.S128, .f32⟩ : BufTy).Contents (Elt Ideal)) = Vr (rr Cert.ReferenceIdeal.main_arg7))
    (hA16 : (Vk (kr Cert.KernelIdeal.main_arg16) : (⟨Cert.KernelIdeal.S128, .f32⟩ : BufTy).Contents (Elt Ideal)) = Vr (rr Cert.ReferenceIdeal.main_arg16))
    (hA17 : (Vk (kr Cert.KernelIdeal.main_arg17) : (⟨Cert.KernelIdeal.S128, .f32⟩ : BufTy).Contents (Elt Ideal)) = Vr (rr Cert.ReferenceIdeal.main_arg17))
    (hA22 : (Vk (kr Cert.KernelIdeal.main_arg22) : (⟨Cert.KernelIdeal.S2x320000, .i32⟩ : BufTy).Contents (Elt Ideal)) = Vr (rr Cert.ReferenceIdeal.main_arg22))
    (hA23 : (Vk (kr Cert.KernelIdeal.main_arg23) : (⟨Cert.KernelIdeal.S320000, .i32⟩ : BufTy).Contents (Elt Ideal)) = Vr (rr Cert.ReferenceIdeal.main_arg23))
    (hA24 : (Vk (kr Cert.KernelIdeal.main_arg24) : (⟨Cert.KernelIdeal.S20000, .i32⟩ : BufTy).Contents (Elt Ideal)) = Vr (rr Cert.ReferenceIdeal.main_arg24))
    (hs0 : ∀ h, (extractStridedSlice Cert.KernelIdeal.S20000x128 ![0, 0] (Vk (kr Cert.KernelIdeal.main_v97) : (⟨Cert.KernelIdeal.S20000x384, .f32⟩ : BufTy).Contents (Elt Ideal)) h : (⟨Cert.KernelIdeal.S20000x128, .f32⟩ : BufTy).Contents (Elt Ideal))
        = StableHlo.after refB Vr (rr Cert.ReferenceIdeal.main_v90))
    (hs1 : ∀ h, (extractStridedSlice Cert.KernelIdeal.S20000x128 ![0, 128] (Vk (kr Cert.KernelIdeal.main_v97) : (⟨Cert.KernelIdeal.S20000x384, .f32⟩ : BufTy).Contents (Elt Ideal)) h : (⟨Cert.KernelIdeal.S20000x128, .f32⟩ : BufTy).Contents (Elt Ideal))
        = StableHlo.after refB Vr (rr Cert.ReferenceIdeal.main_v96))
    (hs2 : ∀ h, (extractStridedSlice Cert.KernelIdeal.S20000x128 ![0, 256] (Vk (kr Cert.KernelIdeal.main_v97) : (⟨Cert.KernelIdeal.S20000x384, .f32⟩ : BufTy).Contents (Elt Ideal)) h : (⟨Cert.KernelIdeal.S20000x128, .f32⟩ : BufTy).Contents (Elt Ideal))
        = StableHlo.after refB Vr (rr Cert.ReferenceIdeal.main_v123)) :
    (StableHlo.after kerB Vk (kr Cert.KernelIdeal.main_v191) : (⟨Cert.KernelIdeal.S64x128, .f32⟩ : BufTy).Contents (Elt Ideal))
      = StableHlo.after refB Vr (rr Cert.ReferenceIdeal.main_v183) := by
  simp only [kerB, refB, after_append] at hs0 hs1 hs2 ⊢
  simp (disch := decide) only [Cert.KernelIdeal.Gen.hostOps2, Cert.KernelIdeal.Gen.hostOps2_1, Cert.KernelIdeal.Gen.hostOps2_2, Cert.KernelIdeal.Gen.hostOps2_3, Cert.KernelIdeal.Gen.hostOps2_4, Cert.KernelIdeal.Gen.hostOps2_5, Cert.KernelIdeal.Gen.hostOps2_6, Cert.KernelIdeal.Gen.hostOps2_7, Cert.KernelIdeal.Gen.hostOps2_8, Cert.ReferenceIdeal.RefRun.ops1, Cert.ReferenceIdeal.RefRun.ops2, Cert.ReferenceIdeal.RefRun.ops3,
    List.take_succ_cons, List.take_zero, List.drop_succ_cons, List.drop_zero,
    StableHlo.after_cons, StableHlo.after_nil, StableHlo.nullary_result', StableHlo.unary_result', StableHlo.binary_result', StableHlo.ternary_result', StableHlo.quaternary_result', StableHlo.reshape_result', StableHlo.nary4_result', StableHlo.nary_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne'] at hs0 hs1 hs2 ⊢
  simp only [hs0, hs1, hs2, hA7, hA16, hA17, hA22, hA23, hA24]
  rfl

end Cert.Bridge

end
-- ==== Proof.BridgeC.lean ====
/-
  THE SECOND BRANCH'S FIRST LAYER: the first branch's statement over the second branch's buffers and arguments.
  Both programs apply the same operations to these inputs, one after the other; read off as functions of the inputs, the two
  outputs are one term once the kernel's three column blocks are replaced by the reference's products and the arguments
  are identified.
-/
import proofs.«177757_j84482006712681_1_alg».proof.Proof.BridgeBase

noncomputable section

namespace Cert.Bridge

open Idealize.ShloMosaic Idealize.SL.Sem

set_option maxHeartbeats 16000000 in
/-- The stage's output is the same array in both programs, given equal arguments and the three matrix-product sites. -/
theorem stageC (Vk : KV) (Vr : RV)
    (hA10 : (Vk (kr Cert.KernelIdeal.main_arg10) : (⟨Cert.KernelIdeal.S256, .f32⟩ : BufTy).Contents (Elt Ideal)) = Vr (rr Cert.ReferenceIdeal.main_arg10))
    (hA18 : (Vk (kr Cert.KernelIdeal.main_arg18) : (⟨Cert.KernelIdeal.S256, .f32⟩ : BufTy).Contents (Elt Ideal)) = Vr (rr Cert.ReferenceIdeal.main_arg18))
    (hA19 : (Vk (kr Cert.KernelIdeal.main_arg19) : (⟨Cert.KernelIdeal.S256, .f32⟩ : BufTy).Contents (Elt Ideal)) = Vr (rr Cert.ReferenceIdeal.main_arg19))
    (hA25 : (Vk (kr Cert.KernelIdeal.main_arg25) : (⟨Cert.KernelIdeal.S2x320000, .i32⟩ : BufTy).Contents (Elt Ideal)) = Vr (rr Cert.ReferenceIdeal.main_arg25))
    (hA26 : (Vk (kr Cert.KernelIdeal.main_arg26) : (⟨Cert.KernelIdeal.S320000, .i32⟩ : BufTy).Contents (Elt Ideal)) = Vr (rr Cert.ReferenceIdeal.main_arg26))
    (hs0 : ∀ h, (extractStridedSlice Cert.KernelIdeal.S20000x256 ![0, 0] (Vk (kr Cert.KernelIdeal.main_v199) : (⟨Cert.KernelIdeal.S20000x768, .f32⟩ : BufTy).Contents (Elt Ideal)) h : (⟨Cert.KernelIdeal.S20000x256, .f32⟩ : BufTy).Contents (Elt Ideal))
        = StableHlo.after refC Vr (rr Cert.ReferenceIdeal.main_v188))
    (hs1 : ∀ h, (extractStridedSlice Cert.KernelIdeal.S20000x256 ![0, 256] (Vk (kr Cert.KernelIdeal.main_v199) : (⟨Cert.KernelIdeal.S20000x768, .f32⟩ : BufTy).Contents (Elt Ideal)) h : (⟨Cert.KernelIdeal.S20000x256, .f32⟩ : BufTy).Contents (Elt Ideal))
        = StableHlo.after refC Vr (rr Cert.ReferenceIdeal.main_v194))
    (hs2 : ∀ h, (extractStridedSlice Cert.KernelIdeal.S20000x256 ![0, 512] (Vk (kr Cert.KernelIdeal.main_v199) : (⟨Cert.KernelIdeal.S20000x768, .f32⟩ : BufTy).Contents (Elt Ideal)) h : (⟨Cert.KernelIdeal.S20000x256, .f32⟩ : BufTy).Contents (Elt Ideal))
        = StableHlo.after refC Vr (rr Cert.ReferenceIdeal.main_v221)) :
    (StableHlo.after kerC Vk (kr Cert.KernelIdeal.main_v281) : (⟨Cert.KernelIdeal.S20000x256, .f32⟩ : BufTy).Contents (Elt Ideal))
      = StableHlo.after refC Vr (rr Cert.ReferenceIdeal.main_v269) := by
  simp only [kerC, refC, after_append] at hs0 hs1 hs2 ⊢
  simp (disch := decide) only [Cert.KernelIdeal.Gen.hostOps3, Cert.KernelIdeal.Gen.hostOps3_1, Cert.KernelIdeal.Gen.hostOps3_2, Cert.KernelIdeal.Gen.hostOps3_3, Cert.KernelIdeal.Gen.hostOps3_4, Cert.KernelIdeal.Gen.hostOps3_5, Cert.KernelIdeal.Gen.hostOps3_6, Cert.KernelIdeal.Gen.hostOps3_7, Cert.ReferenceIdeal.RefRun.ops3, Cert.ReferenceIdeal.RefRun.ops4, Cert.ReferenceIdeal.RefRun.ops5,
    List.take_succ_cons, List.take_zero, List.drop_succ_cons, List.drop_zero,
    StableHlo.after_cons, StableHlo.after_nil, StableHlo.nullary_result', StableHlo.unary_result', StableHlo.binary_result', StableHlo.ternary_result', StableHlo.quaternary_result', StableHlo.reshape_result', StableHlo.nary4_result', StableHlo.nary_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne'] at hs0 hs1 hs2 ⊢
  simp only [hs0, hs1, hs2, hA10, hA18, hA19, hA25, hA26]
  rfl

end Cert.Bridge

end
-- ==== Proof.BridgeD.lean ====
/-
  THE SECOND BRANCH'S SECOND LAYER AND POOLING, to the second result array.
  Both programs apply the same operations to these inputs, one after the other; read off as functions of the inputs, the two
  outputs are one term once the kernel's three column blocks are replaced by the reference's products and the arguments
  are identified.
-/
import proofs.«177757_j84482006712681_1_alg».proof.Proof.BridgeBase

noncomputable section

namespace Cert.Bridge

open Idealize.ShloMosaic Idealize.SL.Sem

set_option maxHeartbeats 16000000 in
/-- The stage's output is the same array in both programs, given equal arguments and the three matrix-product sites. -/
theorem stageD (Vk : KV) (Vr : RV)
    (hA13 : (Vk (kr Cert.KernelIdeal.main_arg13) : (⟨Cert.KernelIdeal.S128, .f32⟩ : BufTy).Contents (Elt Ideal)) = Vr (rr Cert.ReferenceIdeal.main_arg13))
    (hA20 : (Vk (kr Cert.KernelIdeal.main_arg20) : (⟨Cert.KernelIdeal.S128, .f32⟩ : BufTy).Contents (Elt Ideal)) = Vr (rr Cert.ReferenceIdeal.main_arg20))
    (hA21 : (Vk (kr Cert.KernelIdeal.main_arg21) : (⟨Cert.KernelIdeal.S128, .f32⟩ : BufTy).Contents (Elt Ideal)) = Vr (rr Cert.ReferenceIdeal.main_arg21))
    (hA25 : (Vk (kr Cert.KernelIdeal.main_arg25) : (⟨Cert.KernelIdeal.S2x320000, .i32⟩ : BufTy).Contents (Elt Ideal)) = Vr (rr Cert.ReferenceIdeal.main_arg25))
    (hA26 : (Vk (kr Cert.KernelIdeal.main_arg26) : (⟨Cert.KernelIdeal.S320000, .i32⟩ : BufTy).Contents (Elt Ideal)) = Vr (rr Cert.ReferenceIdeal.main_arg26))
    (hA27 : (Vk (kr Cert.KernelIdeal.main_arg27) : (⟨Cert.KernelIdeal.S20000, .i32⟩ : BufTy).Contents (Elt Ideal)) = Vr (rr Cert.ReferenceIdeal.main_arg27))
    (hs0 : ∀ h, (extractStridedSlice Cert.KernelIdeal.S20000x128 ![0, 0] (Vk (kr Cert.KernelIdeal.main_v289) : (⟨Cert.KernelIdeal.S20000x384, .f32⟩ : BufTy).Contents (Elt Ideal)) h : (⟨Cert.KernelIdeal.S20000x128, .f32⟩ : BufTy).Contents (Elt Ideal))
        = StableHlo.after refD Vr (rr Cert.ReferenceIdeal.main_v274))
    (hs1 : ∀ h, (extractStridedSlice Cert.KernelIdeal.S20000x128 ![0, 128] (Vk (kr Cert.KernelIdeal.main_v289) : (⟨Cert.KernelIdeal.S20000x384, .f32⟩ : BufTy).Contents (Elt Ideal)) h : (⟨Cert.KernelIdeal.S20000x128, .f32⟩ : BufTy).Contents (Elt Ideal))
        = StableHlo.after refD Vr (rr Cert.ReferenceIdeal.main_v280))
    (hs2 : ∀ h, (extractStridedSlice Cert.KernelIdeal.S20000x128 ![0, 256] (Vk (kr Cert.KernelIdeal.main_v289) : (⟨Cert.KernelIdeal.S20000x384, .f32⟩ : BufTy).Contents (Elt Ideal)) h : (⟨Cert.KernelIdeal.S20000x128, .f32⟩ : BufTy).Contents (Elt Ideal))
        = StableHlo.after refD Vr (rr Cert.ReferenceIdeal.main_v307)) :
    (StableHlo.after kerD Vk (kr Cert.KernelIdeal.main_v383) : (⟨Cert.KernelIdeal.S64x128, .f32⟩ : BufTy).Contents (Elt Ideal))
      = StableHlo.after refD Vr (rr Cert.ReferenceIdeal.main_v367) := by
  simp only [kerD, refD, after_append] at hs0 hs1 hs2 ⊢
  simp (disch := decide) only [Cert.KernelIdeal.Gen.hostOps4, Cert.KernelIdeal.Gen.hostOps4_1, Cert.KernelIdeal.Gen.hostOps4_2, Cert.KernelIdeal.Gen.hostOps4_3, Cert.KernelIdeal.Gen.hostOps4_4, Cert.KernelIdeal.Gen.hostOps4_5, Cert.KernelIdeal.Gen.hostOps4_6, Cert.KernelIdeal.Gen.hostOps4_7, Cert.KernelIdeal.Gen.hostOps4_8, Cert.ReferenceIdeal.RefRun.ops5, Cert.ReferenceIdeal.RefRun.ops6, Cert.ReferenceIdeal.RefRun.ops7,
    List.take_succ_cons, List.take_zero, List.drop_succ_cons, List.drop_zero,
    StableHlo.after_cons, StableHlo.after_nil, StableHlo.nullary_result', StableHlo.unary_result', StableHlo.binary_result', StableHlo.ternary_result', StableHlo.quaternary_result', StableHlo.reshape_result', StableHlo.nary4_result', StableHlo.nary_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne'] at hs0 hs1 hs2 ⊢
  simp only [hs0, hs1, hs2, hA13, hA20, hA21, hA25, hA26, hA27]
  rfl

end Cert.Bridge

end
-- ==== Proof.BridgeKeep.lean ====
/-
  No operation of the reference writes an argument array: every operation writes a buffer of its own, and the arguments are
  the first 28 buffers. So an argument reads the same after any of the four stages of the reference's operation list; and the
  first result array, written in the second stage, is not written again by the two stages after it.
-/
import proofs.«177757_j84482006712681_1_alg».proof.Proof.BridgeBase
import proofs.«177757_j84482006712681_1_alg».proof.Proof.RefRun

noncomputable section

namespace Cert.Bridge

open Idealize.ShloMosaic Idealize.SL.Sem
open Cert.ReferenceIdeal Cert.ReferenceIdeal.RefRun

/-- A list whose operations write only buffers of a list `W` leaves a buffer outside `W` as it was; so does any initial
    part of it, and any final part. -/
theorem forall_take {α : Type} {P : α → Prop} {l : List α} (h : l.Forall P) (n : Nat) : (l.take n).Forall P :=
  List.forall_iff_forall_mem.mpr fun a ha => (List.forall_iff_forall_mem.mp h) a (List.mem_of_mem_take ha)
theorem forall_drop {α : Type} {P : α → Prop} {l : List α} (h : l.Forall P) (n : Nat) : (l.drop n).Forall P :=
  List.forall_iff_forall_mem.mpr fun a ha => (List.forall_iff_forall_mem.mp h) a (List.mem_of_mem_drop ha)

variable (V : RV) {r : Ref sig .tc} (h : r.idx.val < 28)

include h in
theorem keep_take1 (n : Nat) : StableHlo.after ((ops1 (F := Ideal)).take n) V (rr r) = V (rr r) :=
  StableHlo.after_of_writes_sub _ V (forall_take ops1_writes n) (not_mem_of_idx_lt ops1_W_ge h)
include h in
theorem keep_drop1 (n : Nat) : StableHlo.after ((ops1 (F := Ideal)).drop n) V (rr r) = V (rr r) :=
  StableHlo.after_of_writes_sub _ V (forall_drop ops1_writes n) (not_mem_of_idx_lt ops1_W_ge h)
include h in
theorem keep_take3 (n : Nat) : StableHlo.after ((ops3 (F := Ideal)).take n) V (rr r) = V (rr r) :=
  StableHlo.after_of_writes_sub _ V (forall_take ops3_writes n) (not_mem_of_idx_lt ops3_W_ge h)
include h in
theorem keep_drop3 (n : Nat) : StableHlo.after ((ops3 (F := Ideal)).drop n) V (rr r) = V (rr r) :=
  StableHlo.after_of_writes_sub _ V (forall_drop ops3_writes n) (not_mem_of_idx_lt ops3_W_ge h)
include h in
theorem keep_take5 (n : Nat) : StableHlo.after ((ops5 (F := Ideal)).take n) V (rr r) = V (rr r) :=
  StableHlo.after_of_writes_sub _ V (forall_take ops5_writes n) (not_mem_of_idx_lt ops5_W_ge h)
include h in
theorem keep_drop5 (n : Nat) : StableHlo.after ((ops5 (F := Ideal)).drop n) V (rr r) = V (rr r) :=
  StableHlo.after_of_writes_sub _ V (forall_drop ops5_writes n) (not_mem_of_idx_lt ops5_W_ge h)

include h in
/-- An argument reads the same after the first stage. -/
theorem keepA : StableHlo.after refA V (rr r) = V (rr r) := by
  rw [refA, after_append, keep_take1 _ h, keep0 _ h]
include h in
/-- … after the second stage. -/
theorem keepB : StableHlo.after refB V (rr r) = V (rr r) := by
  rw [refB, after_append, after_append, keep_take3 _ h, keep2 _ h, keep_drop1 _ h]
include h in
/-- … after the third stage. -/
theorem keepC : StableHlo.after refC V (rr r) = V (rr r) := by
  rw [refC, after_append, after_append, keep_take5 _ h, keep4 _ h, keep_drop3 _ h]
include h in
/-- … after the fourth stage. -/
theorem keepD : StableHlo.after refD V (rr r) = V (rr r) := by
  rw [refD, after_append, after_append, keep7 _ h, keep6 _ h, keep_drop5 _ h]

end Cert.Bridge

end
-- ==== Proof.BridgeVec.lean ====
/-
  The third entry of a family of three: read at position 2, a family `![a, b, c]` gives `c`. (By computation; stated so that
  it can be used where only a computation is allowed, in the position of a buffer's name.)
-/
import Mathlib.Data.Fin.VecNotation

namespace Cert.Bridge

theorem head_tail_pair {α : Type} (b c : α) : Matrix.vecHead (Matrix.vecTail ![b, c]) = c := rfl

theorem three_at_two {α : Type} (a b c : α) : (![a, b, c] : Fin 3 → α) 2 = c := rfl

end Cert.Bridge
-- ==== Proof.MatSpec.lean ====
/-
  The matrix product of two arrays of extended reals, entry by entry: the one function both programs' matrix products are
  read as. An entry of the product of an [M, K] array `a` with a [K, N] array `b` is the sum over the K inner positions of
  a(r, k) · b(k, n). On the extended reals this sum does not depend on an order or a grouping of its terms (addition there is
  commutative and associative, also at the infinities), so a product computed block of rows by block of rows, or over a
  weight array put together from column blocks, is this same function.
-/
import Idealize.ShloMosaic.PureOps.Ideal
import Idealize.ShloMosaic.Lib.ValueIdx

noncomputable section

open scoped BigOperators

namespace Cert.MatSpec

open Idealize.ShloMosaic Idealize.ShloMosaic.ValueIdx

/-- The product of an [M, K] array with a [K, N] array of extended reals: entry (r, n) is the sum over k of a(r, k) · b(k, n). -/
def prod (M K N : ℕ) (a : (⟨2, ![M, K]⟩ : Shape).Idx → EReal) (b : (⟨2, ![K, N]⟩ : Shape).Idx → EReal) :
    (⟨2, ![M, N]⟩ : Shape).Idx → EReal :=
  fun i => ∑ k : Fin K, a (ix2 (n0 := M) (n1 := K) (i 0) k) * b (ix2 (n0 := K) (n1 := N) k (i 1))

/-- The product at an index given by its two coordinates. -/
theorem prod_apply (M K N : ℕ) (a : (⟨2, ![M, K]⟩ : Shape).Idx → EReal) (b : (⟨2, ![K, N]⟩ : Shape).Idx → EReal)
    (r : Fin M) (n : Fin N) :
    prod M K N a b (ix2 r n) = ∑ k : Fin K, a (ix2 r k) * b (ix2 k n) := rfl

end Cert.MatSpec

end
-- ==== Proof.ValueKernelIdeal.lean ====
/- The value of the first three of the kernel program's four TensorCore regions at the ideal instance (a float is an extended real, every
   operation exact). Each region runs one matrix-product body over a grid of ten points: point t multiplies rows
   2000 t … 2000 t + 1999 of the left array by the whole right array, accumulating into zero, and writes the result back
   as rows 2000 t … 2000 t + 1999 of the product array. Written here, per region: the body's result read at an entry (the
   sum over the inner position of the products of the two blocks' entries); the block indices of the three windows at a
   grid point, decided over the grid; what a point writes back as its block of the product of the two whole arrays; the
   ten row blocks covering the product array; and so the product array after the region as the matrix product
   (`Cert.MatSpec.prod`) of the two input arrays as the region found them. The fourth region, the same text at its own
   shapes, is in the neighbouring module ValueKernelIdeal3. -/
import proofs.«177757_j84482006712681_1_alg».proof.Proof.DatKernelIdeal
import proofs.«177757_j84482006712681_1_alg».proof.Proof.MatSpec
import Idealize.ShloMosaic.Lib.Pipeline.Value
import Idealize.ShloMosaic.Lib.ValueIdx
import Idealize.ShloMosaic.PureOps.Ideal.Laws

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-- The whole-block rectangles' offsets are zero on both axes. -/
theorem zero_offsets : (![0, 0] : Fin 2 → Nat) = fun _ => 0 := funext fun a => by fin_cases a <;> rfl

/-! # Region 0: a [20000, 768] array times a [768, 768] array, 2000 rows per grid point -/

/-- The body's result at entry (r, n): the two shape casts keep the shapes, the product is accumulated into the zero
    array, and its one contracted axis is the left block's columns against the right block's rows, so the entry is the
    sum over k of the left block's (r, k) times the right block's (k, n). -/
theorem pay0_apply (x0 : Vec Ideal S2000x768 .bf16) (x1 : Vec Ideal S768x768 .bf16) (r : Fin 2000) (n : Fin 768) :
    k0_pay1 (F := Ideal) x0 x1 (ix2 r n) = ∑ k : Fin 768, x0 (ix2 r k) * x1 (ix2 k n) := by
  unfold k0_pay1
  rw [shapeCast_self, shapeCast_self]
  refine (Ideal.matmul_constant_zero_apply (φ₁ := .bf16) (φ₂ := .bf16) dot_S2000x768_S768x768_S2000x768_1_0_0_1_n_n none x0 x1 (ix2 r n)).trans ?_
  rw [← Equiv.sum_comp (contrEquiv1 dot_S2000x768_S768x768_S2000x768_1_0_0_1_n_n 768 rfl rfl).symm]
  refine Finset.sum_congr rfl fun k _ => ?_
  have ck := contrEquiv1_symm_val dot_S2000x768_S768x768_S2000x768_1_0_0_1_n_n 768 rfl rfl k
  have hl : dot_S2000x768_S768x768_S2000x768_1_0_0_1_n_n.lhsIdx (ix2 r n)
      ((contrEquiv1 dot_S2000x768_S768x768_S2000x768_1_0_0_1_n_n 768 rfl rfl).symm k) = ix2 r k := by
    funext ax; apply Fin.ext
    match ax with
    | ⟨0, _⟩ => rfl
    | ⟨1, _⟩ => exact (DotDims.lhsIdx_val_of_single _ rfl _ _).trans ck
  have hr : dot_S2000x768_S768x768_S2000x768_1_0_0_1_n_n.rhsIdx (ix2 r n)
      ((contrEquiv1 dot_S2000x768_S768x768_S2000x768_1_0_0_1_n_n 768 rfl rfl).symm k) = ix2 k n := by
    funext ax; apply Fin.ext
    match ax with
    | ⟨0, _⟩ => exact (DotDims.rhsIdx_val_of_single _ rfl _ _).trans ck
    | ⟨1, _⟩ => rfl
  rw [hl, hr]

section
variable (V : (c : Dev nD) → (b : Ref sig .tc) → Buf (Elt Ideal) ((c : Thread nD τ).loc b))

/-- The block indices of region 0's three windows at grid point `t`, decided over the ten points: the left factor's
    and the product's blocks are row block `t`, the right factor's is the whole array. -/
theorem block_index0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two arrays as the region finds them: entry (r, n) of
    the body's result is the sum over k of the left block's (r, k) times the right block's (k, n), the left block's row
    r is the array's row 2000 t + r, and the right block is the whole right array. -/
theorem flushed0_eq (c : Dev nD) (t : Fin cfg0.N) :
    (dat0 (F := Ideal) V c).flushed 2 t = ((cfg0.win 2).blk t).view.read (Elt Ideal)
      (Cert.MatSpec.prod 20000 768 768 (V c (Pipeline.arrRef spec0 0)) (V c (Pipeline.arrRef spec0 1))) := by
  show (cfg0.win 2).cut (grid0.coords t) ((dat0 V c).after 2 t) = _
  rw [after0_2]
  unfold out0_2
  rw [View.canon_unit_zero zero_offsets]
  simp only [View.ld_unit_zero (S := S2000x768) zero_offsets, View.ld_unit_zero (S := S768x768) zero_offsets]
  obtain ⟨e00, e01, e10, e11, e20, e21⟩ := block_index0 t
  have ht : t.val < 10 := t.isLt
  funext j
  obtain ⟨r, n, rfl⟩ : ∃ (r : Fin 2000) (n : Fin 768), j = ix2 r n := ⟨j 0, j 1, eq_ix2 j⟩
  show k0_pay1 (F := Ideal) (iblk0 V c 0 t) (iblk0 V c 1 t) (ix2 r n)
    = Cert.MatSpec.prod 20000 768 768 (V c (Pipeline.arrRef spec0 0)) (V c (Pipeline.arrRef spec0 1))
        (((cfg0.win 2).blk t).view.emb (ix2 r n))
  have hout : ((cfg0.win 2).blk t).view.emb (ix2 r n)
      = ix2 (n0 := 20000) (n1 := 768) ⟨t.val * 2000 + r.val, by omega⟩ n := by
    funext a; apply Fin.ext
    match a with
    | ⟨0, _⟩ => show win0_2.index t (0 : Fin 2) * 2000 + 1 * r.val = t.val * 2000 + r.val; rw [e20]; omega
    | ⟨1, _⟩ => show win0_2.index t (1 : Fin 2) * 768 + 1 * n.val = n.val; rw [e21]; omega
  rw [hout, Cert.MatSpec.prod_apply]
  refine (pay0_apply _ _ r n).trans ?_
  refine Finset.sum_congr rfl fun k _ => ?_
  have hl : ((cfg0.win 0).blk t).view.emb (ix2 r k)
      = ix2 (n0 := 20000) (n1 := 768) ⟨t.val * 2000 + r.val, by omega⟩ k := by
    funext a; apply Fin.ext
    match a with
    | ⟨0, _⟩ => show win0_0.index t (0 : Fin 2) * 2000 + 1 * r.val = t.val * 2000 + r.val; rw [e00]; omega
    | ⟨1, _⟩ => show win0_0.index t (1 : Fin 2) * 768 + 1 * k.val = k.val; rw [e01]; omega
  have hr : ((cfg0.win 1).blk t).view.emb (ix2 k n) = ix2 (n0 := 768) (n1 := 768) k n := by
    funext a; apply Fin.ext
    match a with
    | ⟨0, _⟩ => show win0_1.index t (0 : Fin 2) * 768 + 1 * k.val = k.val; rw [e10]; omega
    | ⟨1, _⟩ => show win0_1.index t (1 : Fin 2) * 768 + 1 * n.val = n.val; rw [e11]; omega
  have al : iblk0 (F := Ideal) V c 0 t (ix2 (n0 := 2000) (n1 := 768) r k)
      = V c (Pipeline.arrRef spec0 0) (ix2 (n0 := 20000) (n1 := 768) ⟨t.val * 2000 + r.val, by omega⟩ k) :=
    congrArg (V c (Pipeline.arrRef spec0 0)) hl
  have ar : iblk0 (F := Ideal) V c 1 t (ix2 (n0 := 768) (n1 := 768) k n)
      = V c (Pipeline.arrRef spec0 1) (ix2 (n0 := 768) (n1 := 768) k n) :=
    congrArg (V c (Pipeline.arrRef spec0 1)) hr
  rw [al, ar]

/-- An index of the product array is in point `t`'s block iff each coordinate is in the block's range on its axis. -/
theorem mem_blk0 (t : Fin cfg0.N) (i : S20000x768.Idx) :
    i ∈ ((cfg0.win 2).blk t).view.set ↔ ∀ a : Fin 2, win0_2.index t a * S2000x768.size a ≤ (i a).val
      ∧ (i a).val < win0_2.index t a * S2000x768.size a + S2000x768.size a := by
  show i ∈ ((View.whole main_v7).slice (win0_2.rect t)).set ↔ _
  rw [View.set_slice_whole, Rect.mem_set_unit]
  exact Iff.rfl

/-- The ten blocks of 2000 rows cover the product array: row r is in the block of point r / 2000, and every point
    writes its block back. -/
theorem cover0 (i : S20000x768.Idx) :
    ∃ t : Fin cfg0.N, (cfg0.win 2).flush t = true ∧ i ∈ ((cfg0.win 2).blk t).view.set := by
  have hi0 : (i 0).val < 20000 := (i 0).isLt
  have hi1 : (i 1).val < 768 := (i 1).isLt
  obtain ⟨t, ht⟩ : ∃ t : Fin cfg0.N, t.val = (i 0).val / 2000 :=
    ⟨⟨(i 0).val / 2000, by rw [show cfg0.N = 10 from N_0]; omega⟩, rfl⟩
  obtain ⟨-, -, -, -, e20, e21⟩ := block_index0 t
  refine ⟨t, flush0_2 t, ?_⟩
  rw [mem_blk0]
  intro a
  match a with
  | ⟨0, _⟩ =>
    show win0_2.index t (0 : Fin 2) * 2000 ≤ (i 0).val ∧ (i 0).val < win0_2.index t (0 : Fin 2) * 2000 + 2000
    rw [e20, ht]; omega
  | ⟨1, _⟩ =>
    show win0_2.index t (1 : Fin 2) * 768 ≤ (i 1).val ∧ (i 1).val < win0_2.index t (1 : Fin 2) * 768 + 768
    rw [e21]; omega

/-- After region 0 the product window's array is the matrix product of the two input arrays as the region found
    them: every point writes back its block of that product, and the blocks cover the array. -/
theorem final0 (c : Dev nD) :
    (dat0 (F := Ideal) V c).arrAt 2 cfg0.N
      = Cert.MatSpec.prod 20000 768 768 (V c (Pipeline.arrRef spec0 0)) (V c (Pipeline.arrRef spec0 1)) :=
  (dat0 V c).arrAt_eq_of_cover 2 _ (fun t _ => flushed0_eq V c t) (cover0)

end

/-! # Region 1: a [20000, 256] array times a [256, 384] array, 2000 rows per grid point -/

/-- The body's result at entry (r, n): the two shape casts keep the shapes, the product is accumulated into the zero
    array, and its one contracted axis is the left block's columns against the right block's rows, so the entry is the
    sum over k of the left block's (r, k) times the right block's (k, n). -/
theorem pay1_apply (x0 : Vec Ideal S2000x256 .bf16) (x1 : Vec Ideal S256x384 .bf16) (r : Fin 2000) (n : Fin 384) :
    k1_pay1 (F := Ideal) x0 x1 (ix2 r n) = ∑ k : Fin 256, x0 (ix2 r k) * x1 (ix2 k n) := by
  unfold k1_pay1
  rw [shapeCast_self, shapeCast_self]
  refine (Ideal.matmul_constant_zero_apply (φ₁ := .bf16) (φ₂ := .bf16) dot_S2000x256_S256x384_S2000x384_1_0_0_1_n_n none x0 x1 (ix2 r n)).trans ?_
  rw [← Equiv.sum_comp (contrEquiv1 dot_S2000x256_S256x384_S2000x384_1_0_0_1_n_n 256 rfl rfl).symm]
  refine Finset.sum_congr rfl fun k _ => ?_
  have ck := contrEquiv1_symm_val dot_S2000x256_S256x384_S2000x384_1_0_0_1_n_n 256 rfl rfl k
  have hl : dot_S2000x256_S256x384_S2000x384_1_0_0_1_n_n.lhsIdx (ix2 r n)
      ((contrEquiv1 dot_S2000x256_S256x384_S2000x384_1_0_0_1_n_n 256 rfl rfl).symm k) = ix2 r k := by
    funext ax; apply Fin.ext
    match ax with
    | ⟨0, _⟩ => rfl
    | ⟨1, _⟩ => exact (DotDims.lhsIdx_val_of_single _ rfl _ _).trans ck
  have hr : dot_S2000x256_S256x384_S2000x384_1_0_0_1_n_n.rhsIdx (ix2 r n)
      ((contrEquiv1 dot_S2000x256_S256x384_S2000x384_1_0_0_1_n_n 256 rfl rfl).symm k) = ix2 k n := by
    funext ax; apply Fin.ext
    match ax with
    | ⟨0, _⟩ => exact (DotDims.rhsIdx_val_of_single _ rfl _ _).trans ck
    | ⟨1, _⟩ => rfl
  rw [hl, hr]

section
variable (V : (c : Dev nD) → (b : Ref sig .tc) → Buf (Elt Ideal) ((c : Thread nD τ).loc b))

/-- The block indices of region 1's three windows at grid point `t`, decided over the ten points: the left factor's
    and the product's blocks are row block `t`, the right factor's is the whole array. -/
theorem block_index1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the product of the two arrays as the region finds them: entry (r, n) of
    the body's result is the sum over k of the left block's (r, k) times the right block's (k, n), the left block's row
    r is the array's row 2000 t + r, and the right block is the whole right array. -/
theorem flushed1_eq (c : Dev nD) (t : Fin cfg1.N) :
    (dat1 (F := Ideal) V c).flushed 2 t = ((cfg1.win 2).blk t).view.read (Elt Ideal)
      (Cert.MatSpec.prod 20000 256 384 (V c (Pipeline.arrRef spec1 0)) (V c (Pipeline.arrRef spec1 1))) := by
  show (cfg1.win 2).cut (grid1.coords t) ((dat1 V c).after 2 t) = _
  rw [after1_2]
  unfold out1_2
  rw [View.canon_unit_zero zero_offsets]
  simp only [View.ld_unit_zero (S := S2000x256) zero_offsets, View.ld_unit_zero (S := S256x384) zero_offsets]
  obtain ⟨e00, e01, e10, e11, e20, e21⟩ := block_index1 t
  have ht : t.val < 10 := t.isLt
  funext j
  obtain ⟨r, n, rfl⟩ : ∃ (r : Fin 2000) (n : Fin 384), j = ix2 r n := ⟨j 0, j 1, eq_ix2 j⟩
  show k1_pay1 (F := Ideal) (iblk1 V c 0 t) (iblk1 V c 1 t) (ix2 r n)
    = Cert.MatSpec.prod 20000 256 384 (V c (Pipeline.arrRef spec1 0)) (V c (Pipeline.arrRef spec1 1))
        (((cfg1.win 2).blk t).view.emb (ix2 r n))
  have hout : ((cfg1.win 2).blk t).view.emb (ix2 r n)
      = ix2 (n0 := 20000) (n1 := 384) ⟨t.val * 2000 + r.val, by omega⟩ n := by
    funext a; apply Fin.ext
    match a with
    | ⟨0, _⟩ => show win1_2.index t (0 : Fin 2) * 2000 + 1 * r.val = t.val * 2000 + r.val; rw [e20]; omega
    | ⟨1, _⟩ => show win1_2.index t (1 : Fin 2) * 384 + 1 * n.val = n.val; rw [e21]; omega
  rw [hout, Cert.MatSpec.prod_apply]
  refine (pay1_apply _ _ r n).trans ?_
  refine Finset.sum_congr rfl fun k _ => ?_
  have hl : ((cfg1.win 0).blk t).view.emb (ix2 r k)
      = ix2 (n0 := 20000) (n1 := 256) ⟨t.val * 2000 + r.val, by omega⟩ k := by
    funext a; apply Fin.ext
    match a with
    | ⟨0, _⟩ => show win1_0.index t (0 : Fin 2) * 2000 + 1 * r.val = t.val * 2000 + r.val; rw [e00]; omega
    | ⟨1, _⟩ => show win1_0.index t (1 : Fin 2) * 256 + 1 * k.val = k.val; rw [e01]; omega
  have hr : ((cfg1.win 1).blk t).view.emb (ix2 k n) = ix2 (n0 := 256) (n1 := 384) k n := by
    funext a; apply Fin.ext
    match a with
    | ⟨0, _⟩ => show win1_1.index t (0 : Fin 2) * 256 + 1 * k.val = k.val; rw [e10]; omega
    | ⟨1, _⟩ => show win1_1.index t (1 : Fin 2) * 384 + 1 * n.val = n.val; rw [e11]; omega
  have al : iblk1 (F := Ideal) V c 0 t (ix2 (n0 := 2000) (n1 := 256) r k)
      = V c (Pipeline.arrRef spec1 0) (ix2 (n0 := 20000) (n1 := 256) ⟨t.val * 2000 + r.val, by omega⟩ k) :=
    congrArg (V c (Pipeline.arrRef spec1 0)) hl
  have ar : iblk1 (F := Ideal) V c 1 t (ix2 (n0 := 256) (n1 := 384) k n)
      = V c (Pipeline.arrRef spec1 1) (ix2 (n0 := 256) (n1 := 384) k n) :=
    congrArg (V c (Pipeline.arrRef spec1 1)) hr
  rw [al, ar]

/-- An index of the product array is in point `t`'s block iff each coordinate is in the block's range on its axis. -/
theorem mem_blk1 (t : Fin cfg1.N) (i : S20000x384.Idx) :
    i ∈ ((cfg1.win 2).blk t).view.set ↔ ∀ a : Fin 2, win1_2.index t a * S2000x384.size a ≤ (i a).val
      ∧ (i a).val < win1_2.index t a * S2000x384.size a + S2000x384.size a := by
  show i ∈ ((View.whole main_v97).slice (win1_2.rect t)).set ↔ _
  rw [View.set_slice_whole, Rect.mem_set_unit]
  exact Iff.rfl

/-- The ten blocks of 2000 rows cover the product array: row r is in the block of point r / 2000, and every point
    writes its block back. -/
theorem cover1 (i : S20000x384.Idx) :
    ∃ t : Fin cfg1.N, (cfg1.win 2).flush t = true ∧ i ∈ ((cfg1.win 2).blk t).view.set := by
  have hi0 : (i 0).val < 20000 := (i 0).isLt
  have hi1 : (i 1).val < 384 := (i 1).isLt
  obtain ⟨t, ht⟩ : ∃ t : Fin cfg1.N, t.val = (i 0).val / 2000 :=
    ⟨⟨(i 0).val / 2000, by rw [show cfg1.N = 10 from N_1]; omega⟩, rfl⟩
  obtain ⟨-, -, -, -, e20, e21⟩ := block_index1 t
  refine ⟨t, flush1_2 t, ?_⟩
  rw [mem_blk1]
  intro a
  match a with
  | ⟨0, _⟩ =>
    show win1_2.index t (0 : Fin 2) * 2000 ≤ (i 0).val ∧ (i 0).val < win1_2.index t (0 : Fin 2) * 2000 + 2000
    rw [e20, ht]; omega
  | ⟨1, _⟩ =>
    show win1_2.index t (1 : Fin 2) * 384 ≤ (i 1).val ∧ (i 1).val < win1_2.index t (1 : Fin 2) * 384 + 384
    rw [e21]; omega

/-- After region 1 the product window's array is the matrix product of the two input arrays as the region found
    them: every point writes back its block of that product, and the blocks cover the array. -/
theorem final1 (c : Dev nD) :
    (dat1 (F := Ideal) V c).arrAt 2 cfg1.N
      = Cert.MatSpec.prod 20000 256 384 (V c (Pipeline.arrRef spec1 0)) (V c (Pipeline.arrRef spec1 1)) :=
  (dat1 V c).arrAt_eq_of_cover 2 _ (fun t _ => flushed1_eq V c t) (cover1)

end

/-! # Region 2: a [20000, 128] array times a [128, 768] array, 2000 rows per grid point -/

/-- The body's result at entry (r, n): the two shape casts keep the shapes, the product is accumulated into the zero
    array, and its one contracted axis is the left block's columns against the right block's rows, so the entry is the
    sum over k of the left block's (r, k) times the right block's (k, n). -/
theorem pay2_apply (x0 : Vec Ideal S2000x128 .bf16) (x1 : Vec Ideal S128x768 .bf16) (r : Fin 2000) (n : Fin 768) :
    k2_pay1 (F := Ideal) x0 x1 (ix2 r n) = ∑ k : Fin 128, x0 (ix2 r k) * x1 (ix2 k n) := by
  unfold k2_pay1
  rw [shapeCast_self, shapeCast_self]
  refine (Ideal.matmul_constant_zero_apply (φ₁ := .bf16) (φ₂ := .bf16) dot_S2000x128_S128x768_S2000x768_1_0_0_1_n_n none x0 x1 (ix2 r n)).trans ?_
  rw [← Equiv.sum_comp (contrEquiv1 dot_S2000x128_S128x768_S2000x768_1_0_0_1_n_n 128 rfl rfl).symm]
  refine Finset.sum_congr rfl fun k _ => ?_
  have ck := contrEquiv1_symm_val dot_S2000x128_S128x768_S2000x768_1_0_0_1_n_n 128 rfl rfl k
  have hl : dot_S2000x128_S128x768_S2000x768_1_0_0_1_n_n.lhsIdx (ix2 r n)
      ((contrEquiv1 dot_S2000x128_S128x768_S2000x768_1_0_0_1_n_n 128 rfl rfl).symm k) = ix2 r k := by
    funext ax; apply Fin.ext
    match ax with
    | ⟨0, _⟩ => rfl
    | ⟨1, _⟩ => exact (DotDims.lhsIdx_val_of_single _ rfl _ _).trans ck
  have hr : dot_S2000x128_S128x768_S2000x768_1_0_0_1_n_n.rhsIdx (ix2 r n)
      ((contrEquiv1 dot_S2000x128_S128x768_S2000x768_1_0_0_1_n_n 128 rfl rfl).symm k) = ix2 k n := by
    funext ax; apply Fin.ext
    match ax with
    | ⟨0, _⟩ => exact (DotDims.rhsIdx_val_of_single _ rfl _ _).trans ck
    | ⟨1, _⟩ => rfl
  rw [hl, hr]

section
variable (V : (c : Dev nD) → (b : Ref sig .tc) → Buf (Elt Ideal) ((c : Thread nD τ).loc b))

/-- The block indices of region 2's three windows at grid point `t`, decided over the ten points: the left factor's
    and the product's blocks are row block `t`, the right factor's is the whole array. -/
theorem block_index2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the product of the two arrays as the region finds them: entry (r, n) of
    the body's result is the sum over k of the left block's (r, k) times the right block's (k, n), the left block's row
    r is the array's row 2000 t + r, and the right block is the whole right array. -/
theorem flushed2_eq (c : Dev nD) (t : Fin cfg2.N) :
    (dat2 (F := Ideal) V c).flushed 2 t = ((cfg2.win 2).blk t).view.read (Elt Ideal)
      (Cert.MatSpec.prod 20000 128 768 (V c (Pipeline.arrRef spec2 0)) (V c (Pipeline.arrRef spec2 1))) := by
  show (cfg2.win 2).cut (grid2.coords t) ((dat2 V c).after 2 t) = _
  rw [after2_2]
  unfold out2_2
  rw [View.canon_unit_zero zero_offsets]
  simp only [View.ld_unit_zero (S := S2000x128) zero_offsets, View.ld_unit_zero (S := S128x768) zero_offsets]
  obtain ⟨e00, e01, e10, e11, e20, e21⟩ := block_index2 t
  have ht : t.val < 10 := t.isLt
  funext j
  obtain ⟨r, n, rfl⟩ : ∃ (r : Fin 2000) (n : Fin 768), j = ix2 r n := ⟨j 0, j 1, eq_ix2 j⟩
  show k2_pay1 (F := Ideal) (iblk2 V c 0 t) (iblk2 V c 1 t) (ix2 r n)
    = Cert.MatSpec.prod 20000 128 768 (V c (Pipeline.arrRef spec2 0)) (V c (Pipeline.arrRef spec2 1))
        (((cfg2.win 2).blk t).view.emb (ix2 r n))
  have hout : ((cfg2.win 2).blk t).view.emb (ix2 r n)
      = ix2 (n0 := 20000) (n1 := 768) ⟨t.val * 2000 + r.val, by omega⟩ n := by
    funext a; apply Fin.ext
    match a with
    | ⟨0, _⟩ => show win2_2.index t (0 : Fin 2) * 2000 + 1 * r.val = t.val * 2000 + r.val; rw [e20]; omega
    | ⟨1, _⟩ => show win2_2.index t (1 : Fin 2) * 768 + 1 * n.val = n.val; rw [e21]; omega
  rw [hout, Cert.MatSpec.prod_apply]
  refine (pay2_apply _ _ r n).trans ?_
  refine Finset.sum_congr rfl fun k _ => ?_
  have hl : ((cfg2.win 0).blk t).view.emb (ix2 r k)
      = ix2 (n0 := 20000) (n1 := 128) ⟨t.val * 2000 + r.val, by omega⟩ k := by
    funext a; apply Fin.ext
    match a with
    | ⟨0, _⟩ => show win2_0.index t (0 : Fin 2) * 2000 + 1 * r.val = t.val * 2000 + r.val; rw [e00]; omega
    | ⟨1, _⟩ => show win2_0.index t (1 : Fin 2) * 128 + 1 * k.val = k.val; rw [e01]; omega
  have hr : ((cfg2.win 1).blk t).view.emb (ix2 k n) = ix2 (n0 := 128) (n1 := 768) k n := by
    funext a; apply Fin.ext
    match a with
    | ⟨0, _⟩ => show win2_1.index t (0 : Fin 2) * 128 + 1 * k.val = k.val; rw [e10]; omega
    | ⟨1, _⟩ => show win2_1.index t (1 : Fin 2) * 768 + 1 * n.val = n.val; rw [e11]; omega
  have al : iblk2 (F := Ideal) V c 0 t (ix2 (n0 := 2000) (n1 := 128) r k)
      = V c (Pipeline.arrRef spec2 0) (ix2 (n0 := 20000) (n1 := 128) ⟨t.val * 2000 + r.val, by omega⟩ k) :=
    congrArg (V c (Pipeline.arrRef spec2 0)) hl
  have ar : iblk2 (F := Ideal) V c 1 t (ix2 (n0 := 128) (n1 := 768) k n)
      = V c (Pipeline.arrRef spec2 1) (ix2 (n0 := 128) (n1 := 768) k n) :=
    congrArg (V c (Pipeline.arrRef spec2 1)) hr
  rw [al, ar]

/-- An index of the product array is in point `t`'s block iff each coordinate is in the block's range on its axis. -/
theorem mem_blk2 (t : Fin cfg2.N) (i : S20000x768.Idx) :
    i ∈ ((cfg2.win 2).blk t).view.set ↔ ∀ a : Fin 2, win2_2.index t a * S2000x768.size a ≤ (i a).val
      ∧ (i a).val < win2_2.index t a * S2000x768.size a + S2000x768.size a := by
  show i ∈ ((View.whole main_v199).slice (win2_2.rect t)).set ↔ _
  rw [View.set_slice_whole, Rect.mem_set_unit]
  exact Iff.rfl

/-- The ten blocks of 2000 rows cover the product array: row r is in the block of point r / 2000, and every point
    writes its block back. -/
theorem cover2 (i : S20000x768.Idx) :
    ∃ t : Fin cfg2.N, (cfg2.win 2).flush t = true ∧ i ∈ ((cfg2.win 2).blk t).view.set := by
  have hi0 : (i 0).val < 20000 := (i 0).isLt
  have hi1 : (i 1).val < 768 := (i 1).isLt
  obtain ⟨t, ht⟩ : ∃ t : Fin cfg2.N, t.val = (i 0).val / 2000 :=
    ⟨⟨(i 0).val / 2000, by rw [show cfg2.N = 10 from N_2]; omega⟩, rfl⟩
  obtain ⟨-, -, -, -, e20, e21⟩ := block_index2 t
  refine ⟨t, flush2_2 t, ?_⟩
  rw [mem_blk2]
  intro a
  match a with
  | ⟨0, _⟩ =>
    show win2_2.index t (0 : Fin 2) * 2000 ≤ (i 0).val ∧ (i 0).val < win2_2.index t (0 : Fin 2) * 2000 + 2000
    rw [e20, ht]; omega
  | ⟨1, _⟩ =>
    show win2_2.index t (1 : Fin 2) * 768 ≤ (i 1).val ∧ (i 1).val < win2_2.index t (1 : Fin 2) * 768 + 768
    rw [e21]; omega

/-- After region 2 the product window's array is the matrix product of the two input arrays as the region found
    them: every point writes back its block of that product, and the blocks cover the array. -/
theorem final2 (c : Dev nD) :
    (dat2 (F := Ideal) V c).arrAt 2 cfg2.N
      = Cert.MatSpec.prod 20000 128 768 (V c (Pipeline.arrRef spec2 0)) (V c (Pipeline.arrRef spec2 1)) :=
  (dat2 V c).arrAt_eq_of_cover 2 _ (fun t _ => flushed2_eq V c t) (cover2)

end

end Cert.KernelIdeal.Hand

end
-- ==== Proof.Sites.lean ====
/-
  A column block of a product with a concatenation is the product with that block.

  One matrix product of X with three weight arrays of one shape [K, D] laid side by side along the columns gives an
  [M, 3·D] array whose three column blocks are the three separate products: entry (r, c₀ + n) of the wide product is the
  sum over the inner index k of X(r, k) · W(k, c₀ + n), and column c₀ + n of the concatenation is column n of the block
  that starts at column c₀, so the sum is, term by term, entry (r, n) of the product with that block. Changes of float
  format are the identity on extended reals, so the roundings on the way do not appear. Stated below for general sizes,
  then at the four layers' sizes, three blocks each.
-/
import proofs.«177757_j84482006712681_1_alg».proof.KernelIdeal
import proofs.«177757_j84482006712681_1_alg».proof.ReferenceIdeal
import proofs.«177757_j84482006712681_1_alg».proof.Proof.MatSpec
import Idealize.ShloMosaic.Lib.ValueIdx
import Idealize.ShloMosaic.Lib.Pipeline.Value
import Idealize.ShloMosaic.Lib.ValueLayout
import Idealize.ShloMosaic.Lib.StackMember
import Idealize.ShloMosaic.PureOps.Ideal.Laws

noncomputable section

open scoped BigOperators

namespace Cert.Sites

open Idealize.ShloMosaic Idealize.ShloMosaic.ValueIdx

/-! ## Three arrays side by side, read at a column -/

section Concat
variable {α : Type}

/-- Column n of the first block: the concatenation at column n is the first array at column n. -/
theorem concat3_apply_0 (K D N : ℕ) (w0 w1 w2 : (⟨2, ![K, D]⟩ : Shape).Idx → α)
    (hc : Shape.Concatenates [(⟨2, ![K, D]⟩ : Shape), ⟨2, ![K, D]⟩, ⟨2, ![K, D]⟩] ⟨2, ![K, N]⟩ 1)
    (k : Fin K) (n : Fin D) (c : Fin N) (hcn : c.val = n.val) :
    concatenate (⟨2, ![K, N]⟩ : Shape) 1 [⟨⟨2, ![K, D]⟩, w0⟩, ⟨⟨2, ![K, D]⟩, w1⟩, ⟨⟨2, ![K, D]⟩, w2⟩] hc (ix2 k c)
      = w0 (ix2 k n) := by
  refine concatenate_apply_piece (t := ⟨2, ![K, N]⟩) 1 [⟨⟨2, ![K, D]⟩, w0⟩, ⟨⟨2, ![K, D]⟩, w1⟩, ⟨⟨2, ![K, D]⟩, w2⟩] hc (ix2 k c) 0 (by show 0 < 3; omega) ⟨2, ![K, D]⟩ w0 rfl rfl 0 rfl
    (ix2 k n) (fun b hb => ?_) ?_
  · match b with
    | ⟨0, _⟩ => rfl
    | ⟨1, _⟩ => exact absurd rfl hb
  · show 0 + n.val = c.val
    omega

/-- Column D + n is column n of the second block. -/
theorem concat3_apply_1 (K D N : ℕ) (w0 w1 w2 : (⟨2, ![K, D]⟩ : Shape).Idx → α)
    (hc : Shape.Concatenates [(⟨2, ![K, D]⟩ : Shape), ⟨2, ![K, D]⟩, ⟨2, ![K, D]⟩] ⟨2, ![K, N]⟩ 1)
    (k : Fin K) (n : Fin D) (c : Fin N) (hcn : c.val = D + n.val) :
    concatenate (⟨2, ![K, N]⟩ : Shape) 1 [⟨⟨2, ![K, D]⟩, w0⟩, ⟨⟨2, ![K, D]⟩, w1⟩, ⟨⟨2, ![K, D]⟩, w2⟩] hc (ix2 k c)
      = w1 (ix2 k n) := by
  refine concatenate_apply_piece (t := ⟨2, ![K, N]⟩) 1 [⟨⟨2, ![K, D]⟩, w0⟩, ⟨⟨2, ![K, D]⟩, w1⟩, ⟨⟨2, ![K, D]⟩, w2⟩] hc (ix2 k c) 1 (by show 1 < 3; omega) ⟨2, ![K, D]⟩ w1 rfl rfl D ?_
    (ix2 k n) (fun b hb => ?_) ?_
  · show D + 0 = D
    rfl
  · match b with
    | ⟨0, _⟩ => rfl
    | ⟨1, _⟩ => exact absurd rfl hb
  · show D + n.val = c.val
    omega

/-- Column D + D + n is column n of the third block. -/
theorem concat3_apply_2 (K D N : ℕ) (w0 w1 w2 : (⟨2, ![K, D]⟩ : Shape).Idx → α)
    (hc : Shape.Concatenates [(⟨2, ![K, D]⟩ : Shape), ⟨2, ![K, D]⟩, ⟨2, ![K, D]⟩] ⟨2, ![K, N]⟩ 1)
    (k : Fin K) (n : Fin D) (c : Fin N) (hcn : c.val = D + D + n.val) :
    concatenate (⟨2, ![K, N]⟩ : Shape) 1 [⟨⟨2, ![K, D]⟩, w0⟩, ⟨⟨2, ![K, D]⟩, w1⟩, ⟨⟨2, ![K, D]⟩, w2⟩] hc (ix2 k c)
      = w2 (ix2 k n) := by
  refine concatenate_apply_piece (t := ⟨2, ![K, N]⟩) 1 [⟨⟨2, ![K, D]⟩, w0⟩, ⟨⟨2, ![K, D]⟩, w1⟩, ⟨⟨2, ![K, D]⟩, w2⟩] hc (ix2 k c) 2 (by show 2 < 3; omega) ⟨2, ![K, D]⟩ w2 rfl rfl (D + D) ?_
    (ix2 k n) (fun b hb => ?_) ?_
  · show D + (D + 0) = D + D
    rfl
  · match b with
    | ⟨0, _⟩ => rfl
    | ⟨1, _⟩ => exact absurd rfl hb
  · show D + D + n.val = c.val
    omega

end Concat

/-! ## A column block of an array, and of the product with the concatenation -/

/-- The block of D columns from column c₀ of an [M, N] array, read at (r, n), is the array at (r, c₀ + n). -/
theorem slice_cols_apply {α : Type} (M D N c0 : ℕ) (y : (⟨2, ![M, N]⟩ : Shape).Idx → α)
    (hs : (⟨2, ![M, N]⟩ : Shape).Slices ![0, c0] ⟨2, ![M, D]⟩) (r : Fin M) (n : Fin D) (c : Fin N)
    (hcn : c.val = c0 + n.val) :
    extractStridedSlice (⟨2, ![M, D]⟩ : Shape) ![0, c0] y hs (ix2 r n) = y (ix2 r c) := by
  refine extractStridedSlice_apply ![0, c0] y hs (ix2 r n) (ix2 r c) fun a => ?_
  match a with
  | ⟨0, _⟩ =>
    show r.val = 0 + r.val
    omega
  | ⟨1, _⟩ => exact hcn

section Block
variable (M K D N : ℕ) (hN : N = D + D + D)
  (x : FVec Ideal (⟨2, ![M, K]⟩ : Shape) .f32) (w0 w1 w2 : FVec Ideal (⟨2, ![K, D]⟩ : Shape) .f32)
  (hb : FTy.bits .bf16 < FTy.bits .f32)
  (hc : Shape.Concatenates [(⟨2, ![K, D]⟩ : Shape), ⟨2, ![K, D]⟩, ⟨2, ![K, D]⟩] ⟨2, ![K, N]⟩ 1)
  (d : DotDims (⟨2, ![M, K]⟩ : Shape) ⟨2, ![K, D]⟩ ⟨2, ![M, D]⟩) (hd : d = DotDims.plain M K D)

include hN hd

/-- The first D columns of X · [W₀ | W₁ | W₂] are X · W₀. -/
theorem block_0 (hs : (⟨2, ![M, N]⟩ : Shape).Slices ![0, 0] ⟨2, ![M, D]⟩) :
    extractStridedSlice (⟨2, ![M, D]⟩ : Shape) ![0, 0]
        (Cert.MatSpec.prod M K N (truncf .bf16 x hb)
          (truncf .bf16 (concatenate (⟨2, ![K, N]⟩ : Shape) 1
            [⟨⟨2, ![K, D]⟩, w0⟩, ⟨⟨2, ![K, D]⟩, w1⟩, ⟨⟨2, ![K, D]⟩, w2⟩] hc) hb)) hs
      = Host.dotGeneral d none x w0 := by
  subst hd
  funext j
  obtain ⟨r, n, rfl⟩ : ∃ (r : Fin M) (n : Fin D), j = ix2 r n := ⟨j 0, j 1, eq_ix2 j⟩
  have hlt : n.val < N := by have := n.isLt; omega
  rw [StackMember.dotGeneral_plain_apply, slice_cols_apply M D N 0 _ hs r n ⟨n.val, hlt⟩ (Nat.zero_add _).symm,
    Cert.MatSpec.prod_apply]
  refine Finset.sum_congr rfl fun k _ => ?_
  rw [truncf_apply, truncf_apply, concat3_apply_0 K D N w0 w1 w2 hc k n ⟨n.val, hlt⟩ rfl]

/-- The D columns from column D of X · [W₀ | W₁ | W₂] are X · W₁. -/
theorem block_1 (c0 : ℕ) (hc0 : c0 = D) (hs : (⟨2, ![M, N]⟩ : Shape).Slices ![0, c0] ⟨2, ![M, D]⟩) :
    extractStridedSlice (⟨2, ![M, D]⟩ : Shape) ![0, c0]
        (Cert.MatSpec.prod M K N (truncf .bf16 x hb)
          (truncf .bf16 (concatenate (⟨2, ![K, N]⟩ : Shape) 1
            [⟨⟨2, ![K, D]⟩, w0⟩, ⟨⟨2, ![K, D]⟩, w1⟩, ⟨⟨2, ![K, D]⟩, w2⟩] hc) hb)) hs
      = Host.dotGeneral d none x w1 := by
  subst hd hc0
  funext j
  obtain ⟨r, n, rfl⟩ : ∃ (r : Fin M) (n : Fin c0), j = ix2 r n := ⟨j 0, j 1, eq_ix2 j⟩
  have hlt : c0 + n.val < N := by have := n.isLt; omega
  rw [StackMember.dotGeneral_plain_apply, slice_cols_apply M c0 N c0 _ hs r n ⟨c0 + n.val, hlt⟩ rfl,
    Cert.MatSpec.prod_apply]
  refine Finset.sum_congr rfl fun k _ => ?_
  rw [truncf_apply, truncf_apply, concat3_apply_1 K c0 N w0 w1 w2 hc k n ⟨c0 + n.val, hlt⟩ rfl]

/-- The D columns from column D + D of X · [W₀ | W₁ | W₂] are X · W₂. -/
theorem block_2 (c0 : ℕ) (hc0 : c0 = D + D) (hs : (⟨2, ![M, N]⟩ : Shape).Slices ![0, c0] ⟨2, ![M, D]⟩) :
    extractStridedSlice (⟨2, ![M, D]⟩ : Shape) ![0, c0]
        (Cert.MatSpec.prod M K N (truncf .bf16 x hb)
          (truncf .bf16 (concatenate (⟨2, ![K, N]⟩ : Shape) 1
            [⟨⟨2, ![K, D]⟩, w0⟩, ⟨⟨2, ![K, D]⟩, w1⟩, ⟨⟨2, ![K, D]⟩, w2⟩] hc) hb)) hs
      = Host.dotGeneral d none x w2 := by
  subst hd hc0
  funext j
  obtain ⟨r, n, rfl⟩ : ∃ (r : Fin M) (n : Fin D), j = ix2 r n := ⟨j 0, j 1, eq_ix2 j⟩
  have hlt : D + D + n.val < N := by have := n.isLt; omega
  rw [StackMember.dotGeneral_plain_apply, slice_cols_apply M D N (D + D) _ hs r n ⟨D + D + n.val, hlt⟩ rfl,
    Cert.MatSpec.prod_apply]
  refine Finset.sum_congr rfl fun k _ => ?_
  rw [truncf_apply, truncf_apply, concat3_apply_2 K D N w0 w1 w2 hc k n ⟨D + D + n.val, hlt⟩ rfl]

end Block

/-! ## The four layers

Each statement's left side is a column block of the one wide product, its right side the separate product with that
block's weight array. Layers 1 and 3 have the same sizes, so their statements coincide; both names are given. -/

section Sites
variable [Cert.ReferenceIdeal.Facts₀]

/-! ### Layer 0: [20000, 768] by three [768, 256] -/

/-- Columns 0 to 255 of the [20000, 768] product are the product with the first [768, 256] weight array. -/
theorem site0_0 (x : FVec Ideal Cert.KernelIdeal.S20000x768 .f32) (w0 w1 w2 : FVec Ideal Cert.KernelIdeal.S768x256 .f32)
    (hb : FTy.bits .bf16 < FTy.bits .f32)
    (hc : Shape.Concatenates [Cert.KernelIdeal.S768x256, Cert.KernelIdeal.S768x256, Cert.KernelIdeal.S768x256] Cert.KernelIdeal.S768x768 1)
    (hs : Cert.KernelIdeal.S20000x768.Slices ![0, 0] Cert.KernelIdeal.S20000x256) :
    extractStridedSlice Cert.KernelIdeal.S20000x256 ![0, 0]
        (Cert.MatSpec.prod 20000 768 768 (truncf .bf16 x hb)
          (truncf .bf16 (concatenate Cert.KernelIdeal.S768x768 1
            [⟨Cert.KernelIdeal.S768x256, w0⟩, ⟨Cert.KernelIdeal.S768x256, w1⟩, ⟨Cert.KernelIdeal.S768x256, w2⟩] hc) hb)) hs
      = Host.dotGeneral Cert.ReferenceIdeal.dot_S20000x768_S768x256_S20000x256_1_0_0_1_n_n none x w0 :=
  block_0 20000 768 256 768 rfl x w0 w1 w2 hb hc _ rfl hs

/-- Columns 256 to 511 of the [20000, 768] product are the product with the second [768, 256] weight array. -/
theorem site0_1 (x : FVec Ideal Cert.KernelIdeal.S20000x768 .f32) (w0 w1 w2 : FVec Ideal Cert.KernelIdeal.S768x256 .f32)
    (hb : FTy.bits .bf16 < FTy.bits .f32)
    (hc : Shape.Concatenates [Cert.KernelIdeal.S768x256, Cert.KernelIdeal.S768x256, Cert.KernelIdeal.S768x256] Cert.KernelIdeal.S768x768 1)
    (hs : Cert.KernelIdeal.S20000x768.Slices ![0, 256] Cert.KernelIdeal.S20000x256) :
    extractStridedSlice Cert.KernelIdeal.S20000x256 ![0, 256]
        (Cert.MatSpec.prod 20000 768 768 (truncf .bf16 x hb)
          (truncf .bf16 (concatenate Cert.KernelIdeal.S768x768 1
            [⟨Cert.KernelIdeal.S768x256, w0⟩, ⟨Cert.KernelIdeal.S768x256, w1⟩, ⟨Cert.KernelIdeal.S768x256, w2⟩] hc) hb)) hs
      = Host.dotGeneral Cert.ReferenceIdeal.dot_S20000x768_S768x256_S20000x256_1_0_0_1_n_n none x w1 :=
  block_1 20000 768 256 768 rfl x w0 w1 w2 hb hc _ rfl 256 rfl hs

/-- Columns 512 to 767 of the [20000, 768] product are the product with the third [768, 256] weight array. -/
theorem site0_2 (x : FVec Ideal Cert.KernelIdeal.S20000x768 .f32) (w0 w1 w2 : FVec Ideal Cert.KernelIdeal.S768x256 .f32)
    (hb : FTy.bits .bf16 < FTy.bits .f32)
    (hc : Shape.Concatenates [Cert.KernelIdeal.S768x256, Cert.KernelIdeal.S768x256, Cert.KernelIdeal.S768x256] Cert.KernelIdeal.S768x768 1)
    (hs : Cert.KernelIdeal.S20000x768.Slices ![0, 512] Cert.KernelIdeal.S20000x256) :
    extractStridedSlice Cert.KernelIdeal.S20000x256 ![0, 512]
        (Cert.MatSpec.prod 20000 768 768 (truncf .bf16 x hb)
          (truncf .bf16 (concatenate Cert.KernelIdeal.S768x768 1
            [⟨Cert.KernelIdeal.S768x256, w0⟩, ⟨Cert.KernelIdeal.S768x256, w1⟩, ⟨Cert.KernelIdeal.S768x256, w2⟩] hc) hb)) hs
      = Host.dotGeneral Cert.ReferenceIdeal.dot_S20000x768_S768x256_S20000x256_1_0_0_1_n_n none x w2 :=
  block_2 20000 768 256 768 rfl x w0 w1 w2 hb hc _ rfl 512 rfl hs

/-! ### Layer 1: [20000, 256] by three [256, 128] -/

/-- Columns 0 to 127 of the [20000, 384] product are the product with the first [256, 128] weight array. -/
theorem site1_0 (x : FVec Ideal Cert.KernelIdeal.S20000x256 .f32) (w0 w1 w2 : FVec Ideal Cert.KernelIdeal.S256x128 .f32)
    (hb : FTy.bits .bf16 < FTy.bits .f32)
    (hc : Shape.Concatenates [Cert.KernelIdeal.S256x128, Cert.KernelIdeal.S256x128, Cert.KernelIdeal.S256x128] Cert.KernelIdeal.S256x384 1)
    (hs : Cert.KernelIdeal.S20000x384.Slices ![0, 0] Cert.KernelIdeal.S20000x128) :
    extractStridedSlice Cert.KernelIdeal.S20000x128 ![0, 0]
        (Cert.MatSpec.prod 20000 256 384 (truncf .bf16 x hb)
          (truncf .bf16 (concatenate Cert.KernelIdeal.S256x384 1
            [⟨Cert.KernelIdeal.S256x128, w0⟩, ⟨Cert.KernelIdeal.S256x128, w1⟩, ⟨Cert.KernelIdeal.S256x128, w2⟩] hc) hb)) hs
      = Host.dotGeneral Cert.ReferenceIdeal.dot_S20000x256_S256x128_S20000x128_1_0_0_1_n_n none x w0 :=
  block_0 20000 256 128 384 rfl x w0 w1 w2 hb hc _ rfl hs

/-- Columns 128 to 255 of the [20000, 384] product are the product with the second [256, 128] weight array. -/
theorem site1_1 (x : FVec Ideal Cert.KernelIdeal.S20000x256 .f32) (w0 w1 w2 : FVec Ideal Cert.KernelIdeal.S256x128 .f32)
    (hb : FTy.bits .bf16 < FTy.bits .f32)
    (hc : Shape.Concatenates [Cert.KernelIdeal.S256x128, Cert.KernelIdeal.S256x128, Cert.KernelIdeal.S256x128] Cert.KernelIdeal.S256x384 1)
    (hs : Cert.KernelIdeal.S20000x384.Slices ![0, 128] Cert.KernelIdeal.S20000x128) :
    extractStridedSlice Cert.KernelIdeal.S20000x128 ![0, 128]
        (Cert.MatSpec.prod 20000 256 384 (truncf .bf16 x hb)
          (truncf .bf16 (concatenate Cert.KernelIdeal.S256x384 1
            [⟨Cert.KernelIdeal.S256x128, w0⟩, ⟨Cert.KernelIdeal.S256x128, w1⟩, ⟨Cert.KernelIdeal.S256x128, w2⟩] hc) hb)) hs
      = Host.dotGeneral Cert.ReferenceIdeal.dot_S20000x256_S256x128_S20000x128_1_0_0_1_n_n none x w1 :=
  block_1 20000 256 128 384 rfl x w0 w1 w2 hb hc _ rfl 128 rfl hs

/-- Columns 256 to 383 of the [20000, 384] product are the product with the third [256, 128] weight array. -/
theorem site1_2 (x : FVec Ideal Cert.KernelIdeal.S20000x256 .f32) (w0 w1 w2 : FVec Ideal Cert.KernelIdeal.S256x128 .f32)
    (hb : FTy.bits .bf16 < FTy.bits .f32)
    (hc : Shape.Concatenates [Cert.KernelIdeal.S256x128, Cert.KernelIdeal.S256x128, Cert.KernelIdeal.S256x128] Cert.KernelIdeal.S256x384 1)
    (hs : Cert.KernelIdeal.S20000x384.Slices ![0, 256] Cert.KernelIdeal.S20000x128) :
    extractStridedSlice Cert.KernelIdeal.S20000x128 ![0, 256]
        (Cert.MatSpec.prod 20000 256 384 (truncf .bf16 x hb)
          (truncf .bf16 (concatenate Cert.KernelIdeal.S256x384 1
            [⟨Cert.KernelIdeal.S256x128, w0⟩, ⟨Cert.KernelIdeal.S256x128, w1⟩, ⟨Cert.KernelIdeal.S256x128, w2⟩] hc) hb)) hs
      = Host.dotGeneral Cert.ReferenceIdeal.dot_S20000x256_S256x128_S20000x128_1_0_0_1_n_n none x w2 :=
  block_2 20000 256 128 384 rfl x w0 w1 w2 hb hc _ rfl 256 rfl hs

/-! ### Layer 2: [20000, 128] by three [128, 256] -/

/-- Columns 0 to 255 of the [20000, 768] product are the product with the first [128, 256] weight array. -/
theorem site2_0 (x : FVec Ideal Cert.KernelIdeal.S20000x128 .f32) (w0 w1 w2 : FVec Ideal Cert.KernelIdeal.S128x256 .f32)
    (hb : FTy.bits .bf16 < FTy.bits .f32)
    (hc : Shape.Concatenates [Cert.KernelIdeal.S128x256, Cert.KernelIdeal.S128x256, Cert.KernelIdeal.S128x256] Cert.KernelIdeal.S128x768 1)
    (hs : Cert.KernelIdeal.S20000x768.Slices ![0, 0] Cert.KernelIdeal.S20000x256) :
    extractStridedSlice Cert.KernelIdeal.S20000x256 ![0, 0]
        (Cert.MatSpec.prod 20000 128 768 (truncf .bf16 x hb)
          (truncf .bf16 (concatenate Cert.KernelIdeal.S128x768 1
            [⟨Cert.KernelIdeal.S128x256, w0⟩, ⟨Cert.KernelIdeal.S128x256, w1⟩, ⟨Cert.KernelIdeal.S128x256, w2⟩] hc) hb)) hs
      = Host.dotGeneral Cert.ReferenceIdeal.dot_S20000x128_S128x256_S20000x256_1_0_0_1_n_n none x w0 :=
  block_0 20000 128 256 768 rfl x w0 w1 w2 hb hc _ rfl hs

/-- Columns 256 to 511 of the [20000, 768] product are the product with the second [128, 256] weight array. -/
theorem site2_1 (x : FVec Ideal Cert.KernelIdeal.S20000x128 .f32) (w0 w1 w2 : FVec Ideal Cert.KernelIdeal.S128x256 .f32)
    (hb : FTy.bits .bf16 < FTy.bits .f32)
    (hc : Shape.Concatenates [Cert.KernelIdeal.S128x256, Cert.KernelIdeal.S128x256, Cert.KernelIdeal.S128x256] Cert.KernelIdeal.S128x768 1)
    (hs : Cert.KernelIdeal.S20000x768.Slices ![0, 256] Cert.KernelIdeal.S20000x256) :
    extractStridedSlice Cert.KernelIdeal.S20000x256 ![0, 256]
        (Cert.MatSpec.prod 20000 128 768 (truncf .bf16 x hb)
          (truncf .bf16 (concatenate Cert.KernelIdeal.S128x768 1
            [⟨Cert.KernelIdeal.S128x256, w0⟩, ⟨Cert.KernelIdeal.S128x256, w1⟩, ⟨Cert.KernelIdeal.S128x256, w2⟩] hc) hb)) hs
      = Host.dotGeneral Cert.ReferenceIdeal.dot_S20000x128_S128x256_S20000x256_1_0_0_1_n_n none x w1 :=
  block_1 20000 128 256 768 rfl x w0 w1 w2 hb hc _ rfl 256 rfl hs

/-- Columns 512 to 767 of the [20000, 768] product are the product with the third [128, 256] weight array. -/
theorem site2_2 (x : FVec Ideal Cert.KernelIdeal.S20000x128 .f32) (w0 w1 w2 : FVec Ideal Cert.KernelIdeal.S128x256 .f32)
    (hb : FTy.bits .bf16 < FTy.bits .f32)
    (hc : Shape.Concatenates [Cert.KernelIdeal.S128x256, Cert.KernelIdeal.S128x256, Cert.KernelIdeal.S128x256] Cert.KernelIdeal.S128x768 1)
    (hs : Cert.KernelIdeal.S20000x768.Slices ![0, 512] Cert.KernelIdeal.S20000x256) :
    extractStridedSlice Cert.KernelIdeal.S20000x256 ![0, 512]
        (Cert.MatSpec.prod 20000 128 768 (truncf .bf16 x hb)
          (truncf .bf16 (concatenate Cert.KernelIdeal.S128x768 1
            [⟨Cert.KernelIdeal.S128x256, w0⟩, ⟨Cert.KernelIdeal.S128x256, w1⟩, ⟨Cert.KernelIdeal.S128x256, w2⟩] hc) hb)) hs
      = Host.dotGeneral Cert.ReferenceIdeal.dot_S20000x128_S128x256_S20000x256_1_0_0_1_n_n none x w2 :=
  block_2 20000 128 256 768 rfl x w0 w1 w2 hb hc _ rfl 512 rfl hs

/-! ### Layer 3: [20000, 256] by three [256, 128], as layer 1 -/

/-- Columns 0 to 127 of the [20000, 384] product are the product with the first [256, 128] weight array. -/
theorem site3_0 (x : FVec Ideal Cert.KernelIdeal.S20000x256 .f32) (w0 w1 w2 : FVec Ideal Cert.KernelIdeal.S256x128 .f32)
    (hb : FTy.bits .bf16 < FTy.bits .f32)
    (hc : Shape.Concatenates [Cert.KernelIdeal.S256x128, Cert.KernelIdeal.S256x128, Cert.KernelIdeal.S256x128] Cert.KernelIdeal.S256x384 1)
    (hs : Cert.KernelIdeal.S20000x384.Slices ![0, 0] Cert.KernelIdeal.S20000x128) :
    extractStridedSlice Cert.KernelIdeal.S20000x128 ![0, 0]
        (Cert.MatSpec.prod 20000 256 384 (truncf .bf16 x hb)
          (truncf .bf16 (concatenate Cert.KernelIdeal.S256x384 1
            [⟨Cert.KernelIdeal.S256x128, w0⟩, ⟨Cert.KernelIdeal.S256x128, w1⟩, ⟨Cert.KernelIdeal.S256x128, w2⟩] hc) hb)) hs
      = Host.dotGeneral Cert.ReferenceIdeal.dot_S20000x256_S256x128_S20000x128_1_0_0_1_n_n none x w0 :=
  block_0 20000 256 128 384 rfl x w0 w1 w2 hb hc _ rfl hs

/-- Columns 128 to 255 of the [20000, 384] product are the product with the second [256, 128] weight array. -/
theorem site3_1 (x : FVec Ideal Cert.KernelIdeal.S20000x256 .f32) (w0 w1 w2 : FVec Ideal Cert.KernelIdeal.S256x128 .f32)
    (hb : FTy.bits .bf16 < FTy.bits .f32)
    (hc : Shape.Concatenates [Cert.KernelIdeal.S256x128, Cert.KernelIdeal.S256x128, Cert.KernelIdeal.S256x128] Cert.KernelIdeal.S256x384 1)
    (hs : Cert.KernelIdeal.S20000x384.Slices ![0, 128] Cert.KernelIdeal.S20000x128) :
    extractStridedSlice Cert.KernelIdeal.S20000x128 ![0, 128]
        (Cert.MatSpec.prod 20000 256 384 (truncf .bf16 x hb)
          (truncf .bf16 (concatenate Cert.KernelIdeal.S256x384 1
            [⟨Cert.KernelIdeal.S256x128, w0⟩, ⟨Cert.KernelIdeal.S256x128, w1⟩, ⟨Cert.KernelIdeal.S256x128, w2⟩] hc) hb)) hs
      = Host.dotGeneral Cert.ReferenceIdeal.dot_S20000x256_S256x128_S20000x128_1_0_0_1_n_n none x w1 :=
  block_1 20000 256 128 384 rfl x w0 w1 w2 hb hc _ rfl 128 rfl hs

/-- Columns 256 to 383 of the [20000, 384] product are the product with the third [256, 128] weight array. -/
theorem site3_2 (x : FVec Ideal Cert.KernelIdeal.S20000x256 .f32) (w0 w1 w2 : FVec Ideal Cert.KernelIdeal.S256x128 .f32)
    (hb : FTy.bits .bf16 < FTy.bits .f32)
    (hc : Shape.Concatenates [Cert.KernelIdeal.S256x128, Cert.KernelIdeal.S256x128, Cert.KernelIdeal.S256x128] Cert.KernelIdeal.S256x384 1)
    (hs : Cert.KernelIdeal.S20000x384.Slices ![0, 256] Cert.KernelIdeal.S20000x128) :
    extractStridedSlice Cert.KernelIdeal.S20000x128 ![0, 256]
        (Cert.MatSpec.prod 20000 256 384 (truncf .bf16 x hb)
          (truncf .bf16 (concatenate Cert.KernelIdeal.S256x384 1
            [⟨Cert.KernelIdeal.S256x128, w0⟩, ⟨Cert.KernelIdeal.S256x128, w1⟩, ⟨Cert.KernelIdeal.S256x128, w2⟩] hc) hb)) hs
      = Host.dotGeneral Cert.ReferenceIdeal.dot_S20000x256_S256x128_S20000x128_1_0_0_1_n_n none x w2 :=
  block_2 20000 256 128 384 rfl x w0 w1 w2 hb hc _ rfl 256 rfl hs

end Sites

end Cert.Sites

end
-- ==== Proof.BridgeSitesT.lean ====
/-
  THE MATRIX-PRODUCT SITES. After each region the kernel program holds, in the region's output array, the product of the
  region's two input arrays: the layer's input rounded to the narrow format (the identity on extended reals) and the three weight
  arrays put side by side. A column block of that product is the product with that block's weight array, which is what the
  reference computes at the same place. Here each such equation is stated between the two programs' buffers: the kernel's
  column block, read off the operations before and after the region, against the reference's product, read off its operations.
-/
import proofs.«177757_j84482006712681_1_alg».proof.Proof.BridgeBase
import proofs.«177757_j84482006712681_1_alg».proof.Proof.BridgeVec

import proofs.«177757_j84482006712681_1_alg».proof.Proof.RegionsKernelIdeal
import proofs.«177757_j84482006712681_1_alg».proof.Proof.ValueKernelIdeal
import proofs.«177757_j84482006712681_1_alg».proof.Proof.Sites

noncomputable section

namespace Cert.Bridge

open Idealize.ShloMosaic Idealize.ShloMosaic.TcCoe Idealize.SL.Sem
open Cert.KernelIdeal Cert.KernelIdeal.Gen Cert.KernelIdeal.GenP Cert.KernelIdeal.Hand

variable (m : (ℓ : Loc nD τ sig) → Buf (Elt Ideal) ℓ) (o : Outs (F := Ideal)) (c : Dev nD)

/-! ## Region 0 -/

/-- What region 0 leaves in its output array: the product of its two input arrays as the region finds them. -/
theorem regionOut0 (ho2 : o 2 main_v7 c = (dat0 (F := Ideal) (fun c b => V1 m c b) c).arrAt 2 cfg0.N) :
    V2 m o c (kr main_v7) = Cert.MatSpec.prod 20000 768 768 (V1 m c (kr main_v5)) (V1 m c (kr main_v6)) := by
  have h1 : V2 m o c (kr main_v7) = o 2 main_v7 c := by
    simp only [V2]; first | exact Function.update_self .. | exact Function.update_same ..
  rw [h1, ho2, final0]

set_option maxHeartbeats 8000000 in
/-- Column block 0 of region 0's product is the reference's root product: the site lemma at the two programs' operands — the
    layer's input, and the weight arrays as each program's operations before the product leave them. -/
theorem siteA0 (Vr : RV)
    (hx : (V0 m c (kr main_arg0) : (⟨S20000x768, .f32⟩ : BufTy).Contents (Elt Ideal)) = Vr (rr Cert.ReferenceIdeal.main_arg0))
    (hw0 : (V0 m c (kr main_arg3) : (⟨S768x256, .f32⟩ : BufTy).Contents (Elt Ideal)) = Vr (rr Cert.ReferenceIdeal.main_arg3))
    (hw : (V0 m c (kr main_arg2) : (⟨S2x768x256, .f32⟩ : BufTy).Contents (Elt Ideal)) = Vr (rr Cert.ReferenceIdeal.main_arg2))
    (ho2 : o 2 main_v7 c = (dat0 (F := Ideal) (fun c b => V1 m c b) c).arrAt 2 cfg0.N) :
    ∀ h, (extractStridedSlice S20000x256 ![0, 0] (V2 m o c (kr main_v7) : (⟨S20000x768, .f32⟩ : BufTy).Contents (Elt Ideal)) h : (⟨S20000x256, .f32⟩ : BufTy).Contents (Elt Ideal))
        = StableHlo.after refA Vr (rr Cert.ReferenceIdeal.main_v4) := by
  intro h
  rw [regionOut0 m o c ho2]
  show extractStridedSlice S20000x256 ![0, 0] (Cert.MatSpec.prod 20000 768 768 (StableHlo.after hostOps0 (V0 m c) (kr main_v5)) (StableHlo.after hostOps0 (V0 m c) (kr main_v6))) h = _
  generalize V0 m c = Vk at hx hw0 hw ⊢
  simp only [refA, after_append]
  repeat (simp (disch := decide) only [hostOps0, Cert.ReferenceIdeal.RefRun.ops0, Cert.ReferenceIdeal.RefRun.ops1, List.take_succ_cons, List.take_zero, List.drop_succ_cons, List.drop_zero,
    head_tail_pair, three_at_two, Matrix.cons_val_zero, Matrix.cons_val_one, Matrix.head_cons, Matrix.cons_val_two, Matrix.tail_cons,
    StableHlo.after_cons, StableHlo.after_nil, StableHlo.nullary_result', StableHlo.unary_result', StableHlo.binary_result', StableHlo.ternary_result', StableHlo.quaternary_result', StableHlo.reshape_result', StableHlo.nary4_result', StableHlo.nary_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne'])
  try simp only [hx]
  refine (Cert.Sites.site0_0 _ _ _ _ _ _ _).trans ?_
  congr 1
  all_goals (try (repeat (simp (disch := decide) only [hostOps0, Cert.ReferenceIdeal.RefRun.ops0, Cert.ReferenceIdeal.RefRun.ops1, List.take_succ_cons, List.take_zero, List.drop_succ_cons, List.drop_zero,
    head_tail_pair, three_at_two, Matrix.cons_val_zero, Matrix.cons_val_one, Matrix.head_cons, Matrix.cons_val_two, Matrix.tail_cons,
    StableHlo.after_cons, StableHlo.after_nil, StableHlo.nullary_result', StableHlo.unary_result', StableHlo.binary_result', StableHlo.ternary_result', StableHlo.quaternary_result', StableHlo.reshape_result', StableHlo.nary4_result', StableHlo.nary_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne'])))
  all_goals (try (simp only [hw0, hw]))
  all_goals (try rfl)

set_option maxHeartbeats 8000000 in
/-- Column block 1 of region 0's product is the reference's first relation's product: the site lemma at the two programs' operands — the
    layer's input, and the weight arrays as each program's operations before the product leave them. -/
theorem siteA1 (Vr : RV)
    (hx : (V0 m c (kr main_arg0) : (⟨S20000x768, .f32⟩ : BufTy).Contents (Elt Ideal)) = Vr (rr Cert.ReferenceIdeal.main_arg0))
    (hw0 : (V0 m c (kr main_arg3) : (⟨S768x256, .f32⟩ : BufTy).Contents (Elt Ideal)) = Vr (rr Cert.ReferenceIdeal.main_arg3))
    (hw : (V0 m c (kr main_arg2) : (⟨S2x768x256, .f32⟩ : BufTy).Contents (Elt Ideal)) = Vr (rr Cert.ReferenceIdeal.main_arg2))
    (ho2 : o 2 main_v7 c = (dat0 (F := Ideal) (fun c b => V1 m c b) c).arrAt 2 cfg0.N) :
    ∀ h, (extractStridedSlice S20000x256 ![0, 256] (V2 m o c (kr main_v7) : (⟨S20000x768, .f32⟩ : BufTy).Contents (Elt Ideal)) h : (⟨S20000x256, .f32⟩ : BufTy).Contents (Elt Ideal))
        = StableHlo.after refA Vr (rr Cert.ReferenceIdeal.main_v10) := by
  intro h
  rw [regionOut0 m o c ho2]
  show extractStridedSlice S20000x256 ![0, 256] (Cert.MatSpec.prod 20000 768 768 (StableHlo.after hostOps0 (V0 m c) (kr main_v5)) (StableHlo.after hostOps0 (V0 m c) (kr main_v6))) h = _
  generalize V0 m c = Vk at hx hw0 hw ⊢
  simp only [refA, after_append]
  repeat (simp (disch := decide) only [hostOps0, Cert.ReferenceIdeal.RefRun.ops0, Cert.ReferenceIdeal.RefRun.ops1, List.take_succ_cons, List.take_zero, List.drop_succ_cons, List.drop_zero,
    head_tail_pair, three_at_two, Matrix.cons_val_zero, Matrix.cons_val_one, Matrix.head_cons, Matrix.cons_val_two, Matrix.tail_cons,
    StableHlo.after_cons, StableHlo.after_nil, StableHlo.nullary_result', StableHlo.unary_result', StableHlo.binary_result', StableHlo.ternary_result', StableHlo.quaternary_result', StableHlo.reshape_result', StableHlo.nary4_result', StableHlo.nary_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne'])
  try simp only [hx]
  refine (Cert.Sites.site0_1 _ _ _ _ _ _ _).trans ?_
  congr 1
  all_goals (try (repeat (simp (disch := decide) only [hostOps0, Cert.ReferenceIdeal.RefRun.ops0, Cert.ReferenceIdeal.RefRun.ops1, List.take_succ_cons, List.take_zero, List.drop_succ_cons, List.drop_zero,
    head_tail_pair, three_at_two, Matrix.cons_val_zero, Matrix.cons_val_one, Matrix.head_cons, Matrix.cons_val_two, Matrix.tail_cons,
    StableHlo.after_cons, StableHlo.after_nil, StableHlo.nullary_result', StableHlo.unary_result', StableHlo.binary_result', StableHlo.ternary_result', StableHlo.quaternary_result', StableHlo.reshape_result', StableHlo.nary4_result', StableHlo.nary_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne'])))
  all_goals (try (simp only [hw0, hw]))
  all_goals (try rfl)

set_option maxHeartbeats 8000000 in
/-- Column block 2 of region 0's product is the reference's second relation's product: the site lemma at the two programs' operands — the
    layer's input, and the weight arrays as each program's operations before the product leave them. -/
theorem siteA2 (Vr : RV)
    (hx : (V0 m c (kr main_arg0) : (⟨S20000x768, .f32⟩ : BufTy).Contents (Elt Ideal)) = Vr (rr Cert.ReferenceIdeal.main_arg0))
    (hw0 : (V0 m c (kr main_arg3) : (⟨S768x256, .f32⟩ : BufTy).Contents (Elt Ideal)) = Vr (rr Cert.ReferenceIdeal.main_arg3))
    (hw : (V0 m c (kr main_arg2) : (⟨S2x768x256, .f32⟩ : BufTy).Contents (Elt Ideal)) = Vr (rr Cert.ReferenceIdeal.main_arg2))
    (ho2 : o 2 main_v7 c = (dat0 (F := Ideal) (fun c b => V1 m c b) c).arrAt 2 cfg0.N) :
    ∀ h, (extractStridedSlice S20000x256 ![0, 512] (V2 m o c (kr main_v7) : (⟨S20000x768, .f32⟩ : BufTy).Contents (Elt Ideal)) h : (⟨S20000x256, .f32⟩ : BufTy).Contents (Elt Ideal))
        = StableHlo.after refA Vr (rr Cert.ReferenceIdeal.main_v37) := by
  intro h
  rw [regionOut0 m o c ho2]
  show extractStridedSlice S20000x256 ![0, 512] (Cert.MatSpec.prod 20000 768 768 (StableHlo.after hostOps0 (V0 m c) (kr main_v5)) (StableHlo.after hostOps0 (V0 m c) (kr main_v6))) h = _
  generalize V0 m c = Vk at hx hw0 hw ⊢
  simp only [refA, after_append]
  repeat (simp (disch := decide) only [hostOps0, Cert.ReferenceIdeal.RefRun.ops0, Cert.ReferenceIdeal.RefRun.ops1, List.take_succ_cons, List.take_zero, List.drop_succ_cons, List.drop_zero,
    head_tail_pair, three_at_two, Matrix.cons_val_zero, Matrix.cons_val_one, Matrix.head_cons, Matrix.cons_val_two, Matrix.tail_cons,
    StableHlo.after_cons, StableHlo.after_nil, StableHlo.nullary_result', StableHlo.unary_result', StableHlo.binary_result', StableHlo.ternary_result', StableHlo.quaternary_result', StableHlo.reshape_result', StableHlo.nary4_result', StableHlo.nary_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne'])
  try simp only [hx]
  refine (Cert.Sites.site0_2 _ _ _ _ _ _ _).trans ?_
  congr 1
  all_goals (try (repeat (simp (disch := decide) only [hostOps0, Cert.ReferenceIdeal.RefRun.ops0, Cert.ReferenceIdeal.RefRun.ops1, List.take_succ_cons, List.take_zero, List.drop_succ_cons, List.drop_zero,
    head_tail_pair, three_at_two, Matrix.cons_val_zero, Matrix.cons_val_one, Matrix.head_cons, Matrix.cons_val_two, Matrix.tail_cons,
    StableHlo.after_cons, StableHlo.after_nil, StableHlo.nullary_result', StableHlo.unary_result', StableHlo.binary_result', StableHlo.ternary_result', StableHlo.quaternary_result', StableHlo.reshape_result', StableHlo.nary4_result', StableHlo.nary_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne'])))
  all_goals (try (simp only [hw0, hw]))
  all_goals (try rfl)

/-! ## Region 1 -/

/-- What region 1 leaves in its output array: the product of its two input arrays as the region finds them. -/
theorem regionOut1 (ho12 : o 12 main_v97 c = (dat1 (F := Ideal) (fun c b => V11 m o c b) c).arrAt 2 cfg1.N) :
    V12 m o c (kr main_v97) = Cert.MatSpec.prod 20000 256 384 (V11 m o c (kr main_v95)) (V11 m o c (kr main_v96)) := by
  have h1 : V12 m o c (kr main_v97) = o 12 main_v97 c := by
    simp only [V12]; first | exact Function.update_self .. | exact Function.update_same ..
  rw [h1, ho12, final1]

set_option maxHeartbeats 8000000 in
/-- Column block 0 of region 1's product is the reference's root product: the site lemma at the two programs' operands — the
    layer's input, and the weight arrays as each program's operations before the product leave them. -/
theorem siteB0 (Vr : RV)
    (hx : (V10 m o c (kr main_v89) : (⟨S20000x256, .f32⟩ : BufTy).Contents (Elt Ideal)) = Vr (rr Cert.ReferenceIdeal.main_v85))
    (hw0 : (V10 m o c (kr main_arg6) : (⟨S256x128, .f32⟩ : BufTy).Contents (Elt Ideal)) = Vr (rr Cert.ReferenceIdeal.main_arg6))
    (hw : (V10 m o c (kr main_arg5) : (⟨S2x256x128, .f32⟩ : BufTy).Contents (Elt Ideal)) = Vr (rr Cert.ReferenceIdeal.main_arg5))
    (ho12 : o 12 main_v97 c = (dat1 (F := Ideal) (fun c b => V11 m o c b) c).arrAt 2 cfg1.N) :
    ∀ h, (extractStridedSlice S20000x128 ![0, 0] (V12 m o c (kr main_v97) : (⟨S20000x384, .f32⟩ : BufTy).Contents (Elt Ideal)) h : (⟨S20000x128, .f32⟩ : BufTy).Contents (Elt Ideal))
        = StableHlo.after refB Vr (rr Cert.ReferenceIdeal.main_v90) := by
  intro h
  rw [regionOut1 m o c ho12]
  show extractStridedSlice S20000x128 ![0, 0] (Cert.MatSpec.prod 20000 256 384 (StableHlo.after hostOps1_8 (V10 m o c) (kr main_v95)) (StableHlo.after hostOps1_8 (V10 m o c) (kr main_v96))) h = _
  generalize V10 m o c = Vk at hx hw0 hw ⊢
  simp only [refB, after_append]
  repeat (simp (disch := decide) only [hostOps1_8, Cert.ReferenceIdeal.RefRun.ops1, Cert.ReferenceIdeal.RefRun.ops2, Cert.ReferenceIdeal.RefRun.ops3, List.take_succ_cons, List.take_zero, List.drop_succ_cons, List.drop_zero,
    head_tail_pair, three_at_two, Matrix.cons_val_zero, Matrix.cons_val_one, Matrix.head_cons, Matrix.cons_val_two, Matrix.tail_cons,
    StableHlo.after_cons, StableHlo.after_nil, StableHlo.nullary_result', StableHlo.unary_result', StableHlo.binary_result', StableHlo.ternary_result', StableHlo.quaternary_result', StableHlo.reshape_result', StableHlo.nary4_result', StableHlo.nary_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne'])
  try simp only [hx]
  refine (Cert.Sites.site1_0 _ _ _ _ _ _ _).trans ?_
  congr 1
  all_goals (try (repeat (simp (disch := decide) only [hostOps1_8, Cert.ReferenceIdeal.RefRun.ops1, Cert.ReferenceIdeal.RefRun.ops2, Cert.ReferenceIdeal.RefRun.ops3, List.take_succ_cons, List.take_zero, List.drop_succ_cons, List.drop_zero,
    head_tail_pair, three_at_two, Matrix.cons_val_zero, Matrix.cons_val_one, Matrix.head_cons, Matrix.cons_val_two, Matrix.tail_cons,
    StableHlo.after_cons, StableHlo.after_nil, StableHlo.nullary_result', StableHlo.unary_result', StableHlo.binary_result', StableHlo.ternary_result', StableHlo.quaternary_result', StableHlo.reshape_result', StableHlo.nary4_result', StableHlo.nary_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne'])))
  all_goals (try (simp only [hw0, hw]))
  all_goals (try rfl)

set_option maxHeartbeats 8000000 in
/-- Column block 1 of region 1's product is the reference's first relation's product: the site lemma at the two programs' operands — the
    layer's input, and the weight arrays as each program's operations before the product leave them. -/
theorem siteB1 (Vr : RV)
    (hx : (V10 m o c (kr main_v89) : (⟨S20000x256, .f32⟩ : BufTy).Contents (Elt Ideal)) = Vr (rr Cert.ReferenceIdeal.main_v85))
    (hw0 : (V10 m o c (kr main_arg6) : (⟨S256x128, .f32⟩ : BufTy).Contents (Elt Ideal)) = Vr (rr Cert.ReferenceIdeal.main_arg6))
    (hw : (V10 m o c (kr main_arg5) : (⟨S2x256x128, .f32⟩ : BufTy).Contents (Elt Ideal)) = Vr (rr Cert.ReferenceIdeal.main_arg5))
    (ho12 : o 12 main_v97 c = (dat1 (F := Ideal) (fun c b => V11 m o c b) c).arrAt 2 cfg1.N) :
    ∀ h, (extractStridedSlice S20000x128 ![0, 128] (V12 m o c (kr main_v97) : (⟨S20000x384, .f32⟩ : BufTy).Contents (Elt Ideal)) h : (⟨S20000x128, .f32⟩ : BufTy).Contents (Elt Ideal))
        = StableHlo.after refB Vr (rr Cert.ReferenceIdeal.main_v96) := by
  intro h
  rw [regionOut1 m o c ho12]
  show extractStridedSlice S20000x128 ![0, 128] (Cert.MatSpec.prod 20000 256 384 (StableHlo.after hostOps1_8 (V10 m o c) (kr main_v95)) (StableHlo.after hostOps1_8 (V10 m o c) (kr main_v96))) h = _
  generalize V10 m o c = Vk at hx hw0 hw ⊢
  simp only [refB, after_append]
  repeat (simp (disch := decide) only [hostOps1_8, Cert.ReferenceIdeal.RefRun.ops1, Cert.ReferenceIdeal.RefRun.ops2, Cert.ReferenceIdeal.RefRun.ops3, List.take_succ_cons, List.take_zero, List.drop_succ_cons, List.drop_zero,
    head_tail_pair, three_at_two, Matrix.cons_val_zero, Matrix.cons_val_one, Matrix.head_cons, Matrix.cons_val_two, Matrix.tail_cons,
    StableHlo.after_cons, StableHlo.after_nil, StableHlo.nullary_result', StableHlo.unary_result', StableHlo.binary_result', StableHlo.ternary_result', StableHlo.quaternary_result', StableHlo.reshape_result', StableHlo.nary4_result', StableHlo.nary_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne'])
  try simp only [hx]
  refine (Cert.Sites.site1_1 _ _ _ _ _ _ _).trans ?_
  congr 1
  all_goals (try (repeat (simp (disch := decide) only [hostOps1_8, Cert.ReferenceIdeal.RefRun.ops1, Cert.ReferenceIdeal.RefRun.ops2, Cert.ReferenceIdeal.RefRun.ops3, List.take_succ_cons, List.take_zero, List.drop_succ_cons, List.drop_zero,
    head_tail_pair, three_at_two, Matrix.cons_val_zero, Matrix.cons_val_one, Matrix.head_cons, Matrix.cons_val_two, Matrix.tail_cons,
    StableHlo.after_cons, StableHlo.after_nil, StableHlo.nullary_result', StableHlo.unary_result', StableHlo.binary_result', StableHlo.ternary_result', StableHlo.quaternary_result', StableHlo.reshape_result', StableHlo.nary4_result', StableHlo.nary_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne'])))
  all_goals (try (simp only [hw0, hw]))
  all_goals (try rfl)

set_option maxHeartbeats 8000000 in
/-- Column block 2 of region 1's product is the reference's second relation's product: the site lemma at the two programs' operands — the
    layer's input, and the weight arrays as each program's operations before the product leave them. -/
theorem siteB2 (Vr : RV)
    (hx : (V10 m o c (kr main_v89) : (⟨S20000x256, .f32⟩ : BufTy).Contents (Elt Ideal)) = Vr (rr Cert.ReferenceIdeal.main_v85))
    (hw0 : (V10 m o c (kr main_arg6) : (⟨S256x128, .f32⟩ : BufTy).Contents (Elt Ideal)) = Vr (rr Cert.ReferenceIdeal.main_arg6))
    (hw : (V10 m o c (kr main_arg5) : (⟨S2x256x128, .f32⟩ : BufTy).Contents (Elt Ideal)) = Vr (rr Cert.ReferenceIdeal.main_arg5))
    (ho12 : o 12 main_v97 c = (dat1 (F := Ideal) (fun c b => V11 m o c b) c).arrAt 2 cfg1.N) :
    ∀ h, (extractStridedSlice S20000x128 ![0, 256] (V12 m o c (kr main_v97) : (⟨S20000x384, .f32⟩ : BufTy).Contents (Elt Ideal)) h : (⟨S20000x128, .f32⟩ : BufTy).Contents (Elt Ideal))
        = StableHlo.after refB Vr (rr Cert.ReferenceIdeal.main_v123) := by
  intro h
  rw [regionOut1 m o c ho12]
  show extractStridedSlice S20000x128 ![0, 256] (Cert.MatSpec.prod 20000 256 384 (StableHlo.after hostOps1_8 (V10 m o c) (kr main_v95)) (StableHlo.after hostOps1_8 (V10 m o c) (kr main_v96))) h = _
  generalize V10 m o c = Vk at hx hw0 hw ⊢
  simp only [refB, after_append]
  repeat (simp (disch := decide) only [hostOps1_8, Cert.ReferenceIdeal.RefRun.ops1, Cert.ReferenceIdeal.RefRun.ops2, Cert.ReferenceIdeal.RefRun.ops3, List.take_succ_cons, List.take_zero, List.drop_succ_cons, List.drop_zero,
    head_tail_pair, three_at_two, Matrix.cons_val_zero, Matrix.cons_val_one, Matrix.head_cons, Matrix.cons_val_two, Matrix.tail_cons,
    StableHlo.after_cons, StableHlo.after_nil, StableHlo.nullary_result', StableHlo.unary_result', StableHlo.binary_result', StableHlo.ternary_result', StableHlo.quaternary_result', StableHlo.reshape_result', StableHlo.nary4_result', StableHlo.nary_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne'])
  try simp only [hx]
  refine (Cert.Sites.site1_2 _ _ _ _ _ _ _).trans ?_
  congr 1
  all_goals (try (repeat (simp (disch := decide) only [hostOps1_8, Cert.ReferenceIdeal.RefRun.ops1, Cert.ReferenceIdeal.RefRun.ops2, Cert.ReferenceIdeal.RefRun.ops3, List.take_succ_cons, List.take_zero, List.drop_succ_cons, List.drop_zero,
    head_tail_pair, three_at_two, Matrix.cons_val_zero, Matrix.cons_val_one, Matrix.head_cons, Matrix.cons_val_two, Matrix.tail_cons,
    StableHlo.after_cons, StableHlo.after_nil, StableHlo.nullary_result', StableHlo.unary_result', StableHlo.binary_result', StableHlo.ternary_result', StableHlo.quaternary_result', StableHlo.reshape_result', StableHlo.nary4_result', StableHlo.nary_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne'])))
  all_goals (try (simp only [hw0, hw]))
  all_goals (try rfl)

end Cert.Bridge

end
-- ==== Proof.ValueKernelIdeal3.lean ====
/- The value of the kernel program's fourth TensorCore region at the ideal instance (a float is an extended real, every
   operation exact), as for the first three in the neighbouring module: the body's result read at an entry, the block
   indices of the three windows at a grid point, what a point writes back as its block of the product of the two whole
   arrays, the ten row blocks covering the product array, and so the product array after the region as the matrix product
   (`Cert.MatSpec.prod`) of the two input arrays as the region found them. -/
import proofs.«177757_j84482006712681_1_alg».proof.Proof.ValueKernelIdeal

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-! # Region 3: a [20000, 256] array times a [256, 384] array, 2000 rows per grid point -/

/-- The body's result at entry (r, n): the two shape casts keep the shapes, the product is accumulated into the zero
    array, and its one contracted axis is the left block's columns against the right block's rows, so the entry is the
    sum over k of the left block's (r, k) times the right block's (k, n). -/
theorem pay3_apply (x0 : Vec Ideal S2000x256 .bf16) (x1 : Vec Ideal S256x384 .bf16) (r : Fin 2000) (n : Fin 384) :
    k3_pay1 (F := Ideal) x0 x1 (ix2 r n) = ∑ k : Fin 256, x0 (ix2 r k) * x1 (ix2 k n) := by
  unfold k3_pay1
  rw [shapeCast_self, shapeCast_self]
  refine (Ideal.matmul_constant_zero_apply (φ₁ := .bf16) (φ₂ := .bf16) dot_S2000x256_S256x384_S2000x384_1_0_0_1_n_n none x0 x1 (ix2 r n)).trans ?_
  rw [← Equiv.sum_comp (contrEquiv1 dot_S2000x256_S256x384_S2000x384_1_0_0_1_n_n 256 rfl rfl).symm]
  refine Finset.sum_congr rfl fun k _ => ?_
  have ck := contrEquiv1_symm_val dot_S2000x256_S256x384_S2000x384_1_0_0_1_n_n 256 rfl rfl k
  have hl : dot_S2000x256_S256x384_S2000x384_1_0_0_1_n_n.lhsIdx (ix2 r n)
      ((contrEquiv1 dot_S2000x256_S256x384_S2000x384_1_0_0_1_n_n 256 rfl rfl).symm k) = ix2 r k := by
    funext ax; apply Fin.ext
    match ax with
    | ⟨0, _⟩ => rfl
    | ⟨1, _⟩ => exact (DotDims.lhsIdx_val_of_single _ rfl _ _).trans ck
  have hr : dot_S2000x256_S256x384_S2000x384_1_0_0_1_n_n.rhsIdx (ix2 r n)
      ((contrEquiv1 dot_S2000x256_S256x384_S2000x384_1_0_0_1_n_n 256 rfl rfl).symm k) = ix2 k n := by
    funext ax; apply Fin.ext
    match ax with
    | ⟨0, _⟩ => exact (DotDims.rhsIdx_val_of_single _ rfl _ _).trans ck
    | ⟨1, _⟩ => rfl
  rw [hl, hr]

section
variable (V : (c : Dev nD) → (b : Ref sig .tc) → Buf (Elt Ideal) ((c : Thread nD τ).loc b))

/-- The block indices of region 3's three windows at grid point `t`, decided over the ten points: the left factor's
    and the product's blocks are row block `t`, the right factor's is the whole array. -/
theorem block_index3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the product of the two arrays as the region finds them: entry (r, n) of
    the body's result is the sum over k of the left block's (r, k) times the right block's (k, n), the left block's row
    r is the array's row 2000 t + r, and the right block is the whole right array. -/
theorem flushed3_eq (c : Dev nD) (t : Fin cfg3.N) :
    (dat3 (F := Ideal) V c).flushed 2 t = ((cfg3.win 2).blk t).view.read (Elt Ideal)
      (Cert.MatSpec.prod 20000 256 384 (V c (Pipeline.arrRef spec3 0)) (V c (Pipeline.arrRef spec3 1))) := by
  show (cfg3.win 2).cut (grid3.coords t) ((dat3 V c).after 2 t) = _
  rw [after3_2]
  unfold out3_2
  rw [View.canon_unit_zero zero_offsets]
  simp only [View.ld_unit_zero (S := S2000x256) zero_offsets, View.ld_unit_zero (S := S256x384) zero_offsets]
  obtain ⟨e00, e01, e10, e11, e20, e21⟩ := block_index3 t
  have ht : t.val < 10 := t.isLt
  funext j
  obtain ⟨r, n, rfl⟩ : ∃ (r : Fin 2000) (n : Fin 384), j = ix2 r n := ⟨j 0, j 1, eq_ix2 j⟩
  show k3_pay1 (F := Ideal) (iblk3 V c 0 t) (iblk3 V c 1 t) (ix2 r n)
    = Cert.MatSpec.prod 20000 256 384 _ _ (((cfg3.win 2).blk t).view.emb (ix2 r n))
  have hout : ((cfg3.win 2).blk t).view.emb (ix2 r n)
      = ix2 (n0 := 20000) (n1 := 384) ⟨t.val * 2000 + r.val, by omega⟩ n := by
    funext a; apply Fin.ext
    match a with
    | ⟨0, _⟩ => show win3_2.index t (0 : Fin 2) * 2000 + 1 * r.val = t.val * 2000 + r.val; rw [e20]; omega
    | ⟨1, _⟩ => show win3_2.index t (1 : Fin 2) * 384 + 1 * n.val = n.val; rw [e21]; omega
  rw [hout, Cert.MatSpec.prod_apply]
  refine (pay3_apply _ _ r n).trans ?_
  refine Finset.sum_congr rfl fun k _ => ?_
  have hl : ((cfg3.win 0).blk t).view.emb (ix2 r k)
      = ix2 (n0 := 20000) (n1 := 256) ⟨t.val * 2000 + r.val, by omega⟩ k := by
    funext a; apply Fin.ext
    match a with
    | ⟨0, _⟩ => show win3_0.index t (0 : Fin 2) * 2000 + 1 * r.val = t.val * 2000 + r.val; rw [e00]; omega
    | ⟨1, _⟩ => show win3_0.index t (1 : Fin 2) * 256 + 1 * k.val = k.val; rw [e01]; omega
  have hr : ((cfg3.win 1).blk t).view.emb (ix2 k n) = ix2 (n0 := 256) (n1 := 384) k n := by
    funext a; apply Fin.ext
    match a with
    | ⟨0, _⟩ => show win3_1.index t (0 : Fin 2) * 256 + 1 * k.val = k.val; rw [e10]; omega
    | ⟨1, _⟩ => show win3_1.index t (1 : Fin 2) * 384 + 1 * n.val = n.val; rw [e11]; omega
  have al : iblk3 (F := Ideal) V c 0 t (ix2 (n0 := 2000) (n1 := 256) r k)
      = V c (Pipeline.arrRef spec3 0) (ix2 (n0 := 20000) (n1 := 256) ⟨t.val * 2000 + r.val, by omega⟩ k) :=
    congrArg (V c (Pipeline.arrRef spec3 0)) hl
  have ar : iblk3 (F := Ideal) V c 1 t (ix2 (n0 := 256) (n1 := 384) k n)
      = V c (Pipeline.arrRef spec3 1) (ix2 (n0 := 256) (n1 := 384) k n) :=
    congrArg (V c (Pipeline.arrRef spec3 1)) hr
  rw [al, ar]

/-- An index of the product array is in point `t`'s block iff each coordinate is in the block's range on its axis. -/
theorem mem_blk3 (t : Fin cfg3.N) (i : S20000x384.Idx) :
    i ∈ ((cfg3.win 2).blk t).view.set ↔ ∀ a : Fin 2, win3_2.index t a * S2000x384.size a ≤ (i a).val
      ∧ (i a).val < win3_2.index t a * S2000x384.size a + S2000x384.size a := by
  show i ∈ ((View.whole main_v289).slice (win3_2.rect t)).set ↔ _
  rw [View.set_slice_whole, Rect.mem_set_unit]
  exact Iff.rfl

/-- The ten blocks of 2000 rows cover the product array: row r is in the block of point r / 2000, and every point
    writes its block back. -/
theorem cover3 (i : S20000x384.Idx) :
    ∃ t : Fin cfg3.N, (cfg3.win 2).flush t = true ∧ i ∈ ((cfg3.win 2).blk t).view.set := by
  have hi0 : (i 0).val < 20000 := (i 0).isLt
  have hi1 : (i 1).val < 384 := (i 1).isLt
  obtain ⟨t, ht⟩ : ∃ t : Fin cfg3.N, t.val = (i 0).val / 2000 :=
    ⟨⟨(i 0).val / 2000, by rw [show cfg3.N = 10 from N_3]; omega⟩, rfl⟩
  obtain ⟨-, -, -, -, e20, e21⟩ := block_index3 t
  refine ⟨t, flush3_2 t, ?_⟩
  rw [mem_blk3]
  intro a
  match a with
  | ⟨0, _⟩ =>
    show win3_2.index t (0 : Fin 2) * 2000 ≤ (i 0).val ∧ (i 0).val < win3_2.index t (0 : Fin 2) * 2000 + 2000
    rw [e20, ht]; omega
  | ⟨1, _⟩ =>
    show win3_2.index t (1 : Fin 2) * 384 ≤ (i 1).val ∧ (i 1).val < win3_2.index t (1 : Fin 2) * 384 + 384
    rw [e21]; omega

/-- After region 3 the product window's array is the matrix product of the two input arrays as the region found
    them: every point writes back its block of that product, and the blocks cover the array. -/
theorem final3 (c : Dev nD) :
    (dat3 (F := Ideal) V c).arrAt 2 cfg3.N
      = Cert.MatSpec.prod 20000 256 384 (V c (Pipeline.arrRef spec3 0)) (V c (Pipeline.arrRef spec3 1)) :=
  (dat3 V c).arrAt_eq_of_cover 2 _ (fun t _ => flushed3_eq V c t) (cover3)

end

end Cert.KernelIdeal.Hand

end
-- ==== Proof.BridgeSitesP.lean ====
/-
  THE MATRIX-PRODUCT SITES of the second branch. After each region the kernel program holds, in the region's output array, the product of the
  region's two input arrays: the layer's input rounded to the narrow format (the identity on extended reals) and the three weight
  arrays put side by side. A column block of that product is the product with that block's weight array, which is what the
  reference computes at the same place. Here each such equation is stated between the two programs' buffers: the kernel's
  column block, read off the operations before and after the region, against the reference's product, read off its operations.
-/
import proofs.«177757_j84482006712681_1_alg».proof.Proof.BridgeBase
import proofs.«177757_j84482006712681_1_alg».proof.Proof.BridgeVec

import proofs.«177757_j84482006712681_1_alg».proof.Proof.RegionsKernelIdeal
import proofs.«177757_j84482006712681_1_alg».proof.Proof.ValueKernelIdeal
import proofs.«177757_j84482006712681_1_alg».proof.Proof.ValueKernelIdeal3
import proofs.«177757_j84482006712681_1_alg».proof.Proof.Sites

noncomputable section

namespace Cert.Bridge

open Idealize.ShloMosaic Idealize.ShloMosaic.TcCoe Idealize.SL.Sem
open Cert.KernelIdeal Cert.KernelIdeal.Gen Cert.KernelIdeal.GenP Cert.KernelIdeal.Hand

variable (m : (ℓ : Loc nD τ sig) → Buf (Elt Ideal) ℓ) (o : Outs (F := Ideal)) (c : Dev nD)

/-! ## Region 2 -/

/-- What region 2 leaves in its output array: the product of its two input arrays as the region finds them. -/
theorem regionOut2 (ho22 : o 22 main_v199 c = (dat2 (F := Ideal) (fun c b => V21 m o c b) c).arrAt 2 cfg2.N) :
    V22 m o c (kr main_v199) = Cert.MatSpec.prod 20000 128 768 (V21 m o c (kr main_v197)) (V21 m o c (kr main_v198)) := by
  have h1 : V22 m o c (kr main_v199) = o 22 main_v199 c := by
    simp only [V22]; first | exact Function.update_self .. | exact Function.update_same ..
  rw [h1, ho22, final2]

set_option maxHeartbeats 8000000 in
/-- Column block 0 of region 2's product is the reference's root product: the site lemma at the two programs' operands — the
    layer's input, and the weight arrays as each program's operations before the product leave them. -/
theorem siteC0 (Vr : RV)
    (hx : (V20 m o c (kr main_arg1) : (⟨S20000x128, .f32⟩ : BufTy).Contents (Elt Ideal)) = Vr (rr Cert.ReferenceIdeal.main_arg1))
    (hw0 : (V20 m o c (kr main_arg9) : (⟨S128x256, .f32⟩ : BufTy).Contents (Elt Ideal)) = Vr (rr Cert.ReferenceIdeal.main_arg9))
    (hw : (V20 m o c (kr main_arg8) : (⟨S2x128x256, .f32⟩ : BufTy).Contents (Elt Ideal)) = Vr (rr Cert.ReferenceIdeal.main_arg8))
    (ho22 : o 22 main_v199 c = (dat2 (F := Ideal) (fun c b => V21 m o c b) c).arrAt 2 cfg2.N) :
    ∀ h, (extractStridedSlice S20000x256 ![0, 0] (V22 m o c (kr main_v199) : (⟨S20000x768, .f32⟩ : BufTy).Contents (Elt Ideal)) h : (⟨S20000x256, .f32⟩ : BufTy).Contents (Elt Ideal))
        = StableHlo.after refC Vr (rr Cert.ReferenceIdeal.main_v188) := by
  intro h
  rw [regionOut2 m o c ho22]
  show extractStridedSlice S20000x256 ![0, 0] (Cert.MatSpec.prod 20000 128 768 (StableHlo.after hostOps2_8 (V20 m o c) (kr main_v197)) (StableHlo.after hostOps2_8 (V20 m o c) (kr main_v198))) h = _
  generalize V20 m o c = Vk at hx hw0 hw ⊢
  simp only [refC, after_append]
  repeat (simp (disch := decide) only [hostOps2_8, Cert.ReferenceIdeal.RefRun.ops3, Cert.ReferenceIdeal.RefRun.ops4, Cert.ReferenceIdeal.RefRun.ops5, List.take_succ_cons, List.take_zero, List.drop_succ_cons, List.drop_zero,
    head_tail_pair, three_at_two, Matrix.cons_val_zero, Matrix.cons_val_one, Matrix.head_cons, Matrix.cons_val_two, Matrix.tail_cons,
    StableHlo.after_cons, StableHlo.after_nil, StableHlo.nullary_result', StableHlo.unary_result', StableHlo.binary_result', StableHlo.ternary_result', StableHlo.quaternary_result', StableHlo.reshape_result', StableHlo.nary4_result', StableHlo.nary_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne'])
  try simp only [hx]
  refine (Cert.Sites.site2_0 _ _ _ _ _ _ _).trans ?_
  congr 1
  all_goals (try (repeat (simp (disch := decide) only [hostOps2_8, Cert.ReferenceIdeal.RefRun.ops3, Cert.ReferenceIdeal.RefRun.ops4, Cert.ReferenceIdeal.RefRun.ops5, List.take_succ_cons, List.take_zero, List.drop_succ_cons, List.drop_zero,
    head_tail_pair, three_at_two, Matrix.cons_val_zero, Matrix.cons_val_one, Matrix.head_cons, Matrix.cons_val_two, Matrix.tail_cons,
    StableHlo.after_cons, StableHlo.after_nil, StableHlo.nullary_result', StableHlo.unary_result', StableHlo.binary_result', StableHlo.ternary_result', StableHlo.quaternary_result', StableHlo.reshape_result', StableHlo.nary4_result', StableHlo.nary_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne'])))
  all_goals (try (simp only [hw0, hw]))
  all_goals (try rfl)

set_option maxHeartbeats 8000000 in
/-- Column block 1 of region 2's product is the reference's first relation's product: the site lemma at the two programs' operands — the
    layer's input, and the weight arrays as each program's operations before the product leave them. -/
theorem siteC1 (Vr : RV)
    (hx : (V20 m o c (kr main_arg1) : (⟨S20000x128, .f32⟩ : BufTy).Contents (Elt Ideal)) = Vr (rr Cert.ReferenceIdeal.main_arg1))
    (hw0 : (V20 m o c (kr main_arg9) : (⟨S128x256, .f32⟩ : BufTy).Contents (Elt Ideal)) = Vr (rr Cert.ReferenceIdeal.main_arg9))
    (hw : (V20 m o c (kr main_arg8) : (⟨S2x128x256, .f32⟩ : BufTy).Contents (Elt Ideal)) = Vr (rr Cert.ReferenceIdeal.main_arg8))
    (ho22 : o 22 main_v199 c = (dat2 (F := Ideal) (fun c b => V21 m o c b) c).arrAt 2 cfg2.N) :
    ∀ h, (extractStridedSlice S20000x256 ![0, 256] (V22 m o c (kr main_v199) : (⟨S20000x768, .f32⟩ : BufTy).Contents (Elt Ideal)) h : (⟨S20000x256, .f32⟩ : BufTy).Contents (Elt Ideal))
        = StableHlo.after refC Vr (rr Cert.ReferenceIdeal.main_v194) := by
  intro h
  rw [regionOut2 m o c ho22]
  show extractStridedSlice S20000x256 ![0, 256] (Cert.MatSpec.prod 20000 128 768 (StableHlo.after hostOps2_8 (V20 m o c) (kr main_v197)) (StableHlo.after hostOps2_8 (V20 m o c) (kr main_v198))) h = _
  generalize V20 m o c = Vk at hx hw0 hw ⊢
  simp only [refC, after_append]
  repeat (simp (disch := decide) only [hostOps2_8, Cert.ReferenceIdeal.RefRun.ops3, Cert.ReferenceIdeal.RefRun.ops4, Cert.ReferenceIdeal.RefRun.ops5, List.take_succ_cons, List.take_zero, List.drop_succ_cons, List.drop_zero,
    head_tail_pair, three_at_two, Matrix.cons_val_zero, Matrix.cons_val_one, Matrix.head_cons, Matrix.cons_val_two, Matrix.tail_cons,
    StableHlo.after_cons, StableHlo.after_nil, StableHlo.nullary_result', StableHlo.unary_result', StableHlo.binary_result', StableHlo.ternary_result', StableHlo.quaternary_result', StableHlo.reshape_result', StableHlo.nary4_result', StableHlo.nary_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne'])
  try simp only [hx]
  refine (Cert.Sites.site2_1 _ _ _ _ _ _ _).trans ?_
  congr 1
  all_goals (try (repeat (simp (disch := decide) only [hostOps2_8, Cert.ReferenceIdeal.RefRun.ops3, Cert.ReferenceIdeal.RefRun.ops4, Cert.ReferenceIdeal.RefRun.ops5, List.take_succ_cons, List.take_zero, List.drop_succ_cons, List.drop_zero,
    head_tail_pair, three_at_two, Matrix.cons_val_zero, Matrix.cons_val_one, Matrix.head_cons, Matrix.cons_val_two, Matrix.tail_cons,
    StableHlo.after_cons, StableHlo.after_nil, StableHlo.nullary_result', StableHlo.unary_result', StableHlo.binary_result', StableHlo.ternary_result', StableHlo.quaternary_result', StableHlo.reshape_result', StableHlo.nary4_result', StableHlo.nary_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne'])))
  all_goals (try (simp only [hw0, hw]))
  all_goals (try rfl)

set_option maxHeartbeats 8000000 in
/-- Column block 2 of region 2's product is the reference's second relation's product: the site lemma at the two programs' operands — the
    layer's input, and the weight arrays as each program's operations before the product leave them. -/
theorem siteC2 (Vr : RV)
    (hx : (V20 m o c (kr main_arg1) : (⟨S20000x128, .f32⟩ : BufTy).Contents (Elt Ideal)) = Vr (rr Cert.ReferenceIdeal.main_arg1))
    (hw0 : (V20 m o c (kr main_arg9) : (⟨S128x256, .f32⟩ : BufTy).Contents (Elt Ideal)) = Vr (rr Cert.ReferenceIdeal.main_arg9))
    (hw : (V20 m o c (kr main_arg8) : (⟨S2x128x256, .f32⟩ : BufTy).Contents (Elt Ideal)) = Vr (rr Cert.ReferenceIdeal.main_arg8))
    (ho22 : o 22 main_v199 c = (dat2 (F := Ideal) (fun c b => V21 m o c b) c).arrAt 2 cfg2.N) :
    ∀ h, (extractStridedSlice S20000x256 ![0, 512] (V22 m o c (kr main_v199) : (⟨S20000x768, .f32⟩ : BufTy).Contents (Elt Ideal)) h : (⟨S20000x256, .f32⟩ : BufTy).Contents (Elt Ideal))
        = StableHlo.after refC Vr (rr Cert.ReferenceIdeal.main_v221) := by
  intro h
  rw [regionOut2 m o c ho22]
  show extractStridedSlice S20000x256 ![0, 512] (Cert.MatSpec.prod 20000 128 768 (StableHlo.after hostOps2_8 (V20 m o c) (kr main_v197)) (StableHlo.after hostOps2_8 (V20 m o c) (kr main_v198))) h = _
  generalize V20 m o c = Vk at hx hw0 hw ⊢
  simp only [refC, after_append]
  repeat (simp (disch := decide) only [hostOps2_8, Cert.ReferenceIdeal.RefRun.ops3, Cert.ReferenceIdeal.RefRun.ops4, Cert.ReferenceIdeal.RefRun.ops5, List.take_succ_cons, List.take_zero, List.drop_succ_cons, List.drop_zero,
    head_tail_pair, three_at_two, Matrix.cons_val_zero, Matrix.cons_val_one, Matrix.head_cons, Matrix.cons_val_two, Matrix.tail_cons,
    StableHlo.after_cons, StableHlo.after_nil, StableHlo.nullary_result', StableHlo.unary_result', StableHlo.binary_result', StableHlo.ternary_result', StableHlo.quaternary_result', StableHlo.reshape_result', StableHlo.nary4_result', StableHlo.nary_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne'])
  try simp only [hx]
  refine (Cert.Sites.site2_2 _ _ _ _ _ _ _).trans ?_
  congr 1
  all_goals (try (repeat (simp (disch := decide) only [hostOps2_8, Cert.ReferenceIdeal.RefRun.ops3, Cert.ReferenceIdeal.RefRun.ops4, Cert.ReferenceIdeal.RefRun.ops5, List.take_succ_cons, List.take_zero, List.drop_succ_cons, List.drop_zero,
    head_tail_pair, three_at_two, Matrix.cons_val_zero, Matrix.cons_val_one, Matrix.head_cons, Matrix.cons_val_two, Matrix.tail_cons,
    StableHlo.after_cons, StableHlo.after_nil, StableHlo.nullary_result', StableHlo.unary_result', StableHlo.binary_result', StableHlo.ternary_result', StableHlo.quaternary_result', StableHlo.reshape_result', StableHlo.nary4_result', StableHlo.nary_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne'])))
  all_goals (try (simp only [hw0, hw]))
  all_goals (try rfl)

/-! ## Region 3 -/

/-- What region 3 leaves in its output array: the product of its two input arrays as the region finds them. -/
theorem regionOut3 (ho32 : o 32 main_v289 c = (dat3 (F := Ideal) (fun c b => V31 m o c b) c).arrAt 2 cfg3.N) :
    V32 m o c (kr main_v289) = Cert.MatSpec.prod 20000 256 384 (V31 m o c (kr main_v287)) (V31 m o c (kr main_v288)) := by
  have h1 : V32 m o c (kr main_v289) = o 32 main_v289 c := by
    simp only [V32]; first | exact Function.update_self .. | exact Function.update_same ..
  rw [h1, ho32, final3]

set_option maxHeartbeats 8000000 in
/-- Column block 0 of region 3's product is the reference's root product: the site lemma at the two programs' operands — the
    layer's input, and the weight arrays as each program's operations before the product leave them. -/
theorem siteD0 (Vr : RV)
    (hx : (V30 m o c (kr main_v281) : (⟨S20000x256, .f32⟩ : BufTy).Contents (Elt Ideal)) = Vr (rr Cert.ReferenceIdeal.main_v269))
    (hw0 : (V30 m o c (kr main_arg12) : (⟨S256x128, .f32⟩ : BufTy).Contents (Elt Ideal)) = Vr (rr Cert.ReferenceIdeal.main_arg12))
    (hw : (V30 m o c (kr main_arg11) : (⟨S2x256x128, .f32⟩ : BufTy).Contents (Elt Ideal)) = Vr (rr Cert.ReferenceIdeal.main_arg11))
    (ho32 : o 32 main_v289 c = (dat3 (F := Ideal) (fun c b => V31 m o c b) c).arrAt 2 cfg3.N) :
    ∀ h, (extractStridedSlice S20000x128 ![0, 0] (V32 m o c (kr main_v289) : (⟨S20000x384, .f32⟩ : BufTy).Contents (Elt Ideal)) h : (⟨S20000x128, .f32⟩ : BufTy).Contents (Elt Ideal))
        = StableHlo.after refD Vr (rr Cert.ReferenceIdeal.main_v274) := by
  intro h
  rw [regionOut3 m o c ho32]
  show extractStridedSlice S20000x128 ![0, 0] (Cert.MatSpec.prod 20000 256 384 (StableHlo.after hostOps3_8 (V30 m o c) (kr main_v287)) (StableHlo.after hostOps3_8 (V30 m o c) (kr main_v288))) h = _
  generalize V30 m o c = Vk at hx hw0 hw ⊢
  simp only [refD, after_append]
  repeat (simp (disch := decide) only [hostOps3_8, Cert.ReferenceIdeal.RefRun.ops5, Cert.ReferenceIdeal.RefRun.ops6, Cert.ReferenceIdeal.RefRun.ops7, List.take_succ_cons, List.take_zero, List.drop_succ_cons, List.drop_zero,
    head_tail_pair, three_at_two, Matrix.cons_val_zero, Matrix.cons_val_one, Matrix.head_cons, Matrix.cons_val_two, Matrix.tail_cons,
    StableHlo.after_cons, StableHlo.after_nil, StableHlo.nullary_result', StableHlo.unary_result', StableHlo.binary_result', StableHlo.ternary_result', StableHlo.quaternary_result', StableHlo.reshape_result', StableHlo.nary4_result', StableHlo.nary_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne'])
  try simp only [hx]
  refine (Cert.Sites.site3_0 _ _ _ _ _ _ _).trans ?_
  congr 1
  all_goals (try (repeat (simp (disch := decide) only [hostOps3_8, Cert.ReferenceIdeal.RefRun.ops5, Cert.ReferenceIdeal.RefRun.ops6, Cert.ReferenceIdeal.RefRun.ops7, List.take_succ_cons, List.take_zero, List.drop_succ_cons, List.drop_zero,
    head_tail_pair, three_at_two, Matrix.cons_val_zero, Matrix.cons_val_one, Matrix.head_cons, Matrix.cons_val_two, Matrix.tail_cons,
    StableHlo.after_cons, StableHlo.after_nil, StableHlo.nullary_result', StableHlo.unary_result', StableHlo.binary_result', StableHlo.ternary_result', StableHlo.quaternary_result', StableHlo.reshape_result', StableHlo.nary4_result', StableHlo.nary_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne'])))
  all_goals (try (simp only [hw0, hw]))
  all_goals (try rfl)

set_option maxHeartbeats 8000000 in
/-- Column block 1 of region 3's product is the reference's first relation's product: the site lemma at the two programs' operands — the
    layer's input, and the weight arrays as each program's operations before the product leave them. -/
theorem siteD1 (Vr : RV)
    (hx : (V30 m o c (kr main_v281) : (⟨S20000x256, .f32⟩ : BufTy).Contents (Elt Ideal)) = Vr (rr Cert.ReferenceIdeal.main_v269))
    (hw0 : (V30 m o c (kr main_arg12) : (⟨S256x128, .f32⟩ : BufTy).Contents (Elt Ideal)) = Vr (rr Cert.ReferenceIdeal.main_arg12))
    (hw : (V30 m o c (kr main_arg11) : (⟨S2x256x128, .f32⟩ : BufTy).Contents (Elt Ideal)) = Vr (rr Cert.ReferenceIdeal.main_arg11))
    (ho32 : o 32 main_v289 c = (dat3 (F := Ideal) (fun c b => V31 m o c b) c).arrAt 2 cfg3.N) :
    ∀ h, (extractStridedSlice S20000x128 ![0, 128] (V32 m o c (kr main_v289) : (⟨S20000x384, .f32⟩ : BufTy).Contents (Elt Ideal)) h : (⟨S20000x128, .f32⟩ : BufTy).Contents (Elt Ideal))
        = StableHlo.after refD Vr (rr Cert.ReferenceIdeal.main_v280) := by
  intro h
  rw [regionOut3 m o c ho32]
  show extractStridedSlice S20000x128 ![0, 128] (Cert.MatSpec.prod 20000 256 384 (StableHlo.after hostOps3_8 (V30 m o c) (kr main_v287)) (StableHlo.after hostOps3_8 (V30 m o c) (kr main_v288))) h = _
  generalize V30 m o c = Vk at hx hw0 hw ⊢
  simp only [refD, after_append]
  repeat (simp (disch := decide) only [hostOps3_8, Cert.ReferenceIdeal.RefRun.ops5, Cert.ReferenceIdeal.RefRun.ops6, Cert.ReferenceIdeal.RefRun.ops7, List.take_succ_cons, List.take_zero, List.drop_succ_cons, List.drop_zero,
    head_tail_pair, three_at_two, Matrix.cons_val_zero, Matrix.cons_val_one, Matrix.head_cons, Matrix.cons_val_two, Matrix.tail_cons,
    StableHlo.after_cons, StableHlo.after_nil, StableHlo.nullary_result', StableHlo.unary_result', StableHlo.binary_result', StableHlo.ternary_result', StableHlo.quaternary_result', StableHlo.reshape_result', StableHlo.nary4_result', StableHlo.nary_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne'])
  try simp only [hx]
  refine (Cert.Sites.site3_1 _ _ _ _ _ _ _).trans ?_
  congr 1
  all_goals (try (repeat (simp (disch := decide) only [hostOps3_8, Cert.ReferenceIdeal.RefRun.ops5, Cert.ReferenceIdeal.RefRun.ops6, Cert.ReferenceIdeal.RefRun.ops7, List.take_succ_cons, List.take_zero, List.drop_succ_cons, List.drop_zero,
    head_tail_pair, three_at_two, Matrix.cons_val_zero, Matrix.cons_val_one, Matrix.head_cons, Matrix.cons_val_two, Matrix.tail_cons,
    StableHlo.after_cons, StableHlo.after_nil, StableHlo.nullary_result', StableHlo.unary_result', StableHlo.binary_result', StableHlo.ternary_result', StableHlo.quaternary_result', StableHlo.reshape_result', StableHlo.nary4_result', StableHlo.nary_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne'])))
  all_goals (try (simp only [hw0, hw]))
  all_goals (try rfl)

set_option maxHeartbeats 8000000 in
/-- Column block 2 of region 3's product is the reference's second relation's product: the site lemma at the two programs' operands — the
    layer's input, and the weight arrays as each program's operations before the product leave them. -/
theorem siteD2 (Vr : RV)
    (hx : (V30 m o c (kr main_v281) : (⟨S20000x256, .f32⟩ : BufTy).Contents (Elt Ideal)) = Vr (rr Cert.ReferenceIdeal.main_v269))
    (hw0 : (V30 m o c (kr main_arg12) : (⟨S256x128, .f32⟩ : BufTy).Contents (Elt Ideal)) = Vr (rr Cert.ReferenceIdeal.main_arg12))
    (hw : (V30 m o c (kr main_arg11) : (⟨S2x256x128, .f32⟩ : BufTy).Contents (Elt Ideal)) = Vr (rr Cert.ReferenceIdeal.main_arg11))
    (ho32 : o 32 main_v289 c = (dat3 (F := Ideal) (fun c b => V31 m o c b) c).arrAt 2 cfg3.N) :
    ∀ h, (extractStridedSlice S20000x128 ![0, 256] (V32 m o c (kr main_v289) : (⟨S20000x384, .f32⟩ : BufTy).Contents (Elt Ideal)) h : (⟨S20000x128, .f32⟩ : BufTy).Contents (Elt Ideal))
        = StableHlo.after refD Vr (rr Cert.ReferenceIdeal.main_v307) := by
  intro h
  rw [regionOut3 m o c ho32]
  show extractStridedSlice S20000x128 ![0, 256] (Cert.MatSpec.prod 20000 256 384 (StableHlo.after hostOps3_8 (V30 m o c) (kr main_v287)) (StableHlo.after hostOps3_8 (V30 m o c) (kr main_v288))) h = _
  generalize V30 m o c = Vk at hx hw0 hw ⊢
  simp only [refD, after_append]
  repeat (simp (disch := decide) only [hostOps3_8, Cert.ReferenceIdeal.RefRun.ops5, Cert.ReferenceIdeal.RefRun.ops6, Cert.ReferenceIdeal.RefRun.ops7, List.take_succ_cons, List.take_zero, List.drop_succ_cons, List.drop_zero,
    head_tail_pair, three_at_two, Matrix.cons_val_zero, Matrix.cons_val_one, Matrix.head_cons, Matrix.cons_val_two, Matrix.tail_cons,
    StableHlo.after_cons, StableHlo.after_nil, StableHlo.nullary_result', StableHlo.unary_result', StableHlo.binary_result', StableHlo.ternary_result', StableHlo.quaternary_result', StableHlo.reshape_result', StableHlo.nary4_result', StableHlo.nary_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne'])
  try simp only [hx]
  refine (Cert.Sites.site3_2 _ _ _ _ _ _ _).trans ?_
  congr 1
  all_goals (try (repeat (simp (disch := decide) only [hostOps3_8, Cert.ReferenceIdeal.RefRun.ops5, Cert.ReferenceIdeal.RefRun.ops6, Cert.ReferenceIdeal.RefRun.ops7, List.take_succ_cons, List.take_zero, List.drop_succ_cons, List.drop_zero,
    head_tail_pair, three_at_two, Matrix.cons_val_zero, Matrix.cons_val_one, Matrix.head_cons, Matrix.cons_val_two, Matrix.tail_cons,
    StableHlo.after_cons, StableHlo.after_nil, StableHlo.nullary_result', StableHlo.unary_result', StableHlo.binary_result', StableHlo.ternary_result', StableHlo.quaternary_result', StableHlo.reshape_result', StableHlo.nary4_result', StableHlo.nary_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne'])))
  all_goals (try (simp only [hw0, hw]))
  all_goals (try rfl)

end Cert.Bridge

end
-- ==== Proof.BridgeRun.lean ====
/-
  THE TWO RESULTS ARE THE REFERENCE'S. The kernel program's run is: operations, a region, operations, a region, … Between two
  regions its operations are, name for name, the reference's operations of one layer (the stage lemmas), and each region
  supplies the layer's three matrix products at once (the site lemmas). Chained from launch contents that agree on the
  arguments: the first layer's output is the same array in both programs, hence the second layer's three products are the same,
  hence the first result; likewise the second branch and the second result.
-/
import proofs.«177757_j84482006712681_1_alg».proof.Proof.BridgeBase
import proofs.«177757_j84482006712681_1_alg».proof.Proof.BridgeA
import proofs.«177757_j84482006712681_1_alg».proof.Proof.BridgeB
import proofs.«177757_j84482006712681_1_alg».proof.Proof.BridgeC
import proofs.«177757_j84482006712681_1_alg».proof.Proof.BridgeD
import proofs.«177757_j84482006712681_1_alg».proof.Proof.BridgeKeep
import proofs.«177757_j84482006712681_1_alg».proof.Proof.BridgeSitesT
import proofs.«177757_j84482006712681_1_alg».proof.Proof.BridgeSitesP

noncomputable section

namespace Cert.Bridge

open Idealize.ShloMosaic Idealize.ShloMosaic.TcCoe Idealize.SL.Sem
open Cert.KernelIdeal Cert.KernelIdeal.Gen Cert.KernelIdeal.GenP Cert.KernelIdeal.Hand

variable (m : (ℓ : Loc nD τ sig) → Buf (Elt Ideal) ℓ) (o : Outs (F := Ideal)) (c : Dev nD)

/-! ## The kernel program's host stretches between two regions, as one list -/

theorem chainA : V10 m o c = StableHlo.after kerA (V2 m o c) := by simp only [kerA, after_append] <;> rfl
theorem chainB : V21 m o c = StableHlo.after kerB (V12 m o c) := by simp only [kerB, after_append] <;> rfl
theorem chainC : V30 m o c = StableHlo.after kerC (V22 m o c) := by simp only [kerC, after_append] <;> rfl
theorem chainD : V41 m o c = StableHlo.after kerD (V32 m o c) := by simp only [kerD, after_append] <;> rfl

/-! ## The four stages applied -/

/-- The first branch's first layer: the kernel program's buffer after the stage holds what the reference's holds, given that the
    two agree on the arguments the stage reads. -/
theorem layerA (Vr : RV)
    (h0 : (V0 m c (kr main_arg0) : (⟨S20000x768, .f32⟩ : BufTy).Contents (Elt Ideal)) = Vr (rr Cert.ReferenceIdeal.main_arg0))
    (h2 : (V0 m c (kr main_arg2) : (⟨S2x768x256, .f32⟩ : BufTy).Contents (Elt Ideal)) = Vr (rr Cert.ReferenceIdeal.main_arg2))
    (h3 : (V0 m c (kr main_arg3) : (⟨S768x256, .f32⟩ : BufTy).Contents (Elt Ideal)) = Vr (rr Cert.ReferenceIdeal.main_arg3))
    (h4 : (V0 m c (kr main_arg4) : (⟨S256, .f32⟩ : BufTy).Contents (Elt Ideal)) = Vr (rr Cert.ReferenceIdeal.main_arg4))
    (h14 : (V0 m c (kr main_arg14) : (⟨S256, .f32⟩ : BufTy).Contents (Elt Ideal)) = Vr (rr Cert.ReferenceIdeal.main_arg14))
    (h15 : (V0 m c (kr main_arg15) : (⟨S256, .f32⟩ : BufTy).Contents (Elt Ideal)) = Vr (rr Cert.ReferenceIdeal.main_arg15))
    (h22 : (V0 m c (kr main_arg22) : (⟨S2x320000, .i32⟩ : BufTy).Contents (Elt Ideal)) = Vr (rr Cert.ReferenceIdeal.main_arg22))
    (h23 : (V0 m c (kr main_arg23) : (⟨S320000, .i32⟩ : BufTy).Contents (Elt Ideal)) = Vr (rr Cert.ReferenceIdeal.main_arg23))
    (ho2 : o 2 main_v7 c = (dat0 (F := Ideal) (fun c b => V1 m c b) c).arrAt 2 cfg0.N) :
    (V10 m o c (kr main_v89) : (⟨S20000x256, .f32⟩ : BufTy).Contents (Elt Ideal)) = StableHlo.after refA Vr (rr Cert.ReferenceIdeal.main_v85) := by
  rw [chainA m o c]
  exact stageA (V2 m o c) Vr
    (((V2_of m o c main_arg4 (by decide)).trans <| (V1_of m c main_arg4 (by decide))).trans h4)
    (((V2_of m o c main_arg14 (by decide)).trans <| (V1_of m c main_arg14 (by decide))).trans h14)
    (((V2_of m o c main_arg15 (by decide)).trans <| (V1_of m c main_arg15 (by decide))).trans h15)
    (((V2_of m o c main_arg22 (by decide)).trans <| (V1_of m c main_arg22 (by decide))).trans h22)
    (((V2_of m o c main_arg23 (by decide)).trans <| (V1_of m c main_arg23 (by decide))).trans h23)
    (siteA0 m o c Vr h0 h3 h2 ho2)
    (siteA1 m o c Vr h0 h3 h2 ho2)
    (siteA2 m o c Vr h0 h3 h2 ho2)

/-- The first branch's second layer and pooling: the kernel program's buffer after the stage holds what the reference's holds, given that the
    two agree on the arguments the stage reads and on the layer's input. -/
theorem layerB (Vr : RV)
    (hh : (V10 m o c (kr main_v89) : (⟨S20000x256, .f32⟩ : BufTy).Contents (Elt Ideal)) = Vr (rr Cert.ReferenceIdeal.main_v85))
    (h5 : (V0 m c (kr main_arg5) : (⟨S2x256x128, .f32⟩ : BufTy).Contents (Elt Ideal)) = Vr (rr Cert.ReferenceIdeal.main_arg5))
    (h6 : (V0 m c (kr main_arg6) : (⟨S256x128, .f32⟩ : BufTy).Contents (Elt Ideal)) = Vr (rr Cert.ReferenceIdeal.main_arg6))
    (h7 : (V0 m c (kr main_arg7) : (⟨S128, .f32⟩ : BufTy).Contents (Elt Ideal)) = Vr (rr Cert.ReferenceIdeal.main_arg7))
    (h16 : (V0 m c (kr main_arg16) : (⟨S128, .f32⟩ : BufTy).Contents (Elt Ideal)) = Vr (rr Cert.ReferenceIdeal.main_arg16))
    (h17 : (V0 m c (kr main_arg17) : (⟨S128, .f32⟩ : BufTy).Contents (Elt Ideal)) = Vr (rr Cert.ReferenceIdeal.main_arg17))
    (h22 : (V0 m c (kr main_arg22) : (⟨S2x320000, .i32⟩ : BufTy).Contents (Elt Ideal)) = Vr (rr Cert.ReferenceIdeal.main_arg22))
    (h23 : (V0 m c (kr main_arg23) : (⟨S320000, .i32⟩ : BufTy).Contents (Elt Ideal)) = Vr (rr Cert.ReferenceIdeal.main_arg23))
    (h24 : (V0 m c (kr main_arg24) : (⟨S20000, .i32⟩ : BufTy).Contents (Elt Ideal)) = Vr (rr Cert.ReferenceIdeal.main_arg24))
    (ho12 : o 12 main_v97 c = (dat1 (F := Ideal) (fun c b => V11 m o c b) c).arrAt 2 cfg1.N) :
    (V21 m o c (kr main_v191) : (⟨S64x128, .f32⟩ : BufTy).Contents (Elt Ideal)) = StableHlo.after refB Vr (rr Cert.ReferenceIdeal.main_v183) := by
  rw [chainB m o c]
  exact stageB (V12 m o c) Vr
    (((V12_of m o c main_arg7 (by decide)).trans <| (V11_of m o c main_arg7 (by decide)).trans <| (V10_of m o c main_arg7 (by decide)).trans <| (V9_of m o c main_arg7 (by decide)).trans <| (V8_of m o c main_arg7 (by decide)).trans <| (V7_of m o c main_arg7 (by decide)).trans <| (V6_of m o c main_arg7 (by decide)).trans <| (V5_of m o c main_arg7 (by decide)).trans <| (V4_of m o c main_arg7 (by decide)).trans <| (V3_of m o c main_arg7 (by decide)).trans <| (V2_of m o c main_arg7 (by decide)).trans <| (V1_of m c main_arg7 (by decide))).trans h7)
    (((V12_of m o c main_arg16 (by decide)).trans <| (V11_of m o c main_arg16 (by decide)).trans <| (V10_of m o c main_arg16 (by decide)).trans <| (V9_of m o c main_arg16 (by decide)).trans <| (V8_of m o c main_arg16 (by decide)).trans <| (V7_of m o c main_arg16 (by decide)).trans <| (V6_of m o c main_arg16 (by decide)).trans <| (V5_of m o c main_arg16 (by decide)).trans <| (V4_of m o c main_arg16 (by decide)).trans <| (V3_of m o c main_arg16 (by decide)).trans <| (V2_of m o c main_arg16 (by decide)).trans <| (V1_of m c main_arg16 (by decide))).trans h16)
    (((V12_of m o c main_arg17 (by decide)).trans <| (V11_of m o c main_arg17 (by decide)).trans <| (V10_of m o c main_arg17 (by decide)).trans <| (V9_of m o c main_arg17 (by decide)).trans <| (V8_of m o c main_arg17 (by decide)).trans <| (V7_of m o c main_arg17 (by decide)).trans <| (V6_of m o c main_arg17 (by decide)).trans <| (V5_of m o c main_arg17 (by decide)).trans <| (V4_of m o c main_arg17 (by decide)).trans <| (V3_of m o c main_arg17 (by decide)).trans <| (V2_of m o c main_arg17 (by decide)).trans <| (V1_of m c main_arg17 (by decide))).trans h17)
    (((V12_of m o c main_arg22 (by decide)).trans <| (V11_of m o c main_arg22 (by decide)).trans <| (V10_of m o c main_arg22 (by decide)).trans <| (V9_of m o c main_arg22 (by decide)).trans <| (V8_of m o c main_arg22 (by decide)).trans <| (V7_of m o c main_arg22 (by decide)).trans <| (V6_of m o c main_arg22 (by decide)).trans <| (V5_of m o c main_arg22 (by decide)).trans <| (V4_of m o c main_arg22 (by decide)).trans <| (V3_of m o c main_arg22 (by decide)).trans <| (V2_of m o c main_arg22 (by decide)).trans <| (V1_of m c main_arg22 (by decide))).trans h22)
    (((V12_of m o c main_arg23 (by decide)).trans <| (V11_of m o c main_arg23 (by decide)).trans <| (V10_of m o c main_arg23 (by decide)).trans <| (V9_of m o c main_arg23 (by decide)).trans <| (V8_of m o c main_arg23 (by decide)).trans <| (V7_of m o c main_arg23 (by decide)).trans <| (V6_of m o c main_arg23 (by decide)).trans <| (V5_of m o c main_arg23 (by decide)).trans <| (V4_of m o c main_arg23 (by decide)).trans <| (V3_of m o c main_arg23 (by decide)).trans <| (V2_of m o c main_arg23 (by decide)).trans <| (V1_of m c main_arg23 (by decide))).trans h23)
    (((V12_of m o c main_arg24 (by decide)).trans <| (V11_of m o c main_arg24 (by decide)).trans <| (V10_of m o c main_arg24 (by decide)).trans <| (V9_of m o c main_arg24 (by decide)).trans <| (V8_of m o c main_arg24 (by decide)).trans <| (V7_of m o c main_arg24 (by decide)).trans <| (V6_of m o c main_arg24 (by decide)).trans <| (V5_of m o c main_arg24 (by decide)).trans <| (V4_of m o c main_arg24 (by decide)).trans <| (V3_of m o c main_arg24 (by decide)).trans <| (V2_of m o c main_arg24 (by decide)).trans <| (V1_of m c main_arg24 (by decide))).trans h24)
    (siteB0 m o c Vr hh (((V10_of m o c main_arg6 (by decide)).trans <| (V9_of m o c main_arg6 (by decide)).trans <| (V8_of m o c main_arg6 (by decide)).trans <| (V7_of m o c main_arg6 (by decide)).trans <| (V6_of m o c main_arg6 (by decide)).trans <| (V5_of m o c main_arg6 (by decide)).trans <| (V4_of m o c main_arg6 (by decide)).trans <| (V3_of m o c main_arg6 (by decide)).trans <| (V2_of m o c main_arg6 (by decide)).trans <| (V1_of m c main_arg6 (by decide))).trans h6) (((V10_of m o c main_arg5 (by decide)).trans <| (V9_of m o c main_arg5 (by decide)).trans <| (V8_of m o c main_arg5 (by decide)).trans <| (V7_of m o c main_arg5 (by decide)).trans <| (V6_of m o c main_arg5 (by decide)).trans <| (V5_of m o c main_arg5 (by decide)).trans <| (V4_of m o c main_arg5 (by decide)).trans <| (V3_of m o c main_arg5 (by decide)).trans <| (V2_of m o c main_arg5 (by decide)).trans <| (V1_of m c main_arg5 (by decide))).trans h5) ho12)
    (siteB1 m o c Vr hh (((V10_of m o c main_arg6 (by decide)).trans <| (V9_of m o c main_arg6 (by decide)).trans <| (V8_of m o c main_arg6 (by decide)).trans <| (V7_of m o c main_arg6 (by decide)).trans <| (V6_of m o c main_arg6 (by decide)).trans <| (V5_of m o c main_arg6 (by decide)).trans <| (V4_of m o c main_arg6 (by decide)).trans <| (V3_of m o c main_arg6 (by decide)).trans <| (V2_of m o c main_arg6 (by decide)).trans <| (V1_of m c main_arg6 (by decide))).trans h6) (((V10_of m o c main_arg5 (by decide)).trans <| (V9_of m o c main_arg5 (by decide)).trans <| (V8_of m o c main_arg5 (by decide)).trans <| (V7_of m o c main_arg5 (by decide)).trans <| (V6_of m o c main_arg5 (by decide)).trans <| (V5_of m o c main_arg5 (by decide)).trans <| (V4_of m o c main_arg5 (by decide)).trans <| (V3_of m o c main_arg5 (by decide)).trans <| (V2_of m o c main_arg5 (by decide)).trans <| (V1_of m c main_arg5 (by decide))).trans h5) ho12)
    (siteB2 m o c Vr hh (((V10_of m o c main_arg6 (by decide)).trans <| (V9_of m o c main_arg6 (by decide)).trans <| (V8_of m o c main_arg6 (by decide)).trans <| (V7_of m o c main_arg6 (by decide)).trans <| (V6_of m o c main_arg6 (by decide)).trans <| (V5_of m o c main_arg6 (by decide)).trans <| (V4_of m o c main_arg6 (by decide)).trans <| (V3_of m o c main_arg6 (by decide)).trans <| (V2_of m o c main_arg6 (by decide)).trans <| (V1_of m c main_arg6 (by decide))).trans h6) (((V10_of m o c main_arg5 (by decide)).trans <| (V9_of m o c main_arg5 (by decide)).trans <| (V8_of m o c main_arg5 (by decide)).trans <| (V7_of m o c main_arg5 (by decide)).trans <| (V6_of m o c main_arg5 (by decide)).trans <| (V5_of m o c main_arg5 (by decide)).trans <| (V4_of m o c main_arg5 (by decide)).trans <| (V3_of m o c main_arg5 (by decide)).trans <| (V2_of m o c main_arg5 (by decide)).trans <| (V1_of m c main_arg5 (by decide))).trans h5) ho12)

/-- The second branch's first layer: the kernel program's buffer after the stage holds what the reference's holds, given that the
    two agree on the arguments the stage reads. -/
theorem layerC (Vr : RV)
    (h1 : (V0 m c (kr main_arg1) : (⟨S20000x128, .f32⟩ : BufTy).Contents (Elt Ideal)) = Vr (rr Cert.ReferenceIdeal.main_arg1))
    (h8 : (V0 m c (kr main_arg8) : (⟨S2x128x256, .f32⟩ : BufTy).Contents (Elt Ideal)) = Vr (rr Cert.ReferenceIdeal.main_arg8))
    (h9 : (V0 m c (kr main_arg9) : (⟨S128x256, .f32⟩ : BufTy).Contents (Elt Ideal)) = Vr (rr Cert.ReferenceIdeal.main_arg9))
    (h10 : (V0 m c (kr main_arg10) : (⟨S256, .f32⟩ : BufTy).Contents (Elt Ideal)) = Vr (rr Cert.ReferenceIdeal.main_arg10))
    (h18 : (V0 m c (kr main_arg18) : (⟨S256, .f32⟩ : BufTy).Contents (Elt Ideal)) = Vr (rr Cert.ReferenceIdeal.main_arg18))
    (h19 : (V0 m c (kr main_arg19) : (⟨S256, .f32⟩ : BufTy).Contents (Elt Ideal)) = Vr (rr Cert.ReferenceIdeal.main_arg19))
    (h25 : (V0 m c (kr main_arg25) : (⟨S2x320000, .i32⟩ : BufTy).Contents (Elt Ideal)) = Vr (rr Cert.ReferenceIdeal.main_arg25))
    (h26 : (V0 m c (kr main_arg26) : (⟨S320000, .i32⟩ : BufTy).Contents (Elt Ideal)) = Vr (rr Cert.ReferenceIdeal.main_arg26))
    (ho22 : o 22 main_v199 c = (dat2 (F := Ideal) (fun c b => V21 m o c b) c).arrAt 2 cfg2.N) :
    (V30 m o c (kr main_v281) : (⟨S20000x256, .f32⟩ : BufTy).Contents (Elt Ideal)) = StableHlo.after refC Vr (rr Cert.ReferenceIdeal.main_v269) := by
  rw [chainC m o c]
  exact stageC (V22 m o c) Vr
    (((V22_of m o c main_arg10 (by decide)).trans <| (V21_of m o c main_arg10 (by decide)).trans <| (V20_of m o c main_arg10 (by decide)).trans <| (V19_of m o c main_arg10 (by decide)).trans <| (V18_of m o c main_arg10 (by decide)).trans <| (V17_of m o c main_arg10 (by decide)).trans <| (V16_of m o c main_arg10 (by decide)).trans <| (V15_of m o c main_arg10 (by decide)).trans <| (V14_of m o c main_arg10 (by decide)).trans <| (V13_of m o c main_arg10 (by decide)).trans <| (V12_of m o c main_arg10 (by decide)).trans <| (V11_of m o c main_arg10 (by decide)).trans <| (V10_of m o c main_arg10 (by decide)).trans <| (V9_of m o c main_arg10 (by decide)).trans <| (V8_of m o c main_arg10 (by decide)).trans <| (V7_of m o c main_arg10 (by decide)).trans <| (V6_of m o c main_arg10 (by decide)).trans <| (V5_of m o c main_arg10 (by decide)).trans <| (V4_of m o c main_arg10 (by decide)).trans <| (V3_of m o c main_arg10 (by decide)).trans <| (V2_of m o c main_arg10 (by decide)).trans <| (V1_of m c main_arg10 (by decide))).trans h10)
    (((V22_of m o c main_arg18 (by decide)).trans <| (V21_of m o c main_arg18 (by decide)).trans <| (V20_of m o c main_arg18 (by decide)).trans <| (V19_of m o c main_arg18 (by decide)).trans <| (V18_of m o c main_arg18 (by decide)).trans <| (V17_of m o c main_arg18 (by decide)).trans <| (V16_of m o c main_arg18 (by decide)).trans <| (V15_of m o c main_arg18 (by decide)).trans <| (V14_of m o c main_arg18 (by decide)).trans <| (V13_of m o c main_arg18 (by decide)).trans <| (V12_of m o c main_arg18 (by decide)).trans <| (V11_of m o c main_arg18 (by decide)).trans <| (V10_of m o c main_arg18 (by decide)).trans <| (V9_of m o c main_arg18 (by decide)).trans <| (V8_of m o c main_arg18 (by decide)).trans <| (V7_of m o c main_arg18 (by decide)).trans <| (V6_of m o c main_arg18 (by decide)).trans <| (V5_of m o c main_arg18 (by decide)).trans <| (V4_of m o c main_arg18 (by decide)).trans <| (V3_of m o c main_arg18 (by decide)).trans <| (V2_of m o c main_arg18 (by decide)).trans <| (V1_of m c main_arg18 (by decide))).trans h18)
    (((V22_of m o c main_arg19 (by decide)).trans <| (V21_of m o c main_arg19 (by decide)).trans <| (V20_of m o c main_arg19 (by decide)).trans <| (V19_of m o c main_arg19 (by decide)).trans <| (V18_of m o c main_arg19 (by decide)).trans <| (V17_of m o c main_arg19 (by decide)).trans <| (V16_of m o c main_arg19 (by decide)).trans <| (V15_of m o c main_arg19 (by decide)).trans <| (V14_of m o c main_arg19 (by decide)).trans <| (V13_of m o c main_arg19 (by decide)).trans <| (V12_of m o c main_arg19 (by decide)).trans <| (V11_of m o c main_arg19 (by decide)).trans <| (V10_of m o c main_arg19 (by decide)).trans <| (V9_of m o c main_arg19 (by decide)).trans <| (V8_of m o c main_arg19 (by decide)).trans <| (V7_of m o c main_arg19 (by decide)).trans <| (V6_of m o c main_arg19 (by decide)).trans <| (V5_of m o c main_arg19 (by decide)).trans <| (V4_of m o c main_arg19 (by decide)).trans <| (V3_of m o c main_arg19 (by decide)).trans <| (V2_of m o c main_arg19 (by decide)).trans <| (V1_of m c main_arg19 (by decide))).trans h19)
    (((V22_of m o c main_arg25 (by decide)).trans <| (V21_of m o c main_arg25 (by decide)).trans <| (V20_of m o c main_arg25 (by decide)).trans <| (V19_of m o c main_arg25 (by decide)).trans <| (V18_of m o c main_arg25 (by decide)).trans <| (V17_of m o c main_arg25 (by decide)).trans <| (V16_of m o c main_arg25 (by decide)).trans <| (V15_of m o c main_arg25 (by decide)).trans <| (V14_of m o c main_arg25 (by decide)).trans <| (V13_of m o c main_arg25 (by decide)).trans <| (V12_of m o c main_arg25 (by decide)).trans <| (V11_of m o c main_arg25 (by decide)).trans <| (V10_of m o c main_arg25 (by decide)).trans <| (V9_of m o c main_arg25 (by decide)).trans <| (V8_of m o c main_arg25 (by decide)).trans <| (V7_of m o c main_arg25 (by decide)).trans <| (V6_of m o c main_arg25 (by decide)).trans <| (V5_of m o c main_arg25 (by decide)).trans <| (V4_of m o c main_arg25 (by decide)).trans <| (V3_of m o c main_arg25 (by decide)).trans <| (V2_of m o c main_arg25 (by decide)).trans <| (V1_of m c main_arg25 (by decide))).trans h25)
    (((V22_of m o c main_arg26 (by decide)).trans <| (V21_of m o c main_arg26 (by decide)).trans <| (V20_of m o c main_arg26 (by decide)).trans <| (V19_of m o c main_arg26 (by decide)).trans <| (V18_of m o c main_arg26 (by decide)).trans <| (V17_of m o c main_arg26 (by decide)).trans <| (V16_of m o c main_arg26 (by decide)).trans <| (V15_of m o c main_arg26 (by decide)).trans <| (V14_of m o c main_arg26 (by decide)).trans <| (V13_of m o c main_arg26 (by decide)).trans <| (V12_of m o c main_arg26 (by decide)).trans <| (V11_of m o c main_arg26 (by decide)).trans <| (V10_of m o c main_arg26 (by decide)).trans <| (V9_of m o c main_arg26 (by decide)).trans <| (V8_of m o c main_arg26 (by decide)).trans <| (V7_of m o c main_arg26 (by decide)).trans <| (V6_of m o c main_arg26 (by decide)).trans <| (V5_of m o c main_arg26 (by decide)).trans <| (V4_of m o c main_arg26 (by decide)).trans <| (V3_of m o c main_arg26 (by decide)).trans <| (V2_of m o c main_arg26 (by decide)).trans <| (V1_of m c main_arg26 (by decide))).trans h26)
    (siteC0 m o c Vr (((V20_of m o c main_arg1 (by decide)).trans <| (V19_of m o c main_arg1 (by decide)).trans <| (V18_of m o c main_arg1 (by decide)).trans <| (V17_of m o c main_arg1 (by decide)).trans <| (V16_of m o c main_arg1 (by decide)).trans <| (V15_of m o c main_arg1 (by decide)).trans <| (V14_of m o c main_arg1 (by decide)).trans <| (V13_of m o c main_arg1 (by decide)).trans <| (V12_of m o c main_arg1 (by decide)).trans <| (V11_of m o c main_arg1 (by decide)).trans <| (V10_of m o c main_arg1 (by decide)).trans <| (V9_of m o c main_arg1 (by decide)).trans <| (V8_of m o c main_arg1 (by decide)).trans <| (V7_of m o c main_arg1 (by decide)).trans <| (V6_of m o c main_arg1 (by decide)).trans <| (V5_of m o c main_arg1 (by decide)).trans <| (V4_of m o c main_arg1 (by decide)).trans <| (V3_of m o c main_arg1 (by decide)).trans <| (V2_of m o c main_arg1 (by decide)).trans <| (V1_of m c main_arg1 (by decide))).trans h1) (((V20_of m o c main_arg9 (by decide)).trans <| (V19_of m o c main_arg9 (by decide)).trans <| (V18_of m o c main_arg9 (by decide)).trans <| (V17_of m o c main_arg9 (by decide)).trans <| (V16_of m o c main_arg9 (by decide)).trans <| (V15_of m o c main_arg9 (by decide)).trans <| (V14_of m o c main_arg9 (by decide)).trans <| (V13_of m o c main_arg9 (by decide)).trans <| (V12_of m o c main_arg9 (by decide)).trans <| (V11_of m o c main_arg9 (by decide)).trans <| (V10_of m o c main_arg9 (by decide)).trans <| (V9_of m o c main_arg9 (by decide)).trans <| (V8_of m o c main_arg9 (by decide)).trans <| (V7_of m o c main_arg9 (by decide)).trans <| (V6_of m o c main_arg9 (by decide)).trans <| (V5_of m o c main_arg9 (by decide)).trans <| (V4_of m o c main_arg9 (by decide)).trans <| (V3_of m o c main_arg9 (by decide)).trans <| (V2_of m o c main_arg9 (by decide)).trans <| (V1_of m c main_arg9 (by decide))).trans h9) (((V20_of m o c main_arg8 (by decide)).trans <| (V19_of m o c main_arg8 (by decide)).trans <| (V18_of m o c main_arg8 (by decide)).trans <| (V17_of m o c main_arg8 (by decide)).trans <| (V16_of m o c main_arg8 (by decide)).trans <| (V15_of m o c main_arg8 (by decide)).trans <| (V14_of m o c main_arg8 (by decide)).trans <| (V13_of m o c main_arg8 (by decide)).trans <| (V12_of m o c main_arg8 (by decide)).trans <| (V11_of m o c main_arg8 (by decide)).trans <| (V10_of m o c main_arg8 (by decide)).trans <| (V9_of m o c main_arg8 (by decide)).trans <| (V8_of m o c main_arg8 (by decide)).trans <| (V7_of m o c main_arg8 (by decide)).trans <| (V6_of m o c main_arg8 (by decide)).trans <| (V5_of m o c main_arg8 (by decide)).trans <| (V4_of m o c main_arg8 (by decide)).trans <| (V3_of m o c main_arg8 (by decide)).trans <| (V2_of m o c main_arg8 (by decide)).trans <| (V1_of m c main_arg8 (by decide))).trans h8) ho22)
    (siteC1 m o c Vr (((V20_of m o c main_arg1 (by decide)).trans <| (V19_of m o c main_arg1 (by decide)).trans <| (V18_of m o c main_arg1 (by decide)).trans <| (V17_of m o c main_arg1 (by decide)).trans <| (V16_of m o c main_arg1 (by decide)).trans <| (V15_of m o c main_arg1 (by decide)).trans <| (V14_of m o c main_arg1 (by decide)).trans <| (V13_of m o c main_arg1 (by decide)).trans <| (V12_of m o c main_arg1 (by decide)).trans <| (V11_of m o c main_arg1 (by decide)).trans <| (V10_of m o c main_arg1 (by decide)).trans <| (V9_of m o c main_arg1 (by decide)).trans <| (V8_of m o c main_arg1 (by decide)).trans <| (V7_of m o c main_arg1 (by decide)).trans <| (V6_of m o c main_arg1 (by decide)).trans <| (V5_of m o c main_arg1 (by decide)).trans <| (V4_of m o c main_arg1 (by decide)).trans <| (V3_of m o c main_arg1 (by decide)).trans <| (V2_of m o c main_arg1 (by decide)).trans <| (V1_of m c main_arg1 (by decide))).trans h1) (((V20_of m o c main_arg9 (by decide)).trans <| (V19_of m o c main_arg9 (by decide)).trans <| (V18_of m o c main_arg9 (by decide)).trans <| (V17_of m o c main_arg9 (by decide)).trans <| (V16_of m o c main_arg9 (by decide)).trans <| (V15_of m o c main_arg9 (by decide)).trans <| (V14_of m o c main_arg9 (by decide)).trans <| (V13_of m o c main_arg9 (by decide)).trans <| (V12_of m o c main_arg9 (by decide)).trans <| (V11_of m o c main_arg9 (by decide)).trans <| (V10_of m o c main_arg9 (by decide)).trans <| (V9_of m o c main_arg9 (by decide)).trans <| (V8_of m o c main_arg9 (by decide)).trans <| (V7_of m o c main_arg9 (by decide)).trans <| (V6_of m o c main_arg9 (by decide)).trans <| (V5_of m o c main_arg9 (by decide)).trans <| (V4_of m o c main_arg9 (by decide)).trans <| (V3_of m o c main_arg9 (by decide)).trans <| (V2_of m o c main_arg9 (by decide)).trans <| (V1_of m c main_arg9 (by decide))).trans h9) (((V20_of m o c main_arg8 (by decide)).trans <| (V19_of m o c main_arg8 (by decide)).trans <| (V18_of m o c main_arg8 (by decide)).trans <| (V17_of m o c main_arg8 (by decide)).trans <| (V16_of m o c main_arg8 (by decide)).trans <| (V15_of m o c main_arg8 (by decide)).trans <| (V14_of m o c main_arg8 (by decide)).trans <| (V13_of m o c main_arg8 (by decide)).trans <| (V12_of m o c main_arg8 (by decide)).trans <| (V11_of m o c main_arg8 (by decide)).trans <| (V10_of m o c main_arg8 (by decide)).trans <| (V9_of m o c main_arg8 (by decide)).trans <| (V8_of m o c main_arg8 (by decide)).trans <| (V7_of m o c main_arg8 (by decide)).trans <| (V6_of m o c main_arg8 (by decide)).trans <| (V5_of m o c main_arg8 (by decide)).trans <| (V4_of m o c main_arg8 (by decide)).trans <| (V3_of m o c main_arg8 (by decide)).trans <| (V2_of m o c main_arg8 (by decide)).trans <| (V1_of m c main_arg8 (by decide))).trans h8) ho22)
    (siteC2 m o c Vr (((V20_of m o c main_arg1 (by decide)).trans <| (V19_of m o c main_arg1 (by decide)).trans <| (V18_of m o c main_arg1 (by decide)).trans <| (V17_of m o c main_arg1 (by decide)).trans <| (V16_of m o c main_arg1 (by decide)).trans <| (V15_of m o c main_arg1 (by decide)).trans <| (V14_of m o c main_arg1 (by decide)).trans <| (V13_of m o c main_arg1 (by decide)).trans <| (V12_of m o c main_arg1 (by decide)).trans <| (V11_of m o c main_arg1 (by decide)).trans <| (V10_of m o c main_arg1 (by decide)).trans <| (V9_of m o c main_arg1 (by decide)).trans <| (V8_of m o c main_arg1 (by decide)).trans <| (V7_of m o c main_arg1 (by decide)).trans <| (V6_of m o c main_arg1 (by decide)).trans <| (V5_of m o c main_arg1 (by decide)).trans <| (V4_of m o c main_arg1 (by decide)).trans <| (V3_of m o c main_arg1 (by decide)).trans <| (V2_of m o c main_arg1 (by decide)).trans <| (V1_of m c main_arg1 (by decide))).trans h1) (((V20_of m o c main_arg9 (by decide)).trans <| (V19_of m o c main_arg9 (by decide)).trans <| (V18_of m o c main_arg9 (by decide)).trans <| (V17_of m o c main_arg9 (by decide)).trans <| (V16_of m o c main_arg9 (by decide)).trans <| (V15_of m o c main_arg9 (by decide)).trans <| (V14_of m o c main_arg9 (by decide)).trans <| (V13_of m o c main_arg9 (by decide)).trans <| (V12_of m o c main_arg9 (by decide)).trans <| (V11_of m o c main_arg9 (by decide)).trans <| (V10_of m o c main_arg9 (by decide)).trans <| (V9_of m o c main_arg9 (by decide)).trans <| (V8_of m o c main_arg9 (by decide)).trans <| (V7_of m o c main_arg9 (by decide)).trans <| (V6_of m o c main_arg9 (by decide)).trans <| (V5_of m o c main_arg9 (by decide)).trans <| (V4_of m o c main_arg9 (by decide)).trans <| (V3_of m o c main_arg9 (by decide)).trans <| (V2_of m o c main_arg9 (by decide)).trans <| (V1_of m c main_arg9 (by decide))).trans h9) (((V20_of m o c main_arg8 (by decide)).trans <| (V19_of m o c main_arg8 (by decide)).trans <| (V18_of m o c main_arg8 (by decide)).trans <| (V17_of m o c main_arg8 (by decide)).trans <| (V16_of m o c main_arg8 (by decide)).trans <| (V15_of m o c main_arg8 (by decide)).trans <| (V14_of m o c main_arg8 (by decide)).trans <| (V13_of m o c main_arg8 (by decide)).trans <| (V12_of m o c main_arg8 (by decide)).trans <| (V11_of m o c main_arg8 (by decide)).trans <| (V10_of m o c main_arg8 (by decide)).trans <| (V9_of m o c main_arg8 (by decide)).trans <| (V8_of m o c main_arg8 (by decide)).trans <| (V7_of m o c main_arg8 (by decide)).trans <| (V6_of m o c main_arg8 (by decide)).trans <| (V5_of m o c main_arg8 (by decide)).trans <| (V4_of m o c main_arg8 (by decide)).trans <| (V3_of m o c main_arg8 (by decide)).trans <| (V2_of m o c main_arg8 (by decide)).trans <| (V1_of m c main_arg8 (by decide))).trans h8) ho22)

/-- The second branch's second layer and pooling: the kernel program's buffer after the stage holds what the reference's holds, given that the
    two agree on the arguments the stage reads and on the layer's input. -/
theorem layerD (Vr : RV)
    (hh : (V30 m o c (kr main_v281) : (⟨S20000x256, .f32⟩ : BufTy).Contents (Elt Ideal)) = Vr (rr Cert.ReferenceIdeal.main_v269))
    (h11 : (V0 m c (kr main_arg11) : (⟨S2x256x128, .f32⟩ : BufTy).Contents (Elt Ideal)) = Vr (rr Cert.ReferenceIdeal.main_arg11))
    (h12 : (V0 m c (kr main_arg12) : (⟨S256x128, .f32⟩ : BufTy).Contents (Elt Ideal)) = Vr (rr Cert.ReferenceIdeal.main_arg12))
    (h13 : (V0 m c (kr main_arg13) : (⟨S128, .f32⟩ : BufTy).Contents (Elt Ideal)) = Vr (rr Cert.ReferenceIdeal.main_arg13))
    (h20 : (V0 m c (kr main_arg20) : (⟨S128, .f32⟩ : BufTy).Contents (Elt Ideal)) = Vr (rr Cert.ReferenceIdeal.main_arg20))
    (h21 : (V0 m c (kr main_arg21) : (⟨S128, .f32⟩ : BufTy).Contents (Elt Ideal)) = Vr (rr Cert.ReferenceIdeal.main_arg21))
    (h25 : (V0 m c (kr main_arg25) : (⟨S2x320000, .i32⟩ : BufTy).Contents (Elt Ideal)) = Vr (rr Cert.ReferenceIdeal.main_arg25))
    (h26 : (V0 m c (kr main_arg26) : (⟨S320000, .i32⟩ : BufTy).Contents (Elt Ideal)) = Vr (rr Cert.ReferenceIdeal.main_arg26))
    (h27 : (V0 m c (kr main_arg27) : (⟨S20000, .i32⟩ : BufTy).Contents (Elt Ideal)) = Vr (rr Cert.ReferenceIdeal.main_arg27))
    (ho32 : o 32 main_v289 c = (dat3 (F := Ideal) (fun c b => V31 m o c b) c).arrAt 2 cfg3.N) :
    (V41 m o c (kr main_v383) : (⟨S64x128, .f32⟩ : BufTy).Contents (Elt Ideal)) = StableHlo.after refD Vr (rr Cert.ReferenceIdeal.main_v367) := by
  rw [chainD m o c]
  exact stageD (V32 m o c) Vr
    (((V32_of m o c main_arg13 (by decide)).trans <| (V31_of m o c main_arg13 (by decide)).trans <| (V30_of m o c main_arg13 (by decide)).trans <| (V29_of m o c main_arg13 (by decide)).trans <| (V28_of m o c main_arg13 (by decide)).trans <| (V27_of m o c main_arg13 (by decide)).trans <| (V26_of m o c main_arg13 (by decide)).trans <| (V25_of m o c main_arg13 (by decide)).trans <| (V24_of m o c main_arg13 (by decide)).trans <| (V23_of m o c main_arg13 (by decide)).trans <| (V22_of m o c main_arg13 (by decide)).trans <| (V21_of m o c main_arg13 (by decide)).trans <| (V20_of m o c main_arg13 (by decide)).trans <| (V19_of m o c main_arg13 (by decide)).trans <| (V18_of m o c main_arg13 (by decide)).trans <| (V17_of m o c main_arg13 (by decide)).trans <| (V16_of m o c main_arg13 (by decide)).trans <| (V15_of m o c main_arg13 (by decide)).trans <| (V14_of m o c main_arg13 (by decide)).trans <| (V13_of m o c main_arg13 (by decide)).trans <| (V12_of m o c main_arg13 (by decide)).trans <| (V11_of m o c main_arg13 (by decide)).trans <| (V10_of m o c main_arg13 (by decide)).trans <| (V9_of m o c main_arg13 (by decide)).trans <| (V8_of m o c main_arg13 (by decide)).trans <| (V7_of m o c main_arg13 (by decide)).trans <| (V6_of m o c main_arg13 (by decide)).trans <| (V5_of m o c main_arg13 (by decide)).trans <| (V4_of m o c main_arg13 (by decide)).trans <| (V3_of m o c main_arg13 (by decide)).trans <| (V2_of m o c main_arg13 (by decide)).trans <| (V1_of m c main_arg13 (by decide))).trans h13)
    (((V32_of m o c main_arg20 (by decide)).trans <| (V31_of m o c main_arg20 (by decide)).trans <| (V30_of m o c main_arg20 (by decide)).trans <| (V29_of m o c main_arg20 (by decide)).trans <| (V28_of m o c main_arg20 (by decide)).trans <| (V27_of m o c main_arg20 (by decide)).trans <| (V26_of m o c main_arg20 (by decide)).trans <| (V25_of m o c main_arg20 (by decide)).trans <| (V24_of m o c main_arg20 (by decide)).trans <| (V23_of m o c main_arg20 (by decide)).trans <| (V22_of m o c main_arg20 (by decide)).trans <| (V21_of m o c main_arg20 (by decide)).trans <| (V20_of m o c main_arg20 (by decide)).trans <| (V19_of m o c main_arg20 (by decide)).trans <| (V18_of m o c main_arg20 (by decide)).trans <| (V17_of m o c main_arg20 (by decide)).trans <| (V16_of m o c main_arg20 (by decide)).trans <| (V15_of m o c main_arg20 (by decide)).trans <| (V14_of m o c main_arg20 (by decide)).trans <| (V13_of m o c main_arg20 (by decide)).trans <| (V12_of m o c main_arg20 (by decide)).trans <| (V11_of m o c main_arg20 (by decide)).trans <| (V10_of m o c main_arg20 (by decide)).trans <| (V9_of m o c main_arg20 (by decide)).trans <| (V8_of m o c main_arg20 (by decide)).trans <| (V7_of m o c main_arg20 (by decide)).trans <| (V6_of m o c main_arg20 (by decide)).trans <| (V5_of m o c main_arg20 (by decide)).trans <| (V4_of m o c main_arg20 (by decide)).trans <| (V3_of m o c main_arg20 (by decide)).trans <| (V2_of m o c main_arg20 (by decide)).trans <| (V1_of m c main_arg20 (by decide))).trans h20)
    (((V32_of m o c main_arg21 (by decide)).trans <| (V31_of m o c main_arg21 (by decide)).trans <| (V30_of m o c main_arg21 (by decide)).trans <| (V29_of m o c main_arg21 (by decide)).trans <| (V28_of m o c main_arg21 (by decide)).trans <| (V27_of m o c main_arg21 (by decide)).trans <| (V26_of m o c main_arg21 (by decide)).trans <| (V25_of m o c main_arg21 (by decide)).trans <| (V24_of m o c main_arg21 (by decide)).trans <| (V23_of m o c main_arg21 (by decide)).trans <| (V22_of m o c main_arg21 (by decide)).trans <| (V21_of m o c main_arg21 (by decide)).trans <| (V20_of m o c main_arg21 (by decide)).trans <| (V19_of m o c main_arg21 (by decide)).trans <| (V18_of m o c main_arg21 (by decide)).trans <| (V17_of m o c main_arg21 (by decide)).trans <| (V16_of m o c main_arg21 (by decide)).trans <| (V15_of m o c main_arg21 (by decide)).trans <| (V14_of m o c main_arg21 (by decide)).trans <| (V13_of m o c main_arg21 (by decide)).trans <| (V12_of m o c main_arg21 (by decide)).trans <| (V11_of m o c main_arg21 (by decide)).trans <| (V10_of m o c main_arg21 (by decide)).trans <| (V9_of m o c main_arg21 (by decide)).trans <| (V8_of m o c main_arg21 (by decide)).trans <| (V7_of m o c main_arg21 (by decide)).trans <| (V6_of m o c main_arg21 (by decide)).trans <| (V5_of m o c main_arg21 (by decide)).trans <| (V4_of m o c main_arg21 (by decide)).trans <| (V3_of m o c main_arg21 (by decide)).trans <| (V2_of m o c main_arg21 (by decide)).trans <| (V1_of m c main_arg21 (by decide))).trans h21)
    (((V32_of m o c main_arg25 (by decide)).trans <| (V31_of m o c main_arg25 (by decide)).trans <| (V30_of m o c main_arg25 (by decide)).trans <| (V29_of m o c main_arg25 (by decide)).trans <| (V28_of m o c main_arg25 (by decide)).trans <| (V27_of m o c main_arg25 (by decide)).trans <| (V26_of m o c main_arg25 (by decide)).trans <| (V25_of m o c main_arg25 (by decide)).trans <| (V24_of m o c main_arg25 (by decide)).trans <| (V23_of m o c main_arg25 (by decide)).trans <| (V22_of m o c main_arg25 (by decide)).trans <| (V21_of m o c main_arg25 (by decide)).trans <| (V20_of m o c main_arg25 (by decide)).trans <| (V19_of m o c main_arg25 (by decide)).trans <| (V18_of m o c main_arg25 (by decide)).trans <| (V17_of m o c main_arg25 (by decide)).trans <| (V16_of m o c main_arg25 (by decide)).trans <| (V15_of m o c main_arg25 (by decide)).trans <| (V14_of m o c main_arg25 (by decide)).trans <| (V13_of m o c main_arg25 (by decide)).trans <| (V12_of m o c main_arg25 (by decide)).trans <| (V11_of m o c main_arg25 (by decide)).trans <| (V10_of m o c main_arg25 (by decide)).trans <| (V9_of m o c main_arg25 (by decide)).trans <| (V8_of m o c main_arg25 (by decide)).trans <| (V7_of m o c main_arg25 (by decide)).trans <| (V6_of m o c main_arg25 (by decide)).trans <| (V5_of m o c main_arg25 (by decide)).trans <| (V4_of m o c main_arg25 (by decide)).trans <| (V3_of m o c main_arg25 (by decide)).trans <| (V2_of m o c main_arg25 (by decide)).trans <| (V1_of m c main_arg25 (by decide))).trans h25)
    (((V32_of m o c main_arg26 (by decide)).trans <| (V31_of m o c main_arg26 (by decide)).trans <| (V30_of m o c main_arg26 (by decide)).trans <| (V29_of m o c main_arg26 (by decide)).trans <| (V28_of m o c main_arg26 (by decide)).trans <| (V27_of m o c main_arg26 (by decide)).trans <| (V26_of m o c main_arg26 (by decide)).trans <| (V25_of m o c main_arg26 (by decide)).trans <| (V24_of m o c main_arg26 (by decide)).trans <| (V23_of m o c main_arg26 (by decide)).trans <| (V22_of m o c main_arg26 (by decide)).trans <| (V21_of m o c main_arg26 (by decide)).trans <| (V20_of m o c main_arg26 (by decide)).trans <| (V19_of m o c main_arg26 (by decide)).trans <| (V18_of m o c main_arg26 (by decide)).trans <| (V17_of m o c main_arg26 (by decide)).trans <| (V16_of m o c main_arg26 (by decide)).trans <| (V15_of m o c main_arg26 (by decide)).trans <| (V14_of m o c main_arg26 (by decide)).trans <| (V13_of m o c main_arg26 (by decide)).trans <| (V12_of m o c main_arg26 (by decide)).trans <| (V11_of m o c main_arg26 (by decide)).trans <| (V10_of m o c main_arg26 (by decide)).trans <| (V9_of m o c main_arg26 (by decide)).trans <| (V8_of m o c main_arg26 (by decide)).trans <| (V7_of m o c main_arg26 (by decide)).trans <| (V6_of m o c main_arg26 (by decide)).trans <| (V5_of m o c main_arg26 (by decide)).trans <| (V4_of m o c main_arg26 (by decide)).trans <| (V3_of m o c main_arg26 (by decide)).trans <| (V2_of m o c main_arg26 (by decide)).trans <| (V1_of m c main_arg26 (by decide))).trans h26)
    (((V32_of m o c main_arg27 (by decide)).trans <| (V31_of m o c main_arg27 (by decide)).trans <| (V30_of m o c main_arg27 (by decide)).trans <| (V29_of m o c main_arg27 (by decide)).trans <| (V28_of m o c main_arg27 (by decide)).trans <| (V27_of m o c main_arg27 (by decide)).trans <| (V26_of m o c main_arg27 (by decide)).trans <| (V25_of m o c main_arg27 (by decide)).trans <| (V24_of m o c main_arg27 (by decide)).trans <| (V23_of m o c main_arg27 (by decide)).trans <| (V22_of m o c main_arg27 (by decide)).trans <| (V21_of m o c main_arg27 (by decide)).trans <| (V20_of m o c main_arg27 (by decide)).trans <| (V19_of m o c main_arg27 (by decide)).trans <| (V18_of m o c main_arg27 (by decide)).trans <| (V17_of m o c main_arg27 (by decide)).trans <| (V16_of m o c main_arg27 (by decide)).trans <| (V15_of m o c main_arg27 (by decide)).trans <| (V14_of m o c main_arg27 (by decide)).trans <| (V13_of m o c main_arg27 (by decide)).trans <| (V12_of m o c main_arg27 (by decide)).trans <| (V11_of m o c main_arg27 (by decide)).trans <| (V10_of m o c main_arg27 (by decide)).trans <| (V9_of m o c main_arg27 (by decide)).trans <| (V8_of m o c main_arg27 (by decide)).trans <| (V7_of m o c main_arg27 (by decide)).trans <| (V6_of m o c main_arg27 (by decide)).trans <| (V5_of m o c main_arg27 (by decide)).trans <| (V4_of m o c main_arg27 (by decide)).trans <| (V3_of m o c main_arg27 (by decide)).trans <| (V2_of m o c main_arg27 (by decide)).trans <| (V1_of m c main_arg27 (by decide))).trans h27)
    (siteD0 m o c Vr hh (((V30_of m o c main_arg12 (by decide)).trans <| (V29_of m o c main_arg12 (by decide)).trans <| (V28_of m o c main_arg12 (by decide)).trans <| (V27_of m o c main_arg12 (by decide)).trans <| (V26_of m o c main_arg12 (by decide)).trans <| (V25_of m o c main_arg12 (by decide)).trans <| (V24_of m o c main_arg12 (by decide)).trans <| (V23_of m o c main_arg12 (by decide)).trans <| (V22_of m o c main_arg12 (by decide)).trans <| (V21_of m o c main_arg12 (by decide)).trans <| (V20_of m o c main_arg12 (by decide)).trans <| (V19_of m o c main_arg12 (by decide)).trans <| (V18_of m o c main_arg12 (by decide)).trans <| (V17_of m o c main_arg12 (by decide)).trans <| (V16_of m o c main_arg12 (by decide)).trans <| (V15_of m o c main_arg12 (by decide)).trans <| (V14_of m o c main_arg12 (by decide)).trans <| (V13_of m o c main_arg12 (by decide)).trans <| (V12_of m o c main_arg12 (by decide)).trans <| (V11_of m o c main_arg12 (by decide)).trans <| (V10_of m o c main_arg12 (by decide)).trans <| (V9_of m o c main_arg12 (by decide)).trans <| (V8_of m o c main_arg12 (by decide)).trans <| (V7_of m o c main_arg12 (by decide)).trans <| (V6_of m o c main_arg12 (by decide)).trans <| (V5_of m o c main_arg12 (by decide)).trans <| (V4_of m o c main_arg12 (by decide)).trans <| (V3_of m o c main_arg12 (by decide)).trans <| (V2_of m o c main_arg12 (by decide)).trans <| (V1_of m c main_arg12 (by decide))).trans h12) (((V30_of m o c main_arg11 (by decide)).trans <| (V29_of m o c main_arg11 (by decide)).trans <| (V28_of m o c main_arg11 (by decide)).trans <| (V27_of m o c main_arg11 (by decide)).trans <| (V26_of m o c main_arg11 (by decide)).trans <| (V25_of m o c main_arg11 (by decide)).trans <| (V24_of m o c main_arg11 (by decide)).trans <| (V23_of m o c main_arg11 (by decide)).trans <| (V22_of m o c main_arg11 (by decide)).trans <| (V21_of m o c main_arg11 (by decide)).trans <| (V20_of m o c main_arg11 (by decide)).trans <| (V19_of m o c main_arg11 (by decide)).trans <| (V18_of m o c main_arg11 (by decide)).trans <| (V17_of m o c main_arg11 (by decide)).trans <| (V16_of m o c main_arg11 (by decide)).trans <| (V15_of m o c main_arg11 (by decide)).trans <| (V14_of m o c main_arg11 (by decide)).trans <| (V13_of m o c main_arg11 (by decide)).trans <| (V12_of m o c main_arg11 (by decide)).trans <| (V11_of m o c main_arg11 (by decide)).trans <| (V10_of m o c main_arg11 (by decide)).trans <| (V9_of m o c main_arg11 (by decide)).trans <| (V8_of m o c main_arg11 (by decide)).trans <| (V7_of m o c main_arg11 (by decide)).trans <| (V6_of m o c main_arg11 (by decide)).trans <| (V5_of m o c main_arg11 (by decide)).trans <| (V4_of m o c main_arg11 (by decide)).trans <| (V3_of m o c main_arg11 (by decide)).trans <| (V2_of m o c main_arg11 (by decide)).trans <| (V1_of m c main_arg11 (by decide))).trans h11) ho32)
    (siteD1 m o c Vr hh (((V30_of m o c main_arg12 (by decide)).trans <| (V29_of m o c main_arg12 (by decide)).trans <| (V28_of m o c main_arg12 (by decide)).trans <| (V27_of m o c main_arg12 (by decide)).trans <| (V26_of m o c main_arg12 (by decide)).trans <| (V25_of m o c main_arg12 (by decide)).trans <| (V24_of m o c main_arg12 (by decide)).trans <| (V23_of m o c main_arg12 (by decide)).trans <| (V22_of m o c main_arg12 (by decide)).trans <| (V21_of m o c main_arg12 (by decide)).trans <| (V20_of m o c main_arg12 (by decide)).trans <| (V19_of m o c main_arg12 (by decide)).trans <| (V18_of m o c main_arg12 (by decide)).trans <| (V17_of m o c main_arg12 (by decide)).trans <| (V16_of m o c main_arg12 (by decide)).trans <| (V15_of m o c main_arg12 (by decide)).trans <| (V14_of m o c main_arg12 (by decide)).trans <| (V13_of m o c main_arg12 (by decide)).trans <| (V12_of m o c main_arg12 (by decide)).trans <| (V11_of m o c main_arg12 (by decide)).trans <| (V10_of m o c main_arg12 (by decide)).trans <| (V9_of m o c main_arg12 (by decide)).trans <| (V8_of m o c main_arg12 (by decide)).trans <| (V7_of m o c main_arg12 (by decide)).trans <| (V6_of m o c main_arg12 (by decide)).trans <| (V5_of m o c main_arg12 (by decide)).trans <| (V4_of m o c main_arg12 (by decide)).trans <| (V3_of m o c main_arg12 (by decide)).trans <| (V2_of m o c main_arg12 (by decide)).trans <| (V1_of m c main_arg12 (by decide))).trans h12) (((V30_of m o c main_arg11 (by decide)).trans <| (V29_of m o c main_arg11 (by decide)).trans <| (V28_of m o c main_arg11 (by decide)).trans <| (V27_of m o c main_arg11 (by decide)).trans <| (V26_of m o c main_arg11 (by decide)).trans <| (V25_of m o c main_arg11 (by decide)).trans <| (V24_of m o c main_arg11 (by decide)).trans <| (V23_of m o c main_arg11 (by decide)).trans <| (V22_of m o c main_arg11 (by decide)).trans <| (V21_of m o c main_arg11 (by decide)).trans <| (V20_of m o c main_arg11 (by decide)).trans <| (V19_of m o c main_arg11 (by decide)).trans <| (V18_of m o c main_arg11 (by decide)).trans <| (V17_of m o c main_arg11 (by decide)).trans <| (V16_of m o c main_arg11 (by decide)).trans <| (V15_of m o c main_arg11 (by decide)).trans <| (V14_of m o c main_arg11 (by decide)).trans <| (V13_of m o c main_arg11 (by decide)).trans <| (V12_of m o c main_arg11 (by decide)).trans <| (V11_of m o c main_arg11 (by decide)).trans <| (V10_of m o c main_arg11 (by decide)).trans <| (V9_of m o c main_arg11 (by decide)).trans <| (V8_of m o c main_arg11 (by decide)).trans <| (V7_of m o c main_arg11 (by decide)).trans <| (V6_of m o c main_arg11 (by decide)).trans <| (V5_of m o c main_arg11 (by decide)).trans <| (V4_of m o c main_arg11 (by decide)).trans <| (V3_of m o c main_arg11 (by decide)).trans <| (V2_of m o c main_arg11 (by decide)).trans <| (V1_of m c main_arg11 (by decide))).trans h11) ho32)
    (siteD2 m o c Vr hh (((V30_of m o c main_arg12 (by decide)).trans <| (V29_of m o c main_arg12 (by decide)).trans <| (V28_of m o c main_arg12 (by decide)).trans <| (V27_of m o c main_arg12 (by decide)).trans <| (V26_of m o c main_arg12 (by decide)).trans <| (V25_of m o c main_arg12 (by decide)).trans <| (V24_of m o c main_arg12 (by decide)).trans <| (V23_of m o c main_arg12 (by decide)).trans <| (V22_of m o c main_arg12 (by decide)).trans <| (V21_of m o c main_arg12 (by decide)).trans <| (V20_of m o c main_arg12 (by decide)).trans <| (V19_of m o c main_arg12 (by decide)).trans <| (V18_of m o c main_arg12 (by decide)).trans <| (V17_of m o c main_arg12 (by decide)).trans <| (V16_of m o c main_arg12 (by decide)).trans <| (V15_of m o c main_arg12 (by decide)).trans <| (V14_of m o c main_arg12 (by decide)).trans <| (V13_of m o c main_arg12 (by decide)).trans <| (V12_of m o c main_arg12 (by decide)).trans <| (V11_of m o c main_arg12 (by decide)).trans <| (V10_of m o c main_arg12 (by decide)).trans <| (V9_of m o c main_arg12 (by decide)).trans <| (V8_of m o c main_arg12 (by decide)).trans <| (V7_of m o c main_arg12 (by decide)).trans <| (V6_of m o c main_arg12 (by decide)).trans <| (V5_of m o c main_arg12 (by decide)).trans <| (V4_of m o c main_arg12 (by decide)).trans <| (V3_of m o c main_arg12 (by decide)).trans <| (V2_of m o c main_arg12 (by decide)).trans <| (V1_of m c main_arg12 (by decide))).trans h12) (((V30_of m o c main_arg11 (by decide)).trans <| (V29_of m o c main_arg11 (by decide)).trans <| (V28_of m o c main_arg11 (by decide)).trans <| (V27_of m o c main_arg11 (by decide)).trans <| (V26_of m o c main_arg11 (by decide)).trans <| (V25_of m o c main_arg11 (by decide)).trans <| (V24_of m o c main_arg11 (by decide)).trans <| (V23_of m o c main_arg11 (by decide)).trans <| (V22_of m o c main_arg11 (by decide)).trans <| (V21_of m o c main_arg11 (by decide)).trans <| (V20_of m o c main_arg11 (by decide)).trans <| (V19_of m o c main_arg11 (by decide)).trans <| (V18_of m o c main_arg11 (by decide)).trans <| (V17_of m o c main_arg11 (by decide)).trans <| (V16_of m o c main_arg11 (by decide)).trans <| (V15_of m o c main_arg11 (by decide)).trans <| (V14_of m o c main_arg11 (by decide)).trans <| (V13_of m o c main_arg11 (by decide)).trans <| (V12_of m o c main_arg11 (by decide)).trans <| (V11_of m o c main_arg11 (by decide)).trans <| (V10_of m o c main_arg11 (by decide)).trans <| (V9_of m o c main_arg11 (by decide)).trans <| (V8_of m o c main_arg11 (by decide)).trans <| (V7_of m o c main_arg11 (by decide)).trans <| (V6_of m o c main_arg11 (by decide)).trans <| (V5_of m o c main_arg11 (by decide)).trans <| (V4_of m o c main_arg11 (by decide)).trans <| (V3_of m o c main_arg11 (by decide)).trans <| (V2_of m o c main_arg11 (by decide)).trans <| (V1_of m c main_arg11 (by decide))).trans h11) ho32)

/-! ## The two results -/

/-- The reference's whole operation list, run from any contents, is its four stages run one after the other. -/
theorem ops_after (V : RV) : StableHlo.after (Cert.ReferenceIdeal.RefRun.ops (F := Ideal)) V
    = StableHlo.after refD (StableHlo.after refC (StableHlo.after refB (StableHlo.after refA V))) := by
  rw [ops_split]
  exact (after_append refA _ V).trans ((after_append refB _ _).trans (after_append refC refD _))

set_option maxHeartbeats 4000000 in
/-- The first result array is written in the second stage of the reference and not written again. -/
theorem keepCD_first (V : RV) : StableHlo.after refD (StableHlo.after refC V) (rr Cert.ReferenceIdeal.main_v183) = V (rr Cert.ReferenceIdeal.main_v183) := by
  simp only [refC, refD, after_append]
  simp (disch := decide) only [Cert.ReferenceIdeal.RefRun.ops3, Cert.ReferenceIdeal.RefRun.ops4, Cert.ReferenceIdeal.RefRun.ops5, Cert.ReferenceIdeal.RefRun.ops6, Cert.ReferenceIdeal.RefRun.ops7, List.take_succ_cons, List.take_zero, List.drop_succ_cons, List.drop_zero,
    Matrix.cons_val_zero, Matrix.cons_val_one, Matrix.head_cons, Matrix.cons_val_two, Matrix.tail_cons,
    StableHlo.after_cons, StableHlo.after_nil, StableHlo.nullary_result', StableHlo.unary_result', StableHlo.binary_result', StableHlo.ternary_result', StableHlo.quaternary_result', StableHlo.reshape_result', StableHlo.nary4_result', StableHlo.nary_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne']

/-- THE FIRST RESULT. From launch contents that agree on the arguments, the kernel program's first result array after its
    run is the reference's after the reference's whole operation list. -/
theorem resultT (Vr : RV)
    (h0 : (V0 m c (kr main_arg0) : (⟨S20000x768, .f32⟩ : BufTy).Contents (Elt Ideal)) = Vr (rr Cert.ReferenceIdeal.main_arg0))
    (h2 : (V0 m c (kr main_arg2) : (⟨S2x768x256, .f32⟩ : BufTy).Contents (Elt Ideal)) = Vr (rr Cert.ReferenceIdeal.main_arg2))
    (h3 : (V0 m c (kr main_arg3) : (⟨S768x256, .f32⟩ : BufTy).Contents (Elt Ideal)) = Vr (rr Cert.ReferenceIdeal.main_arg3))
    (h4 : (V0 m c (kr main_arg4) : (⟨S256, .f32⟩ : BufTy).Contents (Elt Ideal)) = Vr (rr Cert.ReferenceIdeal.main_arg4))
    (h5 : (V0 m c (kr main_arg5) : (⟨S2x256x128, .f32⟩ : BufTy).Contents (Elt Ideal)) = Vr (rr Cert.ReferenceIdeal.main_arg5))
    (h6 : (V0 m c (kr main_arg6) : (⟨S256x128, .f32⟩ : BufTy).Contents (Elt Ideal)) = Vr (rr Cert.ReferenceIdeal.main_arg6))
    (h7 : (V0 m c (kr main_arg7) : (⟨S128, .f32⟩ : BufTy).Contents (Elt Ideal)) = Vr (rr Cert.ReferenceIdeal.main_arg7))
    (h14 : (V0 m c (kr main_arg14) : (⟨S256, .f32⟩ : BufTy).Contents (Elt Ideal)) = Vr (rr Cert.ReferenceIdeal.main_arg14))
    (h15 : (V0 m c (kr main_arg15) : (⟨S256, .f32⟩ : BufTy).Contents (Elt Ideal)) = Vr (rr Cert.ReferenceIdeal.main_arg15))
    (h16 : (V0 m c (kr main_arg16) : (⟨S128, .f32⟩ : BufTy).Contents (Elt Ideal)) = Vr (rr Cert.ReferenceIdeal.main_arg16))
    (h17 : (V0 m c (kr main_arg17) : (⟨S128, .f32⟩ : BufTy).Contents (Elt Ideal)) = Vr (rr Cert.ReferenceIdeal.main_arg17))
    (h22 : (V0 m c (kr main_arg22) : (⟨S2x320000, .i32⟩ : BufTy).Contents (Elt Ideal)) = Vr (rr Cert.ReferenceIdeal.main_arg22))
    (h23 : (V0 m c (kr main_arg23) : (⟨S320000, .i32⟩ : BufTy).Contents (Elt Ideal)) = Vr (rr Cert.ReferenceIdeal.main_arg23))
    (h24 : (V0 m c (kr main_arg24) : (⟨S20000, .i32⟩ : BufTy).Contents (Elt Ideal)) = Vr (rr Cert.ReferenceIdeal.main_arg24))
    (ho2 : o 2 main_v7 c = (dat0 (F := Ideal) (fun c b => V1 m c b) c).arrAt 2 cfg0.N)
    (ho12 : o 12 main_v97 c = (dat1 (F := Ideal) (fun c b => V11 m o c b) c).arrAt 2 cfg1.N) :
    (V41 m o c (kr main_v191) : (⟨S64x128, .f32⟩ : BufTy).Contents (Elt Ideal)) = StableHlo.after (Cert.ReferenceIdeal.RefRun.ops (F := Ideal)) Vr (rr Cert.ReferenceIdeal.main_v183) := by
  rw [ops_after, keepCD_first]
  have hA := layerA m o c Vr h0 h2 h3 h4 h14 h15 h22 h23 ho2
  refine ((V41_of m o c main_v191 (by decide)).trans <| (V40_of m o c main_v191 (by decide)).trans <| (V39_of m o c main_v191 (by decide)).trans <| (V38_of m o c main_v191 (by decide)).trans <| (V37_of m o c main_v191 (by decide)).trans <| (V36_of m o c main_v191 (by decide)).trans <| (V35_of m o c main_v191 (by decide)).trans <| (V34_of m o c main_v191 (by decide)).trans <| (V33_of m o c main_v191 (by decide)).trans <| (V32_of m o c main_v191 (by decide)).trans <| (V31_of m o c main_v191 (by decide)).trans <| (V30_of m o c main_v191 (by decide)).trans <| (V29_of m o c main_v191 (by decide)).trans <| (V28_of m o c main_v191 (by decide)).trans <| (V27_of m o c main_v191 (by decide)).trans <| (V26_of m o c main_v191 (by decide)).trans <| (V25_of m o c main_v191 (by decide)).trans <| (V24_of m o c main_v191 (by decide)).trans <| (V23_of m o c main_v191 (by decide)).trans <| (V22_of m o c main_v191 (by decide))).trans ?_
  exact layerB m o c (StableHlo.after refA Vr) hA
    (h5.trans (keepA Vr (by decide)).symm) (h6.trans (keepA Vr (by decide)).symm) (h7.trans (keepA Vr (by decide)).symm) (h16.trans (keepA Vr (by decide)).symm) (h17.trans (keepA Vr (by decide)).symm) (h22.trans (keepA Vr (by decide)).symm) (h23.trans (keepA Vr (by decide)).symm) (h24.trans (keepA Vr (by decide)).symm) ho12

/-- THE SECOND RESULT, likewise, through the third and fourth stages. -/
theorem resultP (Vr : RV)
    (h1 : (V0 m c (kr main_arg1) : (⟨S20000x128, .f32⟩ : BufTy).Contents (Elt Ideal)) = Vr (rr Cert.ReferenceIdeal.main_arg1))
    (h8 : (V0 m c (kr main_arg8) : (⟨S2x128x256, .f32⟩ : BufTy).Contents (Elt Ideal)) = Vr (rr Cert.ReferenceIdeal.main_arg8))
    (h9 : (V0 m c (kr main_arg9) : (⟨S128x256, .f32⟩ : BufTy).Contents (Elt Ideal)) = Vr (rr Cert.ReferenceIdeal.main_arg9))
    (h10 : (V0 m c (kr main_arg10) : (⟨S256, .f32⟩ : BufTy).Contents (Elt Ideal)) = Vr (rr Cert.ReferenceIdeal.main_arg10))
    (h11 : (V0 m c (kr main_arg11) : (⟨S2x256x128, .f32⟩ : BufTy).Contents (Elt Ideal)) = Vr (rr Cert.ReferenceIdeal.main_arg11))
    (h12 : (V0 m c (kr main_arg12) : (⟨S256x128, .f32⟩ : BufTy).Contents (Elt Ideal)) = Vr (rr Cert.ReferenceIdeal.main_arg12))
    (h13 : (V0 m c (kr main_arg13) : (⟨S128, .f32⟩ : BufTy).Contents (Elt Ideal)) = Vr (rr Cert.ReferenceIdeal.main_arg13))
    (h18 : (V0 m c (kr main_arg18) : (⟨S256, .f32⟩ : BufTy).Contents (Elt Ideal)) = Vr (rr Cert.ReferenceIdeal.main_arg18))
    (h19 : (V0 m c (kr main_arg19) : (⟨S256, .f32⟩ : BufTy).Contents (Elt Ideal)) = Vr (rr Cert.ReferenceIdeal.main_arg19))
    (h20 : (V0 m c (kr main_arg20) : (⟨S128, .f32⟩ : BufTy).Contents (Elt Ideal)) = Vr (rr Cert.ReferenceIdeal.main_arg20))
    (h21 : (V0 m c (kr main_arg21) : (⟨S128, .f32⟩ : BufTy).Contents (Elt Ideal)) = Vr (rr Cert.ReferenceIdeal.main_arg21))
    (h25 : (V0 m c (kr main_arg25) : (⟨S2x320000, .i32⟩ : BufTy).Contents (Elt Ideal)) = Vr (rr Cert.ReferenceIdeal.main_arg25))
    (h26 : (V0 m c (kr main_arg26) : (⟨S320000, .i32⟩ : BufTy).Contents (Elt Ideal)) = Vr (rr Cert.ReferenceIdeal.main_arg26))
    (h27 : (V0 m c (kr main_arg27) : (⟨S20000, .i32⟩ : BufTy).Contents (Elt Ideal)) = Vr (rr Cert.ReferenceIdeal.main_arg27))
    (ho22 : o 22 main_v199 c = (dat2 (F := Ideal) (fun c b => V21 m o c b) c).arrAt 2 cfg2.N)
    (ho32 : o 32 main_v289 c = (dat3 (F := Ideal) (fun c b => V31 m o c b) c).arrAt 2 cfg3.N) :
    (V41 m o c (kr main_v383) : (⟨S64x128, .f32⟩ : BufTy).Contents (Elt Ideal)) = StableHlo.after (Cert.ReferenceIdeal.RefRun.ops (F := Ideal)) Vr (rr Cert.ReferenceIdeal.main_v367) := by
  rw [ops_after]
  have keepAB : ∀ {r : Ref Cert.ReferenceIdeal.sig .tc} (hr : r.idx.val < 28), StableHlo.after refB (StableHlo.after refA Vr) (rr r) = Vr (rr r) :=
    fun hr => (keepB _ hr).trans (keepA _ hr)
  have hC := layerC m o c (StableHlo.after refB (StableHlo.after refA Vr))
    (h1.trans (keepAB (by decide)).symm) (h8.trans (keepAB (by decide)).symm) (h9.trans (keepAB (by decide)).symm) (h10.trans (keepAB (by decide)).symm) (h18.trans (keepAB (by decide)).symm) (h19.trans (keepAB (by decide)).symm) (h25.trans (keepAB (by decide)).symm) (h26.trans (keepAB (by decide)).symm) ho22
  exact layerD m o c (StableHlo.after refC (StableHlo.after refB (StableHlo.after refA Vr))) hC
    (h11.trans ((keepC _ (by decide)).trans (keepAB (by decide))).symm) (h12.trans ((keepC _ (by decide)).trans (keepAB (by decide))).symm) (h13.trans ((keepC _ (by decide)).trans (keepAB (by decide))).symm) (h20.trans ((keepC _ (by decide)).trans (keepAB (by decide))).symm) (h21.trans ((keepC _ (by decide)).trans (keepAB (by decide))).symm) (h25.trans ((keepC _ (by decide)).trans (keepAB (by decide))).symm) (h26.trans ((keepC _ (by decide)).trans (keepAB (by decide))).symm) (h27.trans ((keepC _ (by decide)).trans (keepAB (by decide))).symm) ho32

end Cert.Bridge

end
-- ==== Proof.lean ====
/-
  The certificate's five claims. Both programs compute two graph-convolution branches: in each layer a node's new features are
  its own features times a root weight array plus a bias plus, for each of two relations, the mean over the node's incoming
  edges of that relation of the source nodes' features times the relation's weight array; then a normalisation over the nodes,
  a leaky rectifier, and after the second layer the mean over each graph's nodes. The reference forms each layer's three
  matrix products separately. The kernel program puts the three weight arrays side by side, rounds both operands to a narrow
  float format, forms ONE product by blocks of 2000 rows on the matrix unit, and takes the three column blocks of the result.
  At the ideal instance, where a float is an extended real, every operation is exact and a change of format is the
  identity, a column block of the product with the three arrays side by side IS the product with that block's array — the
  same sum over the inner index, term by term — so from arguments that agree the two programs end with equal results. No
  finiteness of the inputs is needed for that: no term is moved across a sum.
  The frames: every run of each program ends, nothing faults, and the argument arrays end as they began — for the two kernel
  programs from the four regions' runs (each body loads its two input blocks and stores their product) chained with the host
  operations between them; for the reference from its operations' run. Nothing was rewritten between the kernel and its
  idealization, so that claim is trivial.
-/
import proofs.«177757_j84482006712681_1_alg».proof.Defs
import proofs.«177757_j84482006712681_1_alg».proof.Proof.Gen.Kernel
import proofs.«177757_j84482006712681_1_alg».proof.Proof.Gen.KernelIdeal
import proofs.«177757_j84482006712681_1_alg».proof.Proof.Gen.ReferenceIdeal
import proofs.«177757_j84482006712681_1_alg».proof.Proof.Gen.Pre_finite_inputs
import proofs.«177757_j84482006712681_1_alg».proof.Proof.FrameKernel
import proofs.«177757_j84482006712681_1_alg».proof.Proof.FrameKernelIdeal
import proofs.«177757_j84482006712681_1_alg».proof.Proof.RefRun
import proofs.«177757_j84482006712681_1_alg».proof.Proof.BridgeRun
import Idealize.ShloMosaic.Adequacy
import Idealize.ShloMosaic.Init

noncomputable section

namespace Cert.Proof

open Idealize.ShloMosaic Idealize.SL.Sem

/-- The word-level kernel program runs to the end, faults nowhere and leaves its arguments as they were. -/
theorem frame_kernel : Cert.frame_Kernel := fun m ρ _ => Cert.Kernel.Hand.frame m ρ

/-- So does the idealized kernel program. -/
theorem frame_kernelIdeal : Cert.frame_KernelIdeal := fun m ρ _ => Cert.KernelIdeal.Hand.frame m ρ

/-- So does the idealized reference: its run, with the results dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- From memories that agree on the arguments both idealized programs run, and end with equal results: the kernel program's
    two result arrays after its run are the reference's after the reference's operations (`Cert.Bridge.resultT`, `resultP`). -/
theorem algebraic : Cert.algebraic_KernelIdeal_ReferenceIdeal := by
  intro m ρ m' ρ' _ hag
  refine ⟨fun c => Cert.KernelIdeal.GenP.V41 m (Cert.KernelIdeal.Hand.outs m) c (Proc.devRef .tc Cert.KernelIdeal.main_v191),
    fun c => Cert.KernelIdeal.GenP.V41 m (Cert.KernelIdeal.Hand.outs m) c (Proc.devRef .tc Cert.KernelIdeal.main_v383), ?_, ?_⟩
  · exact (θ_run Cert.KernelIdeal.defs _ _).mono (fun _ h c => ⟨(h c).1.1, (h c).1.2, (h c).2⟩)
      (Cert.KernelIdeal.Hand.run (F := Ideal) m ρ)
  · refine (θ_run Cert.ReferenceIdeal.defs _ _).mono (fun _ h c => ?_) (Cert.ReferenceIdeal.RefRun.run (F := Ideal) m' ρ')
    obtain ⟨a0, a1, a2, a3, a4, a5, a6, a7, a8, a9, a10, a11, a12, a13, a14, a15, a16, a17, a18, a19, a20, a21, a22, a23, a24, a25, a26, a27⟩ := hag c
    refine ⟨(h c).1.1.trans ?_, (h c).1.2.trans ?_, (h c).2⟩
    · exact (Cert.Bridge.resultT m (Cert.KernelIdeal.Hand.outs m) c (fun b => m' (c, b))
        a0.symm a2.symm a3.symm a4.symm a5.symm a6.symm a7.symm a14.symm a15.symm a16.symm a17.symm a22.symm a23.symm a24.symm
        (Cert.KernelIdeal.Hand.outs_2 m c) (Cert.KernelIdeal.Hand.outs_12 m c)).symm
    · exact (Cert.Bridge.resultP m (Cert.KernelIdeal.Hand.outs m) c (fun b => m' (c, b))
        a1.symm a8.symm a9.symm a10.symm a11.symm a12.symm a13.symm a18.symm a19.symm a20.symm a21.symm a25.symm a26.symm a27.symm
        (Cert.KernelIdeal.Hand.outs_22 m c) (Cert.KernelIdeal.Hand.outs_32 m c)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
